-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S30000x1x80 : Shape := ⟨3, ![30000, 1, 80]⟩
abbrev S30000x3x80 : Shape := ⟨3, ![30000, 3, 80]⟩
abbrev S30000x5x80 : Shape := ⟨3, ![30000, 5, 80]⟩
abbrev S30000x7x80 : Shape := ⟨3, ![30000, 7, 80]⟩
abbrev S30000x9x80 : Shape := ⟨3, ![30000, 9, 80]⟩
abbrev S30000x11x80 : Shape := ⟨3, ![30000, 11, 80]⟩
abbrev S8000x3x1x80 : Shape := ⟨4, ![8000, 3, 1, 80]⟩
abbrev S8000x3x3x80 : Shape := ⟨4, ![8000, 3, 3, 80]⟩
abbrev S8000x3x5x80 : Shape := ⟨4, ![8000, 3, 5, 80]⟩
abbrev S8000x3x7x80 : Shape := ⟨4, ![8000, 3, 7, 80]⟩
abbrev S8000x3x9x80 : Shape := ⟨4, ![8000, 3, 9, 80]⟩
abbrev S8000x3x11x80 : Shape := ⟨4, ![8000, 3, 11, 80]⟩
abbrev S80x64 : Shape := ⟨2, ![80, 64]⟩
abbrev S_ : Shape := ⟨0, ![]⟩

class Facts : Prop where
  bcast_S_S30000x1x80 : S_.BroadcastsInDim S30000x1x80 (![] : Fin 0 → Fin S30000x1x80.rank)
  reducesTo_S30000x1x80_S_d0_1_2 : S30000x1x80.ReducesTo [0, 1, 2] S_
  h_S_ : 0 < S_.numel
  bcast_S_S30000x3x80 : S_.BroadcastsInDim S30000x3x80 (![] : Fin 0 → Fin S30000x3x80.rank)
  reducesTo_S30000x3x80_S_d0_1_2 : S30000x3x80.ReducesTo [0, 1, 2] S_
  bcast_S_S30000x5x80 : S_.BroadcastsInDim S30000x5x80 (![] : Fin 0 → Fin S30000x5x80.rank)
  reducesTo_S30000x5x80_S_d0_1_2 : S30000x5x80.ReducesTo [0, 1, 2] S_
  bcast_S_S30000x7x80 : S_.BroadcastsInDim S30000x7x80 (![] : Fin 0 → Fin S30000x7x80.rank)
  reducesTo_S30000x7x80_S_d0_1_2 : S30000x7x80.ReducesTo [0, 1, 2] S_
  bcast_S_S30000x9x80 : S_.BroadcastsInDim S30000x9x80 (![] : Fin 0 → Fin S30000x9x80.rank)
  reducesTo_S30000x9x80_S_d0_1_2 : S30000x9x80.ReducesTo [0, 1, 2] S_
  bcast_S_S30000x11x80 : S_.BroadcastsInDim S30000x11x80 (![] : Fin 0 → Fin S30000x11x80.rank)
  reducesTo_S30000x11x80_S_d0_1_2 : S30000x11x80.ReducesTo [0, 1, 2] S_
  bcast_S_S8000x3x1x80 : S_.BroadcastsInDim S8000x3x1x80 (![] : Fin 0 → Fin S8000x3x1x80.rank)
  reducesTo_S8000x3x1x80_S_d0_1_2_3 : S8000x3x1x80.ReducesTo [0, 1, 2, 3] S_
  bcast_S_S8000x3x3x80 : S_.BroadcastsInDim S8000x3x3x80 (![] : Fin 0 → Fin S8000x3x3x80.rank)
  reducesTo_S8000x3x3x80_S_d0_1_2_3 : S8000x3x3x80.ReducesTo [0, 1, 2, 3] S_
  bcast_S_S8000x3x5x80 : S_.BroadcastsInDim S8000x3x5x80 (![] : Fin 0 → Fin S8000x3x5x80.rank)
  reducesTo_S8000x3x5x80_S_d0_1_2_3 : S8000x3x5x80.ReducesTo [0, 1, 2, 3] S_
  bcast_S_S8000x3x7x80 : S_.BroadcastsInDim S8000x3x7x80 (![] : Fin 0 → Fin S8000x3x7x80.rank)
  reducesTo_S8000x3x7x80_S_d0_1_2_3 : S8000x3x7x80.ReducesTo [0, 1, 2, 3] S_
  bcast_S_S8000x3x9x80 : S_.BroadcastsInDim S8000x3x9x80 (![] : Fin 0 → Fin S8000x3x9x80.rank)
  reducesTo_S8000x3x9x80_S_d0_1_2_3 : S8000x3x9x80.ReducesTo [0, 1, 2, 3] S_
  bcast_S_S8000x3x11x80 : S_.BroadcastsInDim S8000x3x11x80 (![] : Fin 0 → Fin S8000x3x11x80.rank)
  reducesTo_S8000x3x11x80_S_d0_1_2_3 : S8000x3x11x80.ReducesTo [0, 1, 2, 3] S_
  bcast_S_S80x64 : S_.BroadcastsInDim S80x64 (![] : Fin 0 → Fin S80x64.rank)
  reducesTo_S80x64_S_d0_1 : S80x64.ReducesTo [0, 1] S_

variable [Facts]

def fn_part5 {F : FTy → Type} [FloatOps F] (main_v83 : IVec S_ 1) (main_v84 : FVec F S80x64 .f32) (main_cst_32 : FVec F S_ .f32) : IVec S_ 1 :=
  let main_v85 : FVec F S80x64 .f32 := broadcastInDim S80x64 ![] bcast_S_S80x64 main_cst_32
  let main_v86 : IVec S80x64 1 := cmpf .olt main_v84 main_v85
  let main_c_33 : IVec S_ 1 := constantI S_ 1 1#1
  let main_v87 : IVec S_ 1 := (fun x v => Host.reduce IntOp.andi x v reducesTo_S80x64_S_d0_1 h_S_) main_v86 main_c_33
  let main_v88 : IVec S_ 1 := andi main_v83 main_v87
  main_v88

def fn_part4 {F : FTy → Type} [FloatOps F] (main_arg14 : FVec F S80x64 .f32) (main_arg15 : FVec F S80x64 .f32) (main_arg16 : FVec F S80x64 .f32) (main_arg17 : FVec F S80x64 .f32) (main_v63 : IVec S_ 1) (main_v67 : IVec S_ 1) : IVec S_ 1 :=
  let main_v68 : IVec S_ 1 := andi main_v63 main_v67
  let main_v69 : FVec F S80x64 .f32 := Host.absf main_arg14
  let main_cst_26 : FVec F S_ .f32 := constant S_ .f32 0x7F800000#32
  let main_v70 : FVec F S80x64 .f32 := broadcastInDim S80x64 ![] bcast_S_S80x64 main_cst_26
  let main_v71 : IVec S80x64 1 := cmpf .olt main_v69 main_v70
  let main_c_27 : IVec S_ 1 := constantI S_ 1 1#1
  let main_v72 : IVec S_ 1 := (fun x v => Host.reduce IntOp.andi x v reducesTo_S80x64_S_d0_1 h_S_) main_v71 main_c_27
  let main_v73 : IVec S_ 1 := andi main_v68 main_v72
  let main_v74 : FVec F S80x64 .f32 := Host.absf main_arg15
  let main_cst_28 : FVec F S_ .f32 := constant S_ .f32 0x7F800000#32
  let main_v75 : FVec F S80x64 .f32 := broadcastInDim S80x64 ![] bcast_S_S80x64 main_cst_28
  let main_v76 : IVec S80x64 1 := cmpf .olt main_v74 main_v75
  let main_c_29 : IVec S_ 1 := constantI S_ 1 1#1
  let main_v77 : IVec S_ 1 := (fun x v => Host.reduce IntOp.andi x v reducesTo_S80x64_S_d0_1 h_S_) main_v76 main_c_29
  let main_v78 : IVec S_ 1 := andi main_v73 main_v77
  let main_v79 : FVec F S80x64 .f32 := Host.absf main_arg16
  let main_cst_30 : FVec F S_ .f32 := constant S_ .f32 0x7F800000#32
  let main_v80 : FVec F S80x64 .f32 := broadcastInDim S80x64 ![] bcast_S_S80x64 main_cst_30
  let main_v81 : IVec S80x64 1 := cmpf .olt main_v79 main_v80
  let main_c_31 : IVec S_ 1 := constantI S_ 1 1#1
  let main_v82 : IVec S_ 1 := (fun x v => Host.reduce IntOp.andi x v reducesTo_S80x64_S_d0_1 h_S_) main_v81 main_c_31
  let main_v83 : IVec S_ 1 := andi main_v78 main_v82
  let main_v84 : FVec F S80x64 .f32 := Host.absf main_arg17
  let main_cst_32 : FVec F S_ .f32 := constant S_ .f32 0x7F800000#32
  fn_part5 (F := F) main_v83 main_v84 main_cst_32

def fn_part3 {F : FTy → Type} [FloatOps F] (main_arg11 : FVec F S8000x3x11x80 .f32) (main_arg12 : FVec F S80x64 .f32) (main_arg13 : FVec F S80x64 .f32) (main_arg14 : FVec F S80x64 .f32) (main_arg15 : FVec F S80x64 .f32) (main_arg16 : FVec F S80x64 .f32) (main_arg17 : FVec F S80x64 .f32) (main_v48 : IVec S_ 1) (main_v49 : FVec F S8000x3x9x80 .f32) (main_v50 : FVec F S8000x3x9x80 .f32) : IVec S_ 1 :=
  let main_v51 : IVec S8000x3x9x80 1 := cmpf .olt main_v49 main_v50
  let main_c_19 : IVec S_ 1 := constantI S_ 1 1#1
  let main_v52 : IVec S_ 1 := (fun x v => Host.reduce IntOp.andi x v reducesTo_S8000x3x9x80_S_d0_1_2_3 h_S_) main_v51 main_c_19
  let main_v53 : IVec S_ 1 := andi main_v48 main_v52
  let main_v54 : FVec F S8000x3x11x80 .f32 := Host.absf main_arg11
  let main_cst_20 : FVec F S_ .f32 := constant S_ .f32 0x7F800000#32
  let main_v55 : FVec F S8000x3x11x80 .f32 := broadcastInDim S8000x3x11x80 ![] bcast_S_S8000x3x11x80 main_cst_20
  let main_v56 : IVec S8000x3x11x80 1 := cmpf .olt main_v54 main_v55
  let main_c_21 : IVec S_ 1 := constantI S_ 1 1#1
  let main_v57 : IVec S_ 1 := (fun x v => Host.reduce IntOp.andi x v reducesTo_S8000x3x11x80_S_d0_1_2_3 h_S_) main_v56 main_c_21
  let main_v58 : IVec S_ 1 := andi main_v53 main_v57
  let main_v59 : FVec F S80x64 .f32 := Host.absf main_arg12
  let main_cst_22 : FVec F S_ .f32 := constant S_ .f32 0x7F800000#32
  let main_v60 : FVec F S80x64 .f32 := broadcastInDim S80x64 ![] bcast_S_S80x64 main_cst_22
  let main_v61 : IVec S80x64 1 := cmpf .olt main_v59 main_v60
  let main_c_23 : IVec S_ 1 := constantI S_ 1 1#1
  let main_v62 : IVec S_ 1 := (fun x v => Host.reduce IntOp.andi x v reducesTo_S80x64_S_d0_1 h_S_) main_v61 main_c_23
  let main_v63 : IVec S_ 1 := andi main_v58 main_v62
  let main_v64 : FVec F S80x64 .f32 := Host.absf main_arg13
  let main_cst_24 : FVec F S_ .f32 := constant S_ .f32 0x7F800000#32
  let main_v65 : FVec F S80x64 .f32 := broadcastInDim S80x64 ![] bcast_S_S80x64 main_cst_24
  let main_v66 : IVec S80x64 1 := cmpf .olt main_v64 main_v65
  let main_c_25 : IVec S_ 1 := constantI S_ 1 1#1
  let main_v67 : IVec S_ 1 := (fun x v => Host.reduce IntOp.andi x v reducesTo_S80x64_S_d0_1 h_S_) main_v66 main_c_25
  fn_part4 (F := F) main_arg14 main_arg15 main_arg16 main_arg17 main_v63 main_v67

def fn_part2 {F : FTy → Type} [FloatOps F] (main_arg7 : FVec F S8000x3x3x80 .f32) (main_arg8 : FVec F S8000x3x5x80 .f32) (main_arg9 : FVec F S8000x3x7x80 .f32) (main_arg10 : FVec F S8000x3x9x80 .f32) (main_arg11 : FVec F S8000x3x11x80 .f32) (main_arg12 : FVec F S80x64 .f32) (main_arg13 : FVec F S80x64 .f32) (main_arg14 : FVec F S80x64 .f32) (main_arg15 : FVec F S80x64 .f32) (main_arg16 : FVec F S80x64 .f32) (main_arg17 : FVec F S80x64 .f32) (main_v33 : IVec S_ 1) : IVec S_ 1 :=
  let main_v34 : FVec F S8000x3x3x80 .f32 := Host.absf main_arg7
  let main_cst_12 : FVec F S_ .f32 := constant S_ .f32 0x7F800000#32
  let main_v35 : FVec F S8000x3x3x80 .f32 := broadcastInDim S8000x3x3x80 ![] bcast_S_S8000x3x3x80 main_cst_12
  let main_v36 : IVec S8000x3x3x80 1 := cmpf .olt main_v34 main_v35
  let main_c_13 : IVec S_ 1 := constantI S_ 1 1#1
  let main_v37 : IVec S_ 1 := (fun x v => Host.reduce IntOp.andi x v reducesTo_S8000x3x3x80_S_d0_1_2_3 h_S_) main_v36 main_c_13
  let main_v38 : IVec S_ 1 := andi main_v33 main_v37
  let main_v39 : FVec F S8000x3x5x80 .f32 := Host.absf main_arg8
  let main_cst_14 : FVec F S_ .f32 := constant S_ .f32 0x7F800000#32
  let main_v40 : FVec F S8000x3x5x80 .f32 := broadcastInDim S8000x3x5x80 ![] bcast_S_S8000x3x5x80 main_cst_14
  let main_v41 : IVec S8000x3x5x80 1 := cmpf .olt main_v39 main_v40
  let main_c_15 : IVec S_ 1 := constantI S_ 1 1#1
  let main_v42 : IVec S_ 1 := (fun x v => Host.reduce IntOp.andi x v reducesTo_S8000x3x5x80_S_d0_1_2_3 h_S_) main_v41 main_c_15
  let main_v43 : IVec S_ 1 := andi main_v38 main_v42
  let main_v44 : FVec F S8000x3x7x80 .f32 := Host.absf main_arg9
  let main_cst_16 : FVec F S_ .f32 := constant S_ .f32 0x7F800000#32
  let main_v45 : FVec F S8000x3x7x80 .f32 := broadcastInDim S8000x3x7x80 ![] bcast_S_S8000x3x7x80 main_cst_16
  let main_v46 : IVec S8000x3x7x80 1 := cmpf .olt main_v44 main_v45
  let main_c_17 : IVec S_ 1 := constantI S_ 1 1#1
  let main_v47 : IVec S_ 1 := (fun x v => Host.reduce IntOp.andi x v reducesTo_S8000x3x7x80_S_d0_1_2_3 h_S_) main_v46 main_c_17
  let main_v48 : IVec S_ 1 := andi main_v43 main_v47
  let main_v49 : FVec F S8000x3x9x80 .f32 := Host.absf main_arg10
  let main_cst_18 : FVec F S_ .f32 := constant S_ .f32 0x7F800000#32
  let main_v50 : FVec F S8000x3x9x80 .f32 := broadcastInDim S8000x3x9x80 ![] bcast_S_S8000x3x9x80 main_cst_18
  fn_part3 (F := F) main_arg11 main_arg12 main_arg13 main_arg14 main_arg15 main_arg16 main_arg17 main_v48 main_v49 main_v50

def fn_part1 {F : FTy → Type} [FloatOps F] (main_arg4 : FVec F S30000x9x80 .f32) (main_arg5 : FVec F S30000x11x80 .f32) (main_arg6 : FVec F S8000x3x1x80 .f32) (main_arg7 : FVec F S8000x3x3x80 .f32) (main_arg8 : FVec F S8000x3x5x80 .f32) (main_arg9 : FVec F S8000x3x7x80 .f32) (main_arg10 : FVec F S8000x3x9x80 .f32) (main_arg11 : FVec F S8000x3x11x80 .f32) (main_arg12 : FVec F S80x64 .f32) (main_arg13 : FVec F S80x64 .f32) (main_arg14 : FVec F S80x64 .f32) (main_arg15 : FVec F S80x64 .f32) (main_arg16 : FVec F S80x64 .f32) (main_arg17 : FVec F S80x64 .f32) (main_v13 : IVec S_ 1) (main_v16 : IVec S30000x7x80 1) : IVec S_ 1 :=
  let main_c_5 : IVec S_ 1 := constantI S_ 1 1#1
  let main_v17 : IVec S_ 1 := (fun x v => Host.reduce IntOp.andi x v reducesTo_S30000x7x80_S_d0_1_2 h_S_) main_v16 main_c_5
  let main_v18 : IVec S_ 1 := andi main_v13 main_v17
  let main_v19 : FVec F S30000x9x80 .f32 := Host.absf main_arg4
  let main_cst_6 : FVec F S_ .f32 := constant S_ .f32 0x7F800000#32
  let main_v20 : FVec F S30000x9x80 .f32 := broadcastInDim S30000x9x80 ![] bcast_S_S30000x9x80 main_cst_6
  let main_v21 : IVec S30000x9x80 1 := cmpf .olt main_v19 main_v20
  let main_c_7 : IVec S_ 1 := constantI S_ 1 1#1
  let main_v22 : IVec S_ 1 := (fun x v => Host.reduce IntOp.andi x v reducesTo_S30000x9x80_S_d0_1_2 h_S_) main_v21 main_c_7
  let main_v23 : IVec S_ 1 := andi main_v18 main_v22
  let main_v24 : FVec F S30000x11x80 .f32 := Host.absf main_arg5
  let main_cst_8 : FVec F S_ .f32 := constant S_ .f32 0x7F800000#32
  let main_v25 : FVec F S30000x11x80 .f32 := broadcastInDim S30000x11x80 ![] bcast_S_S30000x11x80 main_cst_8
  let main_v26 : IVec S30000x11x80 1 := cmpf .olt main_v24 main_v25
  let main_c_9 : IVec S_ 1 := constantI S_ 1 1#1
  let main_v27 : IVec S_ 1 := (fun x v => Host.reduce IntOp.andi x v reducesTo_S30000x11x80_S_d0_1_2 h_S_) main_v26 main_c_9
  let main_v28 : IVec S_ 1 := andi main_v23 main_v27
  let main_v29 : FVec F S8000x3x1x80 .f32 := Host.absf main_arg6
  let main_cst_10 : FVec F S_ .f32 := constant S_ .f32 0x7F800000#32
  let main_v30 : FVec F S8000x3x1x80 .f32 := broadcastInDim S8000x3x1x80 ![] bcast_S_S8000x3x1x80 main_cst_10
  let main_v31 : IVec S8000x3x1x80 1 := cmpf .olt main_v29 main_v30
  let main_c_11 : IVec S_ 1 := constantI S_ 1 1#1
  let main_v32 : IVec S_ 1 := (fun x v => Host.reduce IntOp.andi x v reducesTo_S8000x3x1x80_S_d0_1_2_3 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_v33

def fn {F : FTy → Type} [FloatOps F] (main_arg0 : FVec F S30000x1x80 .f32) (main_arg1 : FVec F S30000x3x80 .f32) (main_arg2 : FVec F S30000x5x80 .f32) (main_arg3 : FVec F S30000x7x80 .f32) (main_arg4 : FVec F S30000x9x80 .f32) (main_arg5 : FVec F S30000x11x80 .f32) (main_arg6 : FVec F S8000x3x1x80 .f32) (main_arg7 : FVec F S8000x3x3x80 .f32) (main_arg8 : FVec F S8000x3x5x80 .f32) (main_arg9 : FVec F S8000x3x7x80 .f32) (main_arg10 : FVec F S8000x3x9x80 .f32) (main_arg11 : FVec F S8000x3x11x80 .f32) (main_arg12 : FVec F S80x64 .f32) (main_arg13 : FVec F S80x64 .f32) (main_arg14 : FVec F S80x64 .f32) (main_arg15 : FVec F S80x64 .f32) (main_arg16 : FVec F S80x64 .f32) (main_arg17 : FVec F S80x64 .f32) : IVec S_ 1 :=
  let main_v0 : FVec F S30000x1x80 .f32 := Host.absf main_arg0
  let main_cst : FVec F S_ .f32 := constant S_ .f32 0x7F800000#32
  let main_v1 : FVec F S30000x1x80 .f32 := broadcastInDim S30000x1x80 ![] bcast_S_S30000x1x80 main_cst
  let main_v2 : IVec S30000x1x80 1 := cmpf .olt main_v0 main_v1
  let main_c : IVec S_ 1 := constantI S_ 1 1#1
  let main_v3 : IVec S_ 1 := (fun x v => Host.reduce IntOp.andi x v reducesTo_S30000x1x80_S_d0_1_2 h_S_) main_v2 main_c
  let main_v4 : FVec F S30000x3x80 .f32 := Host.absf main_arg1
  let main_cst_0 : FVec F S_ .f32 := constant S_ .f32 0x7F800000#32
  let main_v5 : FVec F S30000x3x80 .f32 := broadcastInDim S30000x3x80 ![] bcast_S_S30000x3x80 main_cst_0
  let main_v6 : IVec S30000x3x80 1 := cmpf .olt main_v4 main_v5
  let main_c_1 : IVec S_ 1 := constantI S_ 1 1#1
  let main_v7 : IVec S_ 1 := (fun x v => Host.reduce IntOp.andi x v reducesTo_S30000x3x80_S_d0_1_2 h_S_) main_v6 main_c_1
  let main_v8 : IVec S_ 1 := andi main_v3 main_v7
  let main_v9 : FVec F S30000x5x80 .f32 := Host.absf main_arg2
  let main_cst_2 : FVec F S_ .f32 := constant S_ .f32 0x7F800000#32
  let main_v10 : FVec F S30000x5x80 .f32 := broadcastInDim S30000x5x80 ![] bcast_S_S30000x5x80 main_cst_2
  let main_v11 : IVec S30000x5x80 1 := cmpf .olt main_v9 main_v10
  let main_c_3 : IVec S_ 1 := constantI S_ 1 1#1
  let main_v12 : IVec S_ 1 := (fun x v => Host.reduce IntOp.andi x v reducesTo_S30000x5x80_S_d0_1_2 h_S_) main_v11 main_c_3
  let main_v13 : IVec S_ 1 := andi main_v8 main_v12
  let main_v14 : FVec F S30000x7x80 .f32 := Host.absf main_arg3
  let main_cst_4 : FVec F S_ .f32 := constant S_ .f32 0x7F800000#32
  let main_v15 : FVec F S30000x7x80 .f32 := broadcastInDim S30000x7x80 ![] bcast_S_S30000x7x80 main_cst_4
  let main_v16 : IVec S30000x7x80 1 := cmpf .olt main_v14 main_v15
  fn_part1 (F := F) main_arg4 main_arg5 main_arg6 main_arg7 main_arg8 main_arg9 main_arg10 main_arg11 main_arg12 main_arg13 main_arg14 main_arg15 main_arg16 main_arg17 main_v13 main_v16
-- ==== Kernel.lean ====
abbrev S30000x1x80 : Shape := ⟨3, ![30000, 1, 80]⟩
abbrev S30000x3x80 : Shape := ⟨3, ![30000, 3, 80]⟩
abbrev S30000x5x80 : Shape := ⟨3, ![30000, 5, 80]⟩
abbrev S30000x7x80 : Shape := ⟨3, ![30000, 7, 80]⟩
abbrev S30000x9x80 : Shape := ⟨3, ![30000, 9, 80]⟩
abbrev S30000x11x80 : Shape := ⟨3, ![30000, 11, 80]⟩
abbrev S8000x3x1x80 : Shape := ⟨4, ![8000, 3, 1, 80]⟩
abbrev S8000x3x3x80 : Shape := ⟨4, ![8000, 3, 3, 80]⟩
abbrev S8000x3x5x80 : Shape := ⟨4, ![8000, 3, 5, 80]⟩
abbrev S8000x3x7x80 : Shape := ⟨4, ![8000, 3, 7, 80]⟩
abbrev S8000x3x9x80 : Shape := ⟨4, ![8000, 3, 9, 80]⟩
abbrev S8000x3x11x80 : Shape := ⟨4, ![8000, 3, 11, 80]⟩
abbrev S80x64 : Shape := ⟨2, ![80, 64]⟩
abbrev S30000x80 : Shape := ⟨2, ![30000, 80]⟩
abbrev S24000x80 : Shape := ⟨2, ![24000, 80]⟩
abbrev S90000x80 : Shape := ⟨2, ![90000, 80]⟩
abbrev S72000x80 : Shape := ⟨2, ![72000, 80]⟩
abbrev S150000x80 : Shape := ⟨2, ![150000, 80]⟩
abbrev S120000x80 : Shape := ⟨2, ![120000, 80]⟩
abbrev S210000x80 : Shape := ⟨2, ![210000, 80]⟩
abbrev S168000x80 : Shape := ⟨2, ![168000, 80]⟩
abbrev S270000x80 : Shape := ⟨2, ![270000, 80]⟩
abbrev S216000x80 : Shape := ⟨2, ![216000, 80]⟩
abbrev S330000x80 : Shape := ⟨2, ![330000, 80]⟩
abbrev S264000x80 : Shape := ⟨2, ![264000, 80]⟩
abbrev S1944000x64 : Shape := ⟨2, ![1944000, 64]⟩
abbrev S10000x80 : Shape := ⟨2, ![10000, 80]⟩
abbrev S10000x64 : Shape := ⟨2, ![10000, 64]⟩
abbrev S6000x80 : Shape := ⟨2, ![6000, 80]⟩
abbrev S6000x64 : Shape := ⟨2, ![6000, 64]⟩
abbrev S9000x80 : Shape := ⟨2, ![9000, 80]⟩
abbrev S9000x64 : Shape := ⟨2, ![9000, 64]⟩
abbrev S12000x80 : Shape := ⟨2, ![12000, 80]⟩
abbrev S12000x64 : Shape := ⟨2, ![12000, 64]⟩
abbrev S10800x80 : Shape := ⟨2, ![10800, 80]⟩
abbrev S10800x64 : Shape := ⟨2, ![10800, 64]⟩

abbrev nBuf : Space → Nat
  | .hbm => 42
  | .vmem => 60
  | .smem => 0
  | _ => 0

abbrev bufTy : (tb : Table) → Fin (tcTables nBuf tb) → BufTy
  | .hbm, ⟨0, _⟩ => ⟨S30000x1x80, .f32⟩
  | .hbm, ⟨1, _⟩ => ⟨S30000x3x80, .f32⟩
  | .hbm, ⟨2, _⟩ => ⟨S30000x5x80, .f32⟩
  | .hbm, ⟨3, _⟩ => ⟨S30000x7x80, .f32⟩
  | .hbm, ⟨4, _⟩ => ⟨S30000x9x80, .f32⟩
  | .hbm, ⟨5, _⟩ => ⟨S30000x11x80, .f32⟩
  | .hbm, ⟨6, _⟩ => ⟨S8000x3x1x80, .f32⟩
  | .hbm, ⟨7, _⟩ => ⟨S8000x3x3x80, .f32⟩
  | .hbm, ⟨8, _⟩ => ⟨S8000x3x5x80, .f32⟩
  | .hbm, ⟨9, _⟩ => ⟨S8000x3x7x80, .f32⟩
  | .hbm, ⟨10, _⟩ => ⟨S8000x3x9x80, .f32⟩
  | .hbm, ⟨11, _⟩ => ⟨S8000x3x11x80, .f32⟩
  | .hbm, ⟨12, _⟩ => ⟨S80x64, .f32⟩
  | .hbm, ⟨13, _⟩ => ⟨S80x64, .f32⟩
  | .hbm, ⟨14, _⟩ => ⟨S80x64, .f32⟩
  | .hbm, ⟨15, _⟩ => ⟨S80x64, .f32⟩
  | .hbm, ⟨16, _⟩ => ⟨S80x64, .f32⟩
  | .hbm, ⟨17, _⟩ => ⟨S80x64, .f32⟩
  | .hbm, ⟨18, _⟩ => ⟨S30000x80, .f32⟩
  | .hbm, ⟨19, _⟩ => ⟨S24000x80, .f32⟩
  | .hbm, ⟨20, _⟩ => ⟨S90000x80, .f32⟩
  | .hbm, ⟨21, _⟩ => ⟨S72000x80, .f32⟩
  | .hbm, ⟨22, _⟩ => ⟨S150000x80, .f32⟩
  | .hbm, ⟨23, _⟩ => ⟨S120000x80, .f32⟩
  | .hbm, ⟨24, _⟩ => ⟨S210000x80, .f32⟩
  | .hbm, ⟨25, _⟩ => ⟨S168000x80, .f32⟩
  | .hbm, ⟨26, _⟩ => ⟨S270000x80, .f32⟩
  | .hbm, ⟨27, _⟩ => ⟨S216000x80, .f32⟩
  | .hbm, ⟨28, _⟩ => ⟨S330000x80, .f32⟩
  | .hbm, ⟨29, _⟩ => ⟨S264000x80, .f32⟩
  | .hbm, ⟨30, _⟩ => ⟨S1944000x64, .f32⟩
  | .hbm, ⟨31, _⟩ => ⟨S1944000x64, .f32⟩
  | .hbm, ⟨32, _⟩ => ⟨S1944000x64, .f32⟩
  | .hbm, ⟨33, _⟩ => ⟨S1944000x64, .f32⟩
  | .hbm, ⟨34, _⟩ => ⟨S1944000x64, .f32⟩
  | .hbm, ⟨35, _⟩ => ⟨S1944000x64, .f32⟩
  | .hbm, ⟨36, _⟩ => ⟨S1944000x64, .f32⟩
  | .hbm, ⟨37, _⟩ => ⟨S1944000x64, .f32⟩
  | .hbm, ⟨38, _⟩ => ⟨S1944000x64, .f32⟩
  | .hbm, ⟨39, _⟩ => ⟨S1944000x64, .f32⟩
  | .hbm, ⟨40, _⟩ => ⟨S1944000x64, .f32⟩
  | .hbm, ⟨41, _⟩ => ⟨S1944000x64, .f32⟩
  | .local _ .vmem, ⟨0, _⟩ => ⟨S10000x80, .f32⟩
  | .local _ .vmem, ⟨1, _⟩ => ⟨S10000x80, .f32⟩
  | .local _ .vmem, ⟨2, _⟩ => ⟨S80x64, .f32⟩
  | .local _ .vmem, ⟨3, _⟩ => ⟨S10000x64, .f32⟩
  | .local _ .vmem, ⟨4, _⟩ => ⟨S10000x64, .f32⟩
  | .local _ .vmem, ⟨5, _⟩ => ⟨S6000x80, .f32⟩
  | .local _ .vmem, ⟨6, _⟩ => ⟨S6000x80, .f32⟩
  | .local _ .vmem, ⟨7, _⟩ => ⟨S80x64, .f32⟩
  | .local _ .vmem, ⟨8, _⟩ => ⟨S6000x64, .f32⟩
  | .local _ .vmem, ⟨9, _⟩ => ⟨S6000x64, .f32⟩
  | .local _ .vmem, ⟨10, _⟩ => ⟨S9000x80, .f32⟩
  | .local _ .vmem, ⟨11, _⟩ => ⟨S9000x80, .f32⟩
  | .local _ .vmem, ⟨12, _⟩ => ⟨S80x64, .f32⟩
  | .local _ .vmem, ⟨13, _⟩ => ⟨S9000x64, .f32⟩
  | .local _ .vmem, ⟨14, _⟩ => ⟨S9000x64, .f32⟩
  | .local _ .vmem, ⟨15, _⟩ => ⟨S12000x80, .f32⟩
  | .local _ .vmem, ⟨16, _⟩ => ⟨S12000x80, .f32⟩
  | .local _ .vmem, ⟨17, _⟩ => ⟨S80x64, .f32⟩
  | .local _ .vmem, ⟨18, _⟩ => ⟨S12000x64, .f32⟩
  | .local _ .vmem, ⟨19, _⟩ => ⟨S12000x64, .f32⟩
  | .local _ .vmem, ⟨20, _⟩ => ⟨S6000x80, .f32⟩
  | .local _ .vmem, ⟨21, _⟩ => ⟨S6000x80, .f32⟩
  | .local _ .vmem, ⟨22, _⟩ => ⟨S80x64, .f32⟩
  | .local _ .vmem, ⟨23, _⟩ => ⟨S6000x64, .f32⟩
  | .local _ .vmem, ⟨24, _⟩ => ⟨S6000x64, .f32⟩
  | .local _ .vmem, ⟨25, _⟩ => ⟨S6000x80, .f32⟩
  | .local _ .vmem, ⟨26, _⟩ => ⟨S6000x80, .f32⟩
  | .local _ .vmem, ⟨27, _⟩ => ⟨S80x64, .f32⟩
  | .local _ .vmem, ⟨28, _⟩ => ⟨S6000x64, .f32⟩
  | .local _ .vmem, ⟨29, _⟩ => ⟨S6000x64, .f32⟩
  | .local _ .vmem, ⟨30, _⟩ => ⟨S6000x80, .f32⟩
  | .local _ .vmem, ⟨31, _⟩ => ⟨S6000x80, .f32⟩
  | .local _ .vmem, ⟨32, _⟩ => ⟨S80x64, .f32⟩
  | .local _ .vmem, ⟨33, _⟩ => ⟨S6000x64, .f32⟩
  | .local _ .vmem, ⟨34, _⟩ => ⟨S6000x64, .f32⟩
  | .local _ .vmem, ⟨35, _⟩ => ⟨S12000x80, .f32⟩
  | .local _ .vmem, ⟨36, _⟩ => ⟨S12000x80, .f32⟩
  | .local _ .vmem, ⟨37, _⟩ => ⟨S80x64, .f32⟩
  | .local _ .vmem, ⟨38, _⟩ => ⟨S12000x64, .f32⟩
  | .local _ .vmem, ⟨39, _⟩ => ⟨S12000x64, .f32⟩
  | .local _ .vmem, ⟨40, _⟩ => ⟨S10800x80, .f32⟩
  | .local _ .vmem, ⟨41, _⟩ => ⟨S10800x80, .f32⟩
  | .local _ .vmem, ⟨42, _⟩ => ⟨S80x64, .f32⟩
  | .local _ .vmem, ⟨43, _⟩ => ⟨S10800x64, .f32⟩
  | .local _ .vmem, ⟨44, _⟩ => ⟨S10800x64, .f32⟩
  | .local _ .vmem, ⟨45, _⟩ => ⟨S10800x80, .f32⟩
  | .local _ .vmem, ⟨46, _⟩ => ⟨S10800x80, .f32⟩
  | .local _ .vmem, ⟨47, _⟩ => ⟨S80x64, .f32⟩
  | .local _ .vmem, ⟨48, _⟩ => ⟨S10800x64, .f32⟩
  | .local _ .vmem, ⟨49, _⟩ => ⟨S10800x64, .f32⟩
  | .local _ .vmem, ⟨50, _⟩ => ⟨S10000x80, .f32⟩
  | .local _ .vmem, ⟨51, _⟩ => ⟨S10000x80, .f32⟩
  | .local _ .vmem, ⟨52, _⟩ => ⟨S80x64, .f32⟩
  | .local _ .vmem, ⟨53, _⟩ => ⟨S10000x64, .f32⟩
  | .local _ .vmem, ⟨54, _⟩ => ⟨S10000x64, .f32⟩
  | .local _ .vmem, ⟨55, _⟩ => ⟨S12000x80, .f32⟩
  | .local _ .vmem, ⟨56, _⟩ => ⟨S12000x80, .f32⟩
  | .local _ .vmem, ⟨57, _⟩ => ⟨S80x64, .f32⟩
  | .local _ .vmem, ⟨58, _⟩ => ⟨S12000x64, .f32⟩
  | .local _ .vmem, ⟨59, _⟩ => ⟨S12000x64, .f32⟩
  | _, _ => ⟨S30000x1x80, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg0_1 : Ref sig .tc := ⟨.vmem, 31, rfl⟩
abbrev cc6_stg1_0 : Ref sig .tc := ⟨.vmem, 32, rfl⟩
abbrev cc6_stg2_0 : Ref sig .tc := ⟨.vmem, 33, rfl⟩
abbrev cc6_stg2_1 : Ref sig .tc := ⟨.vmem, 34, rfl⟩
abbrev cc7_stg0_0 : Ref sig .tc := ⟨.vmem, 35, rfl⟩
abbrev cc7_stg0_1 : Ref sig .tc := ⟨.vmem, 36, rfl⟩
abbrev cc7_stg1_0 : Ref sig .tc := ⟨.vmem, 37, rfl⟩
abbrev cc7_stg2_0 : Ref sig .tc := ⟨.vmem, 38, rfl⟩
abbrev cc7_stg2_1 : Ref sig .tc := ⟨.vmem, 39, rfl⟩
abbrev cc8_stg0_0 : Ref sig .tc := ⟨.vmem, 40, rfl⟩
abbrev cc8_stg0_1 : Ref sig .tc := ⟨.vmem, 41, rfl⟩
abbrev cc8_stg1_0 : Ref sig .tc := ⟨.vmem, 42, rfl⟩
abbrev cc8_stg2_0 : Ref sig .tc := ⟨.vmem, 43, rfl⟩
abbrev cc8_stg2_1 : Ref sig .tc := ⟨.vmem, 44, rfl⟩
abbrev cc9_stg0_0 : Ref sig .tc := ⟨.vmem, 45, rfl⟩
abbrev cc9_stg0_1 : Ref sig .tc := ⟨.vmem, 46, rfl⟩
abbrev cc9_stg1_0 : Ref sig .tc := ⟨.vmem, 47, rfl⟩
abbrev cc9_stg2_0 : Ref sig .tc := ⟨.vmem, 48, rfl⟩
abbrev cc9_stg2_1 : Ref sig .tc := ⟨.vmem, 49, rfl⟩
abbrev cc10_stg0_0 : Ref sig .tc := ⟨.vmem, 50, rfl⟩
abbrev cc10_stg0_1 : Ref sig .tc := ⟨.vmem, 51, rfl⟩
abbrev cc10_stg1_0 : Ref sig .tc := ⟨.vmem, 52, rfl⟩
abbrev cc10_stg2_0 : Ref sig .tc := ⟨.vmem, 53, rfl⟩
abbrev cc10_stg2_1 : Ref sig .tc := ⟨.vmem, 54, rfl⟩
abbrev cc11_stg0_0 : Ref sig .tc := ⟨.vmem, 55, rfl⟩
abbrev cc11_stg0_1 : Ref sig .tc := ⟨.vmem, 56, rfl⟩
abbrev cc11_stg1_0 : Ref sig .tc := ⟨.vmem, 57, rfl⟩
abbrev cc11_stg2_0 : Ref sig .tc := ⟨.vmem, 58, rfl⟩
abbrev cc11_stg2_1 : Ref sig .tc := ⟨.vmem, 59, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem0_1 : DmaSem sig := 31
abbrev cc6_sem1_0 : DmaSem sig := 32
abbrev cc6_sem2_0 : DmaSem sig := 33
abbrev cc6_sem2_1 : DmaSem sig := 34
abbrev cc7_sem0_0 : DmaSem sig := 35
abbrev cc7_sem0_1 : DmaSem sig := 36
abbrev cc7_sem1_0 : DmaSem sig := 37
abbrev cc7_sem2_0 : DmaSem sig := 38
abbrev cc7_sem2_1 : DmaSem sig := 39
abbrev cc8_sem0_0 : DmaSem sig := 40
abbrev cc8_sem0_1 : DmaSem sig := 41
abbrev cc8_sem1_0 : DmaSem sig := 42
abbrev cc8_sem2_0 : DmaSem sig := 43
abbrev cc8_sem2_1 : DmaSem sig := 44
abbrev cc9_sem0_0 : DmaSem sig := 45
abbrev cc9_sem0_1 : DmaSem sig := 46
abbrev cc9_sem1_0 : DmaSem sig := 47
abbrev cc9_sem2_0 : DmaSem sig := 48
abbrev cc9_sem2_1 : DmaSem sig := 49
abbrev cc10_sem0_0 : DmaSem sig := 50
abbrev cc10_sem0_1 : DmaSem sig := 51
abbrev cc10_sem1_0 : DmaSem sig := 52
abbrev cc10_sem2_0 : DmaSem sig := 53
abbrev cc10_sem2_1 : DmaSem sig := 54
abbrev cc11_sem0_0 : DmaSem sig := 55
abbrev cc11_sem0_1 : DmaSem sig := 56
abbrev cc11_sem1_0 : DmaSem sig := 57
abbrev cc11_sem2_0 : DmaSem sig := 58
abbrev cc11_sem2_1 : DmaSem sig := 59

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage0_0 : Fin 2 → Memref sig .tc .vmem S10000x80 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S80x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c5_i32 : BitVec 32 := 5#32
  let v0 : BitVec 32 := Scalar.addi c5_i32 arg0
  let c0_i32 : BitVec 32 := 0#32
  let c0_i32_0 : BitVec 32 := 0#32
  ![v0.toNat, c0_i32.toNat]

abbrev stage1_0 : Fin 2 → Memref sig .tc .vmem S6000x80 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S80x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S6000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c6_i32 : BitVec 32 := 6#32
  let v0 : BitVec 32 := Scalar.addi c6_i32 arg0
  let c0_i32 : BitVec 32 := 0#32
  let c0_i32_0 : BitVec 32 := 0#32
  ![v0.toNat, c0_i32.toNat]

abbrev stage2_0 : Fin 2 → Memref sig .tc .vmem S9000x80 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S80x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S9000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![6], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c12_i32 : BitVec 32 := 12#32
  let v0 : BitVec 32 := Scalar.addi c12_i32 arg0
  let c0_i32 : BitVec 32 := 0#32
  let c0_i32_0 : BitVec 32 := 0#32
  ![v0.toNat, c0_i32.toNat]

abbrev stage3_0 : Fin 2 → Memref sig .tc .vmem S12000x80 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S80x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S12000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c36_i32 : BitVec 32 := 36#32
  let v0 : BitVec 32 := Scalar.addi c36_i32 arg0
  let c0_i32 : BitVec 32 := 0#32
  let c0_i32_0 : BitVec 32 := 0#32
  ![v0.toNat, c0_i32.toNat]

abbrev stage4_0 : Fin 2 → Memref sig .tc .vmem S6000x80 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S80x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S6000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c61_i32 : BitVec 32 := 61#32
  let v0 : BitVec 32 := Scalar.addi c61_i32 arg0
  let c0_i32 : BitVec 32 := 0#32
  let c0_i32_0 : BitVec 32 := 0#32
  ![v0.toNat, c0_i32.toNat]

abbrev stage5_0 : Fin 2 → Memref sig .tc .vmem S6000x80 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S80x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S6000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![35], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c81_i32 : BitVec 32 := 81#32
  let v0 : BitVec 32 := Scalar.addi c81_i32 arg0
  let c0_i32 : BitVec 32 := 0#32
  let c0_i32_0 : BitVec 32 := 0#32
  ![v0.toNat, c0_i32.toNat]

abbrev stage6_0 : Fin 2 → Memref sig .tc .vmem S6000x80 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S80x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S6000x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![14], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c58_i32 : BitVec 32 := 58#32
  let v0 : BitVec 32 := Scalar.addi c58_i32 arg0
  let c0_i32 : BitVec 32 := 0#32
  let c0_i32_0 : BitVec 32 := 0#32
  ![v0.toNat, c0_i32.toNat]

abbrev stage7_0 : Fin 2 → Memref sig .tc .vmem S12000x80 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S80x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S12000x64 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![25], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c80_i32 : BitVec 32 := 80#32
  let v0 : BitVec 32 := Scalar.addi c80_i32 arg0
  let c0_i32 : BitVec 32 := 0#32
  let c0_i32_0 : BitVec 32 := 0#32
  ![v0.toNat, c0_i32.toNat]

abbrev stage8_0 : Fin 2 → Memref sig .tc .vmem S10800x80 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S80x64 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S10800x64 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![20], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c105_i32 : BitVec 32 := 105#32
  let v0 : BitVec 32 := Scalar.addi c105_i32 arg0
  let c0_i32 : BitVec 32 := 0#32
  let c0_i32_0 : BitVec 32 := 0#32
  ![v0.toNat, c0_i32.toNat]

abbrev stage9_0 : Fin 2 → Memref sig .tc .vmem S10800x80 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S80x64 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 2 → Memref sig .tc .vmem S10800x64 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev grid10 : Pipeline.Grid := ⟨1, ![33], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c135_i32 : BitVec 32 := 135#32
  let v0 : BitVec 32 := Scalar.addi c135_i32 arg0
  let c0_i32 : BitVec 32 := 0#32
  let c0_i32_0 : BitVec 32 := 0#32
  ![v0.toNat, c0_i32.toNat]

abbrev stage10_0 : Fin 2 → Memref sig .tc .vmem S10000x80 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S80x64 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 2 → Memref sig .tc .vmem S10000x64 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev grid11 : Pipeline.Grid := ⟨1, ![22], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c140_i32 : BitVec 32 := 140#32
  let v0 : BitVec 32 := Scalar.addi c140_i32 arg0
  let c0_i32 : BitVec 32 := 0#32
  let c0_i32_0 : BitVec 32 := 0#32
  ![v0.toNat, c0_i32.toNat]

abbrev stage11_0 : Fin 2 → Memref sig .tc .vmem S12000x80 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S80x64 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 2 → Memref sig .tc .vmem S12000x64 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true]

class Facts₀ : Prop where
  shapeCasts_S30000x1x80_S30000x80 : S30000x1x80.ShapeCasts S30000x80
  shapeCasts_S8000x3x1x80_S24000x80 : S8000x3x1x80.ShapeCasts S24000x80
  shapeCasts_S30000x3x80_S90000x80 : S30000x3x80.ShapeCasts S90000x80
  shapeCasts_S8000x3x3x80_S72000x80 : S8000x3x3x80.ShapeCasts S72000x80
  shapeCasts_S30000x5x80_S150000x80 : S30000x5x80.ShapeCasts S150000x80
  shapeCasts_S8000x3x5x80_S120000x80 : S8000x3x5x80.ShapeCasts S120000x80
  shapeCasts_S30000x7x80_S210000x80 : S30000x7x80.ShapeCasts S210000x80
  shapeCasts_S8000x3x7x80_S168000x80 : S8000x3x7x80.ShapeCasts S168000x80
  shapeCasts_S30000x9x80_S270000x80 : S30000x9x80.ShapeCasts S270000x80
  shapeCasts_S8000x3x9x80_S216000x80 : S8000x3x9x80.ShapeCasts S216000x80
  shapeCasts_S30000x11x80_S330000x80 : S30000x11x80.ShapeCasts S330000x80
  shapeCasts_S8000x3x11x80_S264000x80 : S8000x3x11x80.ShapeCasts S264000x80
  inb_S10000x80_S10000x80_0_0 : ∀ a, (![0, 0] : Fin 2 → Nat) a + S10000x80.size a ≤ S10000x80.size a
  h_S10000x80 : 0 < S10000x80.numel
  shapeCasts_S10000x80_S10000x80 : S10000x80.ShapeCasts S10000x80
  bitsLt_bf16_f32 : FTy.bits .bf16 < FTy.bits .f32
  inb_S80x64_S80x64_0_0 : ∀ a, (![0, 0] : Fin 2 → Nat) a + S80x64.size a ≤ S80x64.size a
  h_S80x64 : 0 < S80x64.numel
  inb_S10000x64_S10000x64_0_0 : ∀ a, (![0, 0] : Fin 2 → Nat) a + S10000x64.size a ≤ S10000x64.size a
  h_S10000x64 : 0 < S10000x64.numel
  inb_S6000x80_S6000x80_0_0 : ∀ a, (![0, 0] : Fin 2 → Nat) a + S6000x80.size a ≤ S6000x80.size a
  h_S6000x80 : 0 < S6000x80.numel
  shapeCasts_S6000x80_S6000x80 : S6000x80.ShapeCasts S6000x80
  inb_S6000x64_S6000x64_0_0 : ∀ a, (![0, 0] : Fin 2 → Nat) a + S6000x64.size a ≤ S6000x64.size a
  h_S6000x64 : 0 < S6000x64.numel
  inb_S9000x80_S9000x80_0_0 : ∀ a, (![0, 0] : Fin 2 → Nat) a + S9000x80.size a ≤ S9000x80.size a
  h_S9000x80 : 0 < S9000x80.numel
  shapeCasts_S9000x80_S9000x80 : S9000x80.ShapeCasts S9000x80
  inb_S9000x64_S9000x64_0_0 : ∀ a, (![0, 0] : Fin 2 → Nat) a + S9000x64.size a ≤ S9000x64.size a
  h_S9000x64 : 0 < S9000x64.numel
  inb_S12000x80_S12000x80_0_0 : ∀ a, (![0, 0] : Fin 2 → Nat) a + S12000x80.size a ≤ S12000x80.size a
  h_S12000x80 : 0 < S12000x80.numel
  shapeCasts_S12000x80_S12000x80 : S12000x80.ShapeCasts S12000x80
  inb_S12000x64_S12000x64_0_0 : ∀ a, (![0, 0] : Fin 2 → Nat) a + S12000x64.size a ≤ S12000x64.size a
  h_S12000x64 : 0 < S12000x64.numel
  inb_S10800x80_S10800x80_0_0 : ∀ a, (![0, 0] : Fin 2 → Nat) a + S10800x80.size a ≤ S10800x80.size a
  h_S10800x80 : 0 < S10800x80.numel
  shapeCasts_S10800x80_S10800x80 : S10800x80.ShapeCasts S10800x80
  inb_S10800x64_S10800x64_0_0 : ∀ a, (![0, 0] : Fin 2 → Nat) a + S10800x64.size a ≤ S10800x64.size a
  h_S10800x64 : 0 < S10800x64.numel
  dot_S10000x80_S80x64_S10000x64_1_0_0_1_n_n_wf : DotDims.WF S10000x80 S80x64 S10000x64 [1] [0] [0] [1] [] []
  dot_S6000x80_S80x64_S6000x64_1_0_0_1_n_n_wf : DotDims.WF S6000x80 S80x64 S6000x64 [1] [0] [0] [1] [] []
  dot_S9000x80_S80x64_S9000x64_1_0_0_1_n_n_wf : DotDims.WF S9000x80 S80x64 S9000x64 [1] [0] [0] [1] [] []
  dot_S12000x80_S80x64_S12000x64_1_0_0_1_n_n_wf : DotDims.WF S12000x80 S80x64 S12000x64 [1] [0] [0] [1] [] []
  dot_S10800x80_S80x64_S10800x64_1_0_0_1_n_n_wf : DotDims.WF S10800x80 S80x64 S10800x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x80.size a ≤ S30000x80.size a
  hwx0_0 : ∀ i : grid0.Coords, EltTy.bits .f32 = 32 ∨ (Rect.block (s := S30000x80) S10000x80.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S80x64.size a ≤ S80x64.size a
  hwx0_1 : ∀ i : grid0.Coords, EltTy.bits .f32 = 32 ∨ (Rect.block (s := S80x64) S80x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S10000x64.size a < S1944000x64.size a
  hwx0_2 : ∀ i : grid0.Coords, EltTy.bits .f32 = 32 ∨ (Rect.unit (s := S1944000x64) (fun a => cc0_transform_2 i a * S10000x64.size a) (fun a => (Pipeline.Clip.of (cc0_transform_2 i a) (S10000x64.size a) (S1944000x64.size a)).extent (S10000x64.size a)) fun a => Pipeline.Clip.inb (Pipeline.Clip.ok_of (hstart0_2 i a))).WholeWords (EltTy.packing .f32)
  hwxs0_2 : ∀ i : grid0.Coords, EltTy.bits .f32 = 32 ∨ (Rect.unit (s := S10000x64) (fun _ => 0) (fun a => (Pipeline.Clip.of (cc0_transform_2 i a) (S10000x64.size a) (S1944000x64.size a)).extent (S10000x64.size a)) fun a => (Nat.zero_add _).trans_le (Pipeline.Clip.extent_le (Pipeline.Clip.ok_of (hstart0_2 i a)))).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S6000x80.size a ≤ S24000x80.size a
  hwx1_0 : ∀ i : grid1.Coords, EltTy.bits .f32 = 32 ∨ (Rect.block (s := S24000x80) S6000x80.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S80x64.size a ≤ S80x64.size a
  hwx1_1 : ∀ i : grid1.Coords, EltTy.bits .f32 = 32 ∨ (Rect.block (s := S80x64) S80x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_3 i = cc1_transform_3 i'
  hinb1_2 : ∀ (i : grid1.Coords) a, (cc1_transform_3 i a + 1) * S6000x64.size a ≤ S1944000x64.size a
  hwx1_2 : ∀ i : grid1.Coords, EltTy.bits .f32 = 32 ∨ (Rect.block (s := S1944000x64) S6000x64.size (cc1_transform_3 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S9000x80.size a ≤ S90000x80.size a
  hwx2_0 : ∀ i : grid2.Coords, EltTy.bits .f32 = 32 ∨ (Rect.block (s := S90000x80) S9000x80.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S80x64.size a ≤ S80x64.size a
  hwx2_1 : ∀ i : grid2.Coords, EltTy.bits .f32 = 32 ∨ (Rect.block (s := S80x64) S80x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_3 i = cc2_transform_3 i'
  hinb2_2 : ∀ (i : grid2.Coords) a, (cc2_transform_3 i a + 1) * S9000x64.size a ≤ S1944000x64.size a
  hwx2_2 : ∀ i : grid2.Coords, EltTy.bits .f32 = 32 ∨ (Rect.block (s := S1944000x64) S9000x64.size (cc2_transform_3 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S12000x80.size a ≤ S72000x80.size a
  hwx3_0 : ∀ i : grid3.Coords, EltTy.bits .f32 = 32 ∨ (Rect.block (s := S72000x80) S12000x80.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S80x64.size a ≤ S80x64.size a
  hwx3_1 : ∀ i : grid3.Coords, EltTy.bits .f32 = 32 ∨ (Rect.block (s := S80x64) S80x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_3 i = cc3_transform_3 i'
  hinb3_2 : ∀ (i : grid3.Coords) a, (cc3_transform_3 i a + 1) * S12000x64.size a ≤ S1944000x64.size a
  hwx3_2 : ∀ i : grid3.Coords, EltTy.bits .f32 = 32 ∨ (Rect.block (s := S1944000x64) S12000x64.size (cc3_transform_3 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S6000x80.size a ≤ S150000x80.size a
  hwx4_0 : ∀ i : grid4.Coords, EltTy.bits .f32 = 32 ∨ (Rect.block (s := S150000x80) S6000x80.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S80x64.size a ≤ S80x64.size a
  hwx4_1 : ∀ i : grid4.Coords, EltTy.bits .f32 = 32 ∨ (Rect.block (s := S80x64) S80x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_3 i = cc4_transform_3 i'
  hinb4_2 : ∀ (i : grid4.Coords) a, (cc4_transform_3 i a + 1) * S6000x64.size a ≤ S1944000x64.size a
  hwx4_2 : ∀ i : grid4.Coords, EltTy.bits .f32 = 32 ∨ (Rect.block (s := S1944000x64) S6000x64.size (cc4_transform_3 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S6000x80.size a ≤ S120000x80.size a
  hwx5_0 : ∀ i : grid5.Coords, EltTy.bits .f32 = 32 ∨ (Rect.block (s := S120000x80) S6000x80.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S80x64.size a ≤ S80x64.size a
  hwx5_1 : ∀ i : grid5.Coords, EltTy.bits .f32 = 32 ∨ (Rect.block (s := S80x64) S80x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_3 i = cc5_transform_3 i'
  hinb5_2 : ∀ (i : grid5.Coords) a, (cc5_transform_3 i a + 1) * S6000x64.size a ≤ S1944000x64.size a
  hwx5_2 : ∀ i : grid5.Coords, EltTy.bits .f32 = 32 ∨ (Rect.block (s := S1944000x64) S6000x64.size (cc5_transform_3 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S6000x80.size a ≤ S210000x80.size a
  hwx6_0 : ∀ i : grid6.Coords, EltTy.bits .f32 = 32 ∨ (Rect.block (s := S210000x80) S6000x80.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S80x64.size a ≤ S80x64.size a
  hwx6_1 : ∀ i : grid6.Coords, EltTy.bits .f32 = 32 ∨ (Rect.block (s := S80x64) S80x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_3 i = cc6_transform_3 i'
  hinb6_2 : ∀ (i : grid6.Coords) a, (cc6_transform_3 i a + 1) * S6000x64.size a ≤ S1944000x64.size a
  hwx6_2 : ∀ i : grid6.Coords, EltTy.bits .f32 = 32 ∨ (Rect.block (s := S1944000x64) S6000x64.size (cc6_transform_3 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S12000x80.size a ≤ S168000x80.size a
  hwx7_0 : ∀ i : grid7.Coords, EltTy.bits .f32 = 32 ∨ (Rect.block (s := S168000x80) S12000x80.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S80x64.size a ≤ S80x64.size a
  hwx7_1 : ∀ i : grid7.Coords, EltTy.bits .f32 = 32 ∨ (Rect.block (s := S80x64) S80x64.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_3 i = cc7_transform_3 i'
  hinb7_2 : ∀ (i : grid7.Coords) a, (cc7_transform_3 i a + 1) * S12000x64.size a ≤ S1944000x64.size a
  hwx7_2 : ∀ i : grid7.Coords, EltTy.bits .f32 = 32 ∨ (Rect.block (s := S1944000x64) S12000x64.size (cc7_transform_3 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S10800x80.size a ≤ S270000x80.size a
  hwx8_0 : ∀ i : grid8.Coords, EltTy.bits .f32 = 32 ∨ (Rect.block (s := S270000x80) S10800x80.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S80x64.size a ≤ S80x64.size a
  hwx8_1 : ∀ i : grid8.Coords, EltTy.bits .f32 = 32 ∨ (Rect.block (s := S80x64) S80x64.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_3 i = cc8_transform_3 i'
  hinb8_2 : ∀ (i : grid8.Coords) a, (cc8_transform_3 i a + 1) * S10800x64.size a ≤ S1944000x64.size a
  hwx8_2 : ∀ i : grid8.Coords, EltTy.bits .f32 = 32 ∨ (Rect.block (s := S1944000x64) S10800x64.size (cc8_transform_3 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S10800x80.size a ≤ S216000x80.size a
  hwx9_0 : ∀ i : grid9.Coords, EltTy.bits .f32 = 32 ∨ (Rect.block (s := S216000x80) S10800x80.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S80x64.size a ≤ S80x64.size a
  hwx9_1 : ∀ i : grid9.Coords, EltTy.bits .f32 = 32 ∨ (Rect.block (s := S80x64) S80x64.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_3 i = cc9_transform_3 i'
  hinb9_2 : ∀ (i : grid9.Coords) a, (cc9_transform_3 i a + 1) * S10800x64.size a ≤ S1944000x64.size a
  hwx9_2 : ∀ i : grid9.Coords, EltTy.bits .f32 = 32 ∨ (Rect.block (s := S1944000x64) S10800x64.size (cc9_transform_3 i) (hinb9_2 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S10000x80.size a ≤ S330000x80.size a
  hwx10_0 : ∀ i : grid10.Coords, EltTy.bits .f32 = 32 ∨ (Rect.block (s := S330000x80) S10000x80.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S80x64.size a ≤ S80x64.size a
  hwx10_1 : ∀ i : grid10.Coords, EltTy.bits .f32 = 32 ∨ (Rect.block (s := S80x64) S80x64.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_3 i = cc10_transform_3 i'
  hstart10_2 : ∀ (i : grid10.Coords) a, cc10_transform_3 i a * S10000x64.size a < S1944000x64.size a
  hwx10_2 : ∀ i : grid10.Coords, EltTy.bits .f32 = 32 ∨ (Rect.unit (s := S1944000x64) (fun a => cc10_transform_3 i a * S10000x64.size a) (fun a => (Pipeline.Clip.of (cc10_transform_3 i a) (S10000x64.size a) (S1944000x64.size a)).extent (S10000x64.size a)) fun a => Pipeline.Clip.inb (Pipeline.Clip.ok_of (hstart10_2 i a))).WholeWords (EltTy.packing .f32)
  hwxs10_2 : ∀ i : grid10.Coords, EltTy.bits .f32 = 32 ∨ (Rect.unit (s := S10000x64) (fun _ => 0) (fun a => (Pipeline.Clip.of (cc10_transform_3 i a) (S10000x64.size a) (S1944000x64.size a)).extent (S10000x64.size a)) fun a => (Nat.zero_add _).trans_le (Pipeline.Clip.extent_le (Pipeline.Clip.ok_of (hstart10_2 i a)))).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S12000x80.size a ≤ S264000x80.size a
  hwx11_0 : ∀ i : grid11.Coords, EltTy.bits .f32 = 32 ∨ (Rect.block (s := S264000x80) S12000x80.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S80x64.size a ≤ S80x64.size a
  hwx11_1 : ∀ i : grid11.Coords, EltTy.bits .f32 = 32 ∨ (Rect.block (s := S80x64) S80x64.size (cc11_transform_1 i) (hinb11_1 i)).WholeWords (EltTy.packing .f32)
  hstage11_2 : ∀ j, (stage11_2 j).IsWhole
  nbuf11_2 : grid11.bufCount reads11_2 false = 2
  hreads11_2 : ∀ i i' : grid11.Coords, (∀ a, reads11_2 a = true → i a = i' a) → cc11_transform_3 i = cc11_transform_3 i'
  hinb11_2 : ∀ (i : grid11.Coords) a, (cc11_transform_3 i a + 1) * S12000x64.size a ≤ S1944000x64.size a
  hwx11_2 : ∀ i : grid11.Coords, EltTy.bits .f32 = 32 ∨ (Rect.block (s := S1944000x64) S12000x64.size (cc11_transform_3 i) (hinb11_2 i)).WholeWords (EltTy.packing .f32)

variable [Facts₀]

def dot_S10000x80_S80x64_S10000x64_1_0_0_1_n_n : DotDims S10000x80 S80x64 S10000x64 where
  lhsContracting := [1]
  rhsContracting := [0]
  lhsNonContracting := [0]
  rhsNonContracting := [1]
  lhsBatch := []
  rhsBatch := []
  wf := dot_S10000x80_S80x64_S10000x64_1_0_0_1_n_n_wf
def dot_S6000x80_S80x64_S6000x64_1_0_0_1_n_n : DotDims S6000x80 S80x64 S6000x64 where
  lhsContracting := [1]
  rhsContracting := [0]
  lhsNonContracting := [0]
  rhsNonContracting := [1]
  lhsBatch := []
  rhsBatch := []
  wf := dot_S6000x80_S80x64_S6000x64_1_0_0_1_n_n_wf
def dot_S9000x80_S80x64_S9000x64_1_0_0_1_n_n : DotDims S9000x80 S80x64 S9000x64 where
  lhsContracting := [1]
  rhsContracting := [0]
  lhsNonContracting := [0]
  rhsNonContracting := [1]
  lhsBatch := []
  rhsBatch := []
  wf := dot_S9000x80_S80x64_S9000x64_1_0_0_1_n_n_wf
def dot_S12000x80_S80x64_S12000x64_1_0_0_1_n_n : DotDims S12000x80 S80x64 S12000x64 where
  lhsContracting := [1]
  rhsContracting := [0]
  lhsNonContracting := [0]
  rhsNonContracting := [1]
  lhsBatch := []
  rhsBatch := []
  wf := dot_S12000x80_S80x64_S12000x64_1_0_0_1_n_n_wf
def dot_S10800x80_S80x64_S10800x64_1_0_0_1_n_n : DotDims S10800x80 S80x64 S10800x64 where
  lhsContracting := [1]
  rhsContracting := [0]
  lhsNonContracting := [0]
  rhsNonContracting := [1]
  lhsBatch := []
  rhsBatch := []
  wf := dot_S10800x80_S80x64_S10800x64_1_0_0_1_n_n_wf

abbrev win0_0 : Pipeline.Window sig grid0 :=
  Pipeline.Window.ofSpec (Memref.whole main_v0) S10000x80.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg12) S80x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpecClip (Memref.whole main_v12) S10000x64.size cc0_transform_2 reads0_2 true false 2 stage0_2 sem0_2
    hrank0 hreads0_2 hstart0_2 nbuf0_2 (Memref.isWhole_whole _) hwx0_2 hwxs0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v1) S6000x80.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg12) S80x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v13) S6000x64.size cc1_transform_3 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v2) S9000x80.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg13) S80x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v14) S9000x64.size cc2_transform_3 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v3) S12000x80.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg13) S80x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v15) S12000x64.size cc3_transform_3 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v4) S6000x80.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg14) S80x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v16) S6000x64.size cc4_transform_3 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v5) S6000x80.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg14) S80x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v17) S6000x64.size cc5_transform_3 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v6) S6000x80.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg15) S80x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v18) S6000x64.size cc6_transform_3 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v7) S12000x80.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg15) S80x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v19) S12000x64.size cc7_transform_3 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v8) S10800x80.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_arg16) S80x64.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v20) S10800x64.size cc8_transform_3 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v9) S10800x80.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_arg16) S80x64.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v21) S10800x64.size cc9_transform_3 reads9_2 true false 2 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

abbrev win10_0 : Pipeline.Window sig grid10 :=
  Pipeline.Window.ofSpec (Memref.whole main_v10) S10000x80.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_arg17) S80x64.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpecClip (Memref.whole main_v22) S10000x64.size cc10_transform_3 reads10_2 true false 2 stage10_2 sem10_2
    hrank10 hreads10_2 hstart10_2 nbuf10_2 (Memref.isWhole_whole _) hwx10_2 hwxs10_2 hstage10_2

abbrev win10 : Fin 3 → Pipeline.Window sig grid10 := fun | 0 => win10_0 | 1 => win10_1 | 2 => win10_2 | ⟨_ + 3, h⟩ => absurd h (Nat.not_lt.2 (Nat.le_add_left _ _))
abbrev spec10 : Fin 3 → Pipeline.WinSpec sig grid10.rank := fun w => (win10 w).toWinSpec

abbrev win11_0 : Pipeline.Window sig grid11 :=
  Pipeline.Window.ofSpec (Memref.whole main_v11) S12000x80.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_arg17) S80x64.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v23) S12000x64.size cc11_transform_3 reads11_2 true false 2 stage11_2 sem11_2
    hrank11 hreads11_2 hinb11_2 nbuf11_2 (Memref.isWhole_whole _) hwx11_2 hstage11_2

abbrev win11 : Fin 3 → Pipeline.Window sig grid11 := fun | 0 => win11_0 | 1 => win11_1 | 2 => win11_2 | ⟨_ + 3, h⟩ => absurd h (Nat.not_lt.2 (Nat.le_add_left _ _))
abbrev spec11 : Fin 3 → Pipeline.WinSpec sig grid11.rank := fun w => (win11 w).toWinSpec

class Facts : Prop extends Facts₀ where

variable [Facts]
-- ==== ReferenceIdeal.lean ====
abbrev S30000x1x80 : Shape := ⟨3, ![30000, 1, 80]⟩
abbrev S30000x3x80 : Shape := ⟨3, ![30000, 3, 80]⟩
abbrev S30000x5x80 : Shape := ⟨3, ![30000, 5, 80]⟩
abbrev S30000x7x80 : Shape := ⟨3, ![30000, 7, 80]⟩
abbrev S30000x9x80 : Shape := ⟨3, ![30000, 9, 80]⟩
abbrev S30000x11x80 : Shape := ⟨3, ![30000, 11, 80]⟩
abbrev S8000x3x1x80 : Shape := ⟨4, ![8000, 3, 1, 80]⟩
abbrev S8000x3x3x80 : Shape := ⟨4, ![8000, 3, 3, 80]⟩
abbrev S8000x3x5x80 : Shape := ⟨4, ![8000, 3, 5, 80]⟩
abbrev S8000x3x7x80 : Shape := ⟨4, ![8000, 3, 7, 80]⟩
abbrev S8000x3x9x80 : Shape := ⟨4, ![8000, 3, 9, 80]⟩
abbrev S8000x3x11x80 : Shape := ⟨4, ![8000, 3, 11, 80]⟩
abbrev S80x64 : Shape := ⟨2, ![80, 64]⟩
abbrev S30000x1x64 : Shape := ⟨3, ![30000, 1, 64]⟩
abbrev S8000x3x1x64 : Shape := ⟨4, ![8000, 3, 1, 64]⟩
abbrev S30000x64 : Shape := ⟨2, ![30000, 64]⟩
abbrev S24000x64 : Shape := ⟨2, ![24000, 64]⟩
abbrev S30000x3x64 : Shape := ⟨3, ![30000, 3, 64]⟩
abbrev S8000x3x3x64 : Shape := ⟨4, ![8000, 3, 3, 64]⟩
abbrev S90000x64 : Shape := ⟨2, ![90000, 64]⟩
abbrev S72000x64 : Shape := ⟨2, ![72000, 64]⟩
abbrev S30000x5x64 : Shape := ⟨3, ![30000, 5, 64]⟩
abbrev S8000x3x5x64 : Shape := ⟨4, ![8000, 3, 5, 64]⟩
abbrev S150000x64 : Shape := ⟨2, ![150000, 64]⟩
abbrev S120000x64 : Shape := ⟨2, ![120000, 64]⟩
abbrev S30000x7x64 : Shape := ⟨3, ![30000, 7, 64]⟩
abbrev S8000x3x7x64 : Shape := ⟨4, ![8000, 3, 7, 64]⟩
abbrev S210000x64 : Shape := ⟨2, ![210000, 64]⟩
abbrev S168000x64 : Shape := ⟨2, ![168000, 64]⟩
abbrev S30000x9x64 : Shape := ⟨3, ![30000, 9, 64]⟩
abbrev S8000x3x9x64 : Shape := ⟨4, ![8000, 3, 9, 64]⟩
abbrev S270000x64 : Shape := ⟨2, ![270000, 64]⟩
abbrev S216000x64 : Shape := ⟨2, ![216000, 64]⟩
abbrev S30000x11x64 : Shape := ⟨3, ![30000, 11, 64]⟩
abbrev S8000x3x11x64 : Shape := ⟨4, ![8000, 3, 11, 64]⟩
abbrev S330000x64 : Shape := ⟨2, ![330000, 64]⟩
abbrev S264000x64 : Shape := ⟨2, ![264000, 64]⟩
abbrev S1944000x64 : Shape := ⟨2, ![1944000, 64]⟩

abbrev nBuf : Space → Nat
  | .hbm => 43
  | .vmem => 0
  | .smem => 0
  | _ => 0

abbrev bufTy : (tb : Table) → Fin (tcTables nBuf tb) → BufTy
  | .hbm, ⟨0, _⟩ => ⟨S30000x1x80, .f32⟩
  | .hbm, ⟨1, _⟩ => ⟨S30000x3x80, .f32⟩
  | .hbm, ⟨2, _⟩ => ⟨S30000x5x80, .f32⟩
  | .hbm, ⟨3, _⟩ => ⟨S30000x7x80, .f32⟩
  | .hbm, ⟨4, _⟩ => ⟨S30000x9x80, .f32⟩
  | .hbm, ⟨5, _⟩ => ⟨S30000x11x80, .f32⟩
  | .hbm, ⟨6, _⟩ => ⟨S8000x3x1x80, .f32⟩
  | .hbm, ⟨7, _⟩ => ⟨S8000x3x3x80, .f32⟩
  | .hbm, ⟨8, _⟩ => ⟨S8000x3x5x80, .f32⟩
  | .hbm, ⟨9, _⟩ => ⟨S8000x3x7x80, .f32⟩
  | .hbm, ⟨10, _⟩ => ⟨S8000x3x9x80, .f32⟩
  | .hbm, ⟨11, _⟩ => ⟨S8000x3x11x80, .f32⟩
  | .hbm, ⟨12, _⟩ => ⟨S80x64, .f32⟩
  | .hbm, ⟨13, _⟩ => ⟨S80x64, .f32⟩
  | .hbm, ⟨14, _⟩ => ⟨S80x64, .f32⟩
  | .hbm, ⟨15, _⟩ => ⟨S80x64, .f32⟩
  | .hbm, ⟨16, _⟩ => ⟨S80x64, .f32⟩
  | .hbm, ⟨17, _⟩ => ⟨S80x64, .f32⟩
  | .hbm, ⟨18, _⟩ => ⟨S30000x1x64, .f32⟩
  | .hbm, ⟨19, _⟩ => ⟨S8000x3x1x64, .f32⟩
  | .hbm, ⟨20, _⟩ => ⟨S30000x64, .f32⟩
  | .hbm, ⟨21, _⟩ => ⟨S24000x64, .f32⟩
  | .hbm, ⟨22, _⟩ => ⟨S30000x3x64, .f32⟩
  | .hbm, ⟨23, _⟩ => ⟨S8000x3x3x64, .f32⟩
  | .hbm, ⟨24, _⟩ => ⟨S90000x64, .f32⟩
  | .hbm, ⟨25, _⟩ => ⟨S72000x64, .f32⟩
  | .hbm, ⟨26, _⟩ => ⟨S30000x5x64, .f32⟩
  | .hbm, ⟨27, _⟩ => ⟨S8000x3x5x64, .f32⟩
  | .hbm, ⟨28, _⟩ => ⟨S150000x64, .f32⟩
  | .hbm, ⟨29, _⟩ => ⟨S120000x64, .f32⟩
  | .hbm, ⟨30, _⟩ => ⟨S30000x7x64, .f32⟩
  | .hbm, ⟨31, _⟩ => ⟨S8000x3x7x64, .f32⟩
  | .hbm, ⟨32, _⟩ => ⟨S210000x64, .f32⟩
  | .hbm, ⟨33, _⟩ => ⟨S168000x64, .f32⟩
  | .hbm, ⟨34, _⟩ => ⟨S30000x9x64, .f32⟩
  | .hbm, ⟨35, _⟩ => ⟨S8000x3x9x64, .f32⟩
  | .hbm, ⟨36, _⟩ => ⟨S270000x64, .f32⟩
  | .hbm, ⟨37, _⟩ => ⟨S216000x64, .f32⟩
  | .hbm, ⟨38, _⟩ => ⟨S30000x11x64, .f32⟩
  | .hbm, ⟨39, _⟩ => ⟨S8000x3x11x64, .f32⟩
  | .hbm, ⟨40, _⟩ => ⟨S330000x64, .f32⟩
  | .hbm, ⟨41, _⟩ => ⟨S264000x64, .f32⟩
  | .hbm, ⟨42, _⟩ => ⟨S1944000x64, .f32⟩
  | _, _ => ⟨S30000x1x80, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩

abbrev nD : Nat := 1
abbrev τ : Topo := Topo.v7x

variable {F : FTy → Type} [FloatOps F]

class Facts₀ : Prop where
  shapeCasts_S30000x1x64_S30000x64 : S30000x1x64.ShapeCasts S30000x64
  shapeCasts_S8000x3x1x64_S24000x64 : S8000x3x1x64.ShapeCasts S24000x64
  shapeCasts_S30000x3x64_S90000x64 : S30000x3x64.ShapeCasts S90000x64
  shapeCasts_S8000x3x3x64_S72000x64 : S8000x3x3x64.ShapeCasts S72000x64
  shapeCasts_S30000x5x64_S150000x64 : S30000x5x64.ShapeCasts S150000x64
  shapeCasts_S8000x3x5x64_S120000x64 : S8000x3x5x64.ShapeCasts S120000x64
  shapeCasts_S30000x7x64_S210000x64 : S30000x7x64.ShapeCasts S210000x64
  shapeCasts_S8000x3x7x64_S168000x64 : S8000x3x7x64.ShapeCasts S168000x64
  shapeCasts_S30000x9x64_S270000x64 : S30000x9x64.ShapeCasts S270000x64
  shapeCasts_S8000x3x9x64_S216000x64 : S8000x3x9x64.ShapeCasts S216000x64
  shapeCasts_S30000x11x64_S330000x64 : S30000x11x64.ShapeCasts S330000x64
  shapeCasts_S8000x3x11x64_S264000x64 : S8000x3x11x64.ShapeCasts S264000x64
  concatenates_S30000x64_S24000x64_S90000x64_S72000x64_S150000x64_S120000x64_S210000x64_S168000x64_S270000x64_S216000x64_S330000x64_S264000x64_S1944000x64_d0 : Shape.Concatenates [S30000x64, S24000x64, S90000x64, S72000x64, S150000x64, S120000x64, S210000x64, S168000x64, S270000x64, S216000x64, S330000x64, S264000x64] S1944000x64 0
  dot_S30000x1x80_S80x64_S30000x1x64_2_0_01_1_n_n_wf : DotDims.WF S30000x1x80 S80x64 S30000x1x64 [2] [0] [0, 1] [1] [] []
  dot_S8000x3x1x80_S80x64_S8000x3x1x64_3_0_012_1_n_n_wf : DotDims.WF S8000x3x1x80 S80x64 S8000x3x1x64 [3] [0] [0, 1, 2] [1] [] []
  dot_S30000x3x80_S80x64_S30000x3x64_2_0_01_1_n_n_wf : DotDims.WF S30000x3x80 S80x64 S30000x3x64 [2] [0] [0, 1] [1] [] []
  dot_S8000x3x3x80_S80x64_S8000x3x3x64_3_0_012_1_n_n_wf : DotDims.WF S8000x3x3x80 S80x64 S8000x3x3x64 [3] [0] [0, 1, 2] [1] [] []
  dot_S30000x5x80_S80x64_S30000x5x64_2_0_01_1_n_n_wf : DotDims.WF S30000x5x80 S80x64 S30000x5x64 [2] [0] [0, 1] [1] [] []
  dot_S8000x3x5x80_S80x64_S8000x3x5x64_3_0_012_1_n_n_wf : DotDims.WF S8000x3x5x80 S80x64 S8000x3x5x64 [3] [0] [0, 1, 2] [1] [] []
  dot_S30000x7x80_S80x64_S30000x7x64_2_0_01_1_n_n_wf : DotDims.WF S30000x7x80 S80x64 S30000x7x64 [2] [0] [0, 1] [1] [] []
  dot_S8000x3x7x80_S80x64_S8000x3x7x64_3_0_012_1_n_n_wf : DotDims.WF S8000x3x7x80 S80x64 S8000x3x7x64 [3] [0] [0, 1, 2] [1] [] []
  dot_S30000x9x80_S80x64_S30000x9x64_2_0_01_1_n_n_wf : DotDims.WF S30000x9x80 S80x64 S30000x9x64 [2] [0] [0, 1] [1] [] []
  dot_S8000x3x9x80_S80x64_S8000x3x9x64_3_0_012_1_n_n_wf : DotDims.WF S8000x3x9x80 S80x64 S8000x3x9x64 [3] [0] [0, 1, 2] [1] [] []
  dot_S30000x11x80_S80x64_S30000x11x64_2_0_01_1_n_n_wf : DotDims.WF S30000x11x80 S80x64 S30000x11x64 [2] [0] [0, 1] [1] [] []
  dot_S8000x3x11x80_S80x64_S8000x3x11x64_3_0_012_1_n_n_wf : DotDims.WF S8000x3x11x80 S80x64 S8000x3x11x64 [3] [0] [0, 1, 2] [1] [] []

variable [Facts₀]

def dot_S30000x1x80_S80x64_S30000x1x64_2_0_01_1_n_n : DotDims S30000x1x80 S80x64 S30000x1x64 where
  lhsContracting := [2]
  rhsContracting := [0]
  lhsNonContracting := [0, 1]
  rhsNonContracting := [1]
  lhsBatch := []
  rhsBatch := []
  wf := dot_S30000x1x80_S80x64_S30000x1x64_2_0_01_1_n_n_wf
def dot_S8000x3x1x80_S80x64_S8000x3x1x64_3_0_012_1_n_n : DotDims S8000x3x1x80 S80x64 S8000x3x1x64 where
  lhsContracting := [3]
  rhsContracting := [0]
  lhsNonContracting := [0, 1, 2]
  rhsNonContracting := [1]
  lhsBatch := []
  rhsBatch := []
  wf := dot_S8000x3x1x80_S80x64_S8000x3x1x64_3_0_012_1_n_n_wf
def dot_S30000x3x80_S80x64_S30000x3x64_2_0_01_1_n_n : DotDims S30000x3x80 S80x64 S30000x3x64 where
  lhsContracting := [2]
  rhsContracting := [0]
  lhsNonContracting := [0, 1]
  rhsNonContracting := [1]
  lhsBatch := []
  rhsBatch := []
  wf := dot_S30000x3x80_S80x64_S30000x3x64_2_0_01_1_n_n_wf
def dot_S8000x3x3x80_S80x64_S8000x3x3x64_3_0_012_1_n_n : DotDims S8000x3x3x80 S80x64 S8000x3x3x64 where
  lhsContracting := [3]
  rhsContracting := [0]
  lhsNonContracting := [0, 1, 2]
  rhsNonContracting := [1]
  lhsBatch := []
  rhsBatch := []
  wf := dot_S8000x3x3x80_S80x64_S8000x3x3x64_3_0_012_1_n_n_wf
def dot_S30000x5x80_S80x64_S30000x5x64_2_0_01_1_n_n : DotDims S30000x5x80 S80x64 S30000x5x64 where
  lhsContracting := [2]
  rhsContracting := [0]
  lhsNonContracting := [0, 1]
  rhsNonContracting := [1]
  lhsBatch := []
  rhsBatch := []
  wf := dot_S30000x5x80_S80x64_S30000x5x64_2_0_01_1_n_n_wf
def dot_S8000x3x5x80_S80x64_S8000x3x5x64_3_0_012_1_n_n : DotDims S8000x3x5x80 S80x64 S8000x3x5x64 where
  lhsContracting := [3]
  rhsContracting := [0]
  lhsNonContracting := [0, 1, 2]
  rhsNonContracting := [1]
  lhsBatch := []
  rhsBatch := []
  wf := dot_S8000x3x5x80_S80x64_S8000x3x5x64_3_0_012_1_n_n_wf
def dot_S30000x7x80_S80x64_S30000x7x64_2_0_01_1_n_n : DotDims S30000x7x80 S80x64 S30000x7x64 where
  lhsContracting := [2]
  rhsContracting := [0]
  lhsNonContracting := [0, 1]
  rhsNonContracting := [1]
  lhsBatch := []
  rhsBatch := []
  wf := dot_S30000x7x80_S80x64_S30000x7x64_2_0_01_1_n_n_wf
def dot_S8000x3x7x80_S80x64_S8000x3x7x64_3_0_012_1_n_n : DotDims S8000x3x7x80 S80x64 S8000x3x7x64 where
  lhsContracting := [3]
  rhsContracting := [0]
  lhsNonContracting := [0, 1, 2]
  rhsNonContracting := [1]
  lhsBatch := []
  rhsBatch := []
  wf := dot_S8000x3x7x80_S80x64_S8000x3x7x64_3_0_012_1_n_n_wf
def dot_S30000x9x80_S80x64_S30000x9x64_2_0_01_1_n_n : DotDims S30000x9x80 S80x64 S30000x9x64 where
  lhsContracting := [2]
  rhsContracting := [0]
  lhsNonContracting := [0, 1]
  rhsNonContracting := [1]
  lhsBatch := []
  rhsBatch := []
  wf := dot_S30000x9x80_S80x64_S30000x9x64_2_0_01_1_n_n_wf
def dot_S8000x3x9x80_S80x64_S8000x3x9x64_3_0_012_1_n_n : DotDims S8000x3x9x80 S80x64 S8000x3x9x64 where
  lhsContracting := [3]
  rhsContracting := [0]
  lhsNonContracting := [0, 1, 2]
  rhsNonContracting := [1]
  lhsBatch := []
  rhsBatch := []
  wf := dot_S8000x3x9x80_S80x64_S8000x3x9x64_3_0_012_1_n_n_wf
def dot_S30000x11x80_S80x64_S30000x11x64_2_0_01_1_n_n : DotDims S30000x11x80 S80x64 S30000x11x64 where
  lhsContracting := [2]
  rhsContracting := [0]
  lhsNonContracting := [0, 1]
  rhsNonContracting := [1]
  lhsBatch := []
  rhsBatch := []
  wf := dot_S30000x11x80_S80x64_S30000x11x64_2_0_01_1_n_n_wf
def dot_S8000x3x11x80_S80x64_S8000x3x11x64_3_0_012_1_n_n : DotDims S8000x3x11x80 S80x64 S8000x3x11x64 where
  lhsContracting := [3]
  rhsContracting := [0]
  lhsNonContracting := [0, 1, 2]
  rhsNonContracting := [1]
  lhsBatch := []
  rhsBatch := []
  wf := dot_S8000x3x11x80_S80x64_S8000x3x11x64_3_0_012_1_n_n_wf

class Facts : Prop extends Facts₀ where

variable [Facts]
-- ==== Proof.KRun.lean ====
/-
  The kernel program's run, with its result named.

  Every weakly fair execution of the program from a memory with zero counters terminates without a fault; at the end
  the result buffer holds what the last region boundary's contents assign to it, and every argument array is as it
  was launched.  The contents at the last boundary are a fold through the program: each stretch of host operations
  and each region in turn rewrites the buffers it writes and leaves the rest.
-/
import proofs.«151581_j48060684042914_2_alg».proof.Proof.Gen.KernelIdeal.Frame

set_option maxRecDepth 16384

noncomputable section

namespace Cert.Hand.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, the arguments as launched. -/
theorem run_result : θ_run defs (onTc (τ := τ) (main (F := F))) ⟨m, fun _ => 0, ρ⟩ (fun r => ∀ c : Dev nD,
      r.2.mem ((c.tc : Thread nD τ).loc main_v23) = W24 m ρ c (Proc.devRef .tc main_v23)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W24 m ρ c b)
    (hfin := fun c s' => by
      iintro ⟨⟨Hh, -⟩, HSI⟩
      unfold StableHlo.held
      imodintro
      iapply (pointsTo_read_all (Pipeline.ucRefs τ sig) (fun b => (((c : Thread nD τ)).1, b)) (W24 m ρ c) s')
      isplitl [Hh] <;> iassumption)
    (hQ := fun s h c =>
      ⟨h c _ (mem_uc main_v23 (by decide)),
       (h c _ (mem_uc main_arg0 (by decide))).trans (W24_main_arg0 m ρ c),
       (h c _ (mem_uc main_arg1 (by decide))).trans (W24_main_arg1 m ρ c),
       (h c _ (mem_uc main_arg2 (by decide))).trans (W24_main_arg2 m ρ c),
       (h c _ (mem_uc main_arg3 (by decide))).trans (W24_main_arg3 m ρ c),
       (h c _ (mem_uc main_arg4 (by decide))).trans (W24_main_arg4 m ρ c),
       (h c _ (mem_uc main_arg5 (by decide))).trans (W24_main_arg5 m ρ c),
       (h c _ (mem_uc main_arg6 (by decide))).trans (W24_main_arg6 m ρ c),
       (h c _ (mem_uc main_arg7 (by decide))).trans (W24_main_arg7 m ρ c),
       (h c _ (mem_uc main_arg8 (by decide))).trans (W24_main_arg8 m ρ c),
       (h c _ (mem_uc main_arg9 (by decide))).trans (W24_main_arg9 m ρ c),
       (h c _ (mem_uc main_arg10 (by decide))).trans (W24_main_arg10 m ρ c),
       (h c _ (mem_uc main_arg11 (by decide))).trans (W24_main_arg11 m ρ c),
       (h c _ (mem_uc main_arg12 (by decide))).trans (W24_main_arg12 m ρ c),
       (h c _ (mem_uc main_arg13 (by decide))).trans (W24_main_arg13 m ρ c),
       (h c _ (mem_uc main_arg14 (by decide))).trans (W24_main_arg14 m ρ c),
       (h c _ (mem_uc main_arg15 (by decide))).trans (W24_main_arg15 m ρ c),
       (h c _ (mem_uc main_arg16 (by decide))).trans (W24_main_arg16 m ρ c),
       (h c _ (mem_uc main_arg17 (by decide))).trans (W24_main_arg17 m ρ c)⟩)

end Cert.Hand.KRun

end
-- ==== Proof.LibMatmul.lean ====
/-
  A row-by-column matrix product read at an index, over the extended reals.

  For the plain dimension numbers (left operand M×K contracted on its second axis, right operand K×N contracted on
  its first, no batch axis) the product accumulated into the zero matrix is, at row r and column c,
  the sum over k < K of lhs(r, k) · rhs(k, c).  The contraction index of the dimension numbers is a rank-1
  index; the sum is re-indexed through its one coordinate.
-/
import Idealize.ShloMosaic.PureOps.Ideal.Laws
import Idealize.ShloMosaic.Lib.ValueIdx

noncomputable section

namespace LibMatmul

open Idealize.ShloMosaic Idealize.ShloMosaic.ValueIdx

/-- The row coordinate of a rank-2 index, as a number below the first extent. -/
abbrev rowOf {M N : Nat} (j : (⟨2, ![M, N]⟩ : Shape).Idx) : Fin M := ⟨(j 0).val, (j 0).isLt⟩
/-- The column coordinate of a rank-2 index, as a number below the second extent. -/
abbrev colOf {M N : Nat} (j : (⟨2, ![M, N]⟩ : Shape).Idx) : Fin N := ⟨(j 1).val, (j 1).isLt⟩

/-- The sum a matrix product is, with the contraction index a plain number below K. -/
theorem plain_sum (M K N : Nat) (lhs : (⟨2, ![M, K]⟩ : Shape).Idx → EReal) (rhs : (⟨2, ![K, N]⟩ : Shape).Idx → EReal)
    (j : (⟨2, ![M, N]⟩ : Shape).Idx) :
    (∑ k : (DotDims.plain M K N).contr.Idx, lhs ((DotDims.plain M K N).lhsIdx j k) * rhs ((DotDims.plain M K N).rhsIdx j k))
      = ∑ k : Fin K, lhs (ix2 (rowOf j) k) * rhs (ix2 k (colOf j)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (rowOf j) k :=
    funext fun a => Fin.ext (by
      match a with
      | ⟨0, _⟩ => rfl
      | ⟨1, _⟩ => exact ((DotDims.plain M K N).lhsIdx_val_of_single rfl j _).trans hk)
  have er : (DotDims.plain M K N).rhsIdx j ((contrEquiv1 (DotDims.plain M K N) K rfl rfl).symm k) = ix2 k (colOf j) :=
    funext fun a => Fin.ext (by
      match a with
      | ⟨0, _⟩ => exact ((DotDims.plain M K N).rhsIdx_val_of_single rfl j _).trans hk
      | ⟨1, _⟩ => rfl)
  rw [el, er]

/-- A matrix product accumulated into the zero matrix, read at an index. -/
theorem matmul_zero_apply (M K N : Nat) (prec : Option ContractPrecision)
    (lhs : FVec Ideal ⟨2, ![M, K]⟩ .f32) (rhs : FVec Ideal ⟨2, ![K, N]⟩ .f32) (j : (⟨2, ![M, N]⟩ : Shape).Idx) :
    FloatOps.matmul (DotDims.plain M K N) prec lhs rhs (constant (F := Ideal) ⟨2, ![M, N]⟩ .f32 0x00000000#32) j
      = ∑ k : Fin K, lhs (ix2 (rowOf j) k) * rhs (ix2 k (colOf j)) := by
  rw [Ideal.matmul_constant_zero_apply]
  exact plain_sum M K N lhs rhs j

/-- The host's general dot product with the same dimension numbers, read at an index. -/
theorem dotGeneral_apply (M K N : Nat) (prec : Option ContractPrecision) (sched : HostSchedule)
    (lhs : FVec Ideal ⟨2, ![M, K]⟩ .f32) (rhs : FVec Ideal ⟨2, ![K, N]⟩ .f32) (j : (⟨2, ![M, N]⟩ : Shape).Idx) :
    FloatOps.dotGeneral (DotDims.plain M K N) prec sched lhs rhs j
      = ∑ k : Fin K, lhs (ix2 (rowOf j) k) * rhs (ix2 k (colOf j)) := by
  rw [Ideal.dotGeneral_apply]
  exact plain_sum M K N lhs rhs j

end LibMatmul

end
-- ==== Proof.LibDense.lean ====
/-
  The pieces of a dense layer read at one entry, over the extended reals.

  A matrix product reads, at row r and column c, the sum over k of A(r, k) · B(k, c): row r of A against
  column c of B.  The product accumulated into the zero matrix and the plain product are both this sum when
  their dimension numbers are the plain ones (left operand contracted on its second axis, right operand on its
  first, no batch axis), whatever float formats the operands carry.  A one-column matrix spread across the
  columns reads, at (r, c), its entry of row r; a single number spread over a whole array reads that number.
-/
import Idealize.ShloMosaic.PureOps.Ideal.Laws
import Idealize.ShloMosaic.Lib.ValueIdx
import Idealize.ShloMosaic.Lib.Pipeline.Value
import proofs.«151581_j48060684042914_2_alg».proof.Proof.LibMatmul

noncomputable section

namespace Cert.Hand.Dense

open Idealize.ShloMosaic Idealize.ShloMosaic.ValueIdx

/-- Column `c` of a matrix, as a function of the row. -/
def col {a b : ℕ} (A : (⟨2, ![a, b]⟩ : Shape).Idx → EReal) (c : Fin b) : Fin a → EReal := fun k => A (ix2 k c)

/-- Row `r` of a matrix against a vector: the sum over k of A(r, k) · v(k). -/
def lin {a k : ℕ} (A : (⟨2, ![a, k]⟩ : Shape).Idx → EReal) (v : Fin k → EReal) (r : Fin a) : EReal :=
  ∑ j : Fin k, A (ix2 r j) * v j

theorem col_apply {a b : ℕ} (A : (⟨2, ![a, b]⟩ : Shape).Idx → EReal) (c : Fin b) (k : Fin a) :
    col A c k = A (ix2 k c) := rfl

/-- A product accumulated into the zero matrix, at (r, c): row r of the left operand against column c of the right. -/
theorem matmul_entry {M K N : ℕ} {φ₁ φ₂ : FTy} (prec : Option ContractPrecision)
    (A : FVec Ideal ⟨2, ![M, K]⟩ φ₁) (B : FVec Ideal ⟨2, ![K, N]⟩ φ₂) (r : Fin M) (c : Fin N) :
    FloatOps.matmul (DotDims.plain M K N) prec A B (constant (F := Ideal) ⟨2, ![M, N]⟩ .f32 0x00000000#32) (ix2 r c)
      = lin A (col B c) r := by
  rw [Ideal.matmul_constant_zero_apply]
  exact LibMatmul.plain_sum M K N A B (ix2 r c)

/-- The plain product, at (r, c): the same sum. -/
theorem dot_entry {M K N : ℕ} {φ₁ φ₂ : FTy} (prec : Option ContractPrecision) (sched : HostSchedule)
    (A : FVec Ideal ⟨2, ![M, K]⟩ φ₁) (B : FVec Ideal ⟨2, ![K, N]⟩ φ₂) (r : Fin M) (c : Fin N) :
    FloatOps.dotGeneral (DotDims.plain M K N) prec sched A B (ix2 r c) = lin A (col B c) r := by
  rw [Ideal.dotGeneral_apply]
  exact LibMatmul.plain_sum M K N A B (ix2 r c)

variable {α : Type}

/-- An a-by-1 column spread across b columns (each operand axis kept in place) reads, at (r, c), the column at row r. -/
theorem spread_col_apply {a b : ℕ} (v : (⟨2, ![a, 1]⟩ : Shape).Idx → α)
    (h : (⟨2, ![a, 1]⟩ : Shape).BroadcastsInDim ⟨2, ![a, b]⟩ ![0, 1]) (r : Fin a) (c : Fin b) :
    broadcastInDim ⟨2, ![a, b]⟩ ![0, 1] h v (ix2 r c) = v (ix2 r (0 : Fin 1)) := by
  refine broadcastInDim_apply _ h v (ix2 r c) (ix2 r (0 : Fin 1)) fun ax => ?_
  match ax with
  | ⟨0, _⟩ =>
    show r.val = if a = 1 then 0 else r.val
    split
    · have := r.isLt; omega
    · rfl
  | ⟨1, _⟩ =>
    show (0 : ℕ) = if (1 : ℕ) = 1 then 0 else c.val
    rw [if_pos rfl]

/-- A single value spread over a whole array reads that value everywhere. -/
theorem spread_scalar_apply {s : Shape} (y : (⟨0, ![]⟩ : Shape).Idx → α)
    (h : (⟨0, ![]⟩ : Shape).BroadcastsInDim s ![]) (j : s.Idx) :
    broadcastInDim s ![] h y j = y ix0 :=
  broadcastInDim_apply _ h y j ix0 fun ax => ax.elim0

end Cert.Hand.Dense

end
-- ==== Proof.Spec.lean ====
/-
  What both programs compute, one entry at a time.

  Each of the twelve inputs (six "values" arrays of shape N × m × 80 and six "grads" arrays of shape NG × 3 × m × 80)
  is laid out row-major as a matrix of L rows of 80 numbers, and multiplied by an 80 × 64 matrix.  The twelve products,
  stacked one above the other, are the result: 1,944,000 rows of 64.  Entry (r, c) of one product is the sum over
  p < 80 of x(r, p) · w(p, c): row r of the flattened input against column c of the matrix.  Sums and products are
  those of the extended reals; the sum is a finite sum over the 80 contracted positions, so no order is involved.
-/
import Idealize.ShloMosaic.PureOps.Ideal.Laws
import Idealize.ShloMosaic.Lib.ValueIdx
import Idealize.ShloMosaic.Lib.Pipeline.Value
import proofs.«151581_j48060684042914_2_alg».proof.Proof.LibDense

noncomputable section

namespace Cert.Hand

open Idealize.ShloMosaic Idealize.ShloMosaic.ValueIdx Cert.Hand.Dense

/-- Entry (r, c) of the product of `x`, laid out row-major as `L` rows of 80, with the 80 × 64 matrix `w`:
    the sum over p < 80 of x(r, p) · w(p, c). -/
def entry (L : ℕ) {s : Shape} (x : s.Idx → EReal) (h : s.ShapeCasts ⟨2, ![L, 80]⟩)
    (w : (⟨2, ![80, 64]⟩ : Shape).Idx → EReal) (r : Fin L) (c : Fin 64) : EReal :=
  lin (shapeCast ⟨2, ![L, 80]⟩ x h) (col w c) r

theorem entry_def (L : ℕ) {s : Shape} (x : s.Idx → EReal) (h : s.ShapeCasts ⟨2, ![L, 80]⟩)
    (w : (⟨2, ![80, 64]⟩ : Shape).Idx → EReal) (r : Fin L) (c : Fin 64) :
    entry L x h w r c = ∑ p : Fin 80, shapeCast ⟨2, ![L, 80]⟩ x h (ix2 r p) * w (ix2 p c) := rfl

/-- The same entry over a matrix already laid out as `L` rows of 80. -/
theorem entry_of_flat (L : ℕ) {s : Shape} (x : s.Idx → EReal) (h : s.ShapeCasts ⟨2, ![L, 80]⟩)
    (X : (⟨2, ![L, 80]⟩ : Shape).Idx → EReal) (hX : X = shapeCast ⟨2, ![L, 80]⟩ x h)
    (w : (⟨2, ![80, 64]⟩ : Shape).Idx → EReal) (r : Fin L) (c : Fin 64) :
    lin X (col w c) r = entry L x h w r c := by
  subst hX; rfl

end Cert.Hand

end
-- ==== Proof.Keep.lean ====
/-
  Buffers the program never overwrites.

  The program keeps twelve copies of the result, one per region: each region first receives a copy of the previous
  region's result and then writes its own rows into it.  Those twelve buffers are the only ones written after the
  initial reshapes: a region writes back only its output window, whose array is its own copy, and the host operation
  before a region writes only that copy.  So any other buffer — in particular each region's reshaped input and each
  weight matrix — holds at every region's entry what it held after the initial reshapes.

  A region's two input windows read their arrays and leave them as they were; a buffer that is none of a region's three
  arrays is untouched by it.
-/
import proofs.«151581_j48060684042914_2_alg».proof.Proof.Gen.KernelIdeal.Frame
import Idealize.ShloMosaic.Lib.StableHlo.Run

noncomputable section

namespace Cert.Hand.Keep

open Idealize.ShloMosaic Idealize.ShloMosaic.TcCoe Idealize.SL.Sem Idealize.ShloMosaic.StableHlo
open Idealize.ShloMosaic.Pipeline (Dat)
open Cert.KernelIdeal Cert.KernelIdeal.Gen

variable {F : FTy → Type} [FloatOps F]
variable (m : (ℓ : Loc nD τ sig) → Buf (Elt F) ℓ) (ρ : Dev nD → PrngReg)

/-- The twelve copies of the result, in program order. -/
def outRef : Fin 12 → Ref sig .tc :=
  ![main_v12, main_v13, main_v14, main_v15, main_v16, main_v17, main_v18, main_v19, main_v20, main_v21, main_v22, main_v23]

/-- A buffer that is none of the twelve copies of the result. -/
def NotOut (b : Ref sig .tc) : Prop := ∀ n : Fin 12, b ≠ outRef n

instance (b : Ref sig .tc) : Decidable (NotOut b) := by unfold NotOut; infer_instance

/-! ## A region leaves every buffer that is not a copy of the result as it found it -/

theorem keepR0 (c : Dev nD) (b : Ref sig .tc) (hb : NotOut b) :
    W2 m ρ c (Proc.devRef .tc b) = W1 m ρ c (Proc.devRef .tc b) := by
  by_cases h0 : b = main_v0
  · subst h0; exact (W2_arr m ρ c 0).trans (((dat0 (V1 m ρ) c).arrAt_in 0 rfl _).trans (A_eq0 (V1 m ρ) c 0))
  by_cases h1 : b = main_arg12
  · subst h1; exact (W2_arr m ρ c 1).trans (((dat0 (V1 m ρ) c).arrAt_in 1 rfl _).trans (A_eq0 (V1 m ρ) c 1))
  exact W2_of_ne m ρ c b fun w => by
    match w with
    | ⟨0, _⟩ => exact fun e => h0 e.symm
    | ⟨1, _⟩ => exact fun e => h1 e.symm
    | ⟨2, _⟩ => exact fun e => hb 0 e.symm
    | ⟨_ + 3, h⟩ => exact absurd h (Nat.not_lt.2 (Nat.le_add_left _ _))

theorem keepR1 (c : Dev nD) (b : Ref sig .tc) (hb : NotOut b) :
    W4 m ρ c (Proc.devRef .tc b) = W3 m ρ c (Proc.devRef .tc b) := by
  by_cases h0 : b = main_v1
  · subst h0; exact (W4_arr m ρ c 0).trans (((dat1 (V3 m ρ) c).arrAt_in 0 rfl _).trans (A_eq1 (V3 m ρ) c 0))
  by_cases h1 : b = main_arg12
  · subst h1; exact (W4_arr m ρ c 1).trans (((dat1 (V3 m ρ) c).arrAt_in 1 rfl _).trans (A_eq1 (V3 m ρ) c 1))
  exact W4_of_ne m ρ c b fun w => by
    match w with
    | ⟨0, _⟩ => exact fun e => h0 e.symm
    | ⟨1, _⟩ => exact fun e => h1 e.symm
    | ⟨2, _⟩ => exact fun e => hb 1 e.symm
    | ⟨_ + 3, h⟩ => exact absurd h (Nat.not_lt.2 (Nat.le_add_left _ _))

theorem keepR2 (c : Dev nD) (b : Ref sig .tc) (hb : NotOut b) :
    W6 m ρ c (Proc.devRef .tc b) = W5 m ρ c (Proc.devRef .tc b) := by
  by_cases h0 : b = main_v2
  · subst h0; exact (W6_arr m ρ c 0).trans (((dat2 (V5 m ρ) c).arrAt_in 0 rfl _).trans (A_eq2 (V5 m ρ) c 0))
  by_cases h1 : b = main_arg13
  · subst h1; exact (W6_arr m ρ c 1).trans (((dat2 (V5 m ρ) c).arrAt_in 1 rfl _).trans (A_eq2 (V5 m ρ) c 1))
  exact W6_of_ne m ρ c b fun w => by
    match w with
    | ⟨0, _⟩ => exact fun e => h0 e.symm
    | ⟨1, _⟩ => exact fun e => h1 e.symm
    | ⟨2, _⟩ => exact fun e => hb 2 e.symm
    | ⟨_ + 3, h⟩ => exact absurd h (Nat.not_lt.2 (Nat.le_add_left _ _))

theorem keepR3 (c : Dev nD) (b : Ref sig .tc) (hb : NotOut b) :
    W8 m ρ c (Proc.devRef .tc b) = W7 m ρ c (Proc.devRef .tc b) := by
  by_cases h0 : b = main_v3
  · subst h0; exact (W8_arr m ρ c 0).trans (((dat3 (V7 m ρ) c).arrAt_in 0 rfl _).trans (A_eq3 (V7 m ρ) c 0))
  by_cases h1 : b = main_arg13
  · subst h1; exact (W8_arr m ρ c 1).trans (((dat3 (V7 m ρ) c).arrAt_in 1 rfl _).trans (A_eq3 (V7 m ρ) c 1))
  exact W8_of_ne m ρ c b fun w => by
    match w with
    | ⟨0, _⟩ => exact fun e => h0 e.symm
    | ⟨1, _⟩ => exact fun e => h1 e.symm
    | ⟨2, _⟩ => exact fun e => hb 3 e.symm
    | ⟨_ + 3, h⟩ => exact absurd h (Nat.not_lt.2 (Nat.le_add_left _ _))

theorem keepR4 (c : Dev nD) (b : Ref sig .tc) (hb : NotOut b) :
    W10 m ρ c (Proc.devRef .tc b) = W9 m ρ c (Proc.devRef .tc b) := by
  by_cases h0 : b = main_v4
  · subst h0; exact (W10_arr m ρ c 0).trans (((dat4 (V9 m ρ) c).arrAt_in 0 rfl _).trans (A_eq4 (V9 m ρ) c 0))
  by_cases h1 : b = main_arg14
  · subst h1; exact (W10_arr m ρ c 1).trans (((dat4 (V9 m ρ) c).arrAt_in 1 rfl _).trans (A_eq4 (V9 m ρ) c 1))
  exact W10_of_ne m ρ c b fun w => by
    match w with
    | ⟨0, _⟩ => exact fun e => h0 e.symm
    | ⟨1, _⟩ => exact fun e => h1 e.symm
    | ⟨2, _⟩ => exact fun e => hb 4 e.symm
    | ⟨_ + 3, h⟩ => exact absurd h (Nat.not_lt.2 (Nat.le_add_left _ _))

theorem keepR5 (c : Dev nD) (b : Ref sig .tc) (hb : NotOut b) :
    W12 m ρ c (Proc.devRef .tc b) = W11 m ρ c (Proc.devRef .tc b) := by
  by_cases h0 : b = main_v5
  · subst h0; exact (W12_arr m ρ c 0).trans (((dat5 (V11 m ρ) c).arrAt_in 0 rfl _).trans (A_eq5 (V11 m ρ) c 0))
  by_cases h1 : b = main_arg14
  · subst h1; exact (W12_arr m ρ c 1).trans (((dat5 (V11 m ρ) c).arrAt_in 1 rfl _).trans (A_eq5 (V11 m ρ) c 1))
  exact W12_of_ne m ρ c b fun w => by
    match w with
    | ⟨0, _⟩ => exact fun e => h0 e.symm
    | ⟨1, _⟩ => exact fun e => h1 e.symm
    | ⟨2, _⟩ => exact fun e => hb 5 e.symm
    | ⟨_ + 3, h⟩ => exact absurd h (Nat.not_lt.2 (Nat.le_add_left _ _))

theorem keepR6 (c : Dev nD) (b : Ref sig .tc) (hb : NotOut b) :
    W14 m ρ c (Proc.devRef .tc b) = W13 m ρ c (Proc.devRef .tc b) := by
  by_cases h0 : b = main_v6
  · subst h0; exact (W14_arr m ρ c 0).trans (((dat6 (V13 m ρ) c).arrAt_in 0 rfl _).trans (A_eq6 (V13 m ρ) c 0))
  by_cases h1 : b = main_arg15
  · subst h1; exact (W14_arr m ρ c 1).trans (((dat6 (V13 m ρ) c).arrAt_in 1 rfl _).trans (A_eq6 (V13 m ρ) c 1))
  exact W14_of_ne m ρ c b fun w => by
    match w with
    | ⟨0, _⟩ => exact fun e => h0 e.symm
    | ⟨1, _⟩ => exact fun e => h1 e.symm
    | ⟨2, _⟩ => exact fun e => hb 6 e.symm
    | ⟨_ + 3, h⟩ => exact absurd h (Nat.not_lt.2 (Nat.le_add_left _ _))

theorem keepR7 (c : Dev nD) (b : Ref sig .tc) (hb : NotOut b) :
    W16 m ρ c (Proc.devRef .tc b) = W15 m ρ c (Proc.devRef .tc b) := by
  by_cases h0 : b = main_v7
  · subst h0; exact (W16_arr m ρ c 0).trans (((dat7 (V15 m ρ) c).arrAt_in 0 rfl _).trans (A_eq7 (V15 m ρ) c 0))
  by_cases h1 : b = main_arg15
  · subst h1; exact (W16_arr m ρ c 1).trans (((dat7 (V15 m ρ) c).arrAt_in 1 rfl _).trans (A_eq7 (V15 m ρ) c 1))
  exact W16_of_ne m ρ c b fun w => by
    match w with
    | ⟨0, _⟩ => exact fun e => h0 e.symm
    | ⟨1, _⟩ => exact fun e => h1 e.symm
    | ⟨2, _⟩ => exact fun e => hb 7 e.symm
    | ⟨_ + 3, h⟩ => exact absurd h (Nat.not_lt.2 (Nat.le_add_left _ _))

theorem keepR8 (c : Dev nD) (b : Ref sig .tc) (hb : NotOut b) :
    W18 m ρ c (Proc.devRef .tc b) = W17 m ρ c (Proc.devRef .tc b) := by
  by_cases h0 : b = main_v8
  · subst h0; exact (W18_arr m ρ c 0).trans (((dat8 (V17 m ρ) c).arrAt_in 0 rfl _).trans (A_eq8 (V17 m ρ) c 0))
  by_cases h1 : b = main_arg16
  · subst h1; exact (W18_arr m ρ c 1).trans (((dat8 (V17 m ρ) c).arrAt_in 1 rfl _).trans (A_eq8 (V17 m ρ) c 1))
  exact W18_of_ne m ρ c b fun w => by
    match w with
    | ⟨0, _⟩ => exact fun e => h0 e.symm
    | ⟨1, _⟩ => exact fun e => h1 e.symm
    | ⟨2, _⟩ => exact fun e => hb 8 e.symm
    | ⟨_ + 3, h⟩ => exact absurd h (Nat.not_lt.2 (Nat.le_add_left _ _))

theorem keepR9 (c : Dev nD) (b : Ref sig .tc) (hb : NotOut b) :
    W20 m ρ c (Proc.devRef .tc b) = W19 m ρ c (Proc.devRef .tc b) := by
  by_cases h0 : b = main_v9
  · subst h0; exact (W20_arr m ρ c 0).trans (((dat9 (V19 m ρ) c).arrAt_in 0 rfl _).trans (A_eq9 (V19 m ρ) c 0))
  by_cases h1 : b = main_arg16
  · subst h1; exact (W20_arr m ρ c 1).trans (((dat9 (V19 m ρ) c).arrAt_in 1 rfl _).trans (A_eq9 (V19 m ρ) c 1))
  exact W20_of_ne m ρ c b fun w => by
    match w with
    | ⟨0, _⟩ => exact fun e => h0 e.symm
    | ⟨1, _⟩ => exact fun e => h1 e.symm
    | ⟨2, _⟩ => exact fun e => hb 9 e.symm
    | ⟨_ + 3, h⟩ => exact absurd h (Nat.not_lt.2 (Nat.le_add_left _ _))

theorem keepR10 (c : Dev nD) (b : Ref sig .tc) (hb : NotOut b) :
    W22 m ρ c (Proc.devRef .tc b) = W21 m ρ c (Proc.devRef .tc b) := by
  by_cases h0 : b = main_v10
  · subst h0; exact (W22_arr m ρ c 0).trans (((dat10 (V21 m ρ) c).arrAt_in 0 rfl _).trans (A_eq10 (V21 m ρ) c 0))
  by_cases h1 : b = main_arg17
  · subst h1; exact (W22_arr m ρ c 1).trans (((dat10 (V21 m ρ) c).arrAt_in 1 rfl _).trans (A_eq10 (V21 m ρ) c 1))
  exact W22_of_ne m ρ c b fun w => by
    match w with
    | ⟨0, _⟩ => exact fun e => h0 e.symm
    | ⟨1, _⟩ => exact fun e => h1 e.symm
    | ⟨2, _⟩ => exact fun e => hb 10 e.symm
    | ⟨_ + 3, h⟩ => exact absurd h (Nat.not_lt.2 (Nat.le_add_left _ _))

/-! ## The host copy before a region writes only that region's copy of the result -/

theorem keepH1 (c : Dev nD) (b : Ref sig .tc) (hb : NotOut b) :
    W3 m ρ c (Proc.devRef .tc b) = W2 m ρ c (Proc.devRef .tc b) := by
  show StableHlo.after hostOps1 (W2 m ρ c) (Proc.devRef .tc b) = _
  simp only [StableHlo.after_cons, StableHlo.after_nil]
  exact StableHlo.unary_result_ne _ _ _ _ _ _ (hb 1)

theorem keepH2 (c : Dev nD) (b : Ref sig .tc) (hb : NotOut b) :
    W5 m ρ c (Proc.devRef .tc b) = W4 m ρ c (Proc.devRef .tc b) := by
  show StableHlo.after hostOps2 (W4 m ρ c) (Proc.devRef .tc b) = _
  simp only [StableHlo.after_cons, StableHlo.after_nil]
  exact StableHlo.unary_result_ne _ _ _ _ _ _ (hb 2)

theorem keepH3 (c : Dev nD) (b : Ref sig .tc) (hb : NotOut b) :
    W7 m ρ c (Proc.devRef .tc b) = W6 m ρ c (Proc.devRef .tc b) := by
  show StableHlo.after hostOps3 (W6 m ρ c) (Proc.devRef .tc b) = _
  simp only [StableHlo.after_cons, StableHlo.after_nil]
  exact StableHlo.unary_result_ne _ _ _ _ _ _ (hb 3)

theorem keepH4 (c : Dev nD) (b : Ref sig .tc) (hb : NotOut b) :
    W9 m ρ c (Proc.devRef .tc b) = W8 m ρ c (Proc.devRef .tc b) := by
  show StableHlo.after hostOps4 (W8 m ρ c) (Proc.devRef .tc b) = _
  simp only [StableHlo.after_cons, StableHlo.after_nil]
  exact StableHlo.unary_result_ne _ _ _ _ _ _ (hb 4)

theorem keepH5 (c : Dev nD) (b : Ref sig .tc) (hb : NotOut b) :
    W11 m ρ c (Proc.devRef .tc b) = W10 m ρ c (Proc.devRef .tc b) := by
  show StableHlo.after hostOps5 (W10 m ρ c) (Proc.devRef .tc b) = _
  simp only [StableHlo.after_cons, StableHlo.after_nil]
  exact StableHlo.unary_result_ne _ _ _ _ _ _ (hb 5)

theorem keepH6 (c : Dev nD) (b : Ref sig .tc) (hb : NotOut b) :
    W13 m ρ c (Proc.devRef .tc b) = W12 m ρ c (Proc.devRef .tc b) := by
  show StableHlo.after hostOps6 (W12 m ρ c) (Proc.devRef .tc b) = _
  simp only [StableHlo.after_cons, StableHlo.after_nil]
  exact StableHlo.unary_result_ne _ _ _ _ _ _ (hb 6)

theorem keepH7 (c : Dev nD) (b : Ref sig .tc) (hb : NotOut b) :
    W15 m ρ c (Proc.devRef .tc b) = W14 m ρ c (Proc.devRef .tc b) := by
  show StableHlo.after hostOps7 (W14 m ρ c) (Proc.devRef .tc b) = _
  simp only [StableHlo.after_cons, StableHlo.after_nil]
  exact StableHlo.unary_result_ne _ _ _ _ _ _ (hb 7)

theorem keepH8 (c : Dev nD) (b : Ref sig .tc) (hb : NotOut b) :
    W17 m ρ c (Proc.devRef .tc b) = W16 m ρ c (Proc.devRef .tc b) := by
  show StableHlo.after hostOps8 (W16 m ρ c) (Proc.devRef .tc b) = _
  simp only [StableHlo.after_cons, StableHlo.after_nil]
  exact StableHlo.unary_result_ne _ _ _ _ _ _ (hb 8)

theorem keepH9 (c : Dev nD) (b : Ref sig .tc) (hb : NotOut b) :
    W19 m ρ c (Proc.devRef .tc b) = W18 m ρ c (Proc.devRef .tc b) := by
  show StableHlo.after hostOps9 (W18 m ρ c) (Proc.devRef .tc b) = _
  simp only [StableHlo.after_cons, StableHlo.after_nil]
  exact StableHlo.unary_result_ne _ _ _ _ _ _ (hb 9)

theorem keepH10 (c : Dev nD) (b : Ref sig .tc) (hb : NotOut b) :
    W21 m ρ c (Proc.devRef .tc b) = W20 m ρ c (Proc.devRef .tc b) := by
  show StableHlo.after hostOps10 (W20 m ρ c) (Proc.devRef .tc b) = _
  simp only [StableHlo.after_cons, StableHlo.after_nil]
  exact StableHlo.unary_result_ne _ _ _ _ _ _ (hb 10)

theorem keepH11 (c : Dev nD) (b : Ref sig .tc) (hb : NotOut b) :
    W23 m ρ c (Proc.devRef .tc b) = W22 m ρ c (Proc.devRef .tc b) := by
  show StableHlo.after hostOps11 (W22 m ρ c) (Proc.devRef .tc b) = _
  simp only [StableHlo.after_cons, StableHlo.after_nil]
  exact StableHlo.unary_result_ne _ _ _ _ _ _ (hb 11)

/-! ## At every region's entry such a buffer holds what it held after the initial reshapes -/

theorem keep3 (c : Dev nD) (b : Ref sig .tc) (hb : NotOut b) : W3 m ρ c (Proc.devRef .tc b) = W1 m ρ c (Proc.devRef .tc b) :=
  (keepH1 m ρ c b hb).trans (keepR0 m ρ c b hb)
theorem keep5 (c : Dev nD) (b : Ref sig .tc) (hb : NotOut b) : W5 m ρ c (Proc.devRef .tc b) = W1 m ρ c (Proc.devRef .tc b) :=
  (keepH2 m ρ c b hb).trans ((keepR1 m ρ c b hb).trans (keep3 m ρ c b hb))
theorem keep7 (c : Dev nD) (b : Ref sig .tc) (hb : NotOut b) : W7 m ρ c (Proc.devRef .tc b) = W1 m ρ c (Proc.devRef .tc b) :=
  (keepH3 m ρ c b hb).trans ((keepR2 m ρ c b hb).trans (keep5 m ρ c b hb))
theorem keep9 (c : Dev nD) (b : Ref sig .tc) (hb : NotOut b) : W9 m ρ c (Proc.devRef .tc b) = W1 m ρ c (Proc.devRef .tc b) :=
  (keepH4 m ρ c b hb).trans ((keepR3 m ρ c b hb).trans (keep7 m ρ c b hb))
theorem keep11 (c : Dev nD) (b : Ref sig .tc) (hb : NotOut b) : W11 m ρ c (Proc.devRef .tc b) = W1 m ρ c (Proc.devRef .tc b) :=
  (keepH5 m ρ c b hb).trans ((keepR4 m ρ c b hb).trans (keep9 m ρ c b hb))
theorem keep13 (c : Dev nD) (b : Ref sig .tc) (hb : NotOut b) : W13 m ρ c (Proc.devRef .tc b) = W1 m ρ c (Proc.devRef .tc b) :=
  (keepH6 m ρ c b hb).trans ((keepR5 m ρ c b hb).trans (keep11 m ρ c b hb))
theorem keep15 (c : Dev nD) (b : Ref sig .tc) (hb : NotOut b) : W15 m ρ c (Proc.devRef .tc b) = W1 m ρ c (Proc.devRef .tc b) :=
  (keepH7 m ρ c b hb).trans ((keepR6 m ρ c b hb).trans (keep13 m ρ c b hb))
theorem keep17 (c : Dev nD) (b : Ref sig .tc) (hb : NotOut b) : W17 m ρ c (Proc.devRef .tc b) = W1 m ρ c (Proc.devRef .tc b) :=
  (keepH8 m ρ c b hb).trans ((keepR7 m ρ c b hb).trans (keep15 m ρ c b hb))
theorem keep19 (c : Dev nD) (b : Ref sig .tc) (hb : NotOut b) : W19 m ρ c (Proc.devRef .tc b) = W1 m ρ c (Proc.devRef .tc b) :=
  (keepH9 m ρ c b hb).trans ((keepR8 m ρ c b hb).trans (keep17 m ρ c b hb))
theorem keep21 (c : Dev nD) (b : Ref sig .tc) (hb : NotOut b) : W21 m ρ c (Proc.devRef .tc b) = W1 m ρ c (Proc.devRef .tc b) :=
  (keepH10 m ρ c b hb).trans ((keepR9 m ρ c b hb).trans (keep19 m ρ c b hb))
theorem keep23 (c : Dev nD) (b : Ref sig .tc) (hb : NotOut b) : W23 m ρ c (Proc.devRef .tc b) = W1 m ρ c (Proc.devRef .tc b) :=
  (keepH11 m ρ c b hb).trans ((keepR10 m ρ c b hb).trans (keep21 m ρ c b hb))

end Cert.Hand.Keep

end
-- ==== Proof.Reg0.lean ====
/-
  Region 0 of the kernel's program: rows 0 to 30000 of the result.

  The region's grid has 3 points.  Point t loads rows [10000·t, 10000·(t+1)) of the 30000 × 80 input matrix and the whole
  80 × 64 weight matrix, multiplies them, and writes the 10000 × 64 product over rows [0 + 10000·t, 0 + 10000·(t+1))
  of the 1,944,000 × 64 result array.  The blocks of the 3 points tile rows [0, 30000) exactly; no other row of
  the array is touched.  So after the region the array holds, at a row 0 + r with r < 30000 and a column c, the sum
  over p < 80 of x(r, p) · w(p, c), and at every other row what it held when the region was entered.
-/
import proofs.«151581_j48060684042914_2_alg».proof.Proof.Gen.KernelIdeal.Frame
import proofs.«151581_j48060684042914_2_alg».proof.Proof.Spec
import Idealize.ShloMosaic.Lib.Pipeline.Value
import Idealize.ShloMosaic.Lib.ValueIdx
import Idealize.ShloMosaic.Lib.Tactic

noncomputable section

namespace Cert.Hand.Reg0

open Idealize.ShloMosaic Idealize.ShloMosaic.TcCoe Idealize.SL.Sem Idealize.ShloMosaic.ValueIdx
open Idealize.ShloMosaic.Pipeline (Dat)
open Cert.KernelIdeal Cert.KernelIdeal.Gen Cert.Hand.Dense

theorem hz : (![0, 0] : Fin 2 → Nat) = fun _ => 0 := funext fun a => by fin_cases a <;> rfl

section Body
variable {F : FTy → Type} [FloatOps F]

/-- What the body leaves in the output's staging buffer is the product of the two loaded blocks: the one store covers
    the buffer, and both loads read their whole buffers. -/
theorem out_eq (x0 : Vec F S10000x80 .f32) (x1 : Vec F S80x64 .f32) : out0_2 x0 x1 = k0_pay1 x0 x1 := by
  unfold out0_2
  rw [View.canon_unit_zero hz]
  simp only [View.ld_unit_zero (S := S10000x80) hz, View.ld_unit_zero (S := S80x64) hz]

end Body

/-- The product of a 10000 × 80 block with the 80 × 64 matrix, at row r and column c: the casts to the narrower float
    format are the identity on the extended reals, and a product accumulated into the zero matrix is the plain sum. -/
theorem pay_entry (x0 : Vec Ideal S10000x80 .f32) (x1 : Vec Ideal S80x64 .f32) (r : Fin 10000) (c : Fin 64) :
    k0_pay1 (F := Ideal) x0 x1 (ix2 r c) = lin x0 (col x1 c) r := by
  unfold k0_pay1
  rw [shapeCast_self]
  exact matmul_entry (M := 10000) (K := 80) (N := 64) none (truncf .bf16 x0 bitsLt_bf16_f32) (truncf .bf16 x1 bitsLt_bf16_f32) r c

/-- The block index maps, decided over the grid: point t reads block t of the input, the whole weight matrix, and
    writes block 0 + t of the result. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 + t.val ∧ win0_2.index t (1 : Fin 2) = 0 :=
  (by decide +kernel : ∀ t : Fin grid0.N, _)

/-- The result's blocks of 10000 rows do not divide its 1,944,000 rows, so a block at the array's end would be cut;
    none of this grid's points is there: every point writes a whole 10000 × 64 block. -/
theorem whole_blocks : ∀ t : Fin cfg0.N, win0_2.xsize (grid0.coords t) (0 : Fin 2) = 10000
    ∧ win0_2.xsize (grid0.coords t) (1 : Fin 2) = 64 :=
  (by decide +kernel : ∀ t : Fin grid0.N, _)

variable (V : (c : Dev nD) → (b : Ref sig .tc) → Buf (Elt Ideal) ((c : Thread nD τ).loc b))

/-- The rows this region writes, as one function of the whole result index: row 0 + r holds row r of the product. -/
def G (c : Dev nD) : S1944000x64.Idx → EReal := fun i =>
  lin (V c main_v0 : S30000x80.Idx → EReal) (col (V c main_arg12 : S80x64.Idx → EReal) ⟨(i 1).val, (i 1).isLt⟩)
    ⟨((i 0).val - 0) % 30000, Nat.mod_lt _ (by decide)⟩

/-- What point t writes back is its block of `G`. -/
theorem flushed_eq (c : Dev nD) (t : Fin cfg0.N) :
    (dat0 V c).flushed 2 t = ((cfg0.win 2).blk t).view.read (Elt Ideal) (G V c) := by
  show (cfg0.win 2).cut (grid0.coords t) ((dat0 V c).after 2 t) = _
  rw [after0_2, out_eq]
  obtain ⟨e00, e01, e10, e11, e20, e21⟩ := idx_facts t
  have hN : t.val < 3 := t.isLt
  funext j
  have hj0 : (j 0).val < 10000 := Nat.lt_of_lt_of_le (j 0).isLt (win0_2.xsize_le (grid0.coords t) 0)
  have hj1 : (j 1).val < 64 := Nat.lt_of_lt_of_le (j 1).isLt (win0_2.xsize_le (grid0.coords t) 1)
  have ej : win0_2.xinj (grid0.coords t) j = ix2 (⟨(j 0).val, hj0⟩ : Fin 10000) (⟨(j 1).val, hj1⟩ : Fin 64) :=
    funext fun a => by match a with | ⟨0, _⟩ => rfl | ⟨1, _⟩ => rfl
  refine (congrArg (k0_pay1 (F := Ideal) (iblk0 V c 0 t) (iblk0 V c 1 t)) ej).trans
    ((pay_entry _ _ ⟨(j 0).val, hj0⟩ ⟨(j 1).val, hj1⟩).trans ?_)
  show lin (iblk0 V c 0 t) (col (iblk0 V c 1 t) ⟨(j 1).val, hj1⟩) ⟨(j 0).val, hj0⟩
    = G V c (((cfg0.win 2).blk t).view.emb j)
  have o0 : ((((cfg0.win 2).blk t).view.emb j) 0).val = win0_2.index t (0 : Fin 2) * 10000 + 1 * (j 0).val := rfl
  have o1 : ((((cfg0.win 2).blk t).view.emb j) 1).val = win0_2.index t (1 : Fin 2) * 64 + 1 * (j 1).val := rfl
  unfold G lin
  have hrow : (((((cfg0.win 2).blk t).view.emb j) 0).val - 0) % 30000 = t.val * 10000 + (j 0).val := by
    rw [o0, e20]; rw [Nat.mod_eq_of_lt (by omega)]; omega
  have hcol : ((((cfg0.win 2).blk t).view.emb j) 1).val = (j 1).val := by rw [o1, e21]; omega
  refine Finset.sum_congr rfl fun p _ => ?_
  have hp : p.val < 80 := p.isLt
  have ex : iblk0 V c 0 t (ix2 (⟨(j 0).val, hj0⟩ : Fin 10000) p)
      = (V c main_v0 : S30000x80.Idx → EReal) (ix2 ⟨(((((cfg0.win 2).blk t).view.emb j) 0).val - 0) % 30000, Nat.mod_lt _ (by decide)⟩ p) := by
    show V c main_v0 (((cfg0.win 0).blk t).view.emb (ix2 (⟨(j 0).val, hj0⟩ : Fin 10000) p)) = _
    refine congrArg (V c main_v0) (funext fun a => Fin.ext ?_)
    match a with
    | ⟨0, _⟩ => show win0_0.index t (0 : Fin 2) * 10000 + 1 * (j 0).val = _; rw [e00]; show _ = (((((cfg0.win 2).blk t).view.emb j) 0).val - 0) % 30000; rw [hrow]; omega
    | ⟨1, _⟩ => show win0_0.index t (1 : Fin 2) * 80 + 1 * p.val = p.val; rw [e01]; omega
  have ew : col (iblk0 V c 1 t) ⟨(j 1).val, hj1⟩ p
      = col (V c main_arg12 : S80x64.Idx → EReal) ⟨((((cfg0.win 2).blk t).view.emb j) 1).val, ((((cfg0.win 2).blk t).view.emb j) 1).isLt⟩ p := by
    show V c main_arg12 (((cfg0.win 1).blk t).view.emb (ix2 p (⟨(j 1).val, hj1⟩ : Fin 64))) = V c main_arg12 (ix2 p _)
    refine congrArg (V c main_arg12) (funext fun a => Fin.ext ?_)
    match a with
    | ⟨0, _⟩ => show win0_1.index t (0 : Fin 2) * 80 + 1 * p.val = p.val; rw [e10]; omega
    | ⟨1, _⟩ => show win0_1.index t (1 : Fin 2) * 64 + 1 * (j 1).val = ((((cfg0.win 2).blk t).view.emb j) 1).val; rw [e11, hcol]; omega
  rw [ex, ew]

/-- An index of the result is in point t's block iff each coordinate is in the block's range on its axis. -/
theorem mem_blk (t : Fin cfg0.N) (i : S1944000x64.Idx) :
    i ∈ ((cfg0.win 2).blk t).view.set ↔ ∀ a : Fin 2, win0_2.index t a * S10000x64.size a ≤ (i a).val ∧ (i a).val < win0_2.index t a * S10000x64.size a + win0_2.xsize (grid0.coords t) a := by
  show i ∈ ((View.whole main_v12).slice (win0_2.rect t)).set ↔ _
  rw [View.set_slice_whole, Rect.mem_set_unit]
  exact Iff.rfl

/-- The rows some point's block covers are exactly rows [0, 30000). -/
theorem covered_iff (i : S1944000x64.Idx) :
    (∃ t : Fin cfg0.N, (cfg0.win 2).flush t = true ∧ i ∈ ((cfg0.win 2).blk t).view.set) ↔ 0 ≤ (i 0).val ∧ (i 0).val < 30000 := by
  have hi1 : (i 1).val < 64 := (i 1).isLt
  constructor
  · rintro ⟨t, -, hi⟩
    rw [mem_blk] at hi
    obtain ⟨x0, x1⟩ := whole_blocks t
    have b0 : win0_2.index t (0 : Fin 2) * 10000 ≤ (i 0).val ∧ (i 0).val < win0_2.index t (0 : Fin 2) * 10000 + win0_2.xsize (grid0.coords t) (0 : Fin 2) := hi 0
    rw [x0] at b0
    obtain ⟨e00, e01, e10, e11, e20, e21⟩ := idx_facts t
    have hN : t.val < 3 := t.isLt
    omega
  · intro h
    have hq : ((i 0).val - 0) / 10000 < 3 := by omega
    let t : Fin cfg0.N := ⟨((i 0).val - 0) / 10000, hq⟩
    obtain ⟨e00, e01, e10, e11, e20, e21⟩ := idx_facts t
    obtain ⟨x0, x1⟩ := whole_blocks t
    have ht : t.val = ((i 0).val - 0) / 10000 := rfl
    refine ⟨t, flush0_2 t, ?_⟩
    rw [mem_blk]
    intro a
    match a with
    | ⟨0, _⟩ => show win0_2.index t (0 : Fin 2) * 10000 ≤ (i 0).val ∧ (i 0).val < win0_2.index t (0 : Fin 2) * 10000 + win0_2.xsize (grid0.coords t) (0 : Fin 2); rw [e20, x0, ht]; omega
    | ⟨1, _⟩ => show win0_2.index t (1 : Fin 2) * 64 ≤ (i 1).val ∧ (i 1).val < win0_2.index t (1 : Fin 2) * 64 + win0_2.xsize (grid0.coords t) (1 : Fin 2); rw [e21, x1]; omega

/-- The result array after the region: the product on rows [0, 30000), the entry contents elsewhere. -/
theorem final (c : Dev nD) (i : S1944000x64.Idx) :
    (dat0 V c).arrAt 2 cfg0.N i
      = if 0 ≤ (i 0).val ∧ (i 0).val < 30000 then G V c i else V c main_v12 i := by
  rw [(dat0 V c).arrAt_eq_piecewise 2 (G V c) (fun t _ => flushed_eq V c t) i, A_eq0]
  exact if_congr (covered_iff i) rfl rfl

/-- Inside the region's rows: row 0 + r, column q, holds entry (r, q) of the product. -/
theorem final_in (c : Dev nD) (i : S1944000x64.Idx) (r : Fin 30000) (q : Fin 64)
    (hr : (i 0).val = 0 + r.val) (hq : (i 1).val = q.val) :
    (dat0 V c).arrAt 2 cfg0.N i
      = lin (V c main_v0 : S30000x80.Idx → EReal) (col (V c main_arg12 : S80x64.Idx → EReal) q) r := by
  have hrl : r.val < 30000 := r.isLt
  rw [final, if_pos (by omega)]
  unfold G
  have e1 : (⟨((i 0).val - 0) % 30000, Nat.mod_lt _ (by decide)⟩ : Fin 30000) = r :=
    Fin.ext (by show ((i 0).val - 0) % 30000 = r.val; rw [hr, Nat.mod_eq_of_lt (by omega)]; omega)
  have e2 : (⟨(i 1).val, (i 1).isLt⟩ : Fin 64) = q := Fin.ext hq
  rw [e1, e2]

/-- Outside them the array is as the region found it. -/
theorem final_out (c : Dev nD) (i : S1944000x64.Idx) (h : ¬(0 ≤ (i 0).val ∧ (i 0).val < 30000)) :
    (dat0 V c).arrAt 2 cfg0.N i = V c main_v12 i := by
  rw [final, if_neg h]

end Cert.Hand.Reg0

end
-- ==== Proof.Reg1.lean ====
/-
  Region 1 of the kernel's program: rows 30000 to 54000 of the result.

  The region's grid has 4 points.  Point t loads rows [6000·t, 6000·(t+1)) of the 24000 × 80 input matrix and the whole
  80 × 64 weight matrix, multiplies them, and writes the 6000 × 64 product over rows [30000 + 6000·t, 30000 + 6000·(t+1))
  of the 1,944,000 × 64 result array.  The blocks of the 4 points tile rows [30000, 54000) exactly; no other row of
  the array is touched.  So after the region the array holds, at a row 30000 + r with r < 24000 and a column c, the sum
  over p < 80 of x(r, p) · w(p, c), and at every other row what it held when the region was entered.
-/
import proofs.«151581_j48060684042914_2_alg».proof.Proof.Gen.KernelIdeal.Frame
import proofs.«151581_j48060684042914_2_alg».proof.Proof.Spec
import Idealize.ShloMosaic.Lib.Pipeline.Value
import Idealize.ShloMosaic.Lib.ValueIdx
import Idealize.ShloMosaic.Lib.Tactic

noncomputable section

namespace Cert.Hand.Reg1

open Idealize.ShloMosaic Idealize.ShloMosaic.TcCoe Idealize.SL.Sem Idealize.ShloMosaic.ValueIdx
open Idealize.ShloMosaic.Pipeline (Dat)
open Cert.KernelIdeal Cert.KernelIdeal.Gen Cert.Hand.Dense

theorem hz : (![0, 0] : Fin 2 → Nat) = fun _ => 0 := funext fun a => by fin_cases a <;> rfl

section Body
variable {F : FTy → Type} [FloatOps F]

/-- What the body leaves in the output's staging buffer is the product of the two loaded blocks: the one store covers
    the buffer, and both loads read their whole buffers. -/
theorem out_eq (c : Dev nD) (i : grid1.Coords) (a1 : Memref sig .tc .vmem S6000x80 .f32) (h1 : a1.IsWhole)
    (a2 : Memref sig .tc .vmem S80x64 .f32) (h2 : a2.IsWhole) (a4 : Memref sig .tc .vmem S6000x64 .f32) (h4 : a4.IsWhole)
    (x0 : Vec F S6000x80 .f32) (x1 : Vec F S80x64 .f32) :
    out1_A_2 c i a1 h1 a2 h2 a4 h4 x0 x1 = k1_pay1 x0 x1 := by
  unfold out1_A_2
  rw [View.read_writes_eq_canon _ _ _ (cover1_A_2 c i a1 h1 a2 h2 a4 h4 x0 x1)]
  unfold kernelRun1_A
  dsimp only
  rw [View.canon_unit_zero hz]
  simp only [View.readAt_eq_ld, h1.read_unread, h2.read_unread, View.ld_unit_zero (S := S6000x80) hz,
    View.ld_unit_zero (S := S80x64) hz]

end Body

/-- The product of a 6000 × 80 block with the 80 × 64 matrix, at row r and column c: the casts to the narrower float
    format are the identity on the extended reals, and a product accumulated into the zero matrix is the plain sum. -/
theorem pay_entry (x0 : Vec Ideal S6000x80 .f32) (x1 : Vec Ideal S80x64 .f32) (r : Fin 6000) (c : Fin 64) :
    k1_pay1 (F := Ideal) x0 x1 (ix2 r c) = lin x0 (col x1 c) r := by
  unfold k1_pay1
  rw [shapeCast_self]
  exact matmul_entry (M := 6000) (K := 80) (N := 64) none (truncf .bf16 x0 bitsLt_bf16_f32) (truncf .bf16 x1 bitsLt_bf16_f32) r c

/-- The block index maps, decided over the grid: point t reads block t of the input, the whole weight matrix, and
    writes block 5 + t of the result. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 5 + t.val ∧ win1_2.index t (1 : Fin 2) = 0 :=
  (by decide +kernel : ∀ t : Fin grid1.N, _)

variable (V : (c : Dev nD) → (b : Ref sig .tc) → Buf (Elt Ideal) ((c : Thread nD τ).loc b))

/-- The rows this region writes, as one function of the whole result index: row 30000 + r holds row r of the product. -/
def G (c : Dev nD) : S1944000x64.Idx → EReal := fun i =>
  lin (V c main_v1 : S24000x80.Idx → EReal) (col (V c main_arg12 : S80x64.Idx → EReal) ⟨(i 1).val, (i 1).isLt⟩)
    ⟨((i 0).val - 30000) % 24000, Nat.mod_lt _ (by decide)⟩

/-- What point t writes back is its block of `G`. -/
theorem flushed_eq (c : Dev nD) (t : Fin cfg1.N) :
    (dat1 V c).flushed 2 t = ((cfg1.win 2).blk t).view.read (Elt Ideal) (G V c) := by
  show (cfg1.win 2).cut (grid1.coords t) ((dat1 V c).after 2 t) = _
  rw [after1_2]; unfold outsAt1; rw [out_eq]
  obtain ⟨e00, e01, e10, e11, e20, e21⟩ := idx_facts t
  have hN : t.val < 4 := t.isLt
  funext j
  have hj0 : (j 0).val < 6000 := (j 0).isLt
  have hj1 : (j 1).val < 64 := (j 1).isLt
  have ej : j = ix2 (⟨(j 0).val, hj0⟩ : Fin 6000) (⟨(j 1).val, hj1⟩ : Fin 64) :=
    funext fun a => by match a with | ⟨0, _⟩ => rfl | ⟨1, _⟩ => rfl
  refine (congrArg _ ej).trans ((pay_entry _ _ ⟨(j 0).val, hj0⟩ ⟨(j 1).val, hj1⟩).trans ?_)
  show lin (iblk1 V c 0 t) (col (iblk1 V c 1 t) ⟨(j 1).val, hj1⟩) ⟨(j 0).val, hj0⟩
    = G V c (((cfg1.win 2).blk t).view.emb j)
  have o0 : ((((cfg1.win 2).blk t).view.emb j) 0).val = win1_2.index t (0 : Fin 2) * 6000 + 1 * (j 0).val := rfl
  have o1 : ((((cfg1.win 2).blk t).view.emb j) 1).val = win1_2.index t (1 : Fin 2) * 64 + 1 * (j 1).val := rfl
  unfold G lin
  have hrow : (((((cfg1.win 2).blk t).view.emb j) 0).val - 30000) % 24000 = t.val * 6000 + (j 0).val := by
    rw [o0, e20]; rw [Nat.mod_eq_of_lt (by omega)]; omega
  have hcol : ((((cfg1.win 2).blk t).view.emb j) 1).val = (j 1).val := by rw [o1, e21]; omega
  refine Finset.sum_congr rfl fun p _ => ?_
  have hp : p.val < 80 := p.isLt
  have ex : iblk1 V c 0 t (ix2 (⟨(j 0).val, hj0⟩ : Fin 6000) p)
      = (V c main_v1 : S24000x80.Idx → EReal) (ix2 ⟨(((((cfg1.win 2).blk t).view.emb j) 0).val - 30000) % 24000, Nat.mod_lt _ (by decide)⟩ p) := by
    show V c main_v1 (((cfg1.win 0).blk t).view.emb (ix2 (⟨(j 0).val, hj0⟩ : Fin 6000) p)) = _
    refine congrArg (V c main_v1) (funext fun a => Fin.ext ?_)
    match a with
    | ⟨0, _⟩ => show win1_0.index t (0 : Fin 2) * 6000 + 1 * (j 0).val = _; rw [e00]; show _ = (((((cfg1.win 2).blk t).view.emb j) 0).val - 30000) % 24000; rw [hrow]; omega
    | ⟨1, _⟩ => show win1_0.index t (1 : Fin 2) * 80 + 1 * p.val = p.val; rw [e01]; omega
  have ew : col (iblk1 V c 1 t) ⟨(j 1).val, hj1⟩ p
      = col (V c main_arg12 : S80x64.Idx → EReal) ⟨((((cfg1.win 2).blk t).view.emb j) 1).val, ((((cfg1.win 2).blk t).view.emb j) 1).isLt⟩ p := by
    show V c main_arg12 (((cfg1.win 1).blk t).view.emb (ix2 p (⟨(j 1).val, hj1⟩ : Fin 64))) = V c main_arg12 (ix2 p _)
    refine congrArg (V c main_arg12) (funext fun a => Fin.ext ?_)
    match a with
    | ⟨0, _⟩ => show win1_1.index t (0 : Fin 2) * 80 + 1 * p.val = p.val; rw [e10]; omega
    | ⟨1, _⟩ => show win1_1.index t (1 : Fin 2) * 64 + 1 * (j 1).val = ((((cfg1.win 2).blk t).view.emb j) 1).val; rw [e11, hcol]; omega
  rw [ex, ew]

/-- An index of the result is in point t's block iff each coordinate is in the block's range on its axis. -/
theorem mem_blk (t : Fin cfg1.N) (i : S1944000x64.Idx) :
    i ∈ ((cfg1.win 2).blk t).view.set ↔ ∀ a : Fin 2, win1_2.index t a * S6000x64.size a ≤ (i a).val ∧ (i a).val < win1_2.index t a * S6000x64.size a + S6000x64.size a := by
  show i ∈ ((View.whole main_v13).slice (win1_2.rect t)).set ↔ _
  rw [View.set_slice_whole, Rect.mem_set_unit]
  exact Iff.rfl

/-- The rows some point's block covers are exactly rows [30000, 54000). -/
theorem covered_iff (i : S1944000x64.Idx) :
    (∃ t : Fin cfg1.N, (cfg1.win 2).flush t = true ∧ i ∈ ((cfg1.win 2).blk t).view.set) ↔ 30000 ≤ (i 0).val ∧ (i 0).val < 54000 := by
  have hi1 : (i 1).val < 64 := (i 1).isLt
  constructor
  · rintro ⟨t, -, hi⟩
    rw [mem_blk] at hi
    have b0 : win1_2.index t (0 : Fin 2) * 6000 ≤ (i 0).val ∧ (i 0).val < win1_2.index t (0 : Fin 2) * 6000 + 6000 := hi 0
    obtain ⟨e00, e01, e10, e11, e20, e21⟩ := idx_facts t
    have hN : t.val < 4 := t.isLt
    omega
  · intro h
    have hq : ((i 0).val - 30000) / 6000 < 4 := by omega
    let t : Fin cfg1.N := ⟨((i 0).val - 30000) / 6000, hq⟩
    obtain ⟨e00, e01, e10, e11, e20, e21⟩ := idx_facts t
    have ht : t.val = ((i 0).val - 30000) / 6000 := rfl
    refine ⟨t, flush1_2 t, ?_⟩
    rw [mem_blk]
    intro a
    match a with
    | ⟨0, _⟩ => show win1_2.index t (0 : Fin 2) * 6000 ≤ (i 0).val ∧ (i 0).val < win1_2.index t (0 : Fin 2) * 6000 + 6000; rw [e20, ht]; omega
    | ⟨1, _⟩ => show win1_2.index t (1 : Fin 2) * 64 ≤ (i 1).val ∧ (i 1).val < win1_2.index t (1 : Fin 2) * 64 + 64; rw [e21]; omega

/-- The result array after the region: the product on rows [30000, 54000), the entry contents elsewhere. -/
theorem final (c : Dev nD) (i : S1944000x64.Idx) :
    (dat1 V c).arrAt 2 cfg1.N i
      = if 30000 ≤ (i 0).val ∧ (i 0).val < 54000 then G V c i else V c main_v13 i := by
  rw [(dat1 V c).arrAt_eq_piecewise 2 (G V c) (fun t _ => flushed_eq V c t) i, A_eq1]
  exact if_congr (covered_iff i) rfl rfl

/-- Inside the region's rows: row 30000 + r, column q, holds entry (r, q) of the product. -/
theorem final_in (c : Dev nD) (i : S1944000x64.Idx) (r : Fin 24000) (q : Fin 64)
    (hr : (i 0).val = 30000 + r.val) (hq : (i 1).val = q.val) :
    (dat1 V c).arrAt 2 cfg1.N i
      = lin (V c main_v1 : S24000x80.Idx → EReal) (col (V c main_arg12 : S80x64.Idx → EReal) q) r := by
  have hrl : r.val < 24000 := r.isLt
  rw [final, if_pos (by omega)]
  unfold G
  have e1 : (⟨((i 0).val - 30000) % 24000, Nat.mod_lt _ (by decide)⟩ : Fin 24000) = r :=
    Fin.ext (by show ((i 0).val - 30000) % 24000 = r.val; rw [hr, Nat.mod_eq_of_lt (by omega)]; omega)
  have e2 : (⟨(i 1).val, (i 1).isLt⟩ : Fin 64) = q := Fin.ext hq
  rw [e1, e2]

/-- Outside them the array is as the region found it. -/
theorem final_out (c : Dev nD) (i : S1944000x64.Idx) (h : ¬(30000 ≤ (i 0).val ∧ (i 0).val < 54000)) :
    (dat1 V c).arrAt 2 cfg1.N i = V c main_v13 i := by
  rw [final, if_neg h]

end Cert.Hand.Reg1

end
-- ==== Proof.Reg2.lean ====
/-
  Region 2 of the kernel's program: rows 54000 to 144000 of the result.

  The region's grid has 10 points.  Point t loads rows [9000·t, 9000·(t+1)) of the 90000 × 80 input matrix and the whole
  80 × 64 weight matrix, multiplies them, and writes the 9000 × 64 product over rows [54000 + 9000·t, 54000 + 9000·(t+1))
  of the 1,944,000 × 64 result array.  The blocks of the 10 points tile rows [54000, 144000) exactly; no other row of
  the array is touched.  So after the region the array holds, at a row 54000 + r with r < 90000 and a column c, the sum
  over p < 80 of x(r, p) · w(p, c), and at every other row what it held when the region was entered.
-/
import proofs.«151581_j48060684042914_2_alg».proof.Proof.Gen.KernelIdeal.Frame
import proofs.«151581_j48060684042914_2_alg».proof.Proof.Spec
import Idealize.ShloMosaic.Lib.Pipeline.Value
import Idealize.ShloMosaic.Lib.ValueIdx
import Idealize.ShloMosaic.Lib.Tactic

noncomputable section

namespace Cert.Hand.Reg2

open Idealize.ShloMosaic Idealize.ShloMosaic.TcCoe Idealize.SL.Sem Idealize.ShloMosaic.ValueIdx
open Idealize.ShloMosaic.Pipeline (Dat)
open Cert.KernelIdeal Cert.KernelIdeal.Gen Cert.Hand.Dense

theorem hz : (![0, 0] : Fin 2 → Nat) = fun _ => 0 := funext fun a => by fin_cases a <;> rfl

section Body
variable {F : FTy → Type} [FloatOps F]

/-- What the body leaves in the output's staging buffer is the product of the two loaded blocks: the one store covers
    the buffer, and both loads read their whole buffers. -/
theorem out_eq (c : Dev nD) (i : grid2.Coords) (a1 : Memref sig .tc .vmem S9000x80 .f32) (h1 : a1.IsWhole)
    (a2 : Memref sig .tc .vmem S80x64 .f32) (h2 : a2.IsWhole) (a4 : Memref sig .tc .vmem S9000x64 .f32) (h4 : a4.IsWhole)
    (x0 : Vec F S9000x80 .f32) (x1 : Vec F S80x64 .f32) :
    out2_A_2 c i a1 h1 a2 h2 a4 h4 x0 x1 = k2_pay1 x0 x1 := by
  unfold out2_A_2
  rw [View.read_writes_eq_canon _ _ _ (cover2_A_2 c i a1 h1 a2 h2 a4 h4 x0 x1)]
  unfold kernelRun2_A
  dsimp only
  rw [View.canon_unit_zero hz]
  simp only [View.readAt_eq_ld, h1.read_unread, h2.read_unread, View.ld_unit_zero (S := S9000x80) hz,
    View.ld_unit_zero (S := S80x64) hz]

end Body

/-- The product of a 9000 × 80 block with the 80 × 64 matrix, at row r and column c: the casts to the narrower float
    format are the identity on the extended reals, and a product accumulated into the zero matrix is the plain sum. -/
theorem pay_entry (x0 : Vec Ideal S9000x80 .f32) (x1 : Vec Ideal S80x64 .f32) (r : Fin 9000) (c : Fin 64) :
    k2_pay1 (F := Ideal) x0 x1 (ix2 r c) = lin x0 (col x1 c) r := by
  unfold k2_pay1
  rw [shapeCast_self]
  exact matmul_entry (M := 9000) (K := 80) (N := 64) none (truncf .bf16 x0 bitsLt_bf16_f32) (truncf .bf16 x1 bitsLt_bf16_f32) r c

/-- The block index maps, decided over the grid: point t reads block t of the input, the whole weight matrix, and
    writes block 6 + t of the result. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 6 + t.val ∧ win2_2.index t (1 : Fin 2) = 0 :=
  (by decide +kernel : ∀ t : Fin grid2.N, _)

variable (V : (c : Dev nD) → (b : Ref sig .tc) → Buf (Elt Ideal) ((c : Thread nD τ).loc b))

/-- The rows this region writes, as one function of the whole result index: row 54000 + r holds row r of the product. -/
def G (c : Dev nD) : S1944000x64.Idx → EReal := fun i =>
  lin (V c main_v2 : S90000x80.Idx → EReal) (col (V c main_arg13 : S80x64.Idx → EReal) ⟨(i 1).val, (i 1).isLt⟩)
    ⟨((i 0).val - 54000) % 90000, Nat.mod_lt _ (by decide)⟩

/-- What point t writes back is its block of `G`. -/
theorem flushed_eq (c : Dev nD) (t : Fin cfg2.N) :
    (dat2 V c).flushed 2 t = ((cfg2.win 2).blk t).view.read (Elt Ideal) (G V c) := by
  show (cfg2.win 2).cut (grid2.coords t) ((dat2 V c).after 2 t) = _
  rw [after2_2]; unfold outsAt2; rw [out_eq]
  obtain ⟨e00, e01, e10, e11, e20, e21⟩ := idx_facts t
  have hN : t.val < 10 := t.isLt
  funext j
  have hj0 : (j 0).val < 9000 := (j 0).isLt
  have hj1 : (j 1).val < 64 := (j 1).isLt
  have ej : j = ix2 (⟨(j 0).val, hj0⟩ : Fin 9000) (⟨(j 1).val, hj1⟩ : Fin 64) :=
    funext fun a => by match a with | ⟨0, _⟩ => rfl | ⟨1, _⟩ => rfl
  refine (congrArg _ ej).trans ((pay_entry _ _ ⟨(j 0).val, hj0⟩ ⟨(j 1).val, hj1⟩).trans ?_)
  show lin (iblk2 V c 0 t) (col (iblk2 V c 1 t) ⟨(j 1).val, hj1⟩) ⟨(j 0).val, hj0⟩
    = G V c (((cfg2.win 2).blk t).view.emb j)
  have o0 : ((((cfg2.win 2).blk t).view.emb j) 0).val = win2_2.index t (0 : Fin 2) * 9000 + 1 * (j 0).val := rfl
  have o1 : ((((cfg2.win 2).blk t).view.emb j) 1).val = win2_2.index t (1 : Fin 2) * 64 + 1 * (j 1).val := rfl
  unfold G lin
  have hrow : (((((cfg2.win 2).blk t).view.emb j) 0).val - 54000) % 90000 = t.val * 9000 + (j 0).val := by
    rw [o0, e20]; rw [Nat.mod_eq_of_lt (by omega)]; omega
  have hcol : ((((cfg2.win 2).blk t).view.emb j) 1).val = (j 1).val := by rw [o1, e21]; omega
  refine Finset.sum_congr rfl fun p _ => ?_
  have hp : p.val < 80 := p.isLt
  have ex : iblk2 V c 0 t (ix2 (⟨(j 0).val, hj0⟩ : Fin 9000) p)
      = (V c main_v2 : S90000x80.Idx → EReal) (ix2 ⟨(((((cfg2.win 2).blk t).view.emb j) 0).val - 54000) % 90000, Nat.mod_lt _ (by decide)⟩ p) := by
    show V c main_v2 (((cfg2.win 0).blk t).view.emb (ix2 (⟨(j 0).val, hj0⟩ : Fin 9000) p)) = _
    refine congrArg (V c main_v2) (funext fun a => Fin.ext ?_)
    match a with
    | ⟨0, _⟩ => show win2_0.index t (0 : Fin 2) * 9000 + 1 * (j 0).val = _; rw [e00]; show _ = (((((cfg2.win 2).blk t).view.emb j) 0).val - 54000) % 90000; rw [hrow]; omega
    | ⟨1, _⟩ => show win2_0.index t (1 : Fin 2) * 80 + 1 * p.val = p.val; rw [e01]; omega
  have ew : col (iblk2 V c 1 t) ⟨(j 1).val, hj1⟩ p
      = col (V c main_arg13 : S80x64.Idx → EReal) ⟨((((cfg2.win 2).blk t).view.emb j) 1).val, ((((cfg2.win 2).blk t).view.emb j) 1).isLt⟩ p := by
    show V c main_arg13 (((cfg2.win 1).blk t).view.emb (ix2 p (⟨(j 1).val, hj1⟩ : Fin 64))) = V c main_arg13 (ix2 p _)
    refine congrArg (V c main_arg13) (funext fun a => Fin.ext ?_)
    match a with
    | ⟨0, _⟩ => show win2_1.index t (0 : Fin 2) * 80 + 1 * p.val = p.val; rw [e10]; omega
    | ⟨1, _⟩ => show win2_1.index t (1 : Fin 2) * 64 + 1 * (j 1).val = ((((cfg2.win 2).blk t).view.emb j) 1).val; rw [e11, hcol]; omega
  rw [ex, ew]

/-- An index of the result is in point t's block iff each coordinate is in the block's range on its axis. -/
theorem mem_blk (t : Fin cfg2.N) (i : S1944000x64.Idx) :
    i ∈ ((cfg2.win 2).blk t).view.set ↔ ∀ a : Fin 2, win2_2.index t a * S9000x64.size a ≤ (i a).val ∧ (i a).val < win2_2.index t a * S9000x64.size a + S9000x64.size a := by
  show i ∈ ((View.whole main_v14).slice (win2_2.rect t)).set ↔ _
  rw [View.set_slice_whole, Rect.mem_set_unit]
  exact Iff.rfl

/-- The rows some point's block covers are exactly rows [54000, 144000). -/
theorem covered_iff (i : S1944000x64.Idx) :
    (∃ t : Fin cfg2.N, (cfg2.win 2).flush t = true ∧ i ∈ ((cfg2.win 2).blk t).view.set) ↔ 54000 ≤ (i 0).val ∧ (i 0).val < 144000 := by
  have hi1 : (i 1).val < 64 := (i 1).isLt
  constructor
  · rintro ⟨t, -, hi⟩
    rw [mem_blk] at hi
    have b0 : win2_2.index t (0 : Fin 2) * 9000 ≤ (i 0).val ∧ (i 0).val < win2_2.index t (0 : Fin 2) * 9000 + 9000 := hi 0
    obtain ⟨e00, e01, e10, e11, e20, e21⟩ := idx_facts t
    have hN : t.val < 10 := t.isLt
    omega
  · intro h
    have hq : ((i 0).val - 54000) / 9000 < 10 := by omega
    let t : Fin cfg2.N := ⟨((i 0).val - 54000) / 9000, hq⟩
    obtain ⟨e00, e01, e10, e11, e20, e21⟩ := idx_facts t
    have ht : t.val = ((i 0).val - 54000) / 9000 := rfl
    refine ⟨t, flush2_2 t, ?_⟩
    rw [mem_blk]
    intro a
    match a with
    | ⟨0, _⟩ => show win2_2.index t (0 : Fin 2) * 9000 ≤ (i 0).val ∧ (i 0).val < win2_2.index t (0 : Fin 2) * 9000 + 9000; rw [e20, ht]; omega
    | ⟨1, _⟩ => show win2_2.index t (1 : Fin 2) * 64 ≤ (i 1).val ∧ (i 1).val < win2_2.index t (1 : Fin 2) * 64 + 64; rw [e21]; omega

/-- The result array after the region: the product on rows [54000, 144000), the entry contents elsewhere. -/
theorem final (c : Dev nD) (i : S1944000x64.Idx) :
    (dat2 V c).arrAt 2 cfg2.N i
      = if 54000 ≤ (i 0).val ∧ (i 0).val < 144000 then G V c i else V c main_v14 i := by
  rw [(dat2 V c).arrAt_eq_piecewise 2 (G V c) (fun t _ => flushed_eq V c t) i, A_eq2]
  exact if_congr (covered_iff i) rfl rfl

/-- Inside the region's rows: row 54000 + r, column q, holds entry (r, q) of the product. -/
theorem final_in (c : Dev nD) (i : S1944000x64.Idx) (r : Fin 90000) (q : Fin 64)
    (hr : (i 0).val = 54000 + r.val) (hq : (i 1).val = q.val) :
    (dat2 V c).arrAt 2 cfg2.N i
      = lin (V c main_v2 : S90000x80.Idx → EReal) (col (V c main_arg13 : S80x64.Idx → EReal) q) r := by
  have hrl : r.val < 90000 := r.isLt
  rw [final, if_pos (by omega)]
  unfold G
  have e1 : (⟨((i 0).val - 54000) % 90000, Nat.mod_lt _ (by decide)⟩ : Fin 90000) = r :=
    Fin.ext (by show ((i 0).val - 54000) % 90000 = r.val; rw [hr, Nat.mod_eq_of_lt (by omega)]; omega)
  have e2 : (⟨(i 1).val, (i 1).isLt⟩ : Fin 64) = q := Fin.ext hq
  rw [e1, e2]

/-- Outside them the array is as the region found it. -/
theorem final_out (c : Dev nD) (i : S1944000x64.Idx) (h : ¬(54000 ≤ (i 0).val ∧ (i 0).val < 144000)) :
    (dat2 V c).arrAt 2 cfg2.N i = V c main_v14 i := by
  rw [final, if_neg h]

end Cert.Hand.Reg2

end
-- ==== Proof.Reg3.lean ====
/-
  Region 3 of the kernel's program: rows 144000 to 216000 of the result.

  The region's grid has 6 points.  Point t loads rows [12000·t, 12000·(t+1)) of the 72000 × 80 input matrix and the whole
  80 × 64 weight matrix, multiplies them, and writes the 12000 × 64 product over rows [144000 + 12000·t, 144000 + 12000·(t+1))
  of the 1,944,000 × 64 result array.  The blocks of the 6 points tile rows [144000, 216000) exactly; no other row of
  the array is touched.  So after the region the array holds, at a row 144000 + r with r < 72000 and a column c, the sum
  over p < 80 of x(r, p) · w(p, c), and at every other row what it held when the region was entered.
-/
import proofs.«151581_j48060684042914_2_alg».proof.Proof.Gen.KernelIdeal.Frame
import proofs.«151581_j48060684042914_2_alg».proof.Proof.Spec
import Idealize.ShloMosaic.Lib.Pipeline.Value
import Idealize.ShloMosaic.Lib.ValueIdx
import Idealize.ShloMosaic.Lib.Tactic

noncomputable section

namespace Cert.Hand.Reg3

open Idealize.ShloMosaic Idealize.ShloMosaic.TcCoe Idealize.SL.Sem Idealize.ShloMosaic.ValueIdx
open Idealize.ShloMosaic.Pipeline (Dat)
open Cert.KernelIdeal Cert.KernelIdeal.Gen Cert.Hand.Dense

theorem hz : (![0, 0] : Fin 2 → Nat) = fun _ => 0 := funext fun a => by fin_cases a <;> rfl

section Body
variable {F : FTy → Type} [FloatOps F]

/-- What the body leaves in the output's staging buffer is the product of the two loaded blocks: the one store covers
    the buffer, and both loads read their whole buffers. -/
theorem out_eq (c : Dev nD) (i : grid3.Coords) (a1 : Memref sig .tc .vmem S12000x80 .f32) (h1 : a1.IsWhole)
    (a2 : Memref sig .tc .vmem S80x64 .f32) (h2 : a2.IsWhole) (a4 : Memref sig .tc .vmem S12000x64 .f32) (h4 : a4.IsWhole)
    (x0 : Vec F S12000x80 .f32) (x1 : Vec F S80x64 .f32) :
    out3_A_2 c i a1 h1 a2 h2 a4 h4 x0 x1 = k3_pay1 x0 x1 := by
  unfold out3_A_2
  rw [View.read_writes_eq_canon _ _ _ (cover3_A_2 c i a1 h1 a2 h2 a4 h4 x0 x1)]
  unfold kernelRun3_A
  dsimp only
  rw [View.canon_unit_zero hz]
  simp only [View.readAt_eq_ld, h1.read_unread, h2.read_unread, View.ld_unit_zero (S := S12000x80) hz,
    View.ld_unit_zero (S := S80x64) hz]

end Body

/-- The product of a 12000 × 80 block with the 80 × 64 matrix, at row r and column c: the casts to the narrower float
    format are the identity on the extended reals, and a product accumulated into the zero matrix is the plain sum. -/
theorem pay_entry (x0 : Vec Ideal S12000x80 .f32) (x1 : Vec Ideal S80x64 .f32) (r : Fin 12000) (c : Fin 64) :
    k3_pay1 (F := Ideal) x0 x1 (ix2 r c) = lin x0 (col x1 c) r := by
  unfold k3_pay1
  rw [shapeCast_self]
  exact matmul_entry (M := 12000) (K := 80) (N := 64) none (truncf .bf16 x0 bitsLt_bf16_f32) (truncf .bf16 x1 bitsLt_bf16_f32) r c

/-- The block index maps, decided over the grid: point t reads block t of the input, the whole weight matrix, and
    writes block 12 + t of the result. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 12 + t.val ∧ win3_2.index t (1 : Fin 2) = 0 :=
  (by decide +kernel : ∀ t : Fin grid3.N, _)

variable (V : (c : Dev nD) → (b : Ref sig .tc) → Buf (Elt Ideal) ((c : Thread nD τ).loc b))

/-- The rows this region writes, as one function of the whole result index: row 144000 + r holds row r of the product. -/
def G (c : Dev nD) : S1944000x64.Idx → EReal := fun i =>
  lin (V c main_v3 : S72000x80.Idx → EReal) (col (V c main_arg13 : S80x64.Idx → EReal) ⟨(i 1).val, (i 1).isLt⟩)
    ⟨((i 0).val - 144000) % 72000, Nat.mod_lt _ (by decide)⟩

/-- What point t writes back is its block of `G`. -/
theorem flushed_eq (c : Dev nD) (t : Fin cfg3.N) :
    (dat3 V c).flushed 2 t = ((cfg3.win 2).blk t).view.read (Elt Ideal) (G V c) := by
  show (cfg3.win 2).cut (grid3.coords t) ((dat3 V c).after 2 t) = _
  rw [after3_2]; unfold outsAt3; rw [out_eq]
  obtain ⟨e00, e01, e10, e11, e20, e21⟩ := idx_facts t
  have hN : t.val < 6 := t.isLt
  funext j
  have hj0 : (j 0).val < 12000 := (j 0).isLt
  have hj1 : (j 1).val < 64 := (j 1).isLt
  have ej : j = ix2 (⟨(j 0).val, hj0⟩ : Fin 12000) (⟨(j 1).val, hj1⟩ : Fin 64) :=
    funext fun a => by match a with | ⟨0, _⟩ => rfl | ⟨1, _⟩ => rfl
  refine (congrArg _ ej).trans ((pay_entry _ _ ⟨(j 0).val, hj0⟩ ⟨(j 1).val, hj1⟩).trans ?_)
  show lin (iblk3 V c 0 t) (col (iblk3 V c 1 t) ⟨(j 1).val, hj1⟩) ⟨(j 0).val, hj0⟩
    = G V c (((cfg3.win 2).blk t).view.emb j)
  have o0 : ((((cfg3.win 2).blk t).view.emb j) 0).val = win3_2.index t (0 : Fin 2) * 12000 + 1 * (j 0).val := rfl
  have o1 : ((((cfg3.win 2).blk t).view.emb j) 1).val = win3_2.index t (1 : Fin 2) * 64 + 1 * (j 1).val := rfl
  unfold G lin
  have hrow : (((((cfg3.win 2).blk t).view.emb j) 0).val - 144000) % 72000 = t.val * 12000 + (j 0).val := by
    rw [o0, e20]; rw [Nat.mod_eq_of_lt (by omega)]; omega
  have hcol : ((((cfg3.win 2).blk t).view.emb j) 1).val = (j 1).val := by rw [o1, e21]; omega
  refine Finset.sum_congr rfl fun p _ => ?_
  have hp : p.val < 80 := p.isLt
  have ex : iblk3 V c 0 t (ix2 (⟨(j 0).val, hj0⟩ : Fin 12000) p)
      = (V c main_v3 : S72000x80.Idx → EReal) (ix2 ⟨(((((cfg3.win 2).blk t).view.emb j) 0).val - 144000) % 72000, Nat.mod_lt _ (by decide)⟩ p) := by
    show V c main_v3 (((cfg3.win 0).blk t).view.emb (ix2 (⟨(j 0).val, hj0⟩ : Fin 12000) p)) = _
    refine congrArg (V c main_v3) (funext fun a => Fin.ext ?_)
    match a with
    | ⟨0, _⟩ => show win3_0.index t (0 : Fin 2) * 12000 + 1 * (j 0).val = _; rw [e00]; show _ = (((((cfg3.win 2).blk t).view.emb j) 0).val - 144000) % 72000; rw [hrow]; omega
    | ⟨1, _⟩ => show win3_0.index t (1 : Fin 2) * 80 + 1 * p.val = p.val; rw [e01]; omega
  have ew : col (iblk3 V c 1 t) ⟨(j 1).val, hj1⟩ p
      = col (V c main_arg13 : S80x64.Idx → EReal) ⟨((((cfg3.win 2).blk t).view.emb j) 1).val, ((((cfg3.win 2).blk t).view.emb j) 1).isLt⟩ p := by
    show V c main_arg13 (((cfg3.win 1).blk t).view.emb (ix2 p (⟨(j 1).val, hj1⟩ : Fin 64))) = V c main_arg13 (ix2 p _)
    refine congrArg (V c main_arg13) (funext fun a => Fin.ext ?_)
    match a with
    | ⟨0, _⟩ => show win3_1.index t (0 : Fin 2) * 80 + 1 * p.val = p.val; rw [e10]; omega
    | ⟨1, _⟩ => show win3_1.index t (1 : Fin 2) * 64 + 1 * (j 1).val = ((((cfg3.win 2).blk t).view.emb j) 1).val; rw [e11, hcol]; omega
  rw [ex, ew]

/-- An index of the result is in point t's block iff each coordinate is in the block's range on its axis. -/
theorem mem_blk (t : Fin cfg3.N) (i : S1944000x64.Idx) :
    i ∈ ((cfg3.win 2).blk t).view.set ↔ ∀ a : Fin 2, win3_2.index t a * S12000x64.size a ≤ (i a).val ∧ (i a).val < win3_2.index t a * S12000x64.size a + S12000x64.size a := by
  show i ∈ ((View.whole main_v15).slice (win3_2.rect t)).set ↔ _
  rw [View.set_slice_whole, Rect.mem_set_unit]
  exact Iff.rfl

/-- The rows some point's block covers are exactly rows [144000, 216000). -/
theorem covered_iff (i : S1944000x64.Idx) :
    (∃ t : Fin cfg3.N, (cfg3.win 2).flush t = true ∧ i ∈ ((cfg3.win 2).blk t).view.set) ↔ 144000 ≤ (i 0).val ∧ (i 0).val < 216000 := by
  have hi1 : (i 1).val < 64 := (i 1).isLt
  constructor
  · rintro ⟨t, -, hi⟩
    rw [mem_blk] at hi
    have b0 : win3_2.index t (0 : Fin 2) * 12000 ≤ (i 0).val ∧ (i 0).val < win3_2.index t (0 : Fin 2) * 12000 + 12000 := hi 0
    obtain ⟨e00, e01, e10, e11, e20, e21⟩ := idx_facts t
    have hN : t.val < 6 := t.isLt
    omega
  · intro h
    have hq : ((i 0).val - 144000) / 12000 < 6 := by omega
    let t : Fin cfg3.N := ⟨((i 0).val - 144000) / 12000, hq⟩
    obtain ⟨e00, e01, e10, e11, e20, e21⟩ := idx_facts t
    have ht : t.val = ((i 0).val - 144000) / 12000 := rfl
    refine ⟨t, flush3_2 t, ?_⟩
    rw [mem_blk]
    intro a
    match a with
    | ⟨0, _⟩ => show win3_2.index t (0 : Fin 2) * 12000 ≤ (i 0).val ∧ (i 0).val < win3_2.index t (0 : Fin 2) * 12000 + 12000; rw [e20, ht]; omega
    | ⟨1, _⟩ => show win3_2.index t (1 : Fin 2) * 64 ≤ (i 1).val ∧ (i 1).val < win3_2.index t (1 : Fin 2) * 64 + 64; rw [e21]; omega

/-- The result array after the region: the product on rows [144000, 216000), the entry contents elsewhere. -/
theorem final (c : Dev nD) (i : S1944000x64.Idx) :
    (dat3 V c).arrAt 2 cfg3.N i
      = if 144000 ≤ (i 0).val ∧ (i 0).val < 216000 then G V c i else V c main_v15 i := by
  rw [(dat3 V c).arrAt_eq_piecewise 2 (G V c) (fun t _ => flushed_eq V c t) i, A_eq3]
  exact if_congr (covered_iff i) rfl rfl

/-- Inside the region's rows: row 144000 + r, column q, holds entry (r, q) of the product. -/
theorem final_in (c : Dev nD) (i : S1944000x64.Idx) (r : Fin 72000) (q : Fin 64)
    (hr : (i 0).val = 144000 + r.val) (hq : (i 1).val = q.val) :
    (dat3 V c).arrAt 2 cfg3.N i
      = lin (V c main_v3 : S72000x80.Idx → EReal) (col (V c main_arg13 : S80x64.Idx → EReal) q) r := by
  have hrl : r.val < 72000 := r.isLt
  rw [final, if_pos (by omega)]
  unfold G
  have e1 : (⟨((i 0).val - 144000) % 72000, Nat.mod_lt _ (by decide)⟩ : Fin 72000) = r :=
    Fin.ext (by show ((i 0).val - 144000) % 72000 = r.val; rw [hr, Nat.mod_eq_of_lt (by omega)]; omega)
  have e2 : (⟨(i 1).val, (i 1).isLt⟩ : Fin 64) = q := Fin.ext hq
  rw [e1, e2]

/-- Outside them the array is as the region found it. -/
theorem final_out (c : Dev nD) (i : S1944000x64.Idx) (h : ¬(144000 ≤ (i 0).val ∧ (i 0).val < 216000)) :
    (dat3 V c).arrAt 2 cfg3.N i = V c main_v15 i := by
  rw [final, if_neg h]

end Cert.Hand.Reg3

end
-- ==== Proof.Reg4.lean ====
/-
  Region 4 of the kernel's program: rows 216000 to 366000 of the result.

  The region's grid has 25 points.  Point t loads rows [6000·t, 6000·(t+1)) of the 150000 × 80 input matrix and the whole
  80 × 64 weight matrix, multiplies them, and writes the 6000 × 64 product over rows [216000 + 6000·t, 216000 + 6000·(t+1))
  of the 1,944,000 × 64 result array.  The blocks of the 25 points tile rows [216000, 366000) exactly; no other row of
  the array is touched.  So after the region the array holds, at a row 216000 + r with r < 150000 and a column c, the sum
  over p < 80 of x(r, p) · w(p, c), and at every other row what it held when the region was entered.
-/
import proofs.«151581_j48060684042914_2_alg».proof.Proof.Gen.KernelIdeal.Frame
import proofs.«151581_j48060684042914_2_alg».proof.Proof.Spec
import Idealize.ShloMosaic.Lib.Pipeline.Value
import Idealize.ShloMosaic.Lib.ValueIdx
import Idealize.ShloMosaic.Lib.Tactic

noncomputable section

namespace Cert.Hand.Reg4

open Idealize.ShloMosaic Idealize.ShloMosaic.TcCoe Idealize.SL.Sem Idealize.ShloMosaic.ValueIdx
open Idealize.ShloMosaic.Pipeline (Dat)
open Cert.KernelIdeal Cert.KernelIdeal.Gen Cert.Hand.Dense

theorem hz : (![0, 0] : Fin 2 → Nat) = fun _ => 0 := funext fun a => by fin_cases a <;> rfl

section Body
variable {F : FTy → Type} [FloatOps F]

/-- What the body leaves in the output's staging buffer is the product of the two loaded blocks: the one store covers
    the buffer, and both loads read their whole buffers. -/
theorem out_eq (c : Dev nD) (i : grid4.Coords) (a1 : Memref sig .tc .vmem S6000x80 .f32) (h1 : a1.IsWhole)
    (a2 : Memref sig .tc .vmem S80x64 .f32) (h2 : a2.IsWhole) (a4 : Memref sig .tc .vmem S6000x64 .f32) (h4 : a4.IsWhole)
    (x0 : Vec F S6000x80 .f32) (x1 : Vec F S80x64 .f32) :
    out4_A_2 c i a1 h1 a2 h2 a4 h4 x0 x1 = k4_pay1 x0 x1 := by
  unfold out4_A_2
  rw [View.read_writes_eq_canon _ _ _ (cover4_A_2 c i a1 h1 a2 h2 a4 h4 x0 x1)]
  unfold kernelRun4_A
  dsimp only
  rw [View.canon_unit_zero hz]
  simp only [View.readAt_eq_ld, h1.read_unread, h2.read_unread, View.ld_unit_zero (S := S6000x80) hz,
    View.ld_unit_zero (S := S80x64) hz]

end Body

/-- The product of a 6000 × 80 block with the 80 × 64 matrix, at row r and column c: the casts to the narrower float
    format are the identity on the extended reals, and a product accumulated into the zero matrix is the plain sum. -/
theorem pay_entry (x0 : Vec Ideal S6000x80 .f32) (x1 : Vec Ideal S80x64 .f32) (r : Fin 6000) (c : Fin 64) :
    k4_pay1 (F := Ideal) x0 x1 (ix2 r c) = lin x0 (col x1 c) r := by
  unfold k4_pay1
  rw [shapeCast_self]
  exact matmul_entry (M := 6000) (K := 80) (N := 64) none (truncf .bf16 x0 bitsLt_bf16_f32) (truncf .bf16 x1 bitsLt_bf16_f32) r c

/-- The block index maps, decided over the grid: point t reads block t of the input, the whole weight matrix, and
    writes block 36 + t of the result. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 36 + t.val ∧ win4_2.index t (1 : Fin 2) = 0 :=
  (by decide +kernel : ∀ t : Fin grid4.N, _)

variable (V : (c : Dev nD) → (b : Ref sig .tc) → Buf (Elt Ideal) ((c : Thread nD τ).loc b))

/-- The rows this region writes, as one function of the whole result index: row 216000 + r holds row r of the product. -/
def G (c : Dev nD) : S1944000x64.Idx → EReal := fun i =>
  lin (V c main_v4 : S150000x80.Idx → EReal) (col (V c main_arg14 : S80x64.Idx → EReal) ⟨(i 1).val, (i 1).isLt⟩)
    ⟨((i 0).val - 216000) % 150000, Nat.mod_lt _ (by decide)⟩

/-- What point t writes back is its block of `G`. -/
theorem flushed_eq (c : Dev nD) (t : Fin cfg4.N) :
    (dat4 V c).flushed 2 t = ((cfg4.win 2).blk t).view.read (Elt Ideal) (G V c) := by
  show (cfg4.win 2).cut (grid4.coords t) ((dat4 V c).after 2 t) = _
  rw [after4_2]; unfold outsAt4; rw [out_eq]
  obtain ⟨e00, e01, e10, e11, e20, e21⟩ := idx_facts t
  have hN : t.val < 25 := t.isLt
  funext j
  have hj0 : (j 0).val < 6000 := (j 0).isLt
  have hj1 : (j 1).val < 64 := (j 1).isLt
  have ej : j = ix2 (⟨(j 0).val, hj0⟩ : Fin 6000) (⟨(j 1).val, hj1⟩ : Fin 64) :=
    funext fun a => by match a with | ⟨0, _⟩ => rfl | ⟨1, _⟩ => rfl
  refine (congrArg _ ej).trans ((pay_entry _ _ ⟨(j 0).val, hj0⟩ ⟨(j 1).val, hj1⟩).trans ?_)
  show lin (iblk4 V c 0 t) (col (iblk4 V c 1 t) ⟨(j 1).val, hj1⟩) ⟨(j 0).val, hj0⟩
    = G V c (((cfg4.win 2).blk t).view.emb j)
  have o0 : ((((cfg4.win 2).blk t).view.emb j) 0).val = win4_2.index t (0 : Fin 2) * 6000 + 1 * (j 0).val := rfl
  have o1 : ((((cfg4.win 2).blk t).view.emb j) 1).val = win4_2.index t (1 : Fin 2) * 64 + 1 * (j 1).val := rfl
  unfold G lin
  have hrow : (((((cfg4.win 2).blk t).view.emb j) 0).val - 216000) % 150000 = t.val * 6000 + (j 0).val := by
    rw [o0, e20]; rw [Nat.mod_eq_of_lt (by omega)]; omega
  have hcol : ((((cfg4.win 2).blk t).view.emb j) 1).val = (j 1).val := by rw [o1, e21]; omega
  refine Finset.sum_congr rfl fun p _ => ?_
  have hp : p.val < 80 := p.isLt
  have ex : iblk4 V c 0 t (ix2 (⟨(j 0).val, hj0⟩ : Fin 6000) p)
      = (V c main_v4 : S150000x80.Idx → EReal) (ix2 ⟨(((((cfg4.win 2).blk t).view.emb j) 0).val - 216000) % 150000, Nat.mod_lt _ (by decide)⟩ p) := by
    show V c main_v4 (((cfg4.win 0).blk t).view.emb (ix2 (⟨(j 0).val, hj0⟩ : Fin 6000) p)) = _
    refine congrArg (V c main_v4) (funext fun a => Fin.ext ?_)
    match a with
    | ⟨0, _⟩ => show win4_0.index t (0 : Fin 2) * 6000 + 1 * (j 0).val = _; rw [e00]; show _ = (((((cfg4.win 2).blk t).view.emb j) 0).val - 216000) % 150000; rw [hrow]; omega
    | ⟨1, _⟩ => show win4_0.index t (1 : Fin 2) * 80 + 1 * p.val = p.val; rw [e01]; omega
  have ew : col (iblk4 V c 1 t) ⟨(j 1).val, hj1⟩ p
      = col (V c main_arg14 : S80x64.Idx → EReal) ⟨((((cfg4.win 2).blk t).view.emb j) 1).val, ((((cfg4.win 2).blk t).view.emb j) 1).isLt⟩ p := by
    show V c main_arg14 (((cfg4.win 1).blk t).view.emb (ix2 p (⟨(j 1).val, hj1⟩ : Fin 64))) = V c main_arg14 (ix2 p _)
    refine congrArg (V c main_arg14) (funext fun a => Fin.ext ?_)
    match a with
    | ⟨0, _⟩ => show win4_1.index t (0 : Fin 2) * 80 + 1 * p.val = p.val; rw [e10]; omega
    | ⟨1, _⟩ => show win4_1.index t (1 : Fin 2) * 64 + 1 * (j 1).val = ((((cfg4.win 2).blk t).view.emb j) 1).val; rw [e11, hcol]; omega
  rw [ex, ew]

/-- An index of the result is in point t's block iff each coordinate is in the block's range on its axis. -/
theorem mem_blk (t : Fin cfg4.N) (i : S1944000x64.Idx) :
    i ∈ ((cfg4.win 2).blk t).view.set ↔ ∀ a : Fin 2, win4_2.index t a * S6000x64.size a ≤ (i a).val ∧ (i a).val < win4_2.index t a * S6000x64.size a + S6000x64.size a := by
  show i ∈ ((View.whole main_v16).slice (win4_2.rect t)).set ↔ _
  rw [View.set_slice_whole, Rect.mem_set_unit]
  exact Iff.rfl

/-- The rows some point's block covers are exactly rows [216000, 366000). -/
theorem covered_iff (i : S1944000x64.Idx) :
    (∃ t : Fin cfg4.N, (cfg4.win 2).flush t = true ∧ i ∈ ((cfg4.win 2).blk t).view.set) ↔ 216000 ≤ (i 0).val ∧ (i 0).val < 366000 := by
  have hi1 : (i 1).val < 64 := (i 1).isLt
  constructor
  · rintro ⟨t, -, hi⟩
    rw [mem_blk] at hi
    have b0 : win4_2.index t (0 : Fin 2) * 6000 ≤ (i 0).val ∧ (i 0).val < win4_2.index t (0 : Fin 2) * 6000 + 6000 := hi 0
    obtain ⟨e00, e01, e10, e11, e20, e21⟩ := idx_facts t
    have hN : t.val < 25 := t.isLt
    omega
  · intro h
    have hq : ((i 0).val - 216000) / 6000 < 25 := by omega
    let t : Fin cfg4.N := ⟨((i 0).val - 216000) / 6000, hq⟩
    obtain ⟨e00, e01, e10, e11, e20, e21⟩ := idx_facts t
    have ht : t.val = ((i 0).val - 216000) / 6000 := rfl
    refine ⟨t, flush4_2 t, ?_⟩
    rw [mem_blk]
    intro a
    match a with
    | ⟨0, _⟩ => show win4_2.index t (0 : Fin 2) * 6000 ≤ (i 0).val ∧ (i 0).val < win4_2.index t (0 : Fin 2) * 6000 + 6000; rw [e20, ht]; omega
    | ⟨1, _⟩ => show win4_2.index t (1 : Fin 2) * 64 ≤ (i 1).val ∧ (i 1).val < win4_2.index t (1 : Fin 2) * 64 + 64; rw [e21]; omega

/-- The result array after the region: the product on rows [216000, 366000), the entry contents elsewhere. -/
theorem final (c : Dev nD) (i : S1944000x64.Idx) :
    (dat4 V c).arrAt 2 cfg4.N i
      = if 216000 ≤ (i 0).val ∧ (i 0).val < 366000 then G V c i else V c main_v16 i := by
  rw [(dat4 V c).arrAt_eq_piecewise 2 (G V c) (fun t _ => flushed_eq V c t) i, A_eq4]
  exact if_congr (covered_iff i) rfl rfl

/-- Inside the region's rows: row 216000 + r, column q, holds entry (r, q) of the product. -/
theorem final_in (c : Dev nD) (i : S1944000x64.Idx) (r : Fin 150000) (q : Fin 64)
    (hr : (i 0).val = 216000 + r.val) (hq : (i 1).val = q.val) :
    (dat4 V c).arrAt 2 cfg4.N i
      = lin (V c main_v4 : S150000x80.Idx → EReal) (col (V c main_arg14 : S80x64.Idx → EReal) q) r := by
  have hrl : r.val < 150000 := r.isLt
  rw [final, if_pos (by omega)]
  unfold G
  have e1 : (⟨((i 0).val - 216000) % 150000, Nat.mod_lt _ (by decide)⟩ : Fin 150000) = r :=
    Fin.ext (by show ((i 0).val - 216000) % 150000 = r.val; rw [hr, Nat.mod_eq_of_lt (by omega)]; omega)
  have e2 : (⟨(i 1).val, (i 1).isLt⟩ : Fin 64) = q := Fin.ext hq
  rw [e1, e2]

/-- Outside them the array is as the region found it. -/
theorem final_out (c : Dev nD) (i : S1944000x64.Idx) (h : ¬(216000 ≤ (i 0).val ∧ (i 0).val < 366000)) :
    (dat4 V c).arrAt 2 cfg4.N i = V c main_v16 i := by
  rw [final, if_neg h]

end Cert.Hand.Reg4

end
-- ==== Proof.Reg5.lean ====
/-
  Region 5 of the kernel's program: rows 366000 to 486000 of the result.

  The region's grid has 20 points.  Point t loads rows [6000·t, 6000·(t+1)) of the 120000 × 80 input matrix and the whole
  80 × 64 weight matrix, multiplies them, and writes the 6000 × 64 product over rows [366000 + 6000·t, 366000 + 6000·(t+1))
  of the 1,944,000 × 64 result array.  The blocks of the 20 points tile rows [366000, 486000) exactly; no other row of
  the array is touched.  So after the region the array holds, at a row 366000 + r with r < 120000 and a column c, the sum
  over p < 80 of x(r, p) · w(p, c), and at every other row what it held when the region was entered.
-/
import proofs.«151581_j48060684042914_2_alg».proof.Proof.Gen.KernelIdeal.Frame
import proofs.«151581_j48060684042914_2_alg».proof.Proof.Spec
import Idealize.ShloMosaic.Lib.Pipeline.Value
import Idealize.ShloMosaic.Lib.ValueIdx
import Idealize.ShloMosaic.Lib.Tactic

noncomputable section

namespace Cert.Hand.Reg5

open Idealize.ShloMosaic Idealize.ShloMosaic.TcCoe Idealize.SL.Sem Idealize.ShloMosaic.ValueIdx
open Idealize.ShloMosaic.Pipeline (Dat)
open Cert.KernelIdeal Cert.KernelIdeal.Gen Cert.Hand.Dense

theorem hz : (![0, 0] : Fin 2 → Nat) = fun _ => 0 := funext fun a => by fin_cases a <;> rfl

section Body
variable {F : FTy → Type} [FloatOps F]

/-- What the body leaves in the output's staging buffer is the product of the two loaded blocks: the one store covers
    the buffer, and both loads read their whole buffers. -/
theorem out_eq (c : Dev nD) (i : grid5.Coords) (a1 : Memref sig .tc .vmem S6000x80 .f32) (h1 : a1.IsWhole)
    (a2 : Memref sig .tc .vmem S80x64 .f32) (h2 : a2.IsWhole) (a4 : Memref sig .tc .vmem S6000x64 .f32) (h4 : a4.IsWhole)
    (x0 : Vec F S6000x80 .f32) (x1 : Vec F S80x64 .f32) :
    out5_A_2 c i a1 h1 a2 h2 a4 h4 x0 x1 = k5_pay1 x0 x1 := by
  unfold out5_A_2
  rw [View.read_writes_eq_canon _ _ _ (cover5_A_2 c i a1 h1 a2 h2 a4 h4 x0 x1)]
  unfold kernelRun5_A
  dsimp only
  rw [View.canon_unit_zero hz]
  simp only [View.readAt_eq_ld, h1.read_unread, h2.read_unread, View.ld_unit_zero (S := S6000x80) hz,
    View.ld_unit_zero (S := S80x64) hz]

end Body

/-- The product of a 6000 × 80 block with the 80 × 64 matrix, at row r and column c: the casts to the narrower float
    format are the identity on the extended reals, and a product accumulated into the zero matrix is the plain sum. -/
theorem pay_entry (x0 : Vec Ideal S6000x80 .f32) (x1 : Vec Ideal S80x64 .f32) (r : Fin 6000) (c : Fin 64) :
    k5_pay1 (F := Ideal) x0 x1 (ix2 r c) = lin x0 (col x1 c) r := by
  unfold k5_pay1
  rw [shapeCast_self]
  exact matmul_entry (M := 6000) (K := 80) (N := 64) none (truncf .bf16 x0 bitsLt_bf16_f32) (truncf .bf16 x1 bitsLt_bf16_f32) r c

/-- The block index maps, decided over the grid: point t reads block t of the input, the whole weight matrix, and
    writes block 61 + t of the result. -/
theorem idx_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 61 + t.val ∧ win5_2.index t (1 : Fin 2) = 0 :=
  (by decide +kernel : ∀ t : Fin grid5.N, _)

variable (V : (c : Dev nD) → (b : Ref sig .tc) → Buf (Elt Ideal) ((c : Thread nD τ).loc b))

/-- The rows this region writes, as one function of the whole result index: row 366000 + r holds row r of the product. -/
def G (c : Dev nD) : S1944000x64.Idx → EReal := fun i =>
  lin (V c main_v5 : S120000x80.Idx → EReal) (col (V c main_arg14 : S80x64.Idx → EReal) ⟨(i 1).val, (i 1).isLt⟩)
    ⟨((i 0).val - 366000) % 120000, Nat.mod_lt _ (by decide)⟩

/-- What point t writes back is its block of `G`. -/
theorem flushed_eq (c : Dev nD) (t : Fin cfg5.N) :
    (dat5 V c).flushed 2 t = ((cfg5.win 2).blk t).view.read (Elt Ideal) (G V c) := by
  show (cfg5.win 2).cut (grid5.coords t) ((dat5 V c).after 2 t) = _
  rw [after5_2]; unfold outsAt5; rw [out_eq]
  obtain ⟨e00, e01, e10, e11, e20, e21⟩ := idx_facts t
  have hN : t.val < 20 := t.isLt
  funext j
  have hj0 : (j 0).val < 6000 := (j 0).isLt
  have hj1 : (j 1).val < 64 := (j 1).isLt
  have ej : j = ix2 (⟨(j 0).val, hj0⟩ : Fin 6000) (⟨(j 1).val, hj1⟩ : Fin 64) :=
    funext fun a => by match a with | ⟨0, _⟩ => rfl | ⟨1, _⟩ => rfl
  refine (congrArg _ ej).trans ((pay_entry _ _ ⟨(j 0).val, hj0⟩ ⟨(j 1).val, hj1⟩).trans ?_)
  show lin (iblk5 V c 0 t) (col (iblk5 V c 1 t) ⟨(j 1).val, hj1⟩) ⟨(j 0).val, hj0⟩
    = G V c (((cfg5.win 2).blk t).view.emb j)
  have o0 : ((((cfg5.win 2).blk t).view.emb j) 0).val = win5_2.index t (0 : Fin 2) * 6000 + 1 * (j 0).val := rfl
  have o1 : ((((cfg5.win 2).blk t).view.emb j) 1).val = win5_2.index t (1 : Fin 2) * 64 + 1 * (j 1).val := rfl
  unfold G lin
  have hrow : (((((cfg5.win 2).blk t).view.emb j) 0).val - 366000) % 120000 = t.val * 6000 + (j 0).val := by
    rw [o0, e20]; rw [Nat.mod_eq_of_lt (by omega)]; omega
  have hcol : ((((cfg5.win 2).blk t).view.emb j) 1).val = (j 1).val := by rw [o1, e21]; omega
  refine Finset.sum_congr rfl fun p _ => ?_
  have hp : p.val < 80 := p.isLt
  have ex : iblk5 V c 0 t (ix2 (⟨(j 0).val, hj0⟩ : Fin 6000) p)
      = (V c main_v5 : S120000x80.Idx → EReal) (ix2 ⟨(((((cfg5.win 2).blk t).view.emb j) 0).val - 366000) % 120000, Nat.mod_lt _ (by decide)⟩ p) := by
    show V c main_v5 (((cfg5.win 0).blk t).view.emb (ix2 (⟨(j 0).val, hj0⟩ : Fin 6000) p)) = _
    refine congrArg (V c main_v5) (funext fun a => Fin.ext ?_)
    match a with
    | ⟨0, _⟩ => show win5_0.index t (0 : Fin 2) * 6000 + 1 * (j 0).val = _; rw [e00]; show _ = (((((cfg5.win 2).blk t).view.emb j) 0).val - 366000) % 120000; rw [hrow]; omega
    | ⟨1, _⟩ => show win5_0.index t (1 : Fin 2) * 80 + 1 * p.val = p.val; rw [e01]; omega
  have ew : col (iblk5 V c 1 t) ⟨(j 1).val, hj1⟩ p
      = col (V c main_arg14 : S80x64.Idx → EReal) ⟨((((cfg5.win 2).blk t).view.emb j) 1).val, ((((cfg5.win 2).blk t).view.emb j) 1).isLt⟩ p := by
    show V c main_arg14 (((cfg5.win 1).blk t).view.emb (ix2 p (⟨(j 1).val, hj1⟩ : Fin 64))) = V c main_arg14 (ix2 p _)
    refine congrArg (V c main_arg14) (funext fun a => Fin.ext ?_)
    match a with
    | ⟨0, _⟩ => show win5_1.index t (0 : Fin 2) * 80 + 1 * p.val = p.val; rw [e10]; omega
    | ⟨1, _⟩ => show win5_1.index t (1 : Fin 2) * 64 + 1 * (j 1).val = ((((cfg5.win 2).blk t).view.emb j) 1).val; rw [e11, hcol]; omega
  rw [ex, ew]

/-- An index of the result is in point t's block iff each coordinate is in the block's range on its axis. -/
theorem mem_blk (t : Fin cfg5.N) (i : S1944000x64.Idx) :
    i ∈ ((cfg5.win 2).blk t).view.set ↔ ∀ a : Fin 2, win5_2.index t a * S6000x64.size a ≤ (i a).val ∧ (i a).val < win5_2.index t a * S6000x64.size a + S6000x64.size a := by
  show i ∈ ((View.whole main_v17).slice (win5_2.rect t)).set ↔ _
  rw [View.set_slice_whole, Rect.mem_set_unit]
  exact Iff.rfl

/-- The rows some point's block covers are exactly rows [366000, 486000). -/
theorem covered_iff (i : S1944000x64.Idx) :
    (∃ t : Fin cfg5.N, (cfg5.win 2).flush t = true ∧ i ∈ ((cfg5.win 2).blk t).view.set) ↔ 366000 ≤ (i 0).val ∧ (i 0).val < 486000 := by
  have hi1 : (i 1).val < 64 := (i 1).isLt
  constructor
  · rintro ⟨t, -, hi⟩
    rw [mem_blk] at hi
    have b0 : win5_2.index t (0 : Fin 2) * 6000 ≤ (i 0).val ∧ (i 0).val < win5_2.index t (0 : Fin 2) * 6000 + 6000 := hi 0
    obtain ⟨e00, e01, e10, e11, e20, e21⟩ := idx_facts t
    have hN : t.val < 20 := t.isLt
    omega
  · intro h
    have hq : ((i 0).val - 366000) / 6000 < 20 := by omega
    let t : Fin cfg5.N := ⟨((i 0).val - 366000) / 6000, hq⟩
    obtain ⟨e00, e01, e10, e11, e20, e21⟩ := idx_facts t
    have ht : t.val = ((i 0).val - 366000) / 6000 := rfl
    refine ⟨t, flush5_2 t, ?_⟩
    rw [mem_blk]
    intro a
    match a with
    | ⟨0, _⟩ => show win5_2.index t (0 : Fin 2) * 6000 ≤ (i 0).val ∧ (i 0).val < win5_2.index t (0 : Fin 2) * 6000 + 6000; rw [e20, ht]; omega
    | ⟨1, _⟩ => show win5_2.index t (1 : Fin 2) * 64 ≤ (i 1).val ∧ (i 1).val < win5_2.index t (1 : Fin 2) * 64 + 64; rw [e21]; omega

/-- The result array after the region: the product on rows [366000, 486000), the entry contents elsewhere. -/
theorem final (c : Dev nD) (i : S1944000x64.Idx) :
    (dat5 V c).arrAt 2 cfg5.N i
      = if 366000 ≤ (i 0).val ∧ (i 0).val < 486000 then G V c i else V c main_v17 i := by
  rw [(dat5 V c).arrAt_eq_piecewise 2 (G V c) (fun t _ => flushed_eq V c t) i, A_eq5]
  exact if_congr (covered_iff i) rfl rfl

/-- Inside the region's rows: row 366000 + r, column q, holds entry (r, q) of the product. -/
theorem final_in (c : Dev nD) (i : S1944000x64.Idx) (r : Fin 120000) (q : Fin 64)
    (hr : (i 0).val = 366000 + r.val) (hq : (i 1).val = q.val) :
    (dat5 V c).arrAt 2 cfg5.N i
      = lin (V c main_v5 : S120000x80.Idx → EReal) (col (V c main_arg14 : S80x64.Idx → EReal) q) r := by
  have hrl : r.val < 120000 := r.isLt
  rw [final, if_pos (by omega)]
  unfold G
  have e1 : (⟨((i 0).val - 366000) % 120000, Nat.mod_lt _ (by decide)⟩ : Fin 120000) = r :=
    Fin.ext (by show ((i 0).val - 366000) % 120000 = r.val; rw [hr, Nat.mod_eq_of_lt (by omega)]; omega)
  have e2 : (⟨(i 1).val, (i 1).isLt⟩ : Fin 64) = q := Fin.ext hq
  rw [e1, e2]

/-- Outside them the array is as the region found it. -/
theorem final_out (c : Dev nD) (i : S1944000x64.Idx) (h : ¬(366000 ≤ (i 0).val ∧ (i 0).val < 486000)) :
    (dat5 V c).arrAt 2 cfg5.N i = V c main_v17 i := by
  rw [final, if_neg h]

end Cert.Hand.Reg5

end
-- ==== Proof.Reg6.lean ====
/-
  Region 6 of the kernel's program: rows 486000 to 696000 of the result.

  The region's grid has 35 points.  Point t loads rows [6000·t, 6000·(t+1)) of the 210000 × 80 input matrix and the whole
  80 × 64 weight matrix, multiplies them, and writes the 6000 × 64 product over rows [486000 + 6000·t, 486000 + 6000·(t+1))
  of the 1,944,000 × 64 result array.  The blocks of the 35 points tile rows [486000, 696000) exactly; no other row of
  the array is touched.  So after the region the array holds, at a row 486000 + r with r < 210000 and a column c, the sum
  over p < 80 of x(r, p) · w(p, c), and at every other row what it held when the region was entered.
-/
import proofs.«151581_j48060684042914_2_alg».proof.Proof.Gen.KernelIdeal.Frame
import proofs.«151581_j48060684042914_2_alg».proof.Proof.Spec
import Idealize.ShloMosaic.Lib.Pipeline.Value
import Idealize.ShloMosaic.Lib.ValueIdx
import Idealize.ShloMosaic.Lib.Tactic

noncomputable section

namespace Cert.Hand.Reg6

open Idealize.ShloMosaic Idealize.ShloMosaic.TcCoe Idealize.SL.Sem Idealize.ShloMosaic.ValueIdx
open Idealize.ShloMosaic.Pipeline (Dat)
open Cert.KernelIdeal Cert.KernelIdeal.Gen Cert.Hand.Dense

theorem hz : (![0, 0] : Fin 2 → Nat) = fun _ => 0 := funext fun a => by fin_cases a <;> rfl

section Body
variable {F : FTy → Type} [FloatOps F]

/-- What the body leaves in the output's staging buffer is the product of the two loaded blocks: the one store covers
    the buffer, and both loads read their whole buffers. -/
theorem out_eq (c : Dev nD) (i : grid6.Coords) (a1 : Memref sig .tc .vmem S6000x80 .f32) (h1 : a1.IsWhole)
    (a2 : Memref sig .tc .vmem S80x64 .f32) (h2 : a2.IsWhole) (a4 : Memref sig .tc .vmem S6000x64 .f32) (h4 : a4.IsWhole)
    (x0 : Vec F S6000x80 .f32) (x1 : Vec F S80x64 .f32) :
    out6_A_2 c i a1 h1 a2 h2 a4 h4 x0 x1 = k6_pay1 x0 x1 := by
  unfold out6_A_2
  rw [View.read_writes_eq_canon _ _ _ (cover6_A_2 c i a1 h1 a2 h2 a4 h4 x0 x1)]
  unfold kernelRun6_A
  dsimp only
  rw [View.canon_unit_zero hz]
  simp only [View.readAt_eq_ld, h1.read_unread, h2.read_unread, View.ld_unit_zero (S := S6000x80) hz,
    View.ld_unit_zero (S := S80x64) hz]

end Body

/-- The product of a 6000 × 80 block with the 80 × 64 matrix, at row r and column c: the casts to the narrower float
    format are the identity on the extended reals, and a product accumulated into the zero matrix is the plain sum. -/
theorem pay_entry (x0 : Vec Ideal S6000x80 .f32) (x1 : Vec Ideal S80x64 .f32) (r : Fin 6000) (c : Fin 64) :
    k6_pay1 (F := Ideal) x0 x1 (ix2 r c) = lin x0 (col x1 c) r := by
  unfold k6_pay1
  rw [shapeCast_self]
  exact matmul_entry (M := 6000) (K := 80) (N := 64) none (truncf .bf16 x0 bitsLt_bf16_f32) (truncf .bf16 x1 bitsLt_bf16_f32) r c

/-- The block index maps, decided over the grid: point t reads block t of the input, the whole weight matrix, and
    writes block 81 + t of the result. -/
theorem idx_facts : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = 81 + t.val ∧ win6_2.index t (1 : Fin 2) = 0 :=
  (by decide +kernel : ∀ t : Fin grid6.N, _)

variable (V : (c : Dev nD) → (b : Ref sig .tc) → Buf (Elt Ideal) ((c : Thread nD τ).loc b))

/-- The rows this region writes, as one function of the whole result index: row 486000 + r holds row r of the product. -/
def G (c : Dev nD) : S1944000x64.Idx → EReal := fun i =>
  lin (V c main_v6 : S210000x80.Idx → EReal) (col (V c main_arg15 : S80x64.Idx → EReal) ⟨(i 1).val, (i 1).isLt⟩)
    ⟨((i 0).val - 486000) % 210000, Nat.mod_lt _ (by decide)⟩

/-- What point t writes back is its block of `G`. -/
theorem flushed_eq (c : Dev nD) (t : Fin cfg6.N) :
    (dat6 V c).flushed 2 t = ((cfg6.win 2).blk t).view.read (Elt Ideal) (G V c) := by
  show (cfg6.win 2).cut (grid6.coords t) ((dat6 V c).after 2 t) = _
  rw [after6_2]; unfold outsAt6; rw [out_eq]
  obtain ⟨e00, e01, e10, e11, e20, e21⟩ := idx_facts t
  have hN : t.val < 35 := t.isLt
  funext j
  have hj0 : (j 0).val < 6000 := (j 0).isLt
  have hj1 : (j 1).val < 64 := (j 1).isLt
  have ej : j = ix2 (⟨(j 0).val, hj0⟩ : Fin 6000) (⟨(j 1).val, hj1⟩ : Fin 64) :=
    funext fun a => by match a with | ⟨0, _⟩ => rfl | ⟨1, _⟩ => rfl
  refine (congrArg _ ej).trans ((pay_entry _ _ ⟨(j 0).val, hj0⟩ ⟨(j 1).val, hj1⟩).trans ?_)
  show lin (iblk6 V c 0 t) (col (iblk6 V c 1 t) ⟨(j 1).val, hj1⟩) ⟨(j 0).val, hj0⟩
    = G V c (((cfg6.win 2).blk t).view.emb j)
  have o0 : ((((cfg6.win 2).blk t).view.emb j) 0).val = win6_2.index t (0 : Fin 2) * 6000 + 1 * (j 0).val := rfl
  have o1 : ((((cfg6.win 2).blk t).view.emb j) 1).val = win6_2.index t (1 : Fin 2) * 64 + 1 * (j 1).val := rfl
  unfold G lin
  have hrow : (((((cfg6.win 2).blk t).view.emb j) 0).val - 486000) % 210000 = t.val * 6000 + (j 0).val := by
    rw [o0, e20]; rw [Nat.mod_eq_of_lt (by omega)]; omega
  have hcol : ((((cfg6.win 2).blk t).view.emb j) 1).val = (j 1).val := by rw [o1, e21]; omega
  refine Finset.sum_congr rfl fun p _ => ?_
  have hp : p.val < 80 := p.isLt
  have ex : iblk6 V c 0 t (ix2 (⟨(j 0).val, hj0⟩ : Fin 6000) p)
      = (V c main_v6 : S210000x80.Idx → EReal) (ix2 ⟨(((((cfg6.win 2).blk t).view.emb j) 0).val - 486000) % 210000, Nat.mod_lt _ (by decide)⟩ p) := by
    show V c main_v6 (((cfg6.win 0).blk t).view.emb (ix2 (⟨(j 0).val, hj0⟩ : Fin 6000) p)) = _
    refine congrArg (V c main_v6) (funext fun a => Fin.ext ?_)
    match a with
    | ⟨0, _⟩ => show win6_0.index t (0 : Fin 2) * 6000 + 1 * (j 0).val = _; rw [e00]; show _ = (((((cfg6.win 2).blk t).view.emb j) 0).val - 486000) % 210000; rw [hrow]; omega
    | ⟨1, _⟩ => show win6_0.index t (1 : Fin 2) * 80 + 1 * p.val = p.val; rw [e01]; omega
  have ew : col (iblk6 V c 1 t) ⟨(j 1).val, hj1⟩ p
      = col (V c main_arg15 : S80x64.Idx → EReal) ⟨((((cfg6.win 2).blk t).view.emb j) 1).val, ((((cfg6.win 2).blk t).view.emb j) 1).isLt⟩ p := by
    show V c main_arg15 (((cfg6.win 1).blk t).view.emb (ix2 p (⟨(j 1).val, hj1⟩ : Fin 64))) = V c main_arg15 (ix2 p _)
    refine congrArg (V c main_arg15) (funext fun a => Fin.ext ?_)
    match a with
    | ⟨0, _⟩ => show win6_1.index t (0 : Fin 2) * 80 + 1 * p.val = p.val; rw [e10]; omega
    | ⟨1, _⟩ => show win6_1.index t (1 : Fin 2) * 64 + 1 * (j 1).val = ((((cfg6.win 2).blk t).view.emb j) 1).val; rw [e11, hcol]; omega
  rw [ex, ew]

/-- An index of the result is in point t's block iff each coordinate is in the block's range on its axis. -/
theorem mem_blk (t : Fin cfg6.N) (i : S1944000x64.Idx) :
    i ∈ ((cfg6.win 2).blk t).view.set ↔ ∀ a : Fin 2, win6_2.index t a * S6000x64.size a ≤ (i a).val ∧ (i a).val < win6_2.index t a * S6000x64.size a + S6000x64.size a := by
  show i ∈ ((View.whole main_v18).slice (win6_2.rect t)).set ↔ _
  rw [View.set_slice_whole, Rect.mem_set_unit]
  exact Iff.rfl

/-- The rows some point's block covers are exactly rows [486000, 696000). -/
theorem covered_iff (i : S1944000x64.Idx) :
    (∃ t : Fin cfg6.N, (cfg6.win 2).flush t = true ∧ i ∈ ((cfg6.win 2).blk t).view.set) ↔ 486000 ≤ (i 0).val ∧ (i 0).val < 696000 := by
  have hi1 : (i 1).val < 64 := (i 1).isLt
  constructor
  · rintro ⟨t, -, hi⟩
    rw [mem_blk] at hi
    have b0 : win6_2.index t (0 : Fin 2) * 6000 ≤ (i 0).val ∧ (i 0).val < win6_2.index t (0 : Fin 2) * 6000 + 6000 := hi 0
    obtain ⟨e00, e01, e10, e11, e20, e21⟩ := idx_facts t
    have hN : t.val < 35 := t.isLt
    omega
  · intro h
    have hq : ((i 0).val - 486000) / 6000 < 35 := by omega
    let t : Fin cfg6.N := ⟨((i 0).val - 486000) / 6000, hq⟩
    obtain ⟨e00, e01, e10, e11, e20, e21⟩ := idx_facts t
    have ht : t.val = ((i 0).val - 486000) / 6000 := rfl
    refine ⟨t, flush6_2 t, ?_⟩
    rw [mem_blk]
    intro a
    match a with
    | ⟨0, _⟩ => show win6_2.index t (0 : Fin 2) * 6000 ≤ (i 0).val ∧ (i 0).val < win6_2.index t (0 : Fin 2) * 6000 + 6000; rw [e20, ht]; omega
    | ⟨1, _⟩ => show win6_2.index t (1 : Fin 2) * 64 ≤ (i 1).val ∧ (i 1).val < win6_2.index t (1 : Fin 2) * 64 + 64; rw [e21]; omega

/-- The result array after the region: the product on rows [486000, 696000), the entry contents elsewhere. -/
theorem final (c : Dev nD) (i : S1944000x64.Idx) :
    (dat6 V c).arrAt 2 cfg6.N i
      = if 486000 ≤ (i 0).val ∧ (i 0).val < 696000 then G V c i else V c main_v18 i := by
  rw [(dat6 V c).arrAt_eq_piecewise 2 (G V c) (fun t _ => flushed_eq V c t) i, A_eq6]
  exact if_congr (covered_iff i) rfl rfl

/-- Inside the region's rows: row 486000 + r, column q, holds entry (r, q) of the product. -/
theorem final_in (c : Dev nD) (i : S1944000x64.Idx) (r : Fin 210000) (q : Fin 64)
    (hr : (i 0).val = 486000 + r.val) (hq : (i 1).val = q.val) :
    (dat6 V c).arrAt 2 cfg6.N i
      = lin (V c main_v6 : S210000x80.Idx → EReal) (col (V c main_arg15 : S80x64.Idx → EReal) q) r := by
  have hrl : r.val < 210000 := r.isLt
  rw [final, if_pos (by omega)]
  unfold G
  have e1 : (⟨((i 0).val - 486000) % 210000, Nat.mod_lt _ (by decide)⟩ : Fin 210000) = r :=
    Fin.ext (by show ((i 0).val - 486000) % 210000 = r.val; rw [hr, Nat.mod_eq_of_lt (by omega)]; omega)
  have e2 : (⟨(i 1).val, (i 1).isLt⟩ : Fin 64) = q := Fin.ext hq
  rw [e1, e2]

/-- Outside them the array is as the region found it. -/
theorem final_out (c : Dev nD) (i : S1944000x64.Idx) (h : ¬(486000 ≤ (i 0).val ∧ (i 0).val < 696000)) :
    (dat6 V c).arrAt 2 cfg6.N i = V c main_v18 i := by
  rw [final, if_neg h]

end Cert.Hand.Reg6

end
-- ==== Proof.Reg7.lean ====
/-
  Region 7 of the kernel's program: rows 696000 to 864000 of the result.

  The region's grid has 14 points.  Point t loads rows [12000·t, 12000·(t+1)) of the 168000 × 80 input matrix and the whole
  80 × 64 weight matrix, multiplies them, and writes the 12000 × 64 product over rows [696000 + 12000·t, 696000 + 12000·(t+1))
  of the 1,944,000 × 64 result array.  The blocks of the 14 points tile rows [696000, 864000) exactly; no other row of
  the array is touched.  So after the region the array holds, at a row 696000 + r with r < 168000 and a column c, the sum
  over p < 80 of x(r, p) · w(p, c), and at every other row what it held when the region was entered.
-/
import proofs.«151581_j48060684042914_2_alg».proof.Proof.Gen.KernelIdeal.Frame
import proofs.«151581_j48060684042914_2_alg».proof.Proof.Spec
import Idealize.ShloMosaic.Lib.Pipeline.Value
import Idealize.ShloMosaic.Lib.ValueIdx
import Idealize.ShloMosaic.Lib.Tactic

noncomputable section

namespace Cert.Hand.Reg7

open Idealize.ShloMosaic Idealize.ShloMosaic.TcCoe Idealize.SL.Sem Idealize.ShloMosaic.ValueIdx
open Idealize.ShloMosaic.Pipeline (Dat)
open Cert.KernelIdeal Cert.KernelIdeal.Gen Cert.Hand.Dense

theorem hz : (![0, 0] : Fin 2 → Nat) = fun _ => 0 := funext fun a => by fin_cases a <;> rfl

section Body
variable {F : FTy → Type} [FloatOps F]

/-- What the body leaves in the output's staging buffer is the product of the two loaded blocks: the one store covers
    the buffer, and both loads read their whole buffers. -/
theorem out_eq (c : Dev nD) (i : grid7.Coords) (a1 : Memref sig .tc .vmem S12000x80 .f32) (h1 : a1.IsWhole)
    (a2 : Memref sig .tc .vmem S80x64 .f32) (h2 : a2.IsWhole) (a4 : Memref sig .tc .vmem S12000x64 .f32) (h4 : a4.IsWhole)
    (x0 : Vec F S12000x80 .f32) (x1 : Vec F S80x64 .f32) :
    out7_A_2 c i a1 h1 a2 h2 a4 h4 x0 x1 = k7_pay1 x0 x1 := by
  unfold out7_A_2
  rw [View.read_writes_eq_canon _ _ _ (cover7_A_2 c i a1 h1 a2 h2 a4 h4 x0 x1)]
  unfold kernelRun7_A
  dsimp only
  rw [View.canon_unit_zero hz]
  simp only [View.readAt_eq_ld, h1.read_unread, h2.read_unread, View.ld_unit_zero (S := S12000x80) hz,
    View.ld_unit_zero (S := S80x64) hz]

end Body

/-- The product of a 12000 × 80 block with the 80 × 64 matrix, at row r and column c: the casts to the narrower float
    format are the identity on the extended reals, and a product accumulated into the zero matrix is the plain sum. -/
theorem pay_entry (x0 : Vec Ideal S12000x80 .f32) (x1 : Vec Ideal S80x64 .f32) (r : Fin 12000) (c : Fin 64) :
    k7_pay1 (F := Ideal) x0 x1 (ix2 r c) = lin x0 (col x1 c) r := by
  unfold k7_pay1
  rw [shapeCast_self]
  exact matmul_entry (M := 12000) (K := 80) (N := 64) none (truncf .bf16 x0 bitsLt_bf16_f32) (truncf .bf16 x1 bitsLt_bf16_f32) r c

/-- The block index maps, decided over the grid: point t reads block t of the input, the whole weight matrix, and
    writes block 58 + t of the result. -/
theorem idx_facts : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = 58 + t.val ∧ win7_2.index t (1 : Fin 2) = 0 :=
  (by decide +kernel : ∀ t : Fin grid7.N, _)

variable (V : (c : Dev nD) → (b : Ref sig .tc) → Buf (Elt Ideal) ((c : Thread nD τ).loc b))

/-- The rows this region writes, as one function of the whole result index: row 696000 + r holds row r of the product. -/
def G (c : Dev nD) : S1944000x64.Idx → EReal := fun i =>
  lin (V c main_v7 : S168000x80.Idx → EReal) (col (V c main_arg15 : S80x64.Idx → EReal) ⟨(i 1).val, (i 1).isLt⟩)
    ⟨((i 0).val - 696000) % 168000, Nat.mod_lt _ (by decide)⟩

/-- What point t writes back is its block of `G`. -/
theorem flushed_eq (c : Dev nD) (t : Fin cfg7.N) :
    (dat7 V c).flushed 2 t = ((cfg7.win 2).blk t).view.read (Elt Ideal) (G V c) := by
  show (cfg7.win 2).cut (grid7.coords t) ((dat7 V c).after 2 t) = _
  rw [after7_2]; unfold outsAt7; rw [out_eq]
  obtain ⟨e00, e01, e10, e11, e20, e21⟩ := idx_facts t
  have hN : t.val < 14 := t.isLt
  funext j
  have hj0 : (j 0).val < 12000 := (j 0).isLt
  have hj1 : (j 1).val < 64 := (j 1).isLt
  have ej : j = ix2 (⟨(j 0).val, hj0⟩ : Fin 12000) (⟨(j 1).val, hj1⟩ : Fin 64) :=
    funext fun a => by match a with | ⟨0, _⟩ => rfl | ⟨1, _⟩ => rfl
  refine (congrArg _ ej).trans ((pay_entry _ _ ⟨(j 0).val, hj0⟩ ⟨(j 1).val, hj1⟩).trans ?_)
  show lin (iblk7 V c 0 t) (col (iblk7 V c 1 t) ⟨(j 1).val, hj1⟩) ⟨(j 0).val, hj0⟩
    = G V c (((cfg7.win 2).blk t).view.emb j)
  have o0 : ((((cfg7.win 2).blk t).view.emb j) 0).val = win7_2.index t (0 : Fin 2) * 12000 + 1 * (j 0).val := rfl
  have o1 : ((((cfg7.win 2).blk t).view.emb j) 1).val = win7_2.index t (1 : Fin 2) * 64 + 1 * (j 1).val := rfl
  unfold G lin
  have hrow : (((((cfg7.win 2).blk t).view.emb j) 0).val - 696000) % 168000 = t.val * 12000 + (j 0).val := by
    rw [o0, e20]; rw [Nat.mod_eq_of_lt (by omega)]; omega
  have hcol : ((((cfg7.win 2).blk t).view.emb j) 1).val = (j 1).val := by rw [o1, e21]; omega
  refine Finset.sum_congr rfl fun p _ => ?_
  have hp : p.val < 80 := p.isLt
  have ex : iblk7 V c 0 t (ix2 (⟨(j 0).val, hj0⟩ : Fin 12000) p)
      = (V c main_v7 : S168000x80.Idx → EReal) (ix2 ⟨(((((cfg7.win 2).blk t).view.emb j) 0).val - 696000) % 168000, Nat.mod_lt _ (by decide)⟩ p) := by
    show V c main_v7 (((cfg7.win 0).blk t).view.emb (ix2 (⟨(j 0).val, hj0⟩ : Fin 12000) p)) = _
    refine congrArg (V c main_v7) (funext fun a => Fin.ext ?_)
    match a with
    | ⟨0, _⟩ => show win7_0.index t (0 : Fin 2) * 12000 + 1 * (j 0).val = _; rw [e00]; show _ = (((((cfg7.win 2).blk t).view.emb j) 0).val - 696000) % 168000; rw [hrow]; omega
    | ⟨1, _⟩ => show win7_0.index t (1 : Fin 2) * 80 + 1 * p.val = p.val; rw [e01]; omega
  have ew : col (iblk7 V c 1 t) ⟨(j 1).val, hj1⟩ p
      = col (V c main_arg15 : S80x64.Idx → EReal) ⟨((((cfg7.win 2).blk t).view.emb j) 1).val, ((((cfg7.win 2).blk t).view.emb j) 1).isLt⟩ p := by
    show V c main_arg15 (((cfg7.win 1).blk t).view.emb (ix2 p (⟨(j 1).val, hj1⟩ : Fin 64))) = V c main_arg15 (ix2 p _)
    refine congrArg (V c main_arg15) (funext fun a => Fin.ext ?_)
    match a with
    | ⟨0, _⟩ => show win7_1.index t (0 : Fin 2) * 80 + 1 * p.val = p.val; rw [e10]; omega
    | ⟨1, _⟩ => show win7_1.index t (1 : Fin 2) * 64 + 1 * (j 1).val = ((((cfg7.win 2).blk t).view.emb j) 1).val; rw [e11, hcol]; omega
  rw [ex, ew]

/-- An index of the result is in point t's block iff each coordinate is in the block's range on its axis. -/
theorem mem_blk (t : Fin cfg7.N) (i : S1944000x64.Idx) :
    i ∈ ((cfg7.win 2).blk t).view.set ↔ ∀ a : Fin 2, win7_2.index t a * S12000x64.size a ≤ (i a).val ∧ (i a).val < win7_2.index t a * S12000x64.size a + S12000x64.size a := by
  show i ∈ ((View.whole main_v19).slice (win7_2.rect t)).set ↔ _
  rw [View.set_slice_whole, Rect.mem_set_unit]
  exact Iff.rfl

/-- The rows some point's block covers are exactly rows [696000, 864000). -/
theorem covered_iff (i : S1944000x64.Idx) :
    (∃ t : Fin cfg7.N, (cfg7.win 2).flush t = true ∧ i ∈ ((cfg7.win 2).blk t).view.set) ↔ 696000 ≤ (i 0).val ∧ (i 0).val < 864000 := by
  have hi1 : (i 1).val < 64 := (i 1).isLt
  constructor
  · rintro ⟨t, -, hi⟩
    rw [mem_blk] at hi
    have b0 : win7_2.index t (0 : Fin 2) * 12000 ≤ (i 0).val ∧ (i 0).val < win7_2.index t (0 : Fin 2) * 12000 + 12000 := hi 0
    obtain ⟨e00, e01, e10, e11, e20, e21⟩ := idx_facts t
    have hN : t.val < 14 := t.isLt
    omega
  · intro h
    have hq : ((i 0).val - 696000) / 12000 < 14 := by omega
    let t : Fin cfg7.N := ⟨((i 0).val - 696000) / 12000, hq⟩
    obtain ⟨e00, e01, e10, e11, e20, e21⟩ := idx_facts t
    have ht : t.val = ((i 0).val - 696000) / 12000 := rfl
    refine ⟨t, flush7_2 t, ?_⟩
    rw [mem_blk]
    intro a
    match a with
    | ⟨0, _⟩ => show win7_2.index t (0 : Fin 2) * 12000 ≤ (i 0).val ∧ (i 0).val < win7_2.index t (0 : Fin 2) * 12000 + 12000; rw [e20, ht]; omega
    | ⟨1, _⟩ => show win7_2.index t (1 : Fin 2) * 64 ≤ (i 1).val ∧ (i 1).val < win7_2.index t (1 : Fin 2) * 64 + 64; rw [e21]; omega

/-- The result array after the region: the product on rows [696000, 864000), the entry contents elsewhere. -/
theorem final (c : Dev nD) (i : S1944000x64.Idx) :
    (dat7 V c).arrAt 2 cfg7.N i
      = if 696000 ≤ (i 0).val ∧ (i 0).val < 864000 then G V c i else V c main_v19 i := by
  rw [(dat7 V c).arrAt_eq_piecewise 2 (G V c) (fun t _ => flushed_eq V c t) i, A_eq7]
  exact if_congr (covered_iff i) rfl rfl

/-- Inside the region's rows: row 696000 + r, column q, holds entry (r, q) of the product. -/
theorem final_in (c : Dev nD) (i : S1944000x64.Idx) (r : Fin 168000) (q : Fin 64)
    (hr : (i 0).val = 696000 + r.val) (hq : (i 1).val = q.val) :
    (dat7 V c).arrAt 2 cfg7.N i
      = lin (V c main_v7 : S168000x80.Idx → EReal) (col (V c main_arg15 : S80x64.Idx → EReal) q) r := by
  have hrl : r.val < 168000 := r.isLt
  rw [final, if_pos (by omega)]
  unfold G
  have e1 : (⟨((i 0).val - 696000) % 168000, Nat.mod_lt _ (by decide)⟩ : Fin 168000) = r :=
    Fin.ext (by show ((i 0).val - 696000) % 168000 = r.val; rw [hr, Nat.mod_eq_of_lt (by omega)]; omega)
  have e2 : (⟨(i 1).val, (i 1).isLt⟩ : Fin 64) = q := Fin.ext hq
  rw [e1, e2]

/-- Outside them the array is as the region found it. -/
theorem final_out (c : Dev nD) (i : S1944000x64.Idx) (h : ¬(696000 ≤ (i 0).val ∧ (i 0).val < 864000)) :
    (dat7 V c).arrAt 2 cfg7.N i = V c main_v19 i := by
  rw [final, if_neg h]

end Cert.Hand.Reg7

end
-- ==== Proof.Reg8.lean ====
/-
  Region 8 of the kernel's program: rows 864000 to 1134000 of the result.

  The region's grid has 25 points.  Point t loads rows [10800·t, 10800·(t+1)) of the 270000 × 80 input matrix and the whole
  80 × 64 weight matrix, multiplies them, and writes the 10800 × 64 product over rows [864000 + 10800·t, 864000 + 10800·(t+1))
  of the 1,944,000 × 64 result array.  The blocks of the 25 points tile rows [864000, 1134000) exactly; no other row of
  the array is touched.  So after the region the array holds, at a row 864000 + r with r < 270000 and a column c, the sum
  over p < 80 of x(r, p) · w(p, c), and at every other row what it held when the region was entered.
-/
import proofs.«151581_j48060684042914_2_alg».proof.Proof.Gen.KernelIdeal.Frame
import proofs.«151581_j48060684042914_2_alg».proof.Proof.Spec
import Idealize.ShloMosaic.Lib.Pipeline.Value
import Idealize.ShloMosaic.Lib.ValueIdx
import Idealize.ShloMosaic.Lib.Tactic

noncomputable section

namespace Cert.Hand.Reg8

open Idealize.ShloMosaic Idealize.ShloMosaic.TcCoe Idealize.SL.Sem Idealize.ShloMosaic.ValueIdx
open Idealize.ShloMosaic.Pipeline (Dat)
open Cert.KernelIdeal Cert.KernelIdeal.Gen Cert.Hand.Dense

theorem hz : (![0, 0] : Fin 2 → Nat) = fun _ => 0 := funext fun a => by fin_cases a <;> rfl

section Body
variable {F : FTy → Type} [FloatOps F]

/-- What the body leaves in the output's staging buffer is the product of the two loaded blocks: the one store covers
    the buffer, and both loads read their whole buffers. -/
theorem out_eq (c : Dev nD) (i : grid8.Coords) (a1 : Memref sig .tc .vmem S10800x80 .f32) (h1 : a1.IsWhole)
    (a2 : Memref sig .tc .vmem S80x64 .f32) (h2 : a2.IsWhole) (a4 : Memref sig .tc .vmem S10800x64 .f32) (h4 : a4.IsWhole)
    (x0 : Vec F S10800x80 .f32) (x1 : Vec F S80x64 .f32) :
    out8_A_2 c i a1 h1 a2 h2 a4 h4 x0 x1 = k8_pay1 x0 x1 := by
  unfold out8_A_2
  rw [View.read_writes_eq_canon _ _ _ (cover8_A_2 c i a1 h1 a2 h2 a4 h4 x0 x1)]
  unfold kernelRun8_A
  dsimp only
  rw [View.canon_unit_zero hz]
  simp only [View.readAt_eq_ld, h1.read_unread, h2.read_unread, View.ld_unit_zero (S := S10800x80) hz,
    View.ld_unit_zero (S := S80x64) hz]

end Body

/-- The product of a 10800 × 80 block with the 80 × 64 matrix, at row r and column c: the casts to the narrower float
    format are the identity on the extended reals, and a product accumulated into the zero matrix is the plain sum. -/
theorem pay_entry (x0 : Vec Ideal S10800x80 .f32) (x1 : Vec Ideal S80x64 .f32) (r : Fin 10800) (c : Fin 64) :
    k8_pay1 (F := Ideal) x0 x1 (ix2 r c) = lin x0 (col x1 c) r := by
  unfold k8_pay1
  rw [shapeCast_self]
  exact matmul_entry (M := 10800) (K := 80) (N := 64) none (truncf .bf16 x0 bitsLt_bf16_f32) (truncf .bf16 x1 bitsLt_bf16_f32) r c

/-- The block index maps, decided over the grid: point t reads block t of the input, the whole weight matrix, and
    writes block 80 + t of the result. -/
theorem idx_facts : ∀ t : Fin cfg8.N, win8_0.index t (0 : Fin 2) = t.val ∧ win8_0.index t (1 : Fin 2) = 0
    ∧ win8_1.index t (0 : Fin 2) = 0 ∧ win8_1.index t (1 : Fin 2) = 0
    ∧ win8_2.index t (0 : Fin 2) = 80 + t.val ∧ win8_2.index t (1 : Fin 2) = 0 :=
  (by decide +kernel : ∀ t : Fin grid8.N, _)

variable (V : (c : Dev nD) → (b : Ref sig .tc) → Buf (Elt Ideal) ((c : Thread nD τ).loc b))

/-- The rows this region writes, as one function of the whole result index: row 864000 + r holds row r of the product. -/
def G (c : Dev nD) : S1944000x64.Idx → EReal := fun i =>
  lin (V c main_v8 : S270000x80.Idx → EReal) (col (V c main_arg16 : S80x64.Idx → EReal) ⟨(i 1).val, (i 1).isLt⟩)
    ⟨((i 0).val - 864000) % 270000, Nat.mod_lt _ (by decide)⟩

/-- What point t writes back is its block of `G`. -/
theorem flushed_eq (c : Dev nD) (t : Fin cfg8.N) :
    (dat8 V c).flushed 2 t = ((cfg8.win 2).blk t).view.read (Elt Ideal) (G V c) := by
  show (cfg8.win 2).cut (grid8.coords t) ((dat8 V c).after 2 t) = _
  rw [after8_2]; unfold outsAt8; rw [out_eq]
  obtain ⟨e00, e01, e10, e11, e20, e21⟩ := idx_facts t
  have hN : t.val < 25 := t.isLt
  funext j
  have hj0 : (j 0).val < 10800 := (j 0).isLt
  have hj1 : (j 1).val < 64 := (j 1).isLt
  have ej : j = ix2 (⟨(j 0).val, hj0⟩ : Fin 10800) (⟨(j 1).val, hj1⟩ : Fin 64) :=
    funext fun a => by match a with | ⟨0, _⟩ => rfl | ⟨1, _⟩ => rfl
  refine (congrArg _ ej).trans ((pay_entry _ _ ⟨(j 0).val, hj0⟩ ⟨(j 1).val, hj1⟩).trans ?_)
  show lin (iblk8 V c 0 t) (col (iblk8 V c 1 t) ⟨(j 1).val, hj1⟩) ⟨(j 0).val, hj0⟩
    = G V c (((cfg8.win 2).blk t).view.emb j)
  have o0 : ((((cfg8.win 2).blk t).view.emb j) 0).val = win8_2.index t (0 : Fin 2) * 10800 + 1 * (j 0).val := rfl
  have o1 : ((((cfg8.win 2).blk t).view.emb j) 1).val = win8_2.index t (1 : Fin 2) * 64 + 1 * (j 1).val := rfl
  unfold G lin
  have hrow : (((((cfg8.win 2).blk t).view.emb j) 0).val - 864000) % 270000 = t.val * 10800 + (j 0).val := by
    rw [o0, e20]; rw [Nat.mod_eq_of_lt (by omega)]; omega
  have hcol : ((((cfg8.win 2).blk t).view.emb j) 1).val = (j 1).val := by rw [o1, e21]; omega
  refine Finset.sum_congr rfl fun p _ => ?_
  have hp : p.val < 80 := p.isLt
  have ex : iblk8 V c 0 t (ix2 (⟨(j 0).val, hj0⟩ : Fin 10800) p)
      = (V c main_v8 : S270000x80.Idx → EReal) (ix2 ⟨(((((cfg8.win 2).blk t).view.emb j) 0).val - 864000) % 270000, Nat.mod_lt _ (by decide)⟩ p) := by
    show V c main_v8 (((cfg8.win 0).blk t).view.emb (ix2 (⟨(j 0).val, hj0⟩ : Fin 10800) p)) = _
    refine congrArg (V c main_v8) (funext fun a => Fin.ext ?_)
    match a with
    | ⟨0, _⟩ => show win8_0.index t (0 : Fin 2) * 10800 + 1 * (j 0).val = _; rw [e00]; show _ = (((((cfg8.win 2).blk t).view.emb j) 0).val - 864000) % 270000; rw [hrow]; omega
    | ⟨1, _⟩ => show win8_0.index t (1 : Fin 2) * 80 + 1 * p.val = p.val; rw [e01]; omega
  have ew : col (iblk8 V c 1 t) ⟨(j 1).val, hj1⟩ p
      = col (V c main_arg16 : S80x64.Idx → EReal) ⟨((((cfg8.win 2).blk t).view.emb j) 1).val, ((((cfg8.win 2).blk t).view.emb j) 1).isLt⟩ p := by
    show V c main_arg16 (((cfg8.win 1).blk t).view.emb (ix2 p (⟨(j 1).val, hj1⟩ : Fin 64))) = V c main_arg16 (ix2 p _)
    refine congrArg (V c main_arg16) (funext fun a => Fin.ext ?_)
    match a with
    | ⟨0, _⟩ => show win8_1.index t (0 : Fin 2) * 80 + 1 * p.val = p.val; rw [e10]; omega
    | ⟨1, _⟩ => show win8_1.index t (1 : Fin 2) * 64 + 1 * (j 1).val = ((((cfg8.win 2).blk t).view.emb j) 1).val; rw [e11, hcol]; omega
  rw [ex, ew]

/-- An index of the result is in point t's block iff each coordinate is in the block's range on its axis. -/
theorem mem_blk (t : Fin cfg8.N) (i : S1944000x64.Idx) :
    i ∈ ((cfg8.win 2).blk t).view.set ↔ ∀ a : Fin 2, win8_2.index t a * S10800x64.size a ≤ (i a).val ∧ (i a).val < win8_2.index t a * S10800x64.size a + S10800x64.size a := by
  show i ∈ ((View.whole main_v20).slice (win8_2.rect t)).set ↔ _
  rw [View.set_slice_whole, Rect.mem_set_unit]
  exact Iff.rfl

/-- The rows some point's block covers are exactly rows [864000, 1134000). -/
theorem covered_iff (i : S1944000x64.Idx) :
    (∃ t : Fin cfg8.N, (cfg8.win 2).flush t = true ∧ i ∈ ((cfg8.win 2).blk t).view.set) ↔ 864000 ≤ (i 0).val ∧ (i 0).val < 1134000 := by
  have hi1 : (i 1).val < 64 := (i 1).isLt
  constructor
  · rintro ⟨t, -, hi⟩
    rw [mem_blk] at hi
    have b0 : win8_2.index t (0 : Fin 2) * 10800 ≤ (i 0).val ∧ (i 0).val < win8_2.index t (0 : Fin 2) * 10800 + 10800 := hi 0
    obtain ⟨e00, e01, e10, e11, e20, e21⟩ := idx_facts t
    have hN : t.val < 25 := t.isLt
    omega
  · intro h
    have hq : ((i 0).val - 864000) / 10800 < 25 := by omega
    let t : Fin cfg8.N := ⟨((i 0).val - 864000) / 10800, hq⟩
    obtain ⟨e00, e01, e10, e11, e20, e21⟩ := idx_facts t
    have ht : t.val = ((i 0).val - 864000) / 10800 := rfl
    refine ⟨t, flush8_2 t, ?_⟩
    rw [mem_blk]
    intro a
    match a with
    | ⟨0, _⟩ => show win8_2.index t (0 : Fin 2) * 10800 ≤ (i 0).val ∧ (i 0).val < win8_2.index t (0 : Fin 2) * 10800 + 10800; rw [e20, ht]; omega
    | ⟨1, _⟩ => show win8_2.index t (1 : Fin 2) * 64 ≤ (i 1).val ∧ (i 1).val < win8_2.index t (1 : Fin 2) * 64 + 64; rw [e21]; omega

/-- The result array after the region: the product on rows [864000, 1134000), the entry contents elsewhere. -/
theorem final (c : Dev nD) (i : S1944000x64.Idx) :
    (dat8 V c).arrAt 2 cfg8.N i
      = if 864000 ≤ (i 0).val ∧ (i 0).val < 1134000 then G V c i else V c main_v20 i := by
  rw [(dat8 V c).arrAt_eq_piecewise 2 (G V c) (fun t _ => flushed_eq V c t) i, A_eq8]
  exact if_congr (covered_iff i) rfl rfl

/-- Inside the region's rows: row 864000 + r, column q, holds entry (r, q) of the product. -/
theorem final_in (c : Dev nD) (i : S1944000x64.Idx) (r : Fin 270000) (q : Fin 64)
    (hr : (i 0).val = 864000 + r.val) (hq : (i 1).val = q.val) :
    (dat8 V c).arrAt 2 cfg8.N i
      = lin (V c main_v8 : S270000x80.Idx → EReal) (col (V c main_arg16 : S80x64.Idx → EReal) q) r := by
  have hrl : r.val < 270000 := r.isLt
  rw [final, if_pos (by omega)]
  unfold G
  have e1 : (⟨((i 0).val - 864000) % 270000, Nat.mod_lt _ (by decide)⟩ : Fin 270000) = r :=
    Fin.ext (by show ((i 0).val - 864000) % 270000 = r.val; rw [hr, Nat.mod_eq_of_lt (by omega)]; omega)
  have e2 : (⟨(i 1).val, (i 1).isLt⟩ : Fin 64) = q := Fin.ext hq
  rw [e1, e2]

/-- Outside them the array is as the region found it. -/
theorem final_out (c : Dev nD) (i : S1944000x64.Idx) (h : ¬(864000 ≤ (i 0).val ∧ (i 0).val < 1134000)) :
    (dat8 V c).arrAt 2 cfg8.N i = V c main_v20 i := by
  rw [final, if_neg h]

end Cert.Hand.Reg8

end
-- ==== Proof.Reg9.lean ====
/-
  Region 9 of the kernel's program: rows 1134000 to 1350000 of the result.

  The region's grid has 20 points.  Point t loads rows [10800·t, 10800·(t+1)) of the 216000 × 80 input matrix and the whole
  80 × 64 weight matrix, multiplies them, and writes the 10800 × 64 product over rows [1134000 + 10800·t, 1134000 + 10800·(t+1))
  of the 1,944,000 × 64 result array.  The blocks of the 20 points tile rows [1134000, 1350000) exactly; no other row of
  the array is touched.  So after the region the array holds, at a row 1134000 + r with r < 216000 and a column c, the sum
  over p < 80 of x(r, p) · w(p, c), and at every other row what it held when the region was entered.
-/
import proofs.«151581_j48060684042914_2_alg».proof.Proof.Gen.KernelIdeal.Frame
import proofs.«151581_j48060684042914_2_alg».proof.Proof.Spec
import Idealize.ShloMosaic.Lib.Pipeline.Value
import Idealize.ShloMosaic.Lib.ValueIdx
import Idealize.ShloMosaic.Lib.Tactic

noncomputable section

namespace Cert.Hand.Reg9

open Idealize.ShloMosaic Idealize.ShloMosaic.TcCoe Idealize.SL.Sem Idealize.ShloMosaic.ValueIdx
open Idealize.ShloMosaic.Pipeline (Dat)
open Cert.KernelIdeal Cert.KernelIdeal.Gen Cert.Hand.Dense

theorem hz : (![0, 0] : Fin 2 → Nat) = fun _ => 0 := funext fun a => by fin_cases a <;> rfl

section Body
variable {F : FTy → Type} [FloatOps F]

/-- What the body leaves in the output's staging buffer is the product of the two loaded blocks: the one store covers
    the buffer, and both loads read their whole buffers. -/
theorem out_eq (c : Dev nD) (i : grid9.Coords) (a1 : Memref sig .tc .vmem S10800x80 .f32) (h1 : a1.IsWhole)
    (a2 : Memref sig .tc .vmem S80x64 .f32) (h2 : a2.IsWhole) (a4 : Memref sig .tc .vmem S10800x64 .f32) (h4 : a4.IsWhole)
    (x0 : Vec F S10800x80 .f32) (x1 : Vec F S80x64 .f32) :
    out9_A_2 c i a1 h1 a2 h2 a4 h4 x0 x1 = k9_pay1 x0 x1 := by
  unfold out9_A_2
  rw [View.read_writes_eq_canon _ _ _ (cover9_A_2 c i a1 h1 a2 h2 a4 h4 x0 x1)]
  unfold kernelRun9_A
  dsimp only
  rw [View.canon_unit_zero hz]
  simp only [View.readAt_eq_ld, h1.read_unread, h2.read_unread, View.ld_unit_zero (S := S10800x80) hz,
    View.ld_unit_zero (S := S80x64) hz]

end Body

/-- The product of a 10800 × 80 block with the 80 × 64 matrix, at row r and column c: the casts to the narrower float
    format are the identity on the extended reals, and a product accumulated into the zero matrix is the plain sum. -/
theorem pay_entry (x0 : Vec Ideal S10800x80 .f32) (x1 : Vec Ideal S80x64 .f32) (r : Fin 10800) (c : Fin 64) :
    k9_pay1 (F := Ideal) x0 x1 (ix2 r c) = lin x0 (col x1 c) r := by
  unfold k9_pay1
  rw [shapeCast_self]
  exact matmul_entry (M := 10800) (K := 80) (N := 64) none (truncf .bf16 x0 bitsLt_bf16_f32) (truncf .bf16 x1 bitsLt_bf16_f32) r c

/-- The block index maps, decided over the grid: point t reads block t of the input, the whole weight matrix, and
    writes block 105 + t of the result. -/
theorem idx_facts : ∀ t : Fin cfg9.N, win9_0.index t (0 : Fin 2) = t.val ∧ win9_0.index t (1 : Fin 2) = 0
    ∧ win9_1.index t (0 : Fin 2) = 0 ∧ win9_1.index t (1 : Fin 2) = 0
    ∧ win9_2.index t (0 : Fin 2) = 105 + t.val ∧ win9_2.index t (1 : Fin 2) = 0 :=
  (by decide +kernel : ∀ t : Fin grid9.N, _)

variable (V : (c : Dev nD) → (b : Ref sig .tc) → Buf (Elt Ideal) ((c : Thread nD τ).loc b))

/-- The rows this region writes, as one function of the whole result index: row 1134000 + r holds row r of the product. -/
def G (c : Dev nD) : S1944000x64.Idx → EReal := fun i =>
  lin (V c main_v9 : S216000x80.Idx → EReal) (col (V c main_arg16 : S80x64.Idx → EReal) ⟨(i 1).val, (i 1).isLt⟩)
    ⟨((i 0).val - 1134000) % 216000, Nat.mod_lt _ (by decide)⟩

/-- What point t writes back is its block of `G`. -/
theorem flushed_eq (c : Dev nD) (t : Fin cfg9.N) :
    (dat9 V c).flushed 2 t = ((cfg9.win 2).blk t).view.read (Elt Ideal) (G V c) := by
  show (cfg9.win 2).cut (grid9.coords t) ((dat9 V c).after 2 t) = _
  rw [after9_2]; unfold outsAt9; rw [out_eq]
  obtain ⟨e00, e01, e10, e11, e20, e21⟩ := idx_facts t
  have hN : t.val < 20 := t.isLt
  funext j
  have hj0 : (j 0).val < 10800 := (j 0).isLt
  have hj1 : (j 1).val < 64 := (j 1).isLt
  have ej : j = ix2 (⟨(j 0).val, hj0⟩ : Fin 10800) (⟨(j 1).val, hj1⟩ : Fin 64) :=
    funext fun a => by match a with | ⟨0, _⟩ => rfl | ⟨1, _⟩ => rfl
  refine (congrArg _ ej).trans ((pay_entry _ _ ⟨(j 0).val, hj0⟩ ⟨(j 1).val, hj1⟩).trans ?_)
  show lin (iblk9 V c 0 t) (col (iblk9 V c 1 t) ⟨(j 1).val, hj1⟩) ⟨(j 0).val, hj0⟩
    = G V c (((cfg9.win 2).blk t).view.emb j)
  have o0 : ((((cfg9.win 2).blk t).view.emb j) 0).val = win9_2.index t (0 : Fin 2) * 10800 + 1 * (j 0).val := rfl
  have o1 : ((((cfg9.win 2).blk t).view.emb j) 1).val = win9_2.index t (1 : Fin 2) * 64 + 1 * (j 1).val := rfl
  unfold G lin
  have hrow : (((((cfg9.win 2).blk t).view.emb j) 0).val - 1134000) % 216000 = t.val * 10800 + (j 0).val := by
    rw [o0, e20]; rw [Nat.mod_eq_of_lt (by omega)]; omega
  have hcol : ((((cfg9.win 2).blk t).view.emb j) 1).val = (j 1).val := by rw [o1, e21]; omega
  refine Finset.sum_congr rfl fun p _ => ?_
  have hp : p.val < 80 := p.isLt
  have ex : iblk9 V c 0 t (ix2 (⟨(j 0).val, hj0⟩ : Fin 10800) p)
      = (V c main_v9 : S216000x80.Idx → EReal) (ix2 ⟨(((((cfg9.win 2).blk t).view.emb j) 0).val - 1134000) % 216000, Nat.mod_lt _ (by decide)⟩ p) := by
    show V c main_v9 (((cfg9.win 0).blk t).view.emb (ix2 (⟨(j 0).val, hj0⟩ : Fin 10800) p)) = _
    refine congrArg (V c main_v9) (funext fun a => Fin.ext ?_)
    match a with
    | ⟨0, _⟩ => show win9_0.index t (0 : Fin 2) * 10800 + 1 * (j 0).val = _; rw [e00]; show _ = (((((cfg9.win 2).blk t).view.emb j) 0).val - 1134000) % 216000; rw [hrow]; omega
    | ⟨1, _⟩ => show win9_0.index t (1 : Fin 2) * 80 + 1 * p.val = p.val; rw [e01]; omega
  have ew : col (iblk9 V c 1 t) ⟨(j 1).val, hj1⟩ p
      = col (V c main_arg16 : S80x64.Idx → EReal) ⟨((((cfg9.win 2).blk t).view.emb j) 1).val, ((((cfg9.win 2).blk t).view.emb j) 1).isLt⟩ p := by
    show V c main_arg16 (((cfg9.win 1).blk t).view.emb (ix2 p (⟨(j 1).val, hj1⟩ : Fin 64))) = V c main_arg16 (ix2 p _)
    refine congrArg (V c main_arg16) (funext fun a => Fin.ext ?_)
    match a with
    | ⟨0, _⟩ => show win9_1.index t (0 : Fin 2) * 80 + 1 * p.val = p.val; rw [e10]; omega
    | ⟨1, _⟩ => show win9_1.index t (1 : Fin 2) * 64 + 1 * (j 1).val = ((((cfg9.win 2).blk t).view.emb j) 1).val; rw [e11, hcol]; omega
  rw [ex, ew]

/-- An index of the result is in point t's block iff each coordinate is in the block's range on its axis. -/
theorem mem_blk (t : Fin cfg9.N) (i : S1944000x64.Idx) :
    i ∈ ((cfg9.win 2).blk t).view.set ↔ ∀ a : Fin 2, win9_2.index t a * S10800x64.size a ≤ (i a).val ∧ (i a).val < win9_2.index t a * S10800x64.size a + S10800x64.size a := by
  show i ∈ ((View.whole main_v21).slice (win9_2.rect t)).set ↔ _
  rw [View.set_slice_whole, Rect.mem_set_unit]
  exact Iff.rfl

/-- The rows some point's block covers are exactly rows [1134000, 1350000). -/
theorem covered_iff (i : S1944000x64.Idx) :
    (∃ t : Fin cfg9.N, (cfg9.win 2).flush t = true ∧ i ∈ ((cfg9.win 2).blk t).view.set) ↔ 1134000 ≤ (i 0).val ∧ (i 0).val < 1350000 := by
  have hi1 : (i 1).val < 64 := (i 1).isLt
  constructor
  · rintro ⟨t, -, hi⟩
    rw [mem_blk] at hi
    have b0 : win9_2.index t (0 : Fin 2) * 10800 ≤ (i 0).val ∧ (i 0).val < win9_2.index t (0 : Fin 2) * 10800 + 10800 := hi 0
    obtain ⟨e00, e01, e10, e11, e20, e21⟩ := idx_facts t
    have hN : t.val < 20 := t.isLt
    omega
  · intro h
    have hq : ((i 0).val - 1134000) / 10800 < 20 := by omega
    let t : Fin cfg9.N := ⟨((i 0).val - 1134000) / 10800, hq⟩
    obtain ⟨e00, e01, e10, e11, e20, e21⟩ := idx_facts t
    have ht : t.val = ((i 0).val - 1134000) / 10800 := rfl
    refine ⟨t, flush9_2 t, ?_⟩
    rw [mem_blk]
    intro a
    match a with
    | ⟨0, _⟩ => show win9_2.index t (0 : Fin 2) * 10800 ≤ (i 0).val ∧ (i 0).val < win9_2.index t (0 : Fin 2) * 10800 + 10800; rw [e20, ht]; omega
    | ⟨1, _⟩ => show win9_2.index t (1 : Fin 2) * 64 ≤ (i 1).val ∧ (i 1).val < win9_2.index t (1 : Fin 2) * 64 + 64; rw [e21]; omega

/-- The result array after the region: the product on rows [1134000, 1350000), the entry contents elsewhere. -/
theorem final (c : Dev nD) (i : S1944000x64.Idx) :
    (dat9 V c).arrAt 2 cfg9.N i
      = if 1134000 ≤ (i 0).val ∧ (i 0).val < 1350000 then G V c i else V c main_v21 i := by
  rw [(dat9 V c).arrAt_eq_piecewise 2 (G V c) (fun t _ => flushed_eq V c t) i, A_eq9]
  exact if_congr (covered_iff i) rfl rfl

/-- Inside the region's rows: row 1134000 + r, column q, holds entry (r, q) of the product. -/
theorem final_in (c : Dev nD) (i : S1944000x64.Idx) (r : Fin 216000) (q : Fin 64)
    (hr : (i 0).val = 1134000 + r.val) (hq : (i 1).val = q.val) :
    (dat9 V c).arrAt 2 cfg9.N i
      = lin (V c main_v9 : S216000x80.Idx → EReal) (col (V c main_arg16 : S80x64.Idx → EReal) q) r := by
  have hrl : r.val < 216000 := r.isLt
  rw [final, if_pos (by omega)]
  unfold G
  have e1 : (⟨((i 0).val - 1134000) % 216000, Nat.mod_lt _ (by decide)⟩ : Fin 216000) = r :=
    Fin.ext (by show ((i 0).val - 1134000) % 216000 = r.val; rw [hr, Nat.mod_eq_of_lt (by omega)]; omega)
  have e2 : (⟨(i 1).val, (i 1).isLt⟩ : Fin 64) = q := Fin.ext hq
  rw [e1, e2]

/-- Outside them the array is as the region found it. -/
theorem final_out (c : Dev nD) (i : S1944000x64.Idx) (h : ¬(1134000 ≤ (i 0).val ∧ (i 0).val < 1350000)) :
    (dat9 V c).arrAt 2 cfg9.N i = V c main_v21 i := by
  rw [final, if_neg h]

end Cert.Hand.Reg9

end
-- ==== Proof.Reg10.lean ====
/-
  Region 10 of the kernel's program: rows 1350000 to 1680000 of the result.

  The region's grid has 33 points.  Point t loads rows [10000·t, 10000·(t+1)) of the 330000 × 80 input matrix and the whole
  80 × 64 weight matrix, multiplies them, and writes the 10000 × 64 product over rows [1350000 + 10000·t, 1350000 + 10000·(t+1))
  of the 1,944,000 × 64 result array.  The blocks of the 33 points tile rows [1350000, 1680000) exactly; no other row of
  the array is touched.  So after the region the array holds, at a row 1350000 + r with r < 330000 and a column c, the sum
  over p < 80 of x(r, p) · w(p, c), and at every other row what it held when the region was entered.
-/
import proofs.«151581_j48060684042914_2_alg».proof.Proof.Gen.KernelIdeal.Frame
import proofs.«151581_j48060684042914_2_alg».proof.Proof.Spec
import Idealize.ShloMosaic.Lib.Pipeline.Value
import Idealize.ShloMosaic.Lib.ValueIdx
import Idealize.ShloMosaic.Lib.Tactic

noncomputable section

namespace Cert.Hand.Reg10

open Idealize.ShloMosaic Idealize.ShloMosaic.TcCoe Idealize.SL.Sem Idealize.ShloMosaic.ValueIdx
open Idealize.ShloMosaic.Pipeline (Dat)
open Cert.KernelIdeal Cert.KernelIdeal.Gen Cert.Hand.Dense

theorem hz : (![0, 0] : Fin 2 → Nat) = fun _ => 0 := funext fun a => by fin_cases a <;> rfl

section Body
variable {F : FTy → Type} [FloatOps F]

/-- What the body leaves in the output's staging buffer is the product of the two loaded blocks: the one store covers
    the buffer, and both loads read their whole buffers. -/
theorem out_eq (c : Dev nD) (i : grid10.Coords) (a1 : Memref sig .tc .vmem S10000x80 .f32) (h1 : a1.IsWhole)
    (a2 : Memref sig .tc .vmem S80x64 .f32) (h2 : a2.IsWhole) (a4 : Memref sig .tc .vmem S10000x64 .f32) (h4 : a4.IsWhole)
    (x0 : Vec F S10000x80 .f32) (x1 : Vec F S80x64 .f32) :
    out10_A_2 c i a1 h1 a2 h2 a4 h4 x0 x1 = k10_pay1 x0 x1 := by
  unfold out10_A_2
  rw [View.read_writes_eq_canon _ _ _ (cover10_A_2 c i a1 h1 a2 h2 a4 h4 x0 x1)]
  unfold kernelRun10_A
  dsimp only
  rw [View.canon_unit_zero hz]
  simp only [View.readAt_eq_ld, h1.read_unread, h2.read_unread, View.ld_unit_zero (S := S10000x80) hz,
    View.ld_unit_zero (S := S80x64) hz]

end Body

/-- The product of a 10000 × 80 block with the 80 × 64 matrix, at row r and column c: the casts to the narrower float
    format are the identity on the extended reals, and a product accumulated into the zero matrix is the plain sum. -/
theorem pay_entry (x0 : Vec Ideal S10000x80 .f32) (x1 : Vec Ideal S80x64 .f32) (r : Fin 10000) (c : Fin 64) :
    k10_pay1 (F := Ideal) x0 x1 (ix2 r c) = lin x0 (col x1 c) r := by
  unfold k10_pay1
  rw [shapeCast_self]
  exact matmul_entry (M := 10000) (K := 80) (N := 64) none (truncf .bf16 x0 bitsLt_bf16_f32) (truncf .bf16 x1 bitsLt_bf16_f32) r c

/-- The block index maps, decided over the grid: point t reads block t of the input, the whole weight matrix, and
    writes block 135 + t of the result. -/
theorem idx_facts : ∀ t : Fin cfg10.N, win10_0.index t (0 : Fin 2) = t.val ∧ win10_0.index t (1 : Fin 2) = 0
    ∧ win10_1.index t (0 : Fin 2) = 0 ∧ win10_1.index t (1 : Fin 2) = 0
    ∧ win10_2.index t (0 : Fin 2) = 135 + t.val ∧ win10_2.index t (1 : Fin 2) = 0 :=
  (by decide +kernel : ∀ t : Fin grid10.N, _)

/-- The result's blocks of 10000 rows do not divide its 1,944,000 rows, so a block at the array's end would be cut;
    none of this grid's points is there: every point writes a whole 10000 × 64 block. -/
theorem whole_blocks : ∀ t : Fin cfg10.N, win10_2.xsize (grid10.coords t) (0 : Fin 2) = 10000
    ∧ win10_2.xsize (grid10.coords t) (1 : Fin 2) = 64 :=
  (by decide +kernel : ∀ t : Fin grid10.N, _)

variable (V : (c : Dev nD) → (b : Ref sig .tc) → Buf (Elt Ideal) ((c : Thread nD τ).loc b))

/-- The rows this region writes, as one function of the whole result index: row 1350000 + r holds row r of the product. -/
def G (c : Dev nD) : S1944000x64.Idx → EReal := fun i =>
  lin (V c main_v10 : S330000x80.Idx → EReal) (col (V c main_arg17 : S80x64.Idx → EReal) ⟨(i 1).val, (i 1).isLt⟩)
    ⟨((i 0).val - 1350000) % 330000, Nat.mod_lt _ (by decide)⟩

/-- What point t writes back is its block of `G`. -/
theorem flushed_eq (c : Dev nD) (t : Fin cfg10.N) :
    (dat10 V c).flushed 2 t = ((cfg10.win 2).blk t).view.read (Elt Ideal) (G V c) := by
  show (cfg10.win 2).cut (grid10.coords t) ((dat10 V c).after 2 t) = _
  rw [after10_2]; unfold outsAt10; rw [out_eq]
  obtain ⟨e00, e01, e10, e11, e20, e21⟩ := idx_facts t
  have hN : t.val < 33 := t.isLt
  funext j
  have hj0 : (j 0).val < 10000 := Nat.lt_of_lt_of_le (j 0).isLt (win10_2.xsize_le (grid10.coords t) 0)
  have hj1 : (j 1).val < 64 := Nat.lt_of_lt_of_le (j 1).isLt (win10_2.xsize_le (grid10.coords t) 1)
  have ej : win10_2.xinj (grid10.coords t) j = ix2 (⟨(j 0).val, hj0⟩ : Fin 10000) (⟨(j 1).val, hj1⟩ : Fin 64) :=
    funext fun a => by match a with | ⟨0, _⟩ => rfl | ⟨1, _⟩ => rfl
  refine (congrArg (k10_pay1 (F := Ideal) (iblk10 V c 0 t) (iblk10 V c 1 t)) ej).trans
    ((pay_entry _ _ ⟨(j 0).val, hj0⟩ ⟨(j 1).val, hj1⟩).trans ?_)
  show lin (iblk10 V c 0 t) (col (iblk10 V c 1 t) ⟨(j 1).val, hj1⟩) ⟨(j 0).val, hj0⟩
    = G V c (((cfg10.win 2).blk t).view.emb j)
  have o0 : ((((cfg10.win 2).blk t).view.emb j) 0).val = win10_2.index t (0 : Fin 2) * 10000 + 1 * (j 0).val := rfl
  have o1 : ((((cfg10.win 2).blk t).view.emb j) 1).val = win10_2.index t (1 : Fin 2) * 64 + 1 * (j 1).val := rfl
  unfold G lin
  have hrow : (((((cfg10.win 2).blk t).view.emb j) 0).val - 1350000) % 330000 = t.val * 10000 + (j 0).val := by
    rw [o0, e20]; rw [Nat.mod_eq_of_lt (by omega)]; omega
  have hcol : ((((cfg10.win 2).blk t).view.emb j) 1).val = (j 1).val := by rw [o1, e21]; omega
  refine Finset.sum_congr rfl fun p _ => ?_
  have hp : p.val < 80 := p.isLt
  have ex : iblk10 V c 0 t (ix2 (⟨(j 0).val, hj0⟩ : Fin 10000) p)
      = (V c main_v10 : S330000x80.Idx → EReal) (ix2 ⟨(((((cfg10.win 2).blk t).view.emb j) 0).val - 1350000) % 330000, Nat.mod_lt _ (by decide)⟩ p) := by
    show V c main_v10 (((cfg10.win 0).blk t).view.emb (ix2 (⟨(j 0).val, hj0⟩ : Fin 10000) p)) = _
    refine congrArg (V c main_v10) (funext fun a => Fin.ext ?_)
    match a with
    | ⟨0, _⟩ => show win10_0.index t (0 : Fin 2) * 10000 + 1 * (j 0).val = _; rw [e00]; show _ = (((((cfg10.win 2).blk t).view.emb j) 0).val - 1350000) % 330000; rw [hrow]; omega
    | ⟨1, _⟩ => show win10_0.index t (1 : Fin 2) * 80 + 1 * p.val = p.val; rw [e01]; omega
  have ew : col (iblk10 V c 1 t) ⟨(j 1).val, hj1⟩ p
      = col (V c main_arg17 : S80x64.Idx → EReal) ⟨((((cfg10.win 2).blk t).view.emb j) 1).val, ((((cfg10.win 2).blk t).view.emb j) 1).isLt⟩ p := by
    show V c main_arg17 (((cfg10.win 1).blk t).view.emb (ix2 p (⟨(j 1).val, hj1⟩ : Fin 64))) = V c main_arg17 (ix2 p _)
    refine congrArg (V c main_arg17) (funext fun a => Fin.ext ?_)
    match a with
    | ⟨0, _⟩ => show win10_1.index t (0 : Fin 2) * 80 + 1 * p.val = p.val; rw [e10]; omega
    | ⟨1, _⟩ => show win10_1.index t (1 : Fin 2) * 64 + 1 * (j 1).val = ((((cfg10.win 2).blk t).view.emb j) 1).val; rw [e11, hcol]; omega
  rw [ex, ew]

/-- An index of the result is in point t's block iff each coordinate is in the block's range on its axis. -/
theorem mem_blk (t : Fin cfg10.N) (i : S1944000x64.Idx) :
    i ∈ ((cfg10.win 2).blk t).view.set ↔ ∀ a : Fin 2, win10_2.index t a * S10000x64.size a ≤ (i a).val ∧ (i a).val < win10_2.index t a * S10000x64.size a + win10_2.xsize (grid10.coords t) a := by
  show i ∈ ((View.whole main_v22).slice (win10_2.rect t)).set ↔ _
  rw [View.set_slice_whole, Rect.mem_set_unit]
  exact Iff.rfl

/-- The rows some point's block covers are exactly rows [1350000, 1680000). -/
theorem covered_iff (i : S1944000x64.Idx) :
    (∃ t : Fin cfg10.N, (cfg10.win 2).flush t = true ∧ i ∈ ((cfg10.win 2).blk t).view.set) ↔ 1350000 ≤ (i 0).val ∧ (i 0).val < 1680000 := by
  have hi1 : (i 1).val < 64 := (i 1).isLt
  constructor
  · rintro ⟨t, -, hi⟩
    rw [mem_blk] at hi
    obtain ⟨x0, x1⟩ := whole_blocks t
    have b0 : win10_2.index t (0 : Fin 2) * 10000 ≤ (i 0).val ∧ (i 0).val < win10_2.index t (0 : Fin 2) * 10000 + win10_2.xsize (grid10.coords t) (0 : Fin 2) := hi 0
    rw [x0] at b0
    obtain ⟨e00, e01, e10, e11, e20, e21⟩ := idx_facts t
    have hN : t.val < 33 := t.isLt
    omega
  · intro h
    have hq : ((i 0).val - 1350000) / 10000 < 33 := by omega
    let t : Fin cfg10.N := ⟨((i 0).val - 1350000) / 10000, hq⟩
    obtain ⟨e00, e01, e10, e11, e20, e21⟩ := idx_facts t
    obtain ⟨x0, x1⟩ := whole_blocks t
    have ht : t.val = ((i 0).val - 1350000) / 10000 := rfl
    refine ⟨t, flush10_2 t, ?_⟩
    rw [mem_blk]
    intro a
    match a with
    | ⟨0, _⟩ => show win10_2.index t (0 : Fin 2) * 10000 ≤ (i 0).val ∧ (i 0).val < win10_2.index t (0 : Fin 2) * 10000 + win10_2.xsize (grid10.coords t) (0 : Fin 2); rw [e20, x0, ht]; omega
    | ⟨1, _⟩ => show win10_2.index t (1 : Fin 2) * 64 ≤ (i 1).val ∧ (i 1).val < win10_2.index t (1 : Fin 2) * 64 + win10_2.xsize (grid10.coords t) (1 : Fin 2); rw [e21, x1]; omega

/-- The result array after the region: the product on rows [1350000, 1680000), the entry contents elsewhere. -/
theorem final (c : Dev nD) (i : S1944000x64.Idx) :
    (dat10 V c).arrAt 2 cfg10.N i
      = if 1350000 ≤ (i 0).val ∧ (i 0).val < 1680000 then G V c i else V c main_v22 i := by
  rw [(dat10 V c).arrAt_eq_piecewise 2 (G V c) (fun t _ => flushed_eq V c t) i, A_eq10]
  exact if_congr (covered_iff i) rfl rfl

/-- Inside the region's rows: row 1350000 + r, column q, holds entry (r, q) of the product. -/
theorem final_in (c : Dev nD) (i : S1944000x64.Idx) (r : Fin 330000) (q : Fin 64)
    (hr : (i 0).val = 1350000 + r.val) (hq : (i 1).val = q.val) :
    (dat10 V c).arrAt 2 cfg10.N i
      = lin (V c main_v10 : S330000x80.Idx → EReal) (col (V c main_arg17 : S80x64.Idx → EReal) q) r := by
  have hrl : r.val < 330000 := r.isLt
  rw [final, if_pos (by omega)]
  unfold G
  have e1 : (⟨((i 0).val - 1350000) % 330000, Nat.mod_lt _ (by decide)⟩ : Fin 330000) = r :=
    Fin.ext (by show ((i 0).val - 1350000) % 330000 = r.val; rw [hr, Nat.mod_eq_of_lt (by omega)]; omega)
  have e2 : (⟨(i 1).val, (i 1).isLt⟩ : Fin 64) = q := Fin.ext hq
  rw [e1, e2]

/-- Outside them the array is as the region found it. -/
theorem final_out (c : Dev nD) (i : S1944000x64.Idx) (h : ¬(1350000 ≤ (i 0).val ∧ (i 0).val < 1680000)) :
    (dat10 V c).arrAt 2 cfg10.N i = V c main_v22 i := by
  rw [final, if_neg h]

end Cert.Hand.Reg10

end
-- ==== Proof.Reg11.lean ====
/-
  Region 11 of the kernel's program: rows 1680000 to 1944000 of the result.

  The region's grid has 22 points.  Point t loads rows [12000·t, 12000·(t+1)) of the 264000 × 80 input matrix and the whole
  80 × 64 weight matrix, multiplies them, and writes the 12000 × 64 product over rows [1680000 + 12000·t, 1680000 + 12000·(t+1))
  of the 1,944,000 × 64 result array.  The blocks of the 22 points tile rows [1680000, 1944000) exactly; no other row of
  the array is touched.  So after the region the array holds, at a row 1680000 + r with r < 264000 and a column c, the sum
  over p < 80 of x(r, p) · w(p, c), and at every other row what it held when the region was entered.
-/
import proofs.«151581_j48060684042914_2_alg».proof.Proof.Gen.KernelIdeal.Frame
import proofs.«151581_j48060684042914_2_alg».proof.Proof.Spec
import Idealize.ShloMosaic.Lib.Pipeline.Value
import Idealize.ShloMosaic.Lib.ValueIdx
import Idealize.ShloMosaic.Lib.Tactic

noncomputable section

namespace Cert.Hand.Reg11

open Idealize.ShloMosaic Idealize.ShloMosaic.TcCoe Idealize.SL.Sem Idealize.ShloMosaic.ValueIdx
open Idealize.ShloMosaic.Pipeline (Dat)
open Cert.KernelIdeal Cert.KernelIdeal.Gen Cert.Hand.Dense

theorem hz : (![0, 0] : Fin 2 → Nat) = fun _ => 0 := funext fun a => by fin_cases a <;> rfl

section Body
variable {F : FTy → Type} [FloatOps F]

/-- What the body leaves in the output's staging buffer is the product of the two loaded blocks: the one store covers
    the buffer, and both loads read their whole buffers. -/
theorem out_eq (c : Dev nD) (i : grid11.Coords) (a1 : Memref sig .tc .vmem S12000x80 .f32) (h1 : a1.IsWhole)
    (a2 : Memref sig .tc .vmem S80x64 .f32) (h2 : a2.IsWhole) (a4 : Memref sig .tc .vmem S12000x64 .f32) (h4 : a4.IsWhole)
    (x0 : Vec F S12000x80 .f32) (x1 : Vec F S80x64 .f32) :
    out11_A_2 c i a1 h1 a2 h2 a4 h4 x0 x1 = k11_pay1 x0 x1 := by
  unfold out11_A_2
  rw [View.read_writes_eq_canon _ _ _ (cover11_A_2 c i a1 h1 a2 h2 a4 h4 x0 x1)]
  unfold kernelRun11_A
  dsimp only
  rw [View.canon_unit_zero hz]
  simp only [View.readAt_eq_ld, h1.read_unread, h2.read_unread, View.ld_unit_zero (S := S12000x80) hz,
    View.ld_unit_zero (S := S80x64) hz]

end Body

/-- The product of a 12000 × 80 block with the 80 × 64 matrix, at row r and column c: the casts to the narrower float
    format are the identity on the extended reals, and a product accumulated into the zero matrix is the plain sum. -/
theorem pay_entry (x0 : Vec Ideal S12000x80 .f32) (x1 : Vec Ideal S80x64 .f32) (r : Fin 12000) (c : Fin 64) :
    k11_pay1 (F := Ideal) x0 x1 (ix2 r c) = lin x0 (col x1 c) r := by
  unfold k11_pay1
  rw [shapeCast_self]
  exact matmul_entry (M := 12000) (K := 80) (N := 64) none (truncf .bf16 x0 bitsLt_bf16_f32) (truncf .bf16 x1 bitsLt_bf16_f32) r c

/-- The block index maps, decided over the grid: point t reads block t of the input, the whole weight matrix, and
    writes block 140 + t of the result. -/
theorem idx_facts : ∀ t : Fin cfg11.N, win11_0.index t (0 : Fin 2) = t.val ∧ win11_0.index t (1 : Fin 2) = 0
    ∧ win11_1.index t (0 : Fin 2) = 0 ∧ win11_1.index t (1 : Fin 2) = 0
    ∧ win11_2.index t (0 : Fin 2) = 140 + t.val ∧ win11_2.index t (1 : Fin 2) = 0 :=
  (by decide +kernel : ∀ t : Fin grid11.N, _)

variable (V : (c : Dev nD) → (b : Ref sig .tc) → Buf (Elt Ideal) ((c : Thread nD τ).loc b))

/-- The rows this region writes, as one function of the whole result index: row 1680000 + r holds row r of the product. -/
def G (c : Dev nD) : S1944000x64.Idx → EReal := fun i =>
  lin (V c main_v11 : S264000x80.Idx → EReal) (col (V c main_arg17 : S80x64.Idx → EReal) ⟨(i 1).val, (i 1).isLt⟩)
    ⟨((i 0).val - 1680000) % 264000, Nat.mod_lt _ (by decide)⟩

/-- What point t writes back is its block of `G`. -/
theorem flushed_eq (c : Dev nD) (t : Fin cfg11.N) :
    (dat11 V c).flushed 2 t = ((cfg11.win 2).blk t).view.read (Elt Ideal) (G V c) := by
  show (cfg11.win 2).cut (grid11.coords t) ((dat11 V c).after 2 t) = _
  rw [after11_2]; unfold outsAt11; rw [out_eq]
  obtain ⟨e00, e01, e10, e11, e20, e21⟩ := idx_facts t
  have hN : t.val < 22 := t.isLt
  funext j
  have hj0 : (j 0).val < 12000 := (j 0).isLt
  have hj1 : (j 1).val < 64 := (j 1).isLt
  have ej : j = ix2 (⟨(j 0).val, hj0⟩ : Fin 12000) (⟨(j 1).val, hj1⟩ : Fin 64) :=
    funext fun a => by match a with | ⟨0, _⟩ => rfl | ⟨1, _⟩ => rfl
  refine (congrArg _ ej).trans ((pay_entry _ _ ⟨(j 0).val, hj0⟩ ⟨(j 1).val, hj1⟩).trans ?_)
  show lin (iblk11 V c 0 t) (col (iblk11 V c 1 t) ⟨(j 1).val, hj1⟩) ⟨(j 0).val, hj0⟩
    = G V c (((cfg11.win 2).blk t).view.emb j)
  have o0 : ((((cfg11.win 2).blk t).view.emb j) 0).val = win11_2.index t (0 : Fin 2) * 12000 + 1 * (j 0).val := rfl
  have o1 : ((((cfg11.win 2).blk t).view.emb j) 1).val = win11_2.index t (1 : Fin 2) * 64 + 1 * (j 1).val := rfl
  unfold G lin
  have hrow : (((((cfg11.win 2).blk t).view.emb j) 0).val - 1680000) % 264000 = t.val * 12000 + (j 0).val := by
    rw [o0, e20]; rw [Nat.mod_eq_of_lt (by omega)]; omega
  have hcol : ((((cfg11.win 2).blk t).view.emb j) 1).val = (j 1).val := by rw [o1, e21]; omega
  refine Finset.sum_congr rfl fun p _ => ?_
  have hp : p.val < 80 := p.isLt
  have ex : iblk11 V c 0 t (ix2 (⟨(j 0).val, hj0⟩ : Fin 12000) p)
      = (V c main_v11 : S264000x80.Idx → EReal) (ix2 ⟨(((((cfg11.win 2).blk t).view.emb j) 0).val - 1680000) % 264000, Nat.mod_lt _ (by decide)⟩ p) := by
    show V c main_v11 (((cfg11.win 0).blk t).view.emb (ix2 (⟨(j 0).val, hj0⟩ : Fin 12000) p)) = _
    refine congrArg (V c main_v11) (funext fun a => Fin.ext ?_)
    match a with
    | ⟨0, _⟩ => show win11_0.index t (0 : Fin 2) * 12000 + 1 * (j 0).val = _; rw [e00]; show _ = (((((cfg11.win 2).blk t).view.emb j) 0).val - 1680000) % 264000; rw [hrow]; omega
    | ⟨1, _⟩ => show win11_0.index t (1 : Fin 2) * 80 + 1 * p.val = p.val; rw [e01]; omega
  have ew : col (iblk11 V c 1 t) ⟨(j 1).val, hj1⟩ p
      = col (V c main_arg17 : S80x64.Idx → EReal) ⟨((((cfg11.win 2).blk t).view.emb j) 1).val, ((((cfg11.win 2).blk t).view.emb j) 1).isLt⟩ p := by
    show V c main_arg17 (((cfg11.win 1).blk t).view.emb (ix2 p (⟨(j 1).val, hj1⟩ : Fin 64))) = V c main_arg17 (ix2 p _)
    refine congrArg (V c main_arg17) (funext fun a => Fin.ext ?_)
    match a with
    | ⟨0, _⟩ => show win11_1.index t (0 : Fin 2) * 80 + 1 * p.val = p.val; rw [e10]; omega
    | ⟨1, _⟩ => show win11_1.index t (1 : Fin 2) * 64 + 1 * (j 1).val = ((((cfg11.win 2).blk t).view.emb j) 1).val; rw [e11, hcol]; omega
  rw [ex, ew]

/-- An index of the result is in point t's block iff each coordinate is in the block's range on its axis. -/
theorem mem_blk (t : Fin cfg11.N) (i : S1944000x64.Idx) :
    i ∈ ((cfg11.win 2).blk t).view.set ↔ ∀ a : Fin 2, win11_2.index t a * S12000x64.size a ≤ (i a).val ∧ (i a).val < win11_2.index t a * S12000x64.size a + S12000x64.size a := by
  show i ∈ ((View.whole main_v23).slice (win11_2.rect t)).set ↔ _
  rw [View.set_slice_whole, Rect.mem_set_unit]
  exact Iff.rfl

/-- The rows some point's block covers are exactly rows [1680000, 1944000). -/
theorem covered_iff (i : S1944000x64.Idx) :
    (∃ t : Fin cfg11.N, (cfg11.win 2).flush t = true ∧ i ∈ ((cfg11.win 2).blk t).view.set) ↔ 1680000 ≤ (i 0).val ∧ (i 0).val < 1944000 := by
  have hi1 : (i 1).val < 64 := (i 1).isLt
  constructor
  · rintro ⟨t, -, hi⟩
    rw [mem_blk] at hi
    have b0 : win11_2.index t (0 : Fin 2) * 12000 ≤ (i 0).val ∧ (i 0).val < win11_2.index t (0 : Fin 2) * 12000 + 12000 := hi 0
    obtain ⟨e00, e01, e10, e11, e20, e21⟩ := idx_facts t
    have hN : t.val < 22 := t.isLt
    omega
  · intro h
    have hq : ((i 0).val - 1680000) / 12000 < 22 := by omega
    let t : Fin cfg11.N := ⟨((i 0).val - 1680000) / 12000, hq⟩
    obtain ⟨e00, e01, e10, e11, e20, e21⟩ := idx_facts t
    have ht : t.val = ((i 0).val - 1680000) / 12000 := rfl
    refine ⟨t, flush11_2 t, ?_⟩
    rw [mem_blk]
    intro a
    match a with
    | ⟨0, _⟩ => show win11_2.index t (0 : Fin 2) * 12000 ≤ (i 0).val ∧ (i 0).val < win11_2.index t (0 : Fin 2) * 12000 + 12000; rw [e20, ht]; omega
    | ⟨1, _⟩ => show win11_2.index t (1 : Fin 2) * 64 ≤ (i 1).val ∧ (i 1).val < win11_2.index t (1 : Fin 2) * 64 + 64; rw [e21]; omega

/-- The result array after the region: the product on rows [1680000, 1944000), the entry contents elsewhere. -/
theorem final (c : Dev nD) (i : S1944000x64.Idx) :
    (dat11 V c).arrAt 2 cfg11.N i
      = if 1680000 ≤ (i 0).val ∧ (i 0).val < 1944000 then G V c i else V c main_v23 i := by
  rw [(dat11 V c).arrAt_eq_piecewise 2 (G V c) (fun t _ => flushed_eq V c t) i, A_eq11]
  exact if_congr (covered_iff i) rfl rfl

/-- Inside the region's rows: row 1680000 + r, column q, holds entry (r, q) of the product. -/
theorem final_in (c : Dev nD) (i : S1944000x64.Idx) (r : Fin 264000) (q : Fin 64)
    (hr : (i 0).val = 1680000 + r.val) (hq : (i 1).val = q.val) :
    (dat11 V c).arrAt 2 cfg11.N i
      = lin (V c main_v11 : S264000x80.Idx → EReal) (col (V c main_arg17 : S80x64.Idx → EReal) q) r := by
  have hrl : r.val < 264000 := r.isLt
  rw [final, if_pos (by omega)]
  unfold G
  have e1 : (⟨((i 0).val - 1680000) % 264000, Nat.mod_lt _ (by decide)⟩ : Fin 264000) = r :=
    Fin.ext (by show ((i 0).val - 1680000) % 264000 = r.val; rw [hr, Nat.mod_eq_of_lt (by omega)]; omega)
  have e2 : (⟨(i 1).val, (i 1).isLt⟩ : Fin 64) = q := Fin.ext hq
  rw [e1, e2]

/-- Outside them the array is as the region found it. -/
theorem final_out (c : Dev nD) (i : S1944000x64.Idx) (h : ¬(1680000 ≤ (i 0).val ∧ (i 0).val < 1944000)) :
    (dat11 V c).arrAt 2 cfg11.N i = V c main_v23 i := by
  rw [final, if_neg h]

end Cert.Hand.Reg11

end
-- ==== Proof.Link.lean ====
/-
  From one region to the next.

  Each region's reshaped input and its weight matrix are, at the region's entry, what the initial reshapes made of
  the launch arguments (they are never overwritten); so the rows a region writes hold the product of the flattened
  launch argument with the launch weights.  Before a region starts, its copy of the result is a copy of the previous
  region's, and the region changes only its own rows: every row below a region's first row is, after the region, what
  it was after the previous one.
-/
import proofs.«151581_j48060684042914_2_alg».proof.Proof.Gen.KernelIdeal.Frame
import proofs.«151581_j48060684042914_2_alg».proof.Proof.Spec
import proofs.«151581_j48060684042914_2_alg».proof.Proof.Keep
import proofs.«151581_j48060684042914_2_alg».proof.Proof.Reg0
import proofs.«151581_j48060684042914_2_alg».proof.Proof.Reg1
import proofs.«151581_j48060684042914_2_alg».proof.Proof.Reg2
import proofs.«151581_j48060684042914_2_alg».proof.Proof.Reg3
import proofs.«151581_j48060684042914_2_alg».proof.Proof.Reg4
import proofs.«151581_j48060684042914_2_alg».proof.Proof.Reg5
import proofs.«151581_j48060684042914_2_alg».proof.Proof.Reg6
import proofs.«151581_j48060684042914_2_alg».proof.Proof.Reg7
import proofs.«151581_j48060684042914_2_alg».proof.Proof.Reg8
import proofs.«151581_j48060684042914_2_alg».proof.Proof.Reg9
import proofs.«151581_j48060684042914_2_alg».proof.Proof.Reg10
import proofs.«151581_j48060684042914_2_alg».proof.Proof.Reg11
import Idealize.ShloMosaic.Lib.StableHlo.Run

noncomputable section

namespace Cert.Hand.Link

open Idealize.ShloMosaic Idealize.ShloMosaic.TcCoe Idealize.SL.Sem Idealize.ShloMosaic.ValueIdx Idealize.ShloMosaic.StableHlo
open Idealize.ShloMosaic.Pipeline (Dat)
open Cert.KernelIdeal Cert.KernelIdeal.Gen Cert.Hand.Dense Cert.Hand.Keep

variable (m : (ℓ : Loc nD τ sig) → Buf (Elt Ideal) ℓ) (ρ : Dev nD → PrngReg)

/-! ## What the initial reshapes leave: each input laid out as rows of 80, the weights untouched -/

theorem x0_eq (c : Dev nD) : (W1 m ρ c (Proc.devRef .tc main_v0) : S30000x80.Idx → EReal)
    = shapeCast S30000x80 (m ((c : Thread nD τ).loc main_arg0)) shapeCasts_S30000x1x80_S30000x80 := by
  show StableHlo.after hostOps0 (W0 m ρ c) (Proc.devRef .tc main_v0) = _
  after_results
  rfl
theorem x1_eq (c : Dev nD) : (W1 m ρ c (Proc.devRef .tc main_v1) : S24000x80.Idx → EReal)
    = shapeCast S24000x80 (m ((c : Thread nD τ).loc main_arg6)) shapeCasts_S8000x3x1x80_S24000x80 := by
  show StableHlo.after hostOps0 (W0 m ρ c) (Proc.devRef .tc main_v1) = _
  after_results
  rfl
theorem x2_eq (c : Dev nD) : (W1 m ρ c (Proc.devRef .tc main_v2) : S90000x80.Idx → EReal)
    = shapeCast S90000x80 (m ((c : Thread nD τ).loc main_arg1)) shapeCasts_S30000x3x80_S90000x80 := by
  show StableHlo.after hostOps0 (W0 m ρ c) (Proc.devRef .tc main_v2) = _
  after_results
  rfl
theorem x3_eq (c : Dev nD) : (W1 m ρ c (Proc.devRef .tc main_v3) : S72000x80.Idx → EReal)
    = shapeCast S72000x80 (m ((c : Thread nD τ).loc main_arg7)) shapeCasts_S8000x3x3x80_S72000x80 := by
  show StableHlo.after hostOps0 (W0 m ρ c) (Proc.devRef .tc main_v3) = _
  after_results
  rfl
theorem x4_eq (c : Dev nD) : (W1 m ρ c (Proc.devRef .tc main_v4) : S150000x80.Idx → EReal)
    = shapeCast S150000x80 (m ((c : Thread nD τ).loc main_arg2)) shapeCasts_S30000x5x80_S150000x80 := by
  show StableHlo.after hostOps0 (W0 m ρ c) (Proc.devRef .tc main_v4) = _
  after_results
  rfl
theorem x5_eq (c : Dev nD) : (W1 m ρ c (Proc.devRef .tc main_v5) : S120000x80.Idx → EReal)
    = shapeCast S120000x80 (m ((c : Thread nD τ).loc main_arg8)) shapeCasts_S8000x3x5x80_S120000x80 := by
  show StableHlo.after hostOps0 (W0 m ρ c) (Proc.devRef .tc main_v5) = _
  after_results
  rfl
theorem x6_eq (c : Dev nD) : (W1 m ρ c (Proc.devRef .tc main_v6) : S210000x80.Idx → EReal)
    = shapeCast S210000x80 (m ((c : Thread nD τ).loc main_arg3)) shapeCasts_S30000x7x80_S210000x80 := by
  show StableHlo.after hostOps0 (W0 m ρ c) (Proc.devRef .tc main_v6) = _
  after_results
  rfl
theorem x7_eq (c : Dev nD) : (W1 m ρ c (Proc.devRef .tc main_v7) : S168000x80.Idx → EReal)
    = shapeCast S168000x80 (m ((c : Thread nD τ).loc main_arg9)) shapeCasts_S8000x3x7x80_S168000x80 := by
  show StableHlo.after hostOps0 (W0 m ρ c) (Proc.devRef .tc main_v7) = _
  after_results
  rfl
theorem x8_eq (c : Dev nD) : (W1 m ρ c (Proc.devRef .tc main_v8) : S270000x80.Idx → EReal)
    = shapeCast S270000x80 (m ((c : Thread nD τ).loc main_arg4)) shapeCasts_S30000x9x80_S270000x80 := by
  show StableHlo.after hostOps0 (W0 m ρ c) (Proc.devRef .tc main_v8) = _
  after_results
  rfl
theorem x9_eq (c : Dev nD) : (W1 m ρ c (Proc.devRef .tc main_v9) : S216000x80.Idx → EReal)
    = shapeCast S216000x80 (m ((c : Thread nD τ).loc main_arg10)) shapeCasts_S8000x3x9x80_S216000x80 := by
  show StableHlo.after hostOps0 (W0 m ρ c) (Proc.devRef .tc main_v9) = _
  after_results
  rfl
theorem x10_eq (c : Dev nD) : (W1 m ρ c (Proc.devRef .tc main_v10) : S330000x80.Idx → EReal)
    = shapeCast S330000x80 (m ((c : Thread nD τ).loc main_arg5)) shapeCasts_S30000x11x80_S330000x80 := by
  show StableHlo.after hostOps0 (W0 m ρ c) (Proc.devRef .tc main_v10) = _
  after_results
  rfl
theorem x11_eq (c : Dev nD) : (W1 m ρ c (Proc.devRef .tc main_v11) : S264000x80.Idx → EReal)
    = shapeCast S264000x80 (m ((c : Thread nD τ).loc main_arg11)) shapeCasts_S8000x3x11x80_S264000x80 := by
  show StableHlo.after hostOps0 (W0 m ρ c) (Proc.devRef .tc main_v11) = _
  after_results
  rfl

theorem w12_eq (c : Dev nD) : W1 m ρ c (Proc.devRef .tc main_arg12) = m ((c : Thread nD τ).loc main_arg12) := by
  show StableHlo.after hostOps0 (W0 m ρ c) (Proc.devRef .tc main_arg12) = _
  after_results
theorem w13_eq (c : Dev nD) : W1 m ρ c (Proc.devRef .tc main_arg13) = m ((c : Thread nD τ).loc main_arg13) := by
  show StableHlo.after hostOps0 (W0 m ρ c) (Proc.devRef .tc main_arg13) = _
  after_results
theorem w14_eq (c : Dev nD) : W1 m ρ c (Proc.devRef .tc main_arg14) = m ((c : Thread nD τ).loc main_arg14) := by
  show StableHlo.after hostOps0 (W0 m ρ c) (Proc.devRef .tc main_arg14) = _
  after_results
theorem w15_eq (c : Dev nD) : W1 m ρ c (Proc.devRef .tc main_arg15) = m ((c : Thread nD τ).loc main_arg15) := by
  show StableHlo.after hostOps0 (W0 m ρ c) (Proc.devRef .tc main_arg15) = _
  after_results
theorem w16_eq (c : Dev nD) : W1 m ρ c (Proc.devRef .tc main_arg16) = m ((c : Thread nD τ).loc main_arg16) := by
  show StableHlo.after hostOps0 (W0 m ρ c) (Proc.devRef .tc main_arg16) = _
  after_results
theorem w17_eq (c : Dev nD) : W1 m ρ c (Proc.devRef .tc main_arg17) = m ((c : Thread nD τ).loc main_arg17) := by
  show StableHlo.after hostOps0 (W0 m ρ c) (Proc.devRef .tc main_arg17) = _
  after_results

/-! ## Region 0: rows [0, 30000) -/

theorem in0 (c : Dev nD) (i : S1944000x64.Idx) (r : Fin 30000) (q : Fin 64)
    (hr : (i 0).val = 0 + r.val) (hq : (i 1).val = q.val) :
    W2 m ρ c (Proc.devRef .tc main_v12) i
      = entry 30000 (m ((c : Thread nD τ).loc main_arg0)) shapeCasts_S30000x1x80_S30000x80 (m ((c : Thread nD τ).loc main_arg12)) r q := by
  rw [show W2 m ρ c (Proc.devRef .tc main_v12) = (dat0 (V1 m ρ) c).arrAt 2 cfg0.N from W2_arr m ρ c 2]
  rw [Reg0.final_in (V1 m ρ) c i r q hr hq]
  have hx : (V1 m ρ c main_v0 : S30000x80.Idx → EReal)
      = shapeCast S30000x80 (m ((c : Thread nD τ).loc main_arg0)) shapeCasts_S30000x1x80_S30000x80 := x0_eq m ρ c
  have hw : (V1 m ρ c main_arg12 : S80x64.Idx → EReal) = m ((c : Thread nD τ).loc main_arg12) := w12_eq m ρ c
  rw [hx, hw]
  rfl

/-! ## Region 1: rows [30000, 54000) -/

theorem in1 (c : Dev nD) (i : S1944000x64.Idx) (r : Fin 24000) (q : Fin 64)
    (hr : (i 0).val = 30000 + r.val) (hq : (i 1).val = q.val) :
    W4 m ρ c (Proc.devRef .tc main_v13) i
      = entry 24000 (m ((c : Thread nD τ).loc main_arg6)) shapeCasts_S8000x3x1x80_S24000x80 (m ((c : Thread nD τ).loc main_arg12)) r q := by
  rw [show W4 m ρ c (Proc.devRef .tc main_v13) = (dat1 (V3 m ρ) c).arrAt 2 cfg1.N from W4_arr m ρ c 2]
  rw [Reg1.final_in (V3 m ρ) c i r q hr hq]
  have hx : (V3 m ρ c main_v1 : S24000x80.Idx → EReal)
      = shapeCast S24000x80 (m ((c : Thread nD τ).loc main_arg6)) shapeCasts_S8000x3x1x80_S24000x80 :=
    (keep3 m ρ c main_v1 (by decide)).trans (x1_eq m ρ c)
  have hw : (V3 m ρ c main_arg12 : S80x64.Idx → EReal) = m ((c : Thread nD τ).loc main_arg12) :=
    (keep3 m ρ c main_arg12 (by decide)).trans (w12_eq m ρ c)
  rw [hx, hw]
  rfl

theorem below1 (c : Dev nD) (i : S1944000x64.Idx) (h : (i 0).val < 30000) :
    W4 m ρ c (Proc.devRef .tc main_v13) i = W2 m ρ c (Proc.devRef .tc main_v12) i := by
  rw [show W4 m ρ c (Proc.devRef .tc main_v13) = (dat1 (V3 m ρ) c).arrAt 2 cfg1.N from W4_arr m ρ c 2]
  rw [Reg1.final_out (V3 m ρ) c i (by omega)]
  show StableHlo.after hostOps1 (W2 m ρ c) (Proc.devRef .tc main_v13) i = _
  after_results
  rfl

/-! ## Region 2: rows [54000, 144000) -/

theorem in2 (c : Dev nD) (i : S1944000x64.Idx) (r : Fin 90000) (q : Fin 64)
    (hr : (i 0).val = 54000 + r.val) (hq : (i 1).val = q.val) :
    W6 m ρ c (Proc.devRef .tc main_v14) i
      = entry 90000 (m ((c : Thread nD τ).loc main_arg1)) shapeCasts_S30000x3x80_S90000x80 (m ((c : Thread nD τ).loc main_arg13)) r q := by
  rw [show W6 m ρ c (Proc.devRef .tc main_v14) = (dat2 (V5 m ρ) c).arrAt 2 cfg2.N from W6_arr m ρ c 2]
  rw [Reg2.final_in (V5 m ρ) c i r q hr hq]
  have hx : (V5 m ρ c main_v2 : S90000x80.Idx → EReal)
      = shapeCast S90000x80 (m ((c : Thread nD τ).loc main_arg1)) shapeCasts_S30000x3x80_S90000x80 :=
    (keep5 m ρ c main_v2 (by decide)).trans (x2_eq m ρ c)
  have hw : (V5 m ρ c main_arg13 : S80x64.Idx → EReal) = m ((c : Thread nD τ).loc main_arg13) :=
    (keep5 m ρ c main_arg13 (by decide)).trans (w13_eq m ρ c)
  rw [hx, hw]
  rfl

theorem below2 (c : Dev nD) (i : S1944000x64.Idx) (h : (i 0).val < 54000) :
    W6 m ρ c (Proc.devRef .tc main_v14) i = W4 m ρ c (Proc.devRef .tc main_v13) i := by
  rw [show W6 m ρ c (Proc.devRef .tc main_v14) = (dat2 (V5 m ρ) c).arrAt 2 cfg2.N from W6_arr m ρ c 2]
  rw [Reg2.final_out (V5 m ρ) c i (by omega)]
  show StableHlo.after hostOps2 (W4 m ρ c) (Proc.devRef .tc main_v14) i = _
  after_results
  rfl

/-! ## Region 3: rows [144000, 216000) -/

theorem in3 (c : Dev nD) (i : S1944000x64.Idx) (r : Fin 72000) (q : Fin 64)
    (hr : (i 0).val = 144000 + r.val) (hq : (i 1).val = q.val) :
    W8 m ρ c (Proc.devRef .tc main_v15) i
      = entry 72000 (m ((c : Thread nD τ).loc main_arg7)) shapeCasts_S8000x3x3x80_S72000x80 (m ((c : Thread nD τ).loc main_arg13)) r q := by
  rw [show W8 m ρ c (Proc.devRef .tc main_v15) = (dat3 (V7 m ρ) c).arrAt 2 cfg3.N from W8_arr m ρ c 2]
  rw [Reg3.final_in (V7 m ρ) c i r q hr hq]
  have hx : (V7 m ρ c main_v3 : S72000x80.Idx → EReal)
      = shapeCast S72000x80 (m ((c : Thread nD τ).loc main_arg7)) shapeCasts_S8000x3x3x80_S72000x80 :=
    (keep7 m ρ c main_v3 (by decide)).trans (x3_eq m ρ c)
  have hw : (V7 m ρ c main_arg13 : S80x64.Idx → EReal) = m ((c : Thread nD τ).loc main_arg13) :=
    (keep7 m ρ c main_arg13 (by decide)).trans (w13_eq m ρ c)
  rw [hx, hw]
  rfl

theorem below3 (c : Dev nD) (i : S1944000x64.Idx) (h : (i 0).val < 144000) :
    W8 m ρ c (Proc.devRef .tc main_v15) i = W6 m ρ c (Proc.devRef .tc main_v14) i := by
  rw [show W8 m ρ c (Proc.devRef .tc main_v15) = (dat3 (V7 m ρ) c).arrAt 2 cfg3.N from W8_arr m ρ c 2]
  rw [Reg3.final_out (V7 m ρ) c i (by omega)]
  show StableHlo.after hostOps3 (W6 m ρ c) (Proc.devRef .tc main_v15) i = _
  after_results
  rfl

/-! ## Region 4: rows [216000, 366000) -/

theorem in4 (c : Dev nD) (i : S1944000x64.Idx) (r : Fin 150000) (q : Fin 64)
    (hr : (i 0).val = 216000 + r.val) (hq : (i 1).val = q.val) :
    W10 m ρ c (Proc.devRef .tc main_v16) i
      = entry 150000 (m ((c : Thread nD τ).loc main_arg2)) shapeCasts_S30000x5x80_S150000x80 (m ((c : Thread nD τ).loc main_arg14)) r q := by
  rw [show W10 m ρ c (Proc.devRef .tc main_v16) = (dat4 (V9 m ρ) c).arrAt 2 cfg4.N from W10_arr m ρ c 2]
  rw [Reg4.final_in (V9 m ρ) c i r q hr hq]
  have hx : (V9 m ρ c main_v4 : S150000x80.Idx → EReal)
      = shapeCast S150000x80 (m ((c : Thread nD τ).loc main_arg2)) shapeCasts_S30000x5x80_S150000x80 :=
    (keep9 m ρ c main_v4 (by decide)).trans (x4_eq m ρ c)
  have hw : (V9 m ρ c main_arg14 : S80x64.Idx → EReal) = m ((c : Thread nD τ).loc main_arg14) :=
    (keep9 m ρ c main_arg14 (by decide)).trans (w14_eq m ρ c)
  rw [hx, hw]
  rfl

theorem below4 (c : Dev nD) (i : S1944000x64.Idx) (h : (i 0).val < 216000) :
    W10 m ρ c (Proc.devRef .tc main_v16) i = W8 m ρ c (Proc.devRef .tc main_v15) i := by
  rw [show W10 m ρ c (Proc.devRef .tc main_v16) = (dat4 (V9 m ρ) c).arrAt 2 cfg4.N from W10_arr m ρ c 2]
  rw [Reg4.final_out (V9 m ρ) c i (by omega)]
  show StableHlo.after hostOps4 (W8 m ρ c) (Proc.devRef .tc main_v16) i = _
  after_results
  rfl

/-! ## Region 5: rows [366000, 486000) -/

theorem in5 (c : Dev nD) (i : S1944000x64.Idx) (r : Fin 120000) (q : Fin 64)
    (hr : (i 0).val = 366000 + r.val) (hq : (i 1).val = q.val) :
    W12 m ρ c (Proc.devRef .tc main_v17) i
      = entry 120000 (m ((c : Thread nD τ).loc main_arg8)) shapeCasts_S8000x3x5x80_S120000x80 (m ((c : Thread nD τ).loc main_arg14)) r q := by
  rw [show W12 m ρ c (Proc.devRef .tc main_v17) = (dat5 (V11 m ρ) c).arrAt 2 cfg5.N from W12_arr m ρ c 2]
  rw [Reg5.final_in (V11 m ρ) c i r q hr hq]
  have hx : (V11 m ρ c main_v5 : S120000x80.Idx → EReal)
      = shapeCast S120000x80 (m ((c : Thread nD τ).loc main_arg8)) shapeCasts_S8000x3x5x80_S120000x80 :=
    (keep11 m ρ c main_v5 (by decide)).trans (x5_eq m ρ c)
  have hw : (V11 m ρ c main_arg14 : S80x64.Idx → EReal) = m ((c : Thread nD τ).loc main_arg14) :=
    (keep11 m ρ c main_arg14 (by decide)).trans (w14_eq m ρ c)
  rw [hx, hw]
  rfl

theorem below5 (c : Dev nD) (i : S1944000x64.Idx) (h : (i 0).val < 366000) :
    W12 m ρ c (Proc.devRef .tc main_v17) i = W10 m ρ c (Proc.devRef .tc main_v16) i := by
  rw [show W12 m ρ c (Proc.devRef .tc main_v17) = (dat5 (V11 m ρ) c).arrAt 2 cfg5.N from W12_arr m ρ c 2]
  rw [Reg5.final_out (V11 m ρ) c i (by omega)]
  show StableHlo.after hostOps5 (W10 m ρ c) (Proc.devRef .tc main_v17) i = _
  after_results
  rfl

/-! ## Region 6: rows [486000, 696000) -/

theorem in6 (c : Dev nD) (i : S1944000x64.Idx) (r : Fin 210000) (q : Fin 64)
    (hr : (i 0).val = 486000 + r.val) (hq : (i 1).val = q.val) :
    W14 m ρ c (Proc.devRef .tc main_v18) i
      = entry 210000 (m ((c : Thread nD τ).loc main_arg3)) shapeCasts_S30000x7x80_S210000x80 (m ((c : Thread nD τ).loc main_arg15)) r q := by
  rw [show W14 m ρ c (Proc.devRef .tc main_v18) = (dat6 (V13 m ρ) c).arrAt 2 cfg6.N from W14_arr m ρ c 2]
  rw [Reg6.final_in (V13 m ρ) c i r q hr hq]
  have hx : (V13 m ρ c main_v6 : S210000x80.Idx → EReal)
      = shapeCast S210000x80 (m ((c : Thread nD τ).loc main_arg3)) shapeCasts_S30000x7x80_S210000x80 :=
    (keep13 m ρ c main_v6 (by decide)).trans (x6_eq m ρ c)
  have hw : (V13 m ρ c main_arg15 : S80x64.Idx → EReal) = m ((c : Thread nD τ).loc main_arg15) :=
    (keep13 m ρ c main_arg15 (by decide)).trans (w15_eq m ρ c)
  rw [hx, hw]
  rfl

theorem below6 (c : Dev nD) (i : S1944000x64.Idx) (h : (i 0).val < 486000) :
    W14 m ρ c (Proc.devRef .tc main_v18) i = W12 m ρ c (Proc.devRef .tc main_v17) i := by
  rw [show W14 m ρ c (Proc.devRef .tc main_v18) = (dat6 (V13 m ρ) c).arrAt 2 cfg6.N from W14_arr m ρ c 2]
  rw [Reg6.final_out (V13 m ρ) c i (by omega)]
  show StableHlo.after hostOps6 (W12 m ρ c) (Proc.devRef .tc main_v18) i = _
  after_results
  rfl

/-! ## Region 7: rows [696000, 864000) -/

theorem in7 (c : Dev nD) (i : S1944000x64.Idx) (r : Fin 168000) (q : Fin 64)
    (hr : (i 0).val = 696000 + r.val) (hq : (i 1).val = q.val) :
    W16 m ρ c (Proc.devRef .tc main_v19) i
      = entry 168000 (m ((c : Thread nD τ).loc main_arg9)) shapeCasts_S8000x3x7x80_S168000x80 (m ((c : Thread nD τ).loc main_arg15)) r q := by
  rw [show W16 m ρ c (Proc.devRef .tc main_v19) = (dat7 (V15 m ρ) c).arrAt 2 cfg7.N from W16_arr m ρ c 2]
  rw [Reg7.final_in (V15 m ρ) c i r q hr hq]
  have hx : (V15 m ρ c main_v7 : S168000x80.Idx → EReal)
      = shapeCast S168000x80 (m ((c : Thread nD τ).loc main_arg9)) shapeCasts_S8000x3x7x80_S168000x80 :=
    (keep15 m ρ c main_v7 (by decide)).trans (x7_eq m ρ c)
  have hw : (V15 m ρ c main_arg15 : S80x64.Idx → EReal) = m ((c : Thread nD τ).loc main_arg15) :=
    (keep15 m ρ c main_arg15 (by decide)).trans (w15_eq m ρ c)
  rw [hx, hw]
  rfl

theorem below7 (c : Dev nD) (i : S1944000x64.Idx) (h : (i 0).val < 696000) :
    W16 m ρ c (Proc.devRef .tc main_v19) i = W14 m ρ c (Proc.devRef .tc main_v18) i := by
  rw [show W16 m ρ c (Proc.devRef .tc main_v19) = (dat7 (V15 m ρ) c).arrAt 2 cfg7.N from W16_arr m ρ c 2]
  rw [Reg7.final_out (V15 m ρ) c i (by omega)]
  show StableHlo.after hostOps7 (W14 m ρ c) (Proc.devRef .tc main_v19) i = _
  after_results
  rfl

/-! ## Region 8: rows [864000, 1134000) -/

theorem in8 (c : Dev nD) (i : S1944000x64.Idx) (r : Fin 270000) (q : Fin 64)
    (hr : (i 0).val = 864000 + r.val) (hq : (i 1).val = q.val) :
    W18 m ρ c (Proc.devRef .tc main_v20) i
      = entry 270000 (m ((c : Thread nD τ).loc main_arg4)) shapeCasts_S30000x9x80_S270000x80 (m ((c : Thread nD τ).loc main_arg16)) r q := by
  rw [show W18 m ρ c (Proc.devRef .tc main_v20) = (dat8 (V17 m ρ) c).arrAt 2 cfg8.N from W18_arr m ρ c 2]
  rw [Reg8.final_in (V17 m ρ) c i r q hr hq]
  have hx : (V17 m ρ c main_v8 : S270000x80.Idx → EReal)
      = shapeCast S270000x80 (m ((c : Thread nD τ).loc main_arg4)) shapeCasts_S30000x9x80_S270000x80 :=
    (keep17 m ρ c main_v8 (by decide)).trans (x8_eq m ρ c)
  have hw : (V17 m ρ c main_arg16 : S80x64.Idx → EReal) = m ((c : Thread nD τ).loc main_arg16) :=
    (keep17 m ρ c main_arg16 (by decide)).trans (w16_eq m ρ c)
  rw [hx, hw]
  rfl

theorem below8 (c : Dev nD) (i : S1944000x64.Idx) (h : (i 0).val < 864000) :
    W18 m ρ c (Proc.devRef .tc main_v20) i = W16 m ρ c (Proc.devRef .tc main_v19) i := by
  rw [show W18 m ρ c (Proc.devRef .tc main_v20) = (dat8 (V17 m ρ) c).arrAt 2 cfg8.N from W18_arr m ρ c 2]
  rw [Reg8.final_out (V17 m ρ) c i (by omega)]
  show StableHlo.after hostOps8 (W16 m ρ c) (Proc.devRef .tc main_v20) i = _
  after_results
  rfl

/-! ## Region 9: rows [1134000, 1350000) -/

theorem in9 (c : Dev nD) (i : S1944000x64.Idx) (r : Fin 216000) (q : Fin 64)
    (hr : (i 0).val = 1134000 + r.val) (hq : (i 1).val = q.val) :
    W20 m ρ c (Proc.devRef .tc main_v21) i
      = entry 216000 (m ((c : Thread nD τ).loc main_arg10)) shapeCasts_S8000x3x9x80_S216000x80 (m ((c : Thread nD τ).loc main_arg16)) r q := by
  rw [show W20 m ρ c (Proc.devRef .tc main_v21) = (dat9 (V19 m ρ) c).arrAt 2 cfg9.N from W20_arr m ρ c 2]
  rw [Reg9.final_in (V19 m ρ) c i r q hr hq]
  have hx : (V19 m ρ c main_v9 : S216000x80.Idx → EReal)
      = shapeCast S216000x80 (m ((c : Thread nD τ).loc main_arg10)) shapeCasts_S8000x3x9x80_S216000x80 :=
    (keep19 m ρ c main_v9 (by decide)).trans (x9_eq m ρ c)
  have hw : (V19 m ρ c main_arg16 : S80x64.Idx → EReal) = m ((c : Thread nD τ).loc main_arg16) :=
    (keep19 m ρ c main_arg16 (by decide)).trans (w16_eq m ρ c)
  rw [hx, hw]
  rfl

theorem below9 (c : Dev nD) (i : S1944000x64.Idx) (h : (i 0).val < 1134000) :
    W20 m ρ c (Proc.devRef .tc main_v21) i = W18 m ρ c (Proc.devRef .tc main_v20) i := by
  rw [show W20 m ρ c (Proc.devRef .tc main_v21) = (dat9 (V19 m ρ) c).arrAt 2 cfg9.N from W20_arr m ρ c 2]
  rw [Reg9.final_out (V19 m ρ) c i (by omega)]
  show StableHlo.after hostOps9 (W18 m ρ c) (Proc.devRef .tc main_v21) i = _
  after_results
  rfl

/-! ## Region 10: rows [1350000, 1680000) -/

theorem in10 (c : Dev nD) (i : S1944000x64.Idx) (r : Fin 330000) (q : Fin 64)
    (hr : (i 0).val = 1350000 + r.val) (hq : (i 1).val = q.val) :
    W22 m ρ c (Proc.devRef .tc main_v22) i
      = entry 330000 (m ((c : Thread nD τ).loc main_arg5)) shapeCasts_S30000x11x80_S330000x80 (m ((c : Thread nD τ).loc main_arg17)) r q := by
  rw [show W22 m ρ c (Proc.devRef .tc main_v22) = (dat10 (V21 m ρ) c).arrAt 2 cfg10.N from W22_arr m ρ c 2]
  rw [Reg10.final_in (V21 m ρ) c i r q hr hq]
  have hx : (V21 m ρ c main_v10 : S330000x80.Idx → EReal)
      = shapeCast S330000x80 (m ((c : Thread nD τ).loc main_arg5)) shapeCasts_S30000x11x80_S330000x80 :=
    (keep21 m ρ c main_v10 (by decide)).trans (x10_eq m ρ c)
  have hw : (V21 m ρ c main_arg17 : S80x64.Idx → EReal) = m ((c : Thread nD τ).loc main_arg17) :=
    (keep21 m ρ c main_arg17 (by decide)).trans (w17_eq m ρ c)
  rw [hx, hw]
  rfl

theorem below10 (c : Dev nD) (i : S1944000x64.Idx) (h : (i 0).val < 1350000) :
    W22 m ρ c (Proc.devRef .tc main_v22) i = W20 m ρ c (Proc.devRef .tc main_v21) i := by
  rw [show W22 m ρ c (Proc.devRef .tc main_v22) = (dat10 (V21 m ρ) c).arrAt 2 cfg10.N from W22_arr m ρ c 2]
  rw [Reg10.final_out (V21 m ρ) c i (by omega)]
  show StableHlo.after hostOps10 (W20 m ρ c) (Proc.devRef .tc main_v22) i = _
  after_results
  rfl

/-! ## Region 11: rows [1680000, 1944000) -/

theorem in11 (c : Dev nD) (i : S1944000x64.Idx) (r : Fin 264000) (q : Fin 64)
    (hr : (i 0).val = 1680000 + r.val) (hq : (i 1).val = q.val) :
    W24 m ρ c (Proc.devRef .tc main_v23) i
      = entry 264000 (m ((c : Thread nD τ).loc main_arg11)) shapeCasts_S8000x3x11x80_S264000x80 (m ((c : Thread nD τ).loc main_arg17)) r q := by
  rw [show W24 m ρ c (Proc.devRef .tc main_v23) = (dat11 (V23 m ρ) c).arrAt 2 cfg11.N from W24_arr m ρ c 2]
  rw [Reg11.final_in (V23 m ρ) c i r q hr hq]
  have hx : (V23 m ρ c main_v11 : S264000x80.Idx → EReal)
      = shapeCast S264000x80 (m ((c : Thread nD τ).loc main_arg11)) shapeCasts_S8000x3x11x80_S264000x80 :=
    (keep23 m ρ c main_v11 (by decide)).trans (x11_eq m ρ c)
  have hw : (V23 m ρ c main_arg17 : S80x64.Idx → EReal) = m ((c : Thread nD τ).loc main_arg17) :=
    (keep23 m ρ c main_arg17 (by decide)).trans (w17_eq m ρ c)
  rw [hx, hw]
  rfl

theorem below11 (c : Dev nD) (i : S1944000x64.Idx) (h : (i 0).val < 1680000) :
    W24 m ρ c (Proc.devRef .tc main_v23) i = W22 m ρ c (Proc.devRef .tc main_v22) i := by
  rw [show W24 m ρ c (Proc.devRef .tc main_v23) = (dat11 (V23 m ρ) c).arrAt 2 cfg11.N from W24_arr m ρ c 2]
  rw [Reg11.final_out (V23 m ρ) c i (by omega)]
  show StableHlo.after hostOps11 (W22 m ρ c) (Proc.devRef .tc main_v23) i = _
  after_results
  rfl

/-! ## A row below a region's first row is final once that region's predecessor has run -/

theorem tail10 (c : Dev nD) (i : S1944000x64.Idx) (h : (i 0).val < 1680000) :
    W24 m ρ c (Proc.devRef .tc main_v23) i = W22 m ρ c (Proc.devRef .tc main_v22) i := below11 m ρ c i h
theorem tail9 (c : Dev nD) (i : S1944000x64.Idx) (h : (i 0).val < 1350000) :
    W24 m ρ c (Proc.devRef .tc main_v23) i = W20 m ρ c (Proc.devRef .tc main_v21) i :=
  (tail10 m ρ c i (by omega)).trans (below10 m ρ c i h)
theorem tail8 (c : Dev nD) (i : S1944000x64.Idx) (h : (i 0).val < 1134000) :
    W24 m ρ c (Proc.devRef .tc main_v23) i = W18 m ρ c (Proc.devRef .tc main_v20) i :=
  (tail9 m ρ c i (by omega)).trans (below9 m ρ c i h)
theorem tail7 (c : Dev nD) (i : S1944000x64.Idx) (h : (i 0).val < 864000) :
    W24 m ρ c (Proc.devRef .tc main_v23) i = W16 m ρ c (Proc.devRef .tc main_v19) i :=
  (tail8 m ρ c i (by omega)).trans (below8 m ρ c i h)
theorem tail6 (c : Dev nD) (i : S1944000x64.Idx) (h : (i 0).val < 696000) :
    W24 m ρ c (Proc.devRef .tc main_v23) i = W14 m ρ c (Proc.devRef .tc main_v18) i :=
  (tail7 m ρ c i (by omega)).trans (below7 m ρ c i h)
theorem tail5 (c : Dev nD) (i : S1944000x64.Idx) (h : (i 0).val < 486000) :
    W24 m ρ c (Proc.devRef .tc main_v23) i = W12 m ρ c (Proc.devRef .tc main_v17) i :=
  (tail6 m ρ c i (by omega)).trans (below6 m ρ c i h)
theorem tail4 (c : Dev nD) (i : S1944000x64.Idx) (h : (i 0).val < 366000) :
    W24 m ρ c (Proc.devRef .tc main_v23) i = W10 m ρ c (Proc.devRef .tc main_v16) i :=
  (tail5 m ρ c i (by omega)).trans (below5 m ρ c i h)
theorem tail3 (c : Dev nD) (i : S1944000x64.Idx) (h : (i 0).val < 216000) :
    W24 m ρ c (Proc.devRef .tc main_v23) i = W8 m ρ c (Proc.devRef .tc main_v15) i :=
  (tail4 m ρ c i (by omega)).trans (below4 m ρ c i h)
theorem tail2 (c : Dev nD) (i : S1944000x64.Idx) (h : (i 0).val < 144000) :
    W24 m ρ c (Proc.devRef .tc main_v23) i = W6 m ρ c (Proc.devRef .tc main_v14) i :=
  (tail3 m ρ c i (by omega)).trans (below3 m ρ c i h)
theorem tail1 (c : Dev nD) (i : S1944000x64.Idx) (h : (i 0).val < 54000) :
    W24 m ρ c (Proc.devRef .tc main_v23) i = W4 m ρ c (Proc.devRef .tc main_v13) i :=
  (tail2 m ρ c i (by omega)).trans (below2 m ρ c i h)
theorem tail0 (c : Dev nD) (i : S1944000x64.Idx) (h : (i 0).val < 30000) :
    W24 m ρ c (Proc.devRef .tc main_v23) i = W2 m ρ c (Proc.devRef .tc main_v12) i :=
  (tail1 m ρ c i (by omega)).trans (below1 m ρ c i h)

/-! ## The final result, segment by segment -/

theorem seg0 (c : Dev nD) (i : S1944000x64.Idx) (r : Fin 30000) (q : Fin 64)
    (hr : (i 0).val = 0 + r.val) (hq : (i 1).val = q.val) :
    W24 m ρ c (Proc.devRef .tc main_v23) i
      = entry 30000 (m ((c : Thread nD τ).loc main_arg0)) shapeCasts_S30000x1x80_S30000x80 (m ((c : Thread nD τ).loc main_arg12)) r q :=
  (tail0 m ρ c i (by have := r.isLt; omega)).trans (in0 m ρ c i r q hr hq)
theorem seg1 (c : Dev nD) (i : S1944000x64.Idx) (r : Fin 24000) (q : Fin 64)
    (hr : (i 0).val = 30000 + r.val) (hq : (i 1).val = q.val) :
    W24 m ρ c (Proc.devRef .tc main_v23) i
      = entry 24000 (m ((c : Thread nD τ).loc main_arg6)) shapeCasts_S8000x3x1x80_S24000x80 (m ((c : Thread nD τ).loc main_arg12)) r q :=
  (tail1 m ρ c i (by have := r.isLt; omega)).trans (in1 m ρ c i r q hr hq)
theorem seg2 (c : Dev nD) (i : S1944000x64.Idx) (r : Fin 90000) (q : Fin 64)
    (hr : (i 0).val = 54000 + r.val) (hq : (i 1).val = q.val) :
    W24 m ρ c (Proc.devRef .tc main_v23) i
      = entry 90000 (m ((c : Thread nD τ).loc main_arg1)) shapeCasts_S30000x3x80_S90000x80 (m ((c : Thread nD τ).loc main_arg13)) r q :=
  (tail2 m ρ c i (by have := r.isLt; omega)).trans (in2 m ρ c i r q hr hq)
theorem seg3 (c : Dev nD) (i : S1944000x64.Idx) (r : Fin 72000) (q : Fin 64)
    (hr : (i 0).val = 144000 + r.val) (hq : (i 1).val = q.val) :
    W24 m ρ c (Proc.devRef .tc main_v23) i
      = entry 72000 (m ((c : Thread nD τ).loc main_arg7)) shapeCasts_S8000x3x3x80_S72000x80 (m ((c : Thread nD τ).loc main_arg13)) r q :=
  (tail3 m ρ c i (by have := r.isLt; omega)).trans (in3 m ρ c i r q hr hq)
theorem seg4 (c : Dev nD) (i : S1944000x64.Idx) (r : Fin 150000) (q : Fin 64)
    (hr : (i 0).val = 216000 + r.val) (hq : (i 1).val = q.val) :
    W24 m ρ c (Proc.devRef .tc main_v23) i
      = entry 150000 (m ((c : Thread nD τ).loc main_arg2)) shapeCasts_S30000x5x80_S150000x80 (m ((c : Thread nD τ).loc main_arg14)) r q :=
  (tail4 m ρ c i (by have := r.isLt; omega)).trans (in4 m ρ c i r q hr hq)
theorem seg5 (c : Dev nD) (i : S1944000x64.Idx) (r : Fin 120000) (q : Fin 64)
    (hr : (i 0).val = 366000 + r.val) (hq : (i 1).val = q.val) :
    W24 m ρ c (Proc.devRef .tc main_v23) i
      = entry 120000 (m ((c : Thread nD τ).loc main_arg8)) shapeCasts_S8000x3x5x80_S120000x80 (m ((c : Thread nD τ).loc main_arg14)) r q :=
  (tail5 m ρ c i (by have := r.isLt; omega)).trans (in5 m ρ c i r q hr hq)
theorem seg6 (c : Dev nD) (i : S1944000x64.Idx) (r : Fin 210000) (q : Fin 64)
    (hr : (i 0).val = 486000 + r.val) (hq : (i 1).val = q.val) :
    W24 m ρ c (Proc.devRef .tc main_v23) i
      = entry 210000 (m ((c : Thread nD τ).loc main_arg3)) shapeCasts_S30000x7x80_S210000x80 (m ((c : Thread nD τ).loc main_arg15)) r q :=
  (tail6 m ρ c i (by have := r.isLt; omega)).trans (in6 m ρ c i r q hr hq)
theorem seg7 (c : Dev nD) (i : S1944000x64.Idx) (r : Fin 168000) (q : Fin 64)
    (hr : (i 0).val = 696000 + r.val) (hq : (i 1).val = q.val) :
    W24 m ρ c (Proc.devRef .tc main_v23) i
      = entry 168000 (m ((c : Thread nD τ).loc main_arg9)) shapeCasts_S8000x3x7x80_S168000x80 (m ((c : Thread nD τ).loc main_arg15)) r q :=
  (tail7 m ρ c i (by have := r.isLt; omega)).trans (in7 m ρ c i r q hr hq)
theorem seg8 (c : Dev nD) (i : S1944000x64.Idx) (r : Fin 270000) (q : Fin 64)
    (hr : (i 0).val = 864000 + r.val) (hq : (i 1).val = q.val) :
    W24 m ρ c (Proc.devRef .tc main_v23) i
      = entry 270000 (m ((c : Thread nD τ).loc main_arg4)) shapeCasts_S30000x9x80_S270000x80 (m ((c : Thread nD τ).loc main_arg16)) r q :=
  (tail8 m ρ c i (by have := r.isLt; omega)).trans (in8 m ρ c i r q hr hq)
theorem seg9 (c : Dev nD) (i : S1944000x64.Idx) (r : Fin 216000) (q : Fin 64)
    (hr : (i 0).val = 1134000 + r.val) (hq : (i 1).val = q.val) :
    W24 m ρ c (Proc.devRef .tc main_v23) i
      = entry 216000 (m ((c : Thread nD τ).loc main_arg10)) shapeCasts_S8000x3x9x80_S216000x80 (m ((c : Thread nD τ).loc main_arg16)) r q :=
  (tail9 m ρ c i (by have := r.isLt; omega)).trans (in9 m ρ c i r q hr hq)
theorem seg10 (c : Dev nD) (i : S1944000x64.Idx) (r : Fin 330000) (q : Fin 64)
    (hr : (i 0).val = 1350000 + r.val) (hq : (i 1).val = q.val) :
    W24 m ρ c (Proc.devRef .tc main_v23) i
      = entry 330000 (m ((c : Thread nD τ).loc main_arg5)) shapeCasts_S30000x11x80_S330000x80 (m ((c : Thread nD τ).loc main_arg17)) r q :=
  (tail10 m ρ c i (by have := r.isLt; omega)).trans (in10 m ρ c i r q hr hq)
theorem seg11 (c : Dev nD) (i : S1944000x64.Idx) (r : Fin 264000) (q : Fin 64)
    (hr : (i 0).val = 1680000 + r.val) (hq : (i 1).val = q.val) :
    W24 m ρ c (Proc.devRef .tc main_v23) i
      = entry 264000 (m ((c : Thread nD τ).loc main_arg11)) shapeCasts_S8000x3x11x80_S264000x80 (m ((c : Thread nD τ).loc main_arg17)) r q :=
  in11 m ρ c i r q hr hq

end Cert.Hand.Link

end
-- ==== Proof.RefPieces.lean ====
/-
  Reading one entry of a flattened product.

  An array of shape N × m × K, laid out row-major as L = N·m rows of K, has as its row r the pair (r / m, r % m):
  the row-major position of (r / m, r % m, p) is ((r / m)·m + r % m)·K + p = r·K + p.  An array of shape
  N × 3 × m × K laid out as L = N·3·m rows of K has as its row r the triple (r / m / 3, (r / m) % 3, r % m), because
  ((r / m / 3)·3 + (r / m) % 3)·m + r % m = (r / m)·m + r % m = r.

  So if y(a, b, c) = Σ_p x(a, b, p) · w(p, c) for every (a, b, c), then the flattened y at (r, c) is
  Σ_p (flattened x)(r, p) · w(p, c): both sides read the same row of the same array.  The same holds with one more
  leading axis of extent 3.
-/
import Idealize.ShloMosaic.PureOps.Ideal.Laws
import Idealize.ShloMosaic.Lib.ValueIdx
import Idealize.ShloMosaic.Lib.Pipeline.Value
import proofs.«151581_j48060684042914_2_alg».proof.Proof.Spec

noncomputable section

namespace Cert.Hand.Ref

open Idealize.ShloMosaic Idealize.ShloMosaic.ValueIdx Cert.Hand Cert.Hand.Dense

/-- Row `r` of an N × m × K array flattened to rows of K is the pair (r / m, r % m). -/
theorem flat3_read {α : Type} (N m K L : ℕ) (x : (⟨3, ![N, m, K]⟩ : Shape).Idx → α)
    (h : (⟨3, ![N, m, K]⟩ : Shape).ShapeCasts ⟨2, ![L, K]⟩) (r : Fin L) (p : Fin K)
    (hq : r.val / m < N) (hm : r.val % m < m) :
    shapeCast ⟨2, ![L, K]⟩ x h (ix2 r p) = x (ix3 ⟨r.val / m, hq⟩ ⟨r.val % m, hm⟩ p) := by
  refine shapeCast_apply x h (ix2 r p) _ ?_
  rw [Shape.rowMajor_val_three, Shape.rowMajor_val_two]
  show (r.val / m * m + r.val % m) * K + p.val = r.val * K + p.val
  rw [Nat.div_add_mod']

/-- Row `r` of an N × 3 × m × K array flattened to rows of K is the triple (r / m / 3, (r / m) % 3, r % m). -/
theorem flat4_read {α : Type} (N m K L : ℕ) (x : (⟨4, ![N, 3, m, K]⟩ : Shape).Idx → α)
    (h : (⟨4, ![N, 3, m, K]⟩ : Shape).ShapeCasts ⟨2, ![L, K]⟩) (r : Fin L) (p : Fin K)
    (hn : r.val / m / 3 < N) (ha : r.val / m % 3 < 3) (hb : r.val % m < m) :
    shapeCast ⟨2, ![L, K]⟩ x h (ix2 r p)
      = x (ix4 ⟨r.val / m / 3, hn⟩ ⟨r.val / m % 3, ha⟩ ⟨r.val % m, hb⟩ p) := by
  refine shapeCast_apply x h (ix2 r p) _ ?_
  rw [Shape.rowMajor_val_four, Shape.rowMajor_val_two]
  show ((r.val / m / 3 * 3 + r.val / m % 3) * m + r.val % m) * K + p.val = r.val * K + p.val
  rw [Nat.div_add_mod', Nat.div_add_mod']

/-- A product taken slab by slab over an N × m × 80 array, then flattened, is the product of the flattened array. -/
theorem piece3 (N m L : ℕ) (hL : N * m = L) (x : (⟨3, ![N, m, 80]⟩ : Shape).Idx → EReal)
    (w : (⟨2, ![80, 64]⟩ : Shape).Idx → EReal)
    (h : (⟨3, ![N, m, 80]⟩ : Shape).ShapeCasts ⟨2, ![L, 80]⟩)
    (y : (⟨3, ![N, m, 64]⟩ : Shape).Idx → EReal)
    (hy : ∀ (a : Fin N) (b : Fin m) (c : Fin 64), y (ix3 a b c) = ∑ k : Fin 80, x (ix3 a b k) * w (ix2 k c))
    (h' : (⟨3, ![N, m, 64]⟩ : Shape).ShapeCasts ⟨2, ![L, 64]⟩) (r : Fin L) (c : Fin 64) :
    shapeCast ⟨2, ![L, 64]⟩ y h' (ix2 r c) = entry L x h w r c := by
  have hr : r.val < m * N := lt_of_lt_of_eq r.isLt (by rw [← hL, Nat.mul_comm])
  have hm0 : 0 < m := Nat.pos_of_ne_zero (by rintro rfl; simp at hr)
  have hq : r.val / m < N := Nat.div_lt_of_lt_mul hr
  have hm : r.val % m < m := Nat.mod_lt _ hm0
  rw [flat3_read N m 64 L y h' r c hq hm, hy, entry_def]
  refine Finset.sum_congr rfl fun p _ => ?_
  rw [flat3_read N m 80 L x h r p hq hm]

/-- The same with a further axis of extent 3: an N × 3 × m × 80 array. -/
theorem piece4 (N m L : ℕ) (hL : N * 3 * m = L) (x : (⟨4, ![N, 3, m, 80]⟩ : Shape).Idx → EReal)
    (w : (⟨2, ![80, 64]⟩ : Shape).Idx → EReal)
    (h : (⟨4, ![N, 3, m, 80]⟩ : Shape).ShapeCasts ⟨2, ![L, 80]⟩)
    (y : (⟨4, ![N, 3, m, 64]⟩ : Shape).Idx → EReal)
    (hy : ∀ (n : Fin N) (a : Fin 3) (b : Fin m) (c : Fin 64),
      y (ix4 n a b c) = ∑ k : Fin 80, x (ix4 n a b k) * w (ix2 k c))
    (h' : (⟨4, ![N, 3, m, 64]⟩ : Shape).ShapeCasts ⟨2, ![L, 64]⟩) (r : Fin L) (c : Fin 64) :
    shapeCast ⟨2, ![L, 64]⟩ y h' (ix2 r c) = entry L x h w r c := by
  have hr : r.val < m * (3 * N) := lt_of_lt_of_eq r.isLt (by rw [← hL, Nat.mul_comm (N * 3) m, Nat.mul_comm N 3])
  have hm0 : 0 < m := Nat.pos_of_ne_zero (by rintro rfl; simp at hr)
  have hq : r.val / m < 3 * N := Nat.div_lt_of_lt_mul hr
  have hn : r.val / m / 3 < N := Nat.div_lt_of_lt_mul hq
  have ha : r.val / m % 3 < 3 := Nat.mod_lt _ (by decide)
  have hb : r.val % m < m := Nat.mod_lt _ hm0
  rw [flat4_read N m 64 L y h' r c hn ha hb, hy, entry_def]
  refine Finset.sum_congr rfl fun p _ => ?_
  rw [flat4_read N m 80 L x h r p hn ha hb]

end Cert.Hand.Ref

end
-- ==== Proof.RefStack.lean ====
/-
  Reading the stacked result.

  The result stacks twelve blocks of rows, of heights 30000, 24000, 90000, 72000, 150000, 120000, 210000, 168000,
  270000, 216000, 330000, 264000 (1,944,000 rows in all), each 64 wide.  Block k begins at the sum of the heights
  before it: 0, 30000, 54000, 144000, 216000, 366000, 486000, 696000, 864000, 1134000, 1350000, 1680000.  A row whose
  number is that offset plus r, with r below the height of block k, lies in block k, and the result there is block k
  at row r, same column.
-/
import proofs.«151581_j48060684042914_2_alg».proof.Proof.Gen.ReferenceIdeal.Read
import Idealize.ShloMosaic.Lib.Pipeline.Value
import Idealize.ShloMosaic.Lib.ValueIdx

noncomputable section

namespace Cert.Hand.Ref

open Cert.ReferenceIdeal Cert.ReferenceIdeal.Read Idealize.ShloMosaic Idealize.ShloMosaic.ValueIdx

/-! The offsets: the heights of the blocks before block k, added up. -/

theorem pre0 : (([] : List Shape).map (fun s : Shape => if h : s.rank = S1944000x64.rank then s.size ((0 : Fin S1944000x64.rank).cast h.symm) else 0)).sum = 0 := by decide
theorem pre1 : (([S30000x64] : List Shape).map (fun s : Shape => if h : s.rank = S1944000x64.rank then s.size ((0 : Fin S1944000x64.rank).cast h.symm) else 0)).sum = 30000 := by decide
theorem pre2 : (([S30000x64, S24000x64] : List Shape).map (fun s : Shape => if h : s.rank = S1944000x64.rank then s.size ((0 : Fin S1944000x64.rank).cast h.symm) else 0)).sum = 54000 := by decide
theorem pre3 : (([S30000x64, S24000x64, S90000x64] : List Shape).map (fun s : Shape => if h : s.rank = S1944000x64.rank then s.size ((0 : Fin S1944000x64.rank).cast h.symm) else 0)).sum = 144000 := by decide
theorem pre4 : (([S30000x64, S24000x64, S90000x64, S72000x64] : List Shape).map (fun s : Shape => if h : s.rank = S1944000x64.rank then s.size ((0 : Fin S1944000x64.rank).cast h.symm) else 0)).sum = 216000 := by decide
theorem pre5 : (([S30000x64, S24000x64, S90000x64, S72000x64, S150000x64] : List Shape).map (fun s : Shape => if h : s.rank = S1944000x64.rank then s.size ((0 : Fin S1944000x64.rank).cast h.symm) else 0)).sum = 366000 := by decide
theorem pre6 : (([S30000x64, S24000x64, S90000x64, S72000x64, S150000x64, S120000x64] : List Shape).map (fun s : Shape => if h : s.rank = S1944000x64.rank then s.size ((0 : Fin S1944000x64.rank).cast h.symm) else 0)).sum = 486000 := by decide
theorem pre7 : (([S30000x64, S24000x64, S90000x64, S72000x64, S150000x64, S120000x64, S210000x64] : List Shape).map (fun s : Shape => if h : s.rank = S1944000x64.rank then s.size ((0 : Fin S1944000x64.rank).cast h.symm) else 0)).sum = 696000 := by decide
theorem pre8 : (([S30000x64, S24000x64, S90000x64, S72000x64, S150000x64, S120000x64, S210000x64, S168000x64] : List Shape).map (fun s : Shape => if h : s.rank = S1944000x64.rank then s.size ((0 : Fin S1944000x64.rank).cast h.symm) else 0)).sum = 864000 := by decide
theorem pre9 : (([S30000x64, S24000x64, S90000x64, S72000x64, S150000x64, S120000x64, S210000x64, S168000x64, S270000x64] : List Shape).map (fun s : Shape => if h : s.rank = S1944000x64.rank then s.size ((0 : Fin S1944000x64.rank).cast h.symm) else 0)).sum = 1134000 := by decide
theorem pre10 : (([S30000x64, S24000x64, S90000x64, S72000x64, S150000x64, S120000x64, S210000x64, S168000x64, S270000x64, S216000x64] : List Shape).map (fun s : Shape => if h : s.rank = S1944000x64.rank then s.size ((0 : Fin S1944000x64.rank).cast h.symm) else 0)).sum = 1350000 := by decide
theorem pre11 : (([S30000x64, S24000x64, S90000x64, S72000x64, S150000x64, S120000x64, S210000x64, S168000x64, S270000x64, S216000x64, S330000x64] : List Shape).map (fun s : Shape => if h : s.rank = S1944000x64.rank then s.size ((0 : Fin S1944000x64.rank).cast h.symm) else 0)).sum = 1680000 := by decide

/-! Block k of the stack, read at row `offset + r`. -/

theorem stack0 (x0 : (⟨S30000x1x80, .f32⟩ : BufTy).Contents (Elt Ideal)) (x1 : (⟨S30000x3x80, .f32⟩ : BufTy).Contents (Elt Ideal)) (x2 : (⟨S30000x5x80, .f32⟩ : BufTy).Contents (Elt Ideal)) (x3 : (⟨S30000x7x80, .f32⟩ : BufTy).Contents (Elt Ideal)) (x4 : (⟨S30000x9x80, .f32⟩ : BufTy).Contents (Elt Ideal)) (x5 : (⟨S30000x11x80, .f32⟩ : BufTy).Contents (Elt Ideal)) (x6 : (⟨S8000x3x1x80, .f32⟩ : BufTy).Contents (Elt Ideal)) (x7 : (⟨S8000x3x3x80, .f32⟩ : BufTy).Contents (Elt Ideal)) (x8 : (⟨S8000x3x5x80, .f32⟩ : BufTy).Contents (Elt Ideal)) (x9 : (⟨S8000x3x7x80, .f32⟩ : BufTy).Contents (Elt Ideal)) (x10 : (⟨S8000x3x9x80, .f32⟩ : BufTy).Contents (Elt Ideal)) (x11 : (⟨S8000x3x11x80, .f32⟩ : BufTy).Contents (Elt Ideal)) (x12 x13 x14 x15 x16 x17 : (⟨S80x64, .f32⟩ : BufTy).Contents (Elt Ideal))
    (i : S1944000x64.Idx) (r : Fin 30000) (c : Fin 64)
    (hr : (i 0).val = 0 + r.val) (hc : (i 1).val = c.val) :
    val_main_v24 (F := Ideal) x0 x1 x2 x3 x4 x5 x6 x7 x8 x9 x10 x11 x12 x13 x14 x15 x16 x17 i = val_main_v2 (F := Ideal) x0 x12 (ix2 r c) := by
  unfold val_main_v24
  refine concatenate_apply_piece (0 : Fin S1944000x64.rank) _ _ i 0 ?_ S30000x64 _ rfl rfl 0 ?_ (ix2 r c) (fun b hb => ?_) ?_
  · show (0 : ℕ) < 12
    decide
  · exact pre0
  · match b with
    | ⟨0, _⟩ => exact absurd rfl hb
    | ⟨1, _⟩ => exact hc.symm
  · exact hr.symm

theorem stack1 (x0 : (⟨S30000x1x80, .f32⟩ : BufTy).Contents (Elt Ideal)) (x1 : (⟨S30000x3x80, .f32⟩ : BufTy).Contents (Elt Ideal)) (x2 : (⟨S30000x5x80, .f32⟩ : BufTy).Contents (Elt Ideal)) (x3 : (⟨S30000x7x80, .f32⟩ : BufTy).Contents (Elt Ideal)) (x4 : (⟨S30000x9x80, .f32⟩ : BufTy).Contents (Elt Ideal)) (x5 : (⟨S30000x11x80, .f32⟩ : BufTy).Contents (Elt Ideal)) (x6 : (⟨S8000x3x1x80, .f32⟩ : BufTy).Contents (Elt Ideal)) (x7 : (⟨S8000x3x3x80, .f32⟩ : BufTy).Contents (Elt Ideal)) (x8 : (⟨S8000x3x5x80, .f32⟩ : BufTy).Contents (Elt Ideal)) (x9 : (⟨S8000x3x7x80, .f32⟩ : BufTy).Contents (Elt Ideal)) (x10 : (⟨S8000x3x9x80, .f32⟩ : BufTy).Contents (Elt Ideal)) (x11 : (⟨S8000x3x11x80, .f32⟩ : BufTy).Contents (Elt Ideal)) (x12 x13 x14 x15 x16 x17 : (⟨S80x64, .f32⟩ : BufTy).Contents (Elt Ideal))
    (i : S1944000x64.Idx) (r : Fin 24000) (c : Fin 64)
    (hr : (i 0).val = 30000 + r.val) (hc : (i 1).val = c.val) :
    val_main_v24 (F := Ideal) x0 x1 x2 x3 x4 x5 x6 x7 x8 x9 x10 x11 x12 x13 x14 x15 x16 x17 i = val_main_v3 (F := Ideal) x6 x12 (ix2 r c) := by
  unfold val_main_v24
  refine concatenate_apply_piece (0 : Fin S1944000x64.rank) _ _ i 1 ?_ S24000x64 _ rfl rfl 30000 ?_ (ix2 r c) (fun b hb => ?_) ?_
  · show (1 : ℕ) < 12
    decide
  · exact pre1
  · match b with
    | ⟨0, _⟩ => exact absurd rfl hb
    | ⟨1, _⟩ => exact hc.symm
  · exact hr.symm

theorem stack2 (x0 : (⟨S30000x1x80, .f32⟩ : BufTy).Contents (Elt Ideal)) (x1 : (⟨S30000x3x80, .f32⟩ : BufTy).Contents (Elt Ideal)) (x2 : (⟨S30000x5x80, .f32⟩ : BufTy).Contents (Elt Ideal)) (x3 : (⟨S30000x7x80, .f32⟩ : BufTy).Contents (Elt Ideal)) (x4 : (⟨S30000x9x80, .f32⟩ : BufTy).Contents (Elt Ideal)) (x5 : (⟨S30000x11x80, .f32⟩ : BufTy).Contents (Elt Ideal)) (x6 : (⟨S8000x3x1x80, .f32⟩ : BufTy).Contents (Elt Ideal)) (x7 : (⟨S8000x3x3x80, .f32⟩ : BufTy).Contents (Elt Ideal)) (x8 : (⟨S8000x3x5x80, .f32⟩ : BufTy).Contents (Elt Ideal)) (x9 : (⟨S8000x3x7x80, .f32⟩ : BufTy).Contents (Elt Ideal)) (x10 : (⟨S8000x3x9x80, .f32⟩ : BufTy).Contents (Elt Ideal)) (x11 : (⟨S8000x3x11x80, .f32⟩ : BufTy).Contents (Elt Ideal)) (x12 x13 x14 x15 x16 x17 : (⟨S80x64, .f32⟩ : BufTy).Contents (Elt Ideal))
    (i : S1944000x64.Idx) (r : Fin 90000) (c : Fin 64)
    (hr : (i 0).val = 54000 + r.val) (hc : (i 1).val = c.val) :
    val_main_v24 (F := Ideal) x0 x1 x2 x3 x4 x5 x6 x7 x8 x9 x10 x11 x12 x13 x14 x15 x16 x17 i = val_main_v6 (F := Ideal) x1 x13 (ix2 r c) := by
  unfold val_main_v24
  refine concatenate_apply_piece (0 : Fin S1944000x64.rank) _ _ i 2 ?_ S90000x64 _ rfl rfl 54000 ?_ (ix2 r c) (fun b hb => ?_) ?_
  · show (2 : ℕ) < 12
    decide
  · exact pre2
  · match b with
    | ⟨0, _⟩ => exact absurd rfl hb
    | ⟨1, _⟩ => exact hc.symm
  · exact hr.symm

theorem stack3 (x0 : (⟨S30000x1x80, .f32⟩ : BufTy).Contents (Elt Ideal)) (x1 : (⟨S30000x3x80, .f32⟩ : BufTy).Contents (Elt Ideal)) (x2 : (⟨S30000x5x80, .f32⟩ : BufTy).Contents (Elt Ideal)) (x3 : (⟨S30000x7x80, .f32⟩ : BufTy).Contents (Elt Ideal)) (x4 : (⟨S30000x9x80, .f32⟩ : BufTy).Contents (Elt Ideal)) (x5 : (⟨S30000x11x80, .f32⟩ : BufTy).Contents (Elt Ideal)) (x6 : (⟨S8000x3x1x80, .f32⟩ : BufTy).Contents (Elt Ideal)) (x7 : (⟨S8000x3x3x80, .f32⟩ : BufTy).Contents (Elt Ideal)) (x8 : (⟨S8000x3x5x80, .f32⟩ : BufTy).Contents (Elt Ideal)) (x9 : (⟨S8000x3x7x80, .f32⟩ : BufTy).Contents (Elt Ideal)) (x10 : (⟨S8000x3x9x80, .f32⟩ : BufTy).Contents (Elt Ideal)) (x11 : (⟨S8000x3x11x80, .f32⟩ : BufTy).Contents (Elt Ideal)) (x12 x13 x14 x15 x16 x17 : (⟨S80x64, .f32⟩ : BufTy).Contents (Elt Ideal))
    (i : S1944000x64.Idx) (r : Fin 72000) (c : Fin 64)
    (hr : (i 0).val = 144000 + r.val) (hc : (i 1).val = c.val) :
    val_main_v24 (F := Ideal) x0 x1 x2 x3 x4 x5 x6 x7 x8 x9 x10 x11 x12 x13 x14 x15 x16 x17 i = val_main_v7 (F := Ideal) x7 x13 (ix2 r c) := by
  unfold val_main_v24
  refine concatenate_apply_piece (0 : Fin S1944000x64.rank) _ _ i 3 ?_ S72000x64 _ rfl rfl 144000 ?_ (ix2 r c) (fun b hb => ?_) ?_
  · show (3 : ℕ) < 12
    decide
  · exact pre3
  · match b with
    | ⟨0, _⟩ => exact absurd rfl hb
    | ⟨1, _⟩ => exact hc.symm
  · exact hr.symm

theorem stack4 (x0 : (⟨S30000x1x80, .f32⟩ : BufTy).Contents (Elt Ideal)) (x1 : (⟨S30000x3x80, .f32⟩ : BufTy).Contents (Elt Ideal)) (x2 : (⟨S30000x5x80, .f32⟩ : BufTy).Contents (Elt Ideal)) (x3 : (⟨S30000x7x80, .f32⟩ : BufTy).Contents (Elt Ideal)) (x4 : (⟨S30000x9x80, .f32⟩ : BufTy).Contents (Elt Ideal)) (x5 : (⟨S30000x11x80, .f32⟩ : BufTy).Contents (Elt Ideal)) (x6 : (⟨S8000x3x1x80, .f32⟩ : BufTy).Contents (Elt Ideal)) (x7 : (⟨S8000x3x3x80, .f32⟩ : BufTy).Contents (Elt Ideal)) (x8 : (⟨S8000x3x5x80, .f32⟩ : BufTy).Contents (Elt Ideal)) (x9 : (⟨S8000x3x7x80, .f32⟩ : BufTy).Contents (Elt Ideal)) (x10 : (⟨S8000x3x9x80, .f32⟩ : BufTy).Contents (Elt Ideal)) (x11 : (⟨S8000x3x11x80, .f32⟩ : BufTy).Contents (Elt Ideal)) (x12 x13 x14 x15 x16 x17 : (⟨S80x64, .f32⟩ : BufTy).Contents (Elt Ideal))
    (i : S1944000x64.Idx) (r : Fin 150000) (c : Fin 64)
    (hr : (i 0).val = 216000 + r.val) (hc : (i 1).val = c.val) :
    val_main_v24 (F := Ideal) x0 x1 x2 x3 x4 x5 x6 x7 x8 x9 x10 x11 x12 x13 x14 x15 x16 x17 i = val_main_v10 (F := Ideal) x2 x14 (ix2 r c) := by
  unfold val_main_v24
  refine concatenate_apply_piece (0 : Fin S1944000x64.rank) _ _ i 4 ?_ S150000x64 _ rfl rfl 216000 ?_ (ix2 r c) (fun b hb => ?_) ?_
  · show (4 : ℕ) < 12
    decide
  · exact pre4
  · match b with
    | ⟨0, _⟩ => exact absurd rfl hb
    | ⟨1, _⟩ => exact hc.symm
  · exact hr.symm

theorem stack5 (x0 : (⟨S30000x1x80, .f32⟩ : BufTy).Contents (Elt Ideal)) (x1 : (⟨S30000x3x80, .f32⟩ : BufTy).Contents (Elt Ideal)) (x2 : (⟨S30000x5x80, .f32⟩ : BufTy).Contents (Elt Ideal)) (x3 : (⟨S30000x7x80, .f32⟩ : BufTy).Contents (Elt Ideal)) (x4 : (⟨S30000x9x80, .f32⟩ : BufTy).Contents (Elt Ideal)) (x5 : (⟨S30000x11x80, .f32⟩ : BufTy).Contents (Elt Ideal)) (x6 : (⟨S8000x3x1x80, .f32⟩ : BufTy).Contents (Elt Ideal)) (x7 : (⟨S8000x3x3x80, .f32⟩ : BufTy).Contents (Elt Ideal)) (x8 : (⟨S8000x3x5x80, .f32⟩ : BufTy).Contents (Elt Ideal)) (x9 : (⟨S8000x3x7x80, .f32⟩ : BufTy).Contents (Elt Ideal)) (x10 : (⟨S8000x3x9x80, .f32⟩ : BufTy).Contents (Elt Ideal)) (x11 : (⟨S8000x3x11x80, .f32⟩ : BufTy).Contents (Elt Ideal)) (x12 x13 x14 x15 x16 x17 : (⟨S80x64, .f32⟩ : BufTy).Contents (Elt Ideal))
    (i : S1944000x64.Idx) (r : Fin 120000) (c : Fin 64)
    (hr : (i 0).val = 366000 + r.val) (hc : (i 1).val = c.val) :
    val_main_v24 (F := Ideal) x0 x1 x2 x3 x4 x5 x6 x7 x8 x9 x10 x11 x12 x13 x14 x15 x16 x17 i = val_main_v11 (F := Ideal) x8 x14 (ix2 r c) := by
  unfold val_main_v24
  refine concatenate_apply_piece (0 : Fin S1944000x64.rank) _ _ i 5 ?_ S120000x64 _ rfl rfl 366000 ?_ (ix2 r c) (fun b hb => ?_) ?_
  · show (5 : ℕ) < 12
    decide
  · exact pre5
  · match b with
    | ⟨0, _⟩ => exact absurd rfl hb
    | ⟨1, _⟩ => exact hc.symm
  · exact hr.symm

theorem stack6 (x0 : (⟨S30000x1x80, .f32⟩ : BufTy).Contents (Elt Ideal)) (x1 : (⟨S30000x3x80, .f32⟩ : BufTy).Contents (Elt Ideal)) (x2 : (⟨S30000x5x80, .f32⟩ : BufTy).Contents (Elt Ideal)) (x3 : (⟨S30000x7x80, .f32⟩ : BufTy).Contents (Elt Ideal)) (x4 : (⟨S30000x9x80, .f32⟩ : BufTy).Contents (Elt Ideal)) (x5 : (⟨S30000x11x80, .f32⟩ : BufTy).Contents (Elt Ideal)) (x6 : (⟨S8000x3x1x80, .f32⟩ : BufTy).Contents (Elt Ideal)) (x7 : (⟨S8000x3x3x80, .f32⟩ : BufTy).Contents (Elt Ideal)) (x8 : (⟨S8000x3x5x80, .f32⟩ : BufTy).Contents (Elt Ideal)) (x9 : (⟨S8000x3x7x80, .f32⟩ : BufTy).Contents (Elt Ideal)) (x10 : (⟨S8000x3x9x80, .f32⟩ : BufTy).Contents (Elt Ideal)) (x11 : (⟨S8000x3x11x80, .f32⟩ : BufTy).Contents (Elt Ideal)) (x12 x13 x14 x15 x16 x17 : (⟨S80x64, .f32⟩ : BufTy).Contents (Elt Ideal))
    (i : S1944000x64.Idx) (r : Fin 210000) (c : Fin 64)
    (hr : (i 0).val = 486000 + r.val) (hc : (i 1).val = c.val) :
    val_main_v24 (F := Ideal) x0 x1 x2 x3 x4 x5 x6 x7 x8 x9 x10 x11 x12 x13 x14 x15 x16 x17 i = val_main_v14 (F := Ideal) x3 x15 (ix2 r c) := by
  unfold val_main_v24
  refine concatenate_apply_piece (0 : Fin S1944000x64.rank) _ _ i 6 ?_ S210000x64 _ rfl rfl 486000 ?_ (ix2 r c) (fun b hb => ?_) ?_
  · show (6 : ℕ) < 12
    decide
  · exact pre6
  · match b with
    | ⟨0, _⟩ => exact absurd rfl hb
    | ⟨1, _⟩ => exact hc.symm
  · exact hr.symm

theorem stack7 (x0 : (⟨S30000x1x80, .f32⟩ : BufTy).Contents (Elt Ideal)) (x1 : (⟨S30000x3x80, .f32⟩ : BufTy).Contents (Elt Ideal)) (x2 : (⟨S30000x5x80, .f32⟩ : BufTy).Contents (Elt Ideal)) (x3 : (⟨S30000x7x80, .f32⟩ : BufTy).Contents (Elt Ideal)) (x4 : (⟨S30000x9x80, .f32⟩ : BufTy).Contents (Elt Ideal)) (x5 : (⟨S30000x11x80, .f32⟩ : BufTy).Contents (Elt Ideal)) (x6 : (⟨S8000x3x1x80, .f32⟩ : BufTy).Contents (Elt Ideal)) (x7 : (⟨S8000x3x3x80, .f32⟩ : BufTy).Contents (Elt Ideal)) (x8 : (⟨S8000x3x5x80, .f32⟩ : BufTy).Contents (Elt Ideal)) (x9 : (⟨S8000x3x7x80, .f32⟩ : BufTy).Contents (Elt Ideal)) (x10 : (⟨S8000x3x9x80, .f32⟩ : BufTy).Contents (Elt Ideal)) (x11 : (⟨S8000x3x11x80, .f32⟩ : BufTy).Contents (Elt Ideal)) (x12 x13 x14 x15 x16 x17 : (⟨S80x64, .f32⟩ : BufTy).Contents (Elt Ideal))
    (i : S1944000x64.Idx) (r : Fin 168000) (c : Fin 64)
    (hr : (i 0).val = 696000 + r.val) (hc : (i 1).val = c.val) :
    val_main_v24 (F := Ideal) x0 x1 x2 x3 x4 x5 x6 x7 x8 x9 x10 x11 x12 x13 x14 x15 x16 x17 i = val_main_v15 (F := Ideal) x9 x15 (ix2 r c) := by
  unfold val_main_v24
  refine concatenate_apply_piece (0 : Fin S1944000x64.rank) _ _ i 7 ?_ S168000x64 _ rfl rfl 696000 ?_ (ix2 r c) (fun b hb => ?_) ?_
  · show (7 : ℕ) < 12
    decide
  · exact pre7
  · match b with
    | ⟨0, _⟩ => exact absurd rfl hb
    | ⟨1, _⟩ => exact hc.symm
  · exact hr.symm

theorem stack8 (x0 : (⟨S30000x1x80, .f32⟩ : BufTy).Contents (Elt Ideal)) (x1 : (⟨S30000x3x80, .f32⟩ : BufTy).Contents (Elt Ideal)) (x2 : (⟨S30000x5x80, .f32⟩ : BufTy).Contents (Elt Ideal)) (x3 : (⟨S30000x7x80, .f32⟩ : BufTy).Contents (Elt Ideal)) (x4 : (⟨S30000x9x80, .f32⟩ : BufTy).Contents (Elt Ideal)) (x5 : (⟨S30000x11x80, .f32⟩ : BufTy).Contents (Elt Ideal)) (x6 : (⟨S8000x3x1x80, .f32⟩ : BufTy).Contents (Elt Ideal)) (x7 : (⟨S8000x3x3x80, .f32⟩ : BufTy).Contents (Elt Ideal)) (x8 : (⟨S8000x3x5x80, .f32⟩ : BufTy).Contents (Elt Ideal)) (x9 : (⟨S8000x3x7x80, .f32⟩ : BufTy).Contents (Elt Ideal)) (x10 : (⟨S8000x3x9x80, .f32⟩ : BufTy).Contents (Elt Ideal)) (x11 : (⟨S8000x3x11x80, .f32⟩ : BufTy).Contents (Elt Ideal)) (x12 x13 x14 x15 x16 x17 : (⟨S80x64, .f32⟩ : BufTy).Contents (Elt Ideal))
    (i : S1944000x64.Idx) (r : Fin 270000) (c : Fin 64)
    (hr : (i 0).val = 864000 + r.val) (hc : (i 1).val = c.val) :
    val_main_v24 (F := Ideal) x0 x1 x2 x3 x4 x5 x6 x7 x8 x9 x10 x11 x12 x13 x14 x15 x16 x17 i = val_main_v18 (F := Ideal) x4 x16 (ix2 r c) := by
  unfold val_main_v24
  refine concatenate_apply_piece (0 : Fin S1944000x64.rank) _ _ i 8 ?_ S270000x64 _ rfl rfl 864000 ?_ (ix2 r c) (fun b hb => ?_) ?_
  · show (8 : ℕ) < 12
    decide
  · exact pre8
  · match b with
    | ⟨0, _⟩ => exact absurd rfl hb
    | ⟨1, _⟩ => exact hc.symm
  · exact hr.symm

theorem stack9 (x0 : (⟨S30000x1x80, .f32⟩ : BufTy).Contents (Elt Ideal)) (x1 : (⟨S30000x3x80, .f32⟩ : BufTy).Contents (Elt Ideal)) (x2 : (⟨S30000x5x80, .f32⟩ : BufTy).Contents (Elt Ideal)) (x3 : (⟨S30000x7x80, .f32⟩ : BufTy).Contents (Elt Ideal)) (x4 : (⟨S30000x9x80, .f32⟩ : BufTy).Contents (Elt Ideal)) (x5 : (⟨S30000x11x80, .f32⟩ : BufTy).Contents (Elt Ideal)) (x6 : (⟨S8000x3x1x80, .f32⟩ : BufTy).Contents (Elt Ideal)) (x7 : (⟨S8000x3x3x80, .f32⟩ : BufTy).Contents (Elt Ideal)) (x8 : (⟨S8000x3x5x80, .f32⟩ : BufTy).Contents (Elt Ideal)) (x9 : (⟨S8000x3x7x80, .f32⟩ : BufTy).Contents (Elt Ideal)) (x10 : (⟨S8000x3x9x80, .f32⟩ : BufTy).Contents (Elt Ideal)) (x11 : (⟨S8000x3x11x80, .f32⟩ : BufTy).Contents (Elt Ideal)) (x12 x13 x14 x15 x16 x17 : (⟨S80x64, .f32⟩ : BufTy).Contents (Elt Ideal))
    (i : S1944000x64.Idx) (r : Fin 216000) (c : Fin 64)
    (hr : (i 0).val = 1134000 + r.val) (hc : (i 1).val = c.val) :
    val_main_v24 (F := Ideal) x0 x1 x2 x3 x4 x5 x6 x7 x8 x9 x10 x11 x12 x13 x14 x15 x16 x17 i = val_main_v19 (F := Ideal) x10 x16 (ix2 r c) := by
  unfold val_main_v24
  refine concatenate_apply_piece (0 : Fin S1944000x64.rank) _ _ i 9 ?_ S216000x64 _ rfl rfl 1134000 ?_ (ix2 r c) (fun b hb => ?_) ?_
  · show (9 : ℕ) < 12
    decide
  · exact pre9
  · match b with
    | ⟨0, _⟩ => exact absurd rfl hb
    | ⟨1, _⟩ => exact hc.symm
  · exact hr.symm

theorem stack10 (x0 : (⟨S30000x1x80, .f32⟩ : BufTy).Contents (Elt Ideal)) (x1 : (⟨S30000x3x80, .f32⟩ : BufTy).Contents (Elt Ideal)) (x2 : (⟨S30000x5x80, .f32⟩ : BufTy).Contents (Elt Ideal)) (x3 : (⟨S30000x7x80, .f32⟩ : BufTy).Contents (Elt Ideal)) (x4 : (⟨S30000x9x80, .f32⟩ : BufTy).Contents (Elt Ideal)) (x5 : (⟨S30000x11x80, .f32⟩ : BufTy).Contents (Elt Ideal)) (x6 : (⟨S8000x3x1x80, .f32⟩ : BufTy).Contents (Elt Ideal)) (x7 : (⟨S8000x3x3x80, .f32⟩ : BufTy).Contents (Elt Ideal)) (x8 : (⟨S8000x3x5x80, .f32⟩ : BufTy).Contents (Elt Ideal)) (x9 : (⟨S8000x3x7x80, .f32⟩ : BufTy).Contents (Elt Ideal)) (x10 : (⟨S8000x3x9x80, .f32⟩ : BufTy).Contents (Elt Ideal)) (x11 : (⟨S8000x3x11x80, .f32⟩ : BufTy).Contents (Elt Ideal)) (x12 x13 x14 x15 x16 x17 : (⟨S80x64, .f32⟩ : BufTy).Contents (Elt Ideal))
    (i : S1944000x64.Idx) (r : Fin 330000) (c : Fin 64)
    (hr : (i 0).val = 1350000 + r.val) (hc : (i 1).val = c.val) :
    val_main_v24 (F := Ideal) x0 x1 x2 x3 x4 x5 x6 x7 x8 x9 x10 x11 x12 x13 x14 x15 x16 x17 i = val_main_v22 (F := Ideal) x5 x17 (ix2 r c) := by
  unfold val_main_v24
  refine concatenate_apply_piece (0 : Fin S1944000x64.rank) _ _ i 10 ?_ S330000x64 _ rfl rfl 1350000 ?_ (ix2 r c) (fun b hb => ?_) ?_
  · show (10 : ℕ) < 12
    decide
  · exact pre10
  · match b with
    | ⟨0, _⟩ => exact absurd rfl hb
    | ⟨1, _⟩ => exact hc.symm
  · exact hr.symm

theorem stack11 (x0 : (⟨S30000x1x80, .f32⟩ : BufTy).Contents (Elt Ideal)) (x1 : (⟨S30000x3x80, .f32⟩ : BufTy).Contents (Elt Ideal)) (x2 : (⟨S30000x5x80, .f32⟩ : BufTy).Contents (Elt Ideal)) (x3 : (⟨S30000x7x80, .f32⟩ : BufTy).Contents (Elt Ideal)) (x4 : (⟨S30000x9x80, .f32⟩ : BufTy).Contents (Elt Ideal)) (x5 : (⟨S30000x11x80, .f32⟩ : BufTy).Contents (Elt Ideal)) (x6 : (⟨S8000x3x1x80, .f32⟩ : BufTy).Contents (Elt Ideal)) (x7 : (⟨S8000x3x3x80, .f32⟩ : BufTy).Contents (Elt Ideal)) (x8 : (⟨S8000x3x5x80, .f32⟩ : BufTy).Contents (Elt Ideal)) (x9 : (⟨S8000x3x7x80, .f32⟩ : BufTy).Contents (Elt Ideal)) (x10 : (⟨S8000x3x9x80, .f32⟩ : BufTy).Contents (Elt Ideal)) (x11 : (⟨S8000x3x11x80, .f32⟩ : BufTy).Contents (Elt Ideal)) (x12 x13 x14 x15 x16 x17 : (⟨S80x64, .f32⟩ : BufTy).Contents (Elt Ideal))
    (i : S1944000x64.Idx) (r : Fin 264000) (c : Fin 64)
    (hr : (i 0).val = 1680000 + r.val) (hc : (i 1).val = c.val) :
    val_main_v24 (F := Ideal) x0 x1 x2 x3 x4 x5 x6 x7 x8 x9 x10 x11 x12 x13 x14 x15 x16 x17 i = val_main_v23 (F := Ideal) x11 x17 (ix2 r c) := by
  unfold val_main_v24
  refine concatenate_apply_piece (0 : Fin S1944000x64.rank) _ _ i 11 ?_ S264000x64 _ rfl rfl 1680000 ?_ (ix2 r c) (fun b hb => ?_) ?_
  · show (11 : ℕ) < 12
    decide
  · exact pre11
  · match b with
    | ⟨0, _⟩ => exact absurd rfl hb
    | ⟨1, _⟩ => exact hc.symm
  · exact hr.symm

end Cert.Hand.Ref

end
-- ==== Proof.RefSide.lean ====
/-
  The reference result, one entry at a time.

  The reference multiplies each of its twelve inputs, over the last axis, by an 80 × 64 matrix, flattens each product
  to rows of 64, and stacks the twelve blocks.  Block k is the product of its flattened input (an N × m × 80 or
  N × 3 × m × 80 array read row-major as L rows of 80) with the matrix: its entry at (r, c) is Σ_p x(r, p) · w(p, c).
  A row of the result whose number is the offset of block k plus r, r below the height of block k, is row r of block k.
  Together: the result at (offset_k + r, c) is entry (r, c) of the k-th product.
-/
import proofs.«151581_j48060684042914_2_alg».proof.Proof.Gen.ReferenceIdeal.Read
import proofs.«151581_j48060684042914_2_alg».proof.Proof.Spec
import proofs.«151581_j48060684042914_2_alg».proof.Proof.RefPieces
import proofs.«151581_j48060684042914_2_alg».proof.Proof.RefStack

noncomputable section

namespace Cert.Hand.Ref

open Cert.ReferenceIdeal Cert.ReferenceIdeal.Gen Cert.ReferenceIdeal.Read Idealize.ShloMosaic Idealize.ShloMosaic.ValueIdx Cert.Hand

/-! Block k is the product of its flattened input. -/

theorem piece_0 (x : (⟨S30000x1x80, .f32⟩ : BufTy).Contents (Elt Ideal)) (w : (⟨S80x64, .f32⟩ : BufTy).Contents (Elt Ideal))
    (h : S30000x1x80.ShapeCasts ⟨2, ![30000, 80]⟩) (r : Fin 30000) (c : Fin 64) :
    val_main_v2 (F := Ideal) x w (ix2 r c) = entry 30000 x h w r c :=
  piece3 30000 1 30000 rfl x w h (val_main_v0 (F := Ideal) x w)
    (fun a b c => by
      rw [val_main_v0_apply]
      refine Finset.sum_congr rfl fun p _ => ?_
      have el : lidx_main_v0 (ix3 a b c) p = ix3 a b p := funext fun ax => by
        match ax with
        | ⟨0, _⟩ => rfl
        | ⟨1, _⟩ => rfl
        | ⟨2, _⟩ => rfl
      have er : ridx_main_v0 (ix3 a b c) p = ix2 p c := funext fun ax => by
        match ax with
        | ⟨0, _⟩ => rfl
        | ⟨1, _⟩ => rfl
      rw [el, er])
    shapeCasts_S30000x1x64_S30000x64 r c

theorem piece_1 (x : (⟨S8000x3x1x80, .f32⟩ : BufTy).Contents (Elt Ideal)) (w : (⟨S80x64, .f32⟩ : BufTy).Contents (Elt Ideal))
    (h : S8000x3x1x80.ShapeCasts ⟨2, ![24000, 80]⟩) (r : Fin 24000) (c : Fin 64) :
    val_main_v3 (F := Ideal) x w (ix2 r c) = entry 24000 x h w r c :=
  piece4 8000 1 24000 rfl x w h (val_main_v1 (F := Ideal) x w)
    (fun n a b c => by
      rw [val_main_v1_apply]
      refine Finset.sum_congr rfl fun p _ => ?_
      have el : lidx_main_v1 (ix4 n a b c) p = ix4 n a b p := funext fun ax => by
        match ax with
        | ⟨0, _⟩ => rfl
        | ⟨1, _⟩ => rfl
        | ⟨2, _⟩ => rfl
        | ⟨3, _⟩ => rfl
      have er : ridx_main_v1 (ix4 n a b c) p = ix2 p c := funext fun ax => by
        match ax with
        | ⟨0, _⟩ => rfl
        | ⟨1, _⟩ => rfl
      rw [el, er])
    shapeCasts_S8000x3x1x64_S24000x64 r c

theorem piece_2 (x : (⟨S30000x3x80, .f32⟩ : BufTy).Contents (Elt Ideal)) (w : (⟨S80x64, .f32⟩ : BufTy).Contents (Elt Ideal))
    (h : S30000x3x80.ShapeCasts ⟨2, ![90000, 80]⟩) (r : Fin 90000) (c : Fin 64) :
    val_main_v6 (F := Ideal) x w (ix2 r c) = entry 90000 x h w r c :=
  piece3 30000 3 90000 rfl x w h (val_main_v4 (F := Ideal) x w)
    (fun a b c => by
      rw [val_main_v4_apply]
      refine Finset.sum_congr rfl fun p _ => ?_
      have el : lidx_main_v4 (ix3 a b c) p = ix3 a b p := funext fun ax => by
        match ax with
        | ⟨0, _⟩ => rfl
        | ⟨1, _⟩ => rfl
        | ⟨2, _⟩ => rfl
      have er : ridx_main_v4 (ix3 a b c) p = ix2 p c := funext fun ax => by
        match ax with
        | ⟨0, _⟩ => rfl
        | ⟨1, _⟩ => rfl
      rw [el, er])
    shapeCasts_S30000x3x64_S90000x64 r c

theorem piece_3 (x : (⟨S8000x3x3x80, .f32⟩ : BufTy).Contents (Elt Ideal)) (w : (⟨S80x64, .f32⟩ : BufTy).Contents (Elt Ideal))
    (h : S8000x3x3x80.ShapeCasts ⟨2, ![72000, 80]⟩) (r : Fin 72000) (c : Fin 64) :
    val_main_v7 (F := Ideal) x w (ix2 r c) = entry 72000 x h w r c :=
  piece4 8000 3 72000 rfl x w h (val_main_v5 (F := Ideal) x w)
    (fun n a b c => by
      rw [val_main_v5_apply]
      refine Finset.sum_congr rfl fun p _ => ?_
      have el : lidx_main_v5 (ix4 n a b c) p = ix4 n a b p := funext fun ax => by
        match ax with
        | ⟨0, _⟩ => rfl
        | ⟨1, _⟩ => rfl
        | ⟨2, _⟩ => rfl
        | ⟨3, _⟩ => rfl
      have er : ridx_main_v5 (ix4 n a b c) p = ix2 p c := funext fun ax => by
        match ax with
        | ⟨0, _⟩ => rfl
        | ⟨1, _⟩ => rfl
      rw [el, er])
    shapeCasts_S8000x3x3x64_S72000x64 r c

theorem piece_4 (x : (⟨S30000x5x80, .f32⟩ : BufTy).Contents (Elt Ideal)) (w : (⟨S80x64, .f32⟩ : BufTy).Contents (Elt Ideal))
    (h : S30000x5x80.ShapeCasts ⟨2, ![150000, 80]⟩) (r : Fin 150000) (c : Fin 64) :
    val_main_v10 (F := Ideal) x w (ix2 r c) = entry 150000 x h w r c :=
  piece3 30000 5 150000 rfl x w h (val_main_v8 (F := Ideal) x w)
    (fun a b c => by
      rw [val_main_v8_apply]
      refine Finset.sum_congr rfl fun p _ => ?_
      have el : lidx_main_v8 (ix3 a b c) p = ix3 a b p := funext fun ax => by
        match ax with
        | ⟨0, _⟩ => rfl
        | ⟨1, _⟩ => rfl
        | ⟨2, _⟩ => rfl
      have er : ridx_main_v8 (ix3 a b c) p = ix2 p c := funext fun ax => by
        match ax with
        | ⟨0, _⟩ => rfl
        | ⟨1, _⟩ => rfl
      rw [el, er])
    shapeCasts_S30000x5x64_S150000x64 r c

theorem piece_5 (x : (⟨S8000x3x5x80, .f32⟩ : BufTy).Contents (Elt Ideal)) (w : (⟨S80x64, .f32⟩ : BufTy).Contents (Elt Ideal))
    (h : S8000x3x5x80.ShapeCasts ⟨2, ![120000, 80]⟩) (r : Fin 120000) (c : Fin 64) :
    val_main_v11 (F := Ideal) x w (ix2 r c) = entry 120000 x h w r c :=
  piece4 8000 5 120000 rfl x w h (val_main_v9 (F := Ideal) x w)
    (fun n a b c => by
      rw [val_main_v9_apply]
      refine Finset.sum_congr rfl fun p _ => ?_
      have el : lidx_main_v9 (ix4 n a b c) p = ix4 n a b p := funext fun ax => by
        match ax with
        | ⟨0, _⟩ => rfl
        | ⟨1, _⟩ => rfl
        | ⟨2, _⟩ => rfl
        | ⟨3, _⟩ => rfl
      have er : ridx_main_v9 (ix4 n a b c) p = ix2 p c := funext fun ax => by
        match ax with
        | ⟨0, _⟩ => rfl
        | ⟨1, _⟩ => rfl
      rw [el, er])
    shapeCasts_S8000x3x5x64_S120000x64 r c

theorem piece_6 (x : (⟨S30000x7x80, .f32⟩ : BufTy).Contents (Elt Ideal)) (w : (⟨S80x64, .f32⟩ : BufTy).Contents (Elt Ideal))
    (h : S30000x7x80.ShapeCasts ⟨2, ![210000, 80]⟩) (r : Fin 210000) (c : Fin 64) :
    val_main_v14 (F := Ideal) x w (ix2 r c) = entry 210000 x h w r c :=
  piece3 30000 7 210000 rfl x w h (val_main_v12 (F := Ideal) x w)
    (fun a b c => by
      rw [val_main_v12_apply]
      refine Finset.sum_congr rfl fun p _ => ?_
      have el : lidx_main_v12 (ix3 a b c) p = ix3 a b p := funext fun ax => by
        match ax with
        | ⟨0, _⟩ => rfl
        | ⟨1, _⟩ => rfl
        | ⟨2, _⟩ => rfl
      have er : ridx_main_v12 (ix3 a b c) p = ix2 p c := funext fun ax => by
        match ax with
        | ⟨0, _⟩ => rfl
        | ⟨1, _⟩ => rfl
      rw [el, er])
    shapeCasts_S30000x7x64_S210000x64 r c

theorem piece_7 (x : (⟨S8000x3x7x80, .f32⟩ : BufTy).Contents (Elt Ideal)) (w : (⟨S80x64, .f32⟩ : BufTy).Contents (Elt Ideal))
    (h : S8000x3x7x80.ShapeCasts ⟨2, ![168000, 80]⟩) (r : Fin 168000) (c : Fin 64) :
    val_main_v15 (F := Ideal) x w (ix2 r c) = entry 168000 x h w r c :=
  piece4 8000 7 168000 rfl x w h (val_main_v13 (F := Ideal) x w)
    (fun n a b c => by
      rw [val_main_v13_apply]
      refine Finset.sum_congr rfl fun p _ => ?_
      have el : lidx_main_v13 (ix4 n a b c) p = ix4 n a b p := funext fun ax => by
        match ax with
        | ⟨0, _⟩ => rfl
        | ⟨1, _⟩ => rfl
        | ⟨2, _⟩ => rfl
        | ⟨3, _⟩ => rfl
      have er : ridx_main_v13 (ix4 n a b c) p = ix2 p c := funext fun ax => by
        match ax with
        | ⟨0, _⟩ => rfl
        | ⟨1, _⟩ => rfl
      rw [el, er])
    shapeCasts_S8000x3x7x64_S168000x64 r c

theorem piece_8 (x : (⟨S30000x9x80, .f32⟩ : BufTy).Contents (Elt Ideal)) (w : (⟨S80x64, .f32⟩ : BufTy).Contents (Elt Ideal))
    (h : S30000x9x80.ShapeCasts ⟨2, ![270000, 80]⟩) (r : Fin 270000) (c : Fin 64) :
    val_main_v18 (F := Ideal) x w (ix2 r c) = entry 270000 x h w r c :=
  piece3 30000 9 270000 rfl x w h (val_main_v16 (F := Ideal) x w)
    (fun a b c => by
      rw [val_main_v16_apply]
      refine Finset.sum_congr rfl fun p _ => ?_
      have el : lidx_main_v16 (ix3 a b c) p = ix3 a b p := funext fun ax => by
        match ax with
        | ⟨0, _⟩ => rfl
        | ⟨1, _⟩ => rfl
        | ⟨2, _⟩ => rfl
      have er : ridx_main_v16 (ix3 a b c) p = ix2 p c := funext fun ax => by
        match ax with
        | ⟨0, _⟩ => rfl
        | ⟨1, _⟩ => rfl
      rw [el, er])
    shapeCasts_S30000x9x64_S270000x64 r c

theorem piece_9 (x : (⟨S8000x3x9x80, .f32⟩ : BufTy).Contents (Elt Ideal)) (w : (⟨S80x64, .f32⟩ : BufTy).Contents (Elt Ideal))
    (h : S8000x3x9x80.ShapeCasts ⟨2, ![216000, 80]⟩) (r : Fin 216000) (c : Fin 64) :
    val_main_v19 (F := Ideal) x w (ix2 r c) = entry 216000 x h w r c :=
  piece4 8000 9 216000 rfl x w h (val_main_v17 (F := Ideal) x w)
    (fun n a b c => by
      rw [val_main_v17_apply]
      refine Finset.sum_congr rfl fun p _ => ?_
      have el : lidx_main_v17 (ix4 n a b c) p = ix4 n a b p := funext fun ax => by
        match ax with
        | ⟨0, _⟩ => rfl
        | ⟨1, _⟩ => rfl
        | ⟨2, _⟩ => rfl
        | ⟨3, _⟩ => rfl
      have er : ridx_main_v17 (ix4 n a b c) p = ix2 p c := funext fun ax => by
        match ax with
        | ⟨0, _⟩ => rfl
        | ⟨1, _⟩ => rfl
      rw [el, er])
    shapeCasts_S8000x3x9x64_S216000x64 r c

theorem piece_10 (x : (⟨S30000x11x80, .f32⟩ : BufTy).Contents (Elt Ideal)) (w : (⟨S80x64, .f32⟩ : BufTy).Contents (Elt Ideal))
    (h : S30000x11x80.ShapeCasts ⟨2, ![330000, 80]⟩) (r : Fin 330000) (c : Fin 64) :
    val_main_v22 (F := Ideal) x w (ix2 r c) = entry 330000 x h w r c :=
  piece3 30000 11 330000 rfl x w h (val_main_v20 (F := Ideal) x w)
    (fun a b c => by
      rw [val_main_v20_apply]
      refine Finset.sum_congr rfl fun p _ => ?_
      have el : lidx_main_v20 (ix3 a b c) p = ix3 a b p := funext fun ax => by
        match ax with
        | ⟨0, _⟩ => rfl
        | ⟨1, _⟩ => rfl
        | ⟨2, _⟩ => rfl
      have er : ridx_main_v20 (ix3 a b c) p = ix2 p c := funext fun ax => by
        match ax with
        | ⟨0, _⟩ => rfl
        | ⟨1, _⟩ => rfl
      rw [el, er])
    shapeCasts_S30000x11x64_S330000x64 r c

theorem piece_11 (x : (⟨S8000x3x11x80, .f32⟩ : BufTy).Contents (Elt Ideal)) (w : (⟨S80x64, .f32⟩ : BufTy).Contents (Elt Ideal))
    (h : S8000x3x11x80.ShapeCasts ⟨2, ![264000, 80]⟩) (r : Fin 264000) (c : Fin 64) :
    val_main_v23 (F := Ideal) x w (ix2 r c) = entry 264000 x h w r c :=
  piece4 8000 11 264000 rfl x w h (val_main_v21 (F := Ideal) x w)
    (fun n a b c => by
      rw [val_main_v21_apply]
      refine Finset.sum_congr rfl fun p _ => ?_
      have el : lidx_main_v21 (ix4 n a b c) p = ix4 n a b p := funext fun ax => by
        match ax with
        | ⟨0, _⟩ => rfl
        | ⟨1, _⟩ => rfl
        | ⟨2, _⟩ => rfl
        | ⟨3, _⟩ => rfl
      have er : ridx_main_v21 (ix4 n a b c) p = ix2 p c := funext fun ax => by
        match ax with
        | ⟨0, _⟩ => rfl
        | ⟨1, _⟩ => rfl
      rw [el, er])
    shapeCasts_S8000x3x11x64_S264000x64 r c

/-! The result at row `offset + r` of block k, column c. -/

theorem ref_seg0 (x0 : (⟨S30000x1x80, .f32⟩ : BufTy).Contents (Elt Ideal)) (x1 : (⟨S30000x3x80, .f32⟩ : BufTy).Contents (Elt Ideal)) (x2 : (⟨S30000x5x80, .f32⟩ : BufTy).Contents (Elt Ideal)) (x3 : (⟨S30000x7x80, .f32⟩ : BufTy).Contents (Elt Ideal)) (x4 : (⟨S30000x9x80, .f32⟩ : BufTy).Contents (Elt Ideal)) (x5 : (⟨S30000x11x80, .f32⟩ : BufTy).Contents (Elt Ideal)) (x6 : (⟨S8000x3x1x80, .f32⟩ : BufTy).Contents (Elt Ideal)) (x7 : (⟨S8000x3x3x80, .f32⟩ : BufTy).Contents (Elt Ideal)) (x8 : (⟨S8000x3x5x80, .f32⟩ : BufTy).Contents (Elt Ideal)) (x9 : (⟨S8000x3x7x80, .f32⟩ : BufTy).Contents (Elt Ideal)) (x10 : (⟨S8000x3x9x80, .f32⟩ : BufTy).Contents (Elt Ideal)) (x11 : (⟨S8000x3x11x80, .f32⟩ : BufTy).Contents (Elt Ideal)) (x12 x13 x14 x15 x16 x17 : (⟨S80x64, .f32⟩ : BufTy).Contents (Elt Ideal))
    (h : Cert.ReferenceIdeal.S30000x1x80.ShapeCasts ⟨2, ![30000, 80]⟩)
    (i : Cert.ReferenceIdeal.S1944000x64.Idx) (r : Fin 30000) (c : Fin 64)
    (hr : (i 0).val = 0 + r.val) (hc : (i 1).val = c.val) :
    Cert.ReferenceIdeal.Read.val_main_v24 (F := Ideal) x0 x1 x2 x3 x4 x5 x6 x7 x8 x9 x10 x11 x12 x13 x14 x15 x16 x17 i
      = Cert.Hand.entry 30000 x0 h x12 r c :=
  (stack0 x0 x1 x2 x3 x4 x5 x6 x7 x8 x9 x10 x11 x12 x13 x14 x15 x16 x17 i r c hr hc).trans (piece_0 x0 x12 h r c)

theorem ref_seg1 (x0 : (⟨S30000x1x80, .f32⟩ : BufTy).Contents (Elt Ideal)) (x1 : (⟨S30000x3x80, .f32⟩ : BufTy).Contents (Elt Ideal)) (x2 : (⟨S30000x5x80, .f32⟩ : BufTy).Contents (Elt Ideal)) (x3 : (⟨S30000x7x80, .f32⟩ : BufTy).Contents (Elt Ideal)) (x4 : (⟨S30000x9x80, .f32⟩ : BufTy).Contents (Elt Ideal)) (x5 : (⟨S30000x11x80, .f32⟩ : BufTy).Contents (Elt Ideal)) (x6 : (⟨S8000x3x1x80, .f32⟩ : BufTy).Contents (Elt Ideal)) (x7 : (⟨S8000x3x3x80, .f32⟩ : BufTy).Contents (Elt Ideal)) (x8 : (⟨S8000x3x5x80, .f32⟩ : BufTy).Contents (Elt Ideal)) (x9 : (⟨S8000x3x7x80, .f32⟩ : BufTy).Contents (Elt Ideal)) (x10 : (⟨S8000x3x9x80, .f32⟩ : BufTy).Contents (Elt Ideal)) (x11 : (⟨S8000x3x11x80, .f32⟩ : BufTy).Contents (Elt Ideal)) (x12 x13 x14 x15 x16 x17 : (⟨S80x64, .f32⟩ : BufTy).Contents (Elt Ideal))
    (h : Cert.ReferenceIdeal.S8000x3x1x80.ShapeCasts ⟨2, ![24000, 80]⟩)
    (i : Cert.ReferenceIdeal.S1944000x64.Idx) (r : Fin 24000) (c : Fin 64)
    (hr : (i 0).val = 30000 + r.val) (hc : (i 1).val = c.val) :
    Cert.ReferenceIdeal.Read.val_main_v24 (F := Ideal) x0 x1 x2 x3 x4 x5 x6 x7 x8 x9 x10 x11 x12 x13 x14 x15 x16 x17 i
      = Cert.Hand.entry 24000 x6 h x12 r c :=
  (stack1 x0 x1 x2 x3 x4 x5 x6 x7 x8 x9 x10 x11 x12 x13 x14 x15 x16 x17 i r c hr hc).trans (piece_1 x6 x12 h r c)

theorem ref_seg2 (x0 : (⟨S30000x1x80, .f32⟩ : BufTy).Contents (Elt Ideal)) (x1 : (⟨S30000x3x80, .f32⟩ : BufTy).Contents (Elt Ideal)) (x2 : (⟨S30000x5x80, .f32⟩ : BufTy).Contents (Elt Ideal)) (x3 : (⟨S30000x7x80, .f32⟩ : BufTy).Contents (Elt Ideal)) (x4 : (⟨S30000x9x80, .f32⟩ : BufTy).Contents (Elt Ideal)) (x5 : (⟨S30000x11x80, .f32⟩ : BufTy).Contents (Elt Ideal)) (x6 : (⟨S8000x3x1x80, .f32⟩ : BufTy).Contents (Elt Ideal)) (x7 : (⟨S8000x3x3x80, .f32⟩ : BufTy).Contents (Elt Ideal)) (x8 : (⟨S8000x3x5x80, .f32⟩ : BufTy).Contents (Elt Ideal)) (x9 : (⟨S8000x3x7x80, .f32⟩ : BufTy).Contents (Elt Ideal)) (x10 : (⟨S8000x3x9x80, .f32⟩ : BufTy).Contents (Elt Ideal)) (x11 : (⟨S8000x3x11x80, .f32⟩ : BufTy).Contents (Elt Ideal)) (x12 x13 x14 x15 x16 x17 : (⟨S80x64, .f32⟩ : BufTy).Contents (Elt Ideal))
    (h : Cert.ReferenceIdeal.S30000x3x80.ShapeCasts ⟨2, ![90000, 80]⟩)
    (i : Cert.ReferenceIdeal.S1944000x64.Idx) (r : Fin 90000) (c : Fin 64)
    (hr : (i 0).val = 54000 + r.val) (hc : (i 1).val = c.val) :
    Cert.ReferenceIdeal.Read.val_main_v24 (F := Ideal) x0 x1 x2 x3 x4 x5 x6 x7 x8 x9 x10 x11 x12 x13 x14 x15 x16 x17 i
      = Cert.Hand.entry 90000 x1 h x13 r c :=
  (stack2 x0 x1 x2 x3 x4 x5 x6 x7 x8 x9 x10 x11 x12 x13 x14 x15 x16 x17 i r c hr hc).trans (piece_2 x1 x13 h r c)

theorem ref_seg3 (x0 : (⟨S30000x1x80, .f32⟩ : BufTy).Contents (Elt Ideal)) (x1 : (⟨S30000x3x80, .f32⟩ : BufTy).Contents (Elt Ideal)) (x2 : (⟨S30000x5x80, .f32⟩ : BufTy).Contents (Elt Ideal)) (x3 : (⟨S30000x7x80, .f32⟩ : BufTy).Contents (Elt Ideal)) (x4 : (⟨S30000x9x80, .f32⟩ : BufTy).Contents (Elt Ideal)) (x5 : (⟨S30000x11x80, .f32⟩ : BufTy).Contents (Elt Ideal)) (x6 : (⟨S8000x3x1x80, .f32⟩ : BufTy).Contents (Elt Ideal)) (x7 : (⟨S8000x3x3x80, .f32⟩ : BufTy).Contents (Elt Ideal)) (x8 : (⟨S8000x3x5x80, .f32⟩ : BufTy).Contents (Elt Ideal)) (x9 : (⟨S8000x3x7x80, .f32⟩ : BufTy).Contents (Elt Ideal)) (x10 : (⟨S8000x3x9x80, .f32⟩ : BufTy).Contents (Elt Ideal)) (x11 : (⟨S8000x3x11x80, .f32⟩ : BufTy).Contents (Elt Ideal)) (x12 x13 x14 x15 x16 x17 : (⟨S80x64, .f32⟩ : BufTy).Contents (Elt Ideal))
    (h : Cert.ReferenceIdeal.S8000x3x3x80.ShapeCasts ⟨2, ![72000, 80]⟩)
    (i : Cert.ReferenceIdeal.S1944000x64.Idx) (r : Fin 72000) (c : Fin 64)
    (hr : (i 0).val = 144000 + r.val) (hc : (i 1).val = c.val) :
    Cert.ReferenceIdeal.Read.val_main_v24 (F := Ideal) x0 x1 x2 x3 x4 x5 x6 x7 x8 x9 x10 x11 x12 x13 x14 x15 x16 x17 i
      = Cert.Hand.entry 72000 x7 h x13 r c :=
  (stack3 x0 x1 x2 x3 x4 x5 x6 x7 x8 x9 x10 x11 x12 x13 x14 x15 x16 x17 i r c hr hc).trans (piece_3 x7 x13 h r c)

theorem ref_seg4 (x0 : (⟨S30000x1x80, .f32⟩ : BufTy).Contents (Elt Ideal)) (x1 : (⟨S30000x3x80, .f32⟩ : BufTy).Contents (Elt Ideal)) (x2 : (⟨S30000x5x80, .f32⟩ : BufTy).Contents (Elt Ideal)) (x3 : (⟨S30000x7x80, .f32⟩ : BufTy).Contents (Elt Ideal)) (x4 : (⟨S30000x9x80, .f32⟩ : BufTy).Contents (Elt Ideal)) (x5 : (⟨S30000x11x80, .f32⟩ : BufTy).Contents (Elt Ideal)) (x6 : (⟨S8000x3x1x80, .f32⟩ : BufTy).Contents (Elt Ideal)) (x7 : (⟨S8000x3x3x80, .f32⟩ : BufTy).Contents (Elt Ideal)) (x8 : (⟨S8000x3x5x80, .f32⟩ : BufTy).Contents (Elt Ideal)) (x9 : (⟨S8000x3x7x80, .f32⟩ : BufTy).Contents (Elt Ideal)) (x10 : (⟨S8000x3x9x80, .f32⟩ : BufTy).Contents (Elt Ideal)) (x11 : (⟨S8000x3x11x80, .f32⟩ : BufTy).Contents (Elt Ideal)) (x12 x13 x14 x15 x16 x17 : (⟨S80x64, .f32⟩ : BufTy).Contents (Elt Ideal))
    (h : Cert.ReferenceIdeal.S30000x5x80.ShapeCasts ⟨2, ![150000, 80]⟩)
    (i : Cert.ReferenceIdeal.S1944000x64.Idx) (r : Fin 150000) (c : Fin 64)
    (hr : (i 0).val = 216000 + r.val) (hc : (i 1).val = c.val) :
    Cert.ReferenceIdeal.Read.val_main_v24 (F := Ideal) x0 x1 x2 x3 x4 x5 x6 x7 x8 x9 x10 x11 x12 x13 x14 x15 x16 x17 i
      = Cert.Hand.entry 150000 x2 h x14 r c :=
  (stack4 x0 x1 x2 x3 x4 x5 x6 x7 x8 x9 x10 x11 x12 x13 x14 x15 x16 x17 i r c hr hc).trans (piece_4 x2 x14 h r c)

theorem ref_seg5 (x0 : (⟨S30000x1x80, .f32⟩ : BufTy).Contents (Elt Ideal)) (x1 : (⟨S30000x3x80, .f32⟩ : BufTy).Contents (Elt Ideal)) (x2 : (⟨S30000x5x80, .f32⟩ : BufTy).Contents (Elt Ideal)) (x3 : (⟨S30000x7x80, .f32⟩ : BufTy).Contents (Elt Ideal)) (x4 : (⟨S30000x9x80, .f32⟩ : BufTy).Contents (Elt Ideal)) (x5 : (⟨S30000x11x80, .f32⟩ : BufTy).Contents (Elt Ideal)) (x6 : (⟨S8000x3x1x80, .f32⟩ : BufTy).Contents (Elt Ideal)) (x7 : (⟨S8000x3x3x80, .f32⟩ : BufTy).Contents (Elt Ideal)) (x8 : (⟨S8000x3x5x80, .f32⟩ : BufTy).Contents (Elt Ideal)) (x9 : (⟨S8000x3x7x80, .f32⟩ : BufTy).Contents (Elt Ideal)) (x10 : (⟨S8000x3x9x80, .f32⟩ : BufTy).Contents (Elt Ideal)) (x11 : (⟨S8000x3x11x80, .f32⟩ : BufTy).Contents (Elt Ideal)) (x12 x13 x14 x15 x16 x17 : (⟨S80x64, .f32⟩ : BufTy).Contents (Elt Ideal))
    (h : Cert.ReferenceIdeal.S8000x3x5x80.ShapeCasts ⟨2, ![120000, 80]⟩)
    (i : Cert.ReferenceIdeal.S1944000x64.Idx) (r : Fin 120000) (c : Fin 64)
    (hr : (i 0).val = 366000 + r.val) (hc : (i 1).val = c.val) :
    Cert.ReferenceIdeal.Read.val_main_v24 (F := Ideal) x0 x1 x2 x3 x4 x5 x6 x7 x8 x9 x10 x11 x12 x13 x14 x15 x16 x17 i
      = Cert.Hand.entry 120000 x8 h x14 r c :=
  (stack5 x0 x1 x2 x3 x4 x5 x6 x7 x8 x9 x10 x11 x12 x13 x14 x15 x16 x17 i r c hr hc).trans (piece_5 x8 x14 h r c)

theorem ref_seg6 (x0 : (⟨S30000x1x80, .f32⟩ : BufTy).Contents (Elt Ideal)) (x1 : (⟨S30000x3x80, .f32⟩ : BufTy).Contents (Elt Ideal)) (x2 : (⟨S30000x5x80, .f32⟩ : BufTy).Contents (Elt Ideal)) (x3 : (⟨S30000x7x80, .f32⟩ : BufTy).Contents (Elt Ideal)) (x4 : (⟨S30000x9x80, .f32⟩ : BufTy).Contents (Elt Ideal)) (x5 : (⟨S30000x11x80, .f32⟩ : BufTy).Contents (Elt Ideal)) (x6 : (⟨S8000x3x1x80, .f32⟩ : BufTy).Contents (Elt Ideal)) (x7 : (⟨S8000x3x3x80, .f32⟩ : BufTy).Contents (Elt Ideal)) (x8 : (⟨S8000x3x5x80, .f32⟩ : BufTy).Contents (Elt Ideal)) (x9 : (⟨S8000x3x7x80, .f32⟩ : BufTy).Contents (Elt Ideal)) (x10 : (⟨S8000x3x9x80, .f32⟩ : BufTy).Contents (Elt Ideal)) (x11 : (⟨S8000x3x11x80, .f32⟩ : BufTy).Contents (Elt Ideal)) (x12 x13 x14 x15 x16 x17 : (⟨S80x64, .f32⟩ : BufTy).Contents (Elt Ideal))
    (h : Cert.ReferenceIdeal.S30000x7x80.ShapeCasts ⟨2, ![210000, 80]⟩)
    (i : Cert.ReferenceIdeal.S1944000x64.Idx) (r : Fin 210000) (c : Fin 64)
    (hr : (i 0).val = 486000 + r.val) (hc : (i 1).val = c.val) :
    Cert.ReferenceIdeal.Read.val_main_v24 (F := Ideal) x0 x1 x2 x3 x4 x5 x6 x7 x8 x9 x10 x11 x12 x13 x14 x15 x16 x17 i
      = Cert.Hand.entry 210000 x3 h x15 r c :=
  (stack6 x0 x1 x2 x3 x4 x5 x6 x7 x8 x9 x10 x11 x12 x13 x14 x15 x16 x17 i r c hr hc).trans (piece_6 x3 x15 h r c)

theorem ref_seg7 (x0 : (⟨S30000x1x80, .f32⟩ : BufTy).Contents (Elt Ideal)) (x1 : (⟨S30000x3x80, .f32⟩ : BufTy).Contents (Elt Ideal)) (x2 : (⟨S30000x5x80, .f32⟩ : BufTy).Contents (Elt Ideal)) (x3 : (⟨S30000x7x80, .f32⟩ : BufTy).Contents (Elt Ideal)) (x4 : (⟨S30000x9x80, .f32⟩ : BufTy).Contents (Elt Ideal)) (x5 : (⟨S30000x11x80, .f32⟩ : BufTy).Contents (Elt Ideal)) (x6 : (⟨S8000x3x1x80, .f32⟩ : BufTy).Contents (Elt Ideal)) (x7 : (⟨S8000x3x3x80, .f32⟩ : BufTy).Contents (Elt Ideal)) (x8 : (⟨S8000x3x5x80, .f32⟩ : BufTy).Contents (Elt Ideal)) (x9 : (⟨S8000x3x7x80, .f32⟩ : BufTy).Contents (Elt Ideal)) (x10 : (⟨S8000x3x9x80, .f32⟩ : BufTy).Contents (Elt Ideal)) (x11 : (⟨S8000x3x11x80, .f32⟩ : BufTy).Contents (Elt Ideal)) (x12 x13 x14 x15 x16 x17 : (⟨S80x64, .f32⟩ : BufTy).Contents (Elt Ideal))
    (h : Cert.ReferenceIdeal.S8000x3x7x80.ShapeCasts ⟨2, ![168000, 80]⟩)
    (i : Cert.ReferenceIdeal.S1944000x64.Idx) (r : Fin 168000) (c : Fin 64)
    (hr : (i 0).val = 696000 + r.val) (hc : (i 1).val = c.val) :
    Cert.ReferenceIdeal.Read.val_main_v24 (F := Ideal) x0 x1 x2 x3 x4 x5 x6 x7 x8 x9 x10 x11 x12 x13 x14 x15 x16 x17 i
      = Cert.Hand.entry 168000 x9 h x15 r c :=
  (stack7 x0 x1 x2 x3 x4 x5 x6 x7 x8 x9 x10 x11 x12 x13 x14 x15 x16 x17 i r c hr hc).trans (piece_7 x9 x15 h r c)

theorem ref_seg8 (x0 : (⟨S30000x1x80, .f32⟩ : BufTy).Contents (Elt Ideal)) (x1 : (⟨S30000x3x80, .f32⟩ : BufTy).Contents (Elt Ideal)) (x2 : (⟨S30000x5x80, .f32⟩ : BufTy).Contents (Elt Ideal)) (x3 : (⟨S30000x7x80, .f32⟩ : BufTy).Contents (Elt Ideal)) (x4 : (⟨S30000x9x80, .f32⟩ : BufTy).Contents (Elt Ideal)) (x5 : (⟨S30000x11x80, .f32⟩ : BufTy).Contents (Elt Ideal)) (x6 : (⟨S8000x3x1x80, .f32⟩ : BufTy).Contents (Elt Ideal)) (x7 : (⟨S8000x3x3x80, .f32⟩ : BufTy).Contents (Elt Ideal)) (x8 : (⟨S8000x3x5x80, .f32⟩ : BufTy).Contents (Elt Ideal)) (x9 : (⟨S8000x3x7x80, .f32⟩ : BufTy).Contents (Elt Ideal)) (x10 : (⟨S8000x3x9x80, .f32⟩ : BufTy).Contents (Elt Ideal)) (x11 : (⟨S8000x3x11x80, .f32⟩ : BufTy).Contents (Elt Ideal)) (x12 x13 x14 x15 x16 x17 : (⟨S80x64, .f32⟩ : BufTy).Contents (Elt Ideal))
    (h : Cert.ReferenceIdeal.S30000x9x80.ShapeCasts ⟨2, ![270000, 80]⟩)
    (i : Cert.ReferenceIdeal.S1944000x64.Idx) (r : Fin 270000) (c : Fin 64)
    (hr : (i 0).val = 864000 + r.val) (hc : (i 1).val = c.val) :
    Cert.ReferenceIdeal.Read.val_main_v24 (F := Ideal) x0 x1 x2 x3 x4 x5 x6 x7 x8 x9 x10 x11 x12 x13 x14 x15 x16 x17 i
      = Cert.Hand.entry 270000 x4 h x16 r c :=
  (stack8 x0 x1 x2 x3 x4 x5 x6 x7 x8 x9 x10 x11 x12 x13 x14 x15 x16 x17 i r c hr hc).trans (piece_8 x4 x16 h r c)

theorem ref_seg9 (x0 : (⟨S30000x1x80, .f32⟩ : BufTy).Contents (Elt Ideal)) (x1 : (⟨S30000x3x80, .f32⟩ : BufTy).Contents (Elt Ideal)) (x2 : (⟨S30000x5x80, .f32⟩ : BufTy).Contents (Elt Ideal)) (x3 : (⟨S30000x7x80, .f32⟩ : BufTy).Contents (Elt Ideal)) (x4 : (⟨S30000x9x80, .f32⟩ : BufTy).Contents (Elt Ideal)) (x5 : (⟨S30000x11x80, .f32⟩ : BufTy).Contents (Elt Ideal)) (x6 : (⟨S8000x3x1x80, .f32⟩ : BufTy).Contents (Elt Ideal)) (x7 : (⟨S8000x3x3x80, .f32⟩ : BufTy).Contents (Elt Ideal)) (x8 : (⟨S8000x3x5x80, .f32⟩ : BufTy).Contents (Elt Ideal)) (x9 : (⟨S8000x3x7x80, .f32⟩ : BufTy).Contents (Elt Ideal)) (x10 : (⟨S8000x3x9x80, .f32⟩ : BufTy).Contents (Elt Ideal)) (x11 : (⟨S8000x3x11x80, .f32⟩ : BufTy).Contents (Elt Ideal)) (x12 x13 x14 x15 x16 x17 : (⟨S80x64, .f32⟩ : BufTy).Contents (Elt Ideal))
    (h : Cert.ReferenceIdeal.S8000x3x9x80.ShapeCasts ⟨2, ![216000, 80]⟩)
    (i : Cert.ReferenceIdeal.S1944000x64.Idx) (r : Fin 216000) (c : Fin 64)
    (hr : (i 0).val = 1134000 + r.val) (hc : (i 1).val = c.val) :
    Cert.ReferenceIdeal.Read.val_main_v24 (F := Ideal) x0 x1 x2 x3 x4 x5 x6 x7 x8 x9 x10 x11 x12 x13 x14 x15 x16 x17 i
      = Cert.Hand.entry 216000 x10 h x16 r c :=
  (stack9 x0 x1 x2 x3 x4 x5 x6 x7 x8 x9 x10 x11 x12 x13 x14 x15 x16 x17 i r c hr hc).trans (piece_9 x10 x16 h r c)

theorem ref_seg10 (x0 : (⟨S30000x1x80, .f32⟩ : BufTy).Contents (Elt Ideal)) (x1 : (⟨S30000x3x80, .f32⟩ : BufTy).Contents (Elt Ideal)) (x2 : (⟨S30000x5x80, .f32⟩ : BufTy).Contents (Elt Ideal)) (x3 : (⟨S30000x7x80, .f32⟩ : BufTy).Contents (Elt Ideal)) (x4 : (⟨S30000x9x80, .f32⟩ : BufTy).Contents (Elt Ideal)) (x5 : (⟨S30000x11x80, .f32⟩ : BufTy).Contents (Elt Ideal)) (x6 : (⟨S8000x3x1x80, .f32⟩ : BufTy).Contents (Elt Ideal)) (x7 : (⟨S8000x3x3x80, .f32⟩ : BufTy).Contents (Elt Ideal)) (x8 : (⟨S8000x3x5x80, .f32⟩ : BufTy).Contents (Elt Ideal)) (x9 : (⟨S8000x3x7x80, .f32⟩ : BufTy).Contents (Elt Ideal)) (x10 : (⟨S8000x3x9x80, .f32⟩ : BufTy).Contents (Elt Ideal)) (x11 : (⟨S8000x3x11x80, .f32⟩ : BufTy).Contents (Elt Ideal)) (x12 x13 x14 x15 x16 x17 : (⟨S80x64, .f32⟩ : BufTy).Contents (Elt Ideal))
    (h : Cert.ReferenceIdeal.S30000x11x80.ShapeCasts ⟨2, ![330000, 80]⟩)
    (i : Cert.ReferenceIdeal.S1944000x64.Idx) (r : Fin 330000) (c : Fin 64)
    (hr : (i 0).val = 1350000 + r.val) (hc : (i 1).val = c.val) :
    Cert.ReferenceIdeal.Read.val_main_v24 (F := Ideal) x0 x1 x2 x3 x4 x5 x6 x7 x8 x9 x10 x11 x12 x13 x14 x15 x16 x17 i
      = Cert.Hand.entry 330000 x5 h x17 r c :=
  (stack10 x0 x1 x2 x3 x4 x5 x6 x7 x8 x9 x10 x11 x12 x13 x14 x15 x16 x17 i r c hr hc).trans (piece_10 x5 x17 h r c)

theorem ref_seg11 (x0 : (⟨S30000x1x80, .f32⟩ : BufTy).Contents (Elt Ideal)) (x1 : (⟨S30000x3x80, .f32⟩ : BufTy).Contents (Elt Ideal)) (x2 : (⟨S30000x5x80, .f32⟩ : BufTy).Contents (Elt Ideal)) (x3 : (⟨S30000x7x80, .f32⟩ : BufTy).Contents (Elt Ideal)) (x4 : (⟨S30000x9x80, .f32⟩ : BufTy).Contents (Elt Ideal)) (x5 : (⟨S30000x11x80, .f32⟩ : BufTy).Contents (Elt Ideal)) (x6 : (⟨S8000x3x1x80, .f32⟩ : BufTy).Contents (Elt Ideal)) (x7 : (⟨S8000x3x3x80, .f32⟩ : BufTy).Contents (Elt Ideal)) (x8 : (⟨S8000x3x5x80, .f32⟩ : BufTy).Contents (Elt Ideal)) (x9 : (⟨S8000x3x7x80, .f32⟩ : BufTy).Contents (Elt Ideal)) (x10 : (⟨S8000x3x9x80, .f32⟩ : BufTy).Contents (Elt Ideal)) (x11 : (⟨S8000x3x11x80, .f32⟩ : BufTy).Contents (Elt Ideal)) (x12 x13 x14 x15 x16 x17 : (⟨S80x64, .f32⟩ : BufTy).Contents (Elt Ideal))
    (h : Cert.ReferenceIdeal.S8000x3x11x80.ShapeCasts ⟨2, ![264000, 80]⟩)
    (i : Cert.ReferenceIdeal.S1944000x64.Idx) (r : Fin 264000) (c : Fin 64)
    (hr : (i 0).val = 1680000 + r.val) (hc : (i 1).val = c.val) :
    Cert.ReferenceIdeal.Read.val_main_v24 (F := Ideal) x0 x1 x2 x3 x4 x5 x6 x7 x8 x9 x10 x11 x12 x13 x14 x15 x16 x17 i
      = Cert.Hand.entry 264000 x11 h x17 r c :=
  (stack11 x0 x1 x2 x3 x4 x5 x6 x7 x8 x9 x10 x11 x12 x13 x14 x15 x16 x17 i r c hr hc).trans (piece_11 x11 x17 h r c)

end Cert.Hand.Ref

end
-- ==== Proof.Bridge.lean ====
/-
  The two results agree entry by entry.

  Every row of the 1,944,000-row result lies in exactly one of twelve consecutive segments.  On segment k the
  kernel's final result buffer holds entry (r, c) of the product of the k-th flattened input with its weight matrix
  (the region that writes those rows puts it there and no later region touches them), and the reference's
  concatenation reads its k-th piece at (r, c), which is the same sum over the 80 contracted positions.
-/
import proofs.«151581_j48060684042914_2_alg».proof.Proof.Link
import proofs.«151581_j48060684042914_2_alg».proof.Proof.RefSide

noncomputable section

namespace Cert.Hand.Bridge

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- The reference's result, as a function of the kernel's launch arguments, is the kernel's final result buffer. -/
theorem pointwise (c : Dev nD) (i : S1944000x64.Idx) :
    Cert.ReferenceIdeal.Read.val_main_v24 (F := Ideal)
        (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) (m ((c : Thread nD τ).loc main_arg11))
        (m ((c : Thread nD τ).loc main_arg12)) (m ((c : Thread nD τ).loc main_arg13)) (m ((c : Thread nD τ).loc main_arg14))
        (m ((c : Thread nD τ).loc main_arg15)) (m ((c : Thread nD τ).loc main_arg16)) (m ((c : Thread nD τ).loc main_arg17)) i
      = W24 m ρ c (Proc.devRef .tc main_v23) i := by
  have hi0 : (i 0).val < 1944000 := (i 0).isLt
  have hi1 : (i 1).val < 64 := (i 1).isLt
  by_cases h0 : (i 0).val < 30000
  · exact (Cert.Hand.Ref.ref_seg0 _ _ _ _ _ _ _ _ _ _ _ _ _ _ _ _ _ _ shapeCasts_S30000x1x80_S30000x80 i
        ⟨(i 0).val - 0, by omega⟩ ⟨(i 1).val, hi1⟩ (by show (i 0).val = 0 + ((i 0).val - 0); omega) rfl).trans
      (Cert.Hand.Link.seg0 m ρ c i ⟨(i 0).val - 0, by omega⟩ ⟨(i 1).val, hi1⟩ (by show (i 0).val = 0 + ((i 0).val - 0); omega) rfl).symm
  by_cases h1 : (i 0).val < 54000
  · exact (Cert.Hand.Ref.ref_seg1 _ _ _ _ _ _ _ _ _ _ _ _ _ _ _ _ _ _ shapeCasts_S8000x3x1x80_S24000x80 i
        ⟨(i 0).val - 30000, by omega⟩ ⟨(i 1).val, hi1⟩ (by show (i 0).val = 30000 + ((i 0).val - 30000); omega) rfl).trans
      (Cert.Hand.Link.seg1 m ρ c i ⟨(i 0).val - 30000, by omega⟩ ⟨(i 1).val, hi1⟩ (by show (i 0).val = 30000 + ((i 0).val - 30000); omega) rfl).symm
  by_cases h2 : (i 0).val < 144000
  · exact (Cert.Hand.Ref.ref_seg2 _ _ _ _ _ _ _ _ _ _ _ _ _ _ _ _ _ _ shapeCasts_S30000x3x80_S90000x80 i
        ⟨(i 0).val - 54000, by omega⟩ ⟨(i 1).val, hi1⟩ (by show (i 0).val = 54000 + ((i 0).val - 54000); omega) rfl).trans
      (Cert.Hand.Link.seg2 m ρ c i ⟨(i 0).val - 54000, by omega⟩ ⟨(i 1).val, hi1⟩ (by show (i 0).val = 54000 + ((i 0).val - 54000); omega) rfl).symm
  by_cases h3 : (i 0).val < 216000
  · exact (Cert.Hand.Ref.ref_seg3 _ _ _ _ _ _ _ _ _ _ _ _ _ _ _ _ _ _ shapeCasts_S8000x3x3x80_S72000x80 i
        ⟨(i 0).val - 144000, by omega⟩ ⟨(i 1).val, hi1⟩ (by show (i 0).val = 144000 + ((i 0).val - 144000); omega) rfl).trans
      (Cert.Hand.Link.seg3 m ρ c i ⟨(i 0).val - 144000, by omega⟩ ⟨(i 1).val, hi1⟩ (by show (i 0).val = 144000 + ((i 0).val - 144000); omega) rfl).symm
  by_cases h4 : (i 0).val < 366000
  · exact (Cert.Hand.Ref.ref_seg4 _ _ _ _ _ _ _ _ _ _ _ _ _ _ _ _ _ _ shapeCasts_S30000x5x80_S150000x80 i
        ⟨(i 0).val - 216000, by omega⟩ ⟨(i 1).val, hi1⟩ (by show (i 0).val = 216000 + ((i 0).val - 216000); omega) rfl).trans
      (Cert.Hand.Link.seg4 m ρ c i ⟨(i 0).val - 216000, by omega⟩ ⟨(i 1).val, hi1⟩ (by show (i 0).val = 216000 + ((i 0).val - 216000); omega) rfl).symm
  by_cases h5 : (i 0).val < 486000
  · exact (Cert.Hand.Ref.ref_seg5 _ _ _ _ _ _ _ _ _ _ _ _ _ _ _ _ _ _ shapeCasts_S8000x3x5x80_S120000x80 i
        ⟨(i 0).val - 366000, by omega⟩ ⟨(i 1).val, hi1⟩ (by show (i 0).val = 366000 + ((i 0).val - 366000); omega) rfl).trans
      (Cert.Hand.Link.seg5 m ρ c i ⟨(i 0).val - 366000, by omega⟩ ⟨(i 1).val, hi1⟩ (by show (i 0).val = 366000 + ((i 0).val - 366000); omega) rfl).symm
  by_cases h6 : (i 0).val < 696000
  · exact (Cert.Hand.Ref.ref_seg6 _ _ _ _ _ _ _ _ _ _ _ _ _ _ _ _ _ _ shapeCasts_S30000x7x80_S210000x80 i
        ⟨(i 0).val - 486000, by omega⟩ ⟨(i 1).val, hi1⟩ (by show (i 0).val = 486000 + ((i 0).val - 486000); omega) rfl).trans
      (Cert.Hand.Link.seg6 m ρ c i ⟨(i 0).val - 486000, by omega⟩ ⟨(i 1).val, hi1⟩ (by show (i 0).val = 486000 + ((i 0).val - 486000); omega) rfl).symm
  by_cases h7 : (i 0).val < 864000
  · exact (Cert.Hand.Ref.ref_seg7 _ _ _ _ _ _ _ _ _ _ _ _ _ _ _ _ _ _ shapeCasts_S8000x3x7x80_S168000x80 i
        ⟨(i 0).val - 696000, by omega⟩ ⟨(i 1).val, hi1⟩ (by show (i 0).val = 696000 + ((i 0).val - 696000); omega) rfl).trans
      (Cert.Hand.Link.seg7 m ρ c i ⟨(i 0).val - 696000, by omega⟩ ⟨(i 1).val, hi1⟩ (by show (i 0).val = 696000 + ((i 0).val - 696000); omega) rfl).symm
  by_cases h8 : (i 0).val < 1134000
  · exact (Cert.Hand.Ref.ref_seg8 _ _ _ _ _ _ _ _ _ _ _ _ _ _ _ _ _ _ shapeCasts_S30000x9x80_S270000x80 i
        ⟨(i 0).val - 864000, by omega⟩ ⟨(i 1).val, hi1⟩ (by show (i 0).val = 864000 + ((i 0).val - 864000); omega) rfl).trans
      (Cert.Hand.Link.seg8 m ρ c i ⟨(i 0).val - 864000, by omega⟩ ⟨(i 1).val, hi1⟩ (by show (i 0).val = 864000 + ((i 0).val - 864000); omega) rfl).symm
  by_cases h9 : (i 0).val < 1350000
  · exact (Cert.Hand.Ref.ref_seg9 _ _ _ _ _ _ _ _ _ _ _ _ _ _ _ _ _ _ shapeCasts_S8000x3x9x80_S216000x80 i
        ⟨(i 0).val - 1134000, by omega⟩ ⟨(i 1).val, hi1⟩ (by show (i 0).val = 1134000 + ((i 0).val - 1134000); omega) rfl).trans
      (Cert.Hand.Link.seg9 m ρ c i ⟨(i 0).val - 1134000, by omega⟩ ⟨(i 1).val, hi1⟩ (by show (i 0).val = 1134000 + ((i 0).val - 1134000); omega) rfl).symm
  by_cases h10 : (i 0).val < 1680000
  · exact (Cert.Hand.Ref.ref_seg10 _ _ _ _ _ _ _ _ _ _ _ _ _ _ _ _ _ _ shapeCasts_S30000x11x80_S330000x80 i
        ⟨(i 0).val - 1350000, by omega⟩ ⟨(i 1).val, hi1⟩ (by show (i 0).val = 1350000 + ((i 0).val - 1350000); omega) rfl).trans
      (Cert.Hand.Link.seg10 m ρ c i ⟨(i 0).val - 1350000, by omega⟩ ⟨(i 1).val, hi1⟩ (by show (i 0).val = 1350000 + ((i 0).val - 1350000); omega) rfl).symm
  · exact (Cert.Hand.Ref.ref_seg11 _ _ _ _ _ _ _ _ _ _ _ _ _ _ _ _ _ _ shapeCasts_S8000x3x11x80_S264000x80 i
        ⟨(i 0).val - 1680000, by omega⟩ ⟨(i 1).val, hi1⟩ (by show (i 0).val = 1680000 + ((i 0).val - 1680000); omega) rfl).trans
      (Cert.Hand.Link.seg11 m ρ c i ⟨(i 0).val - 1680000, by omega⟩ ⟨(i 1).val, hi1⟩ (by show (i 0).val = 1680000 + ((i 0).val - 1680000); omega) rfl).symm

end Cert.Hand.Bridge

end
-- ==== Proof.lean ====
/-
  The certificate of the kernel against its reference.

  Both programs multiply each of twelve inputs, laid out as rows of 80 numbers, by an 80 × 64 weight matrix, and
  stack the twelve products into one array of 1,944,000 rows.  The kernel does it with twelve launches, each writing
  its rows of one shared result (handed from launch to launch by copy); the reference contracts each input with its
  weights and concatenates.  Over the extended reals the narrowing casts in the kernel are the identity and both sides
  compute, at every entry, the same finite sum of 80 products; so the two results are equal entry by entry.

  The three frames are the programs' runs with the result forgotten; the idealized kernel is the printed kernel read
  at the ideal instance with no rewrite, so there is nothing to preserve; the value claim takes the kernel's run with
  its result named, the reference's run, and the entry-by-entry equality of the two results.
-/
import proofs.«151581_j48060684042914_2_alg».proof.Defs
import proofs.«151581_j48060684042914_2_alg».proof.Proof.Gen.Kernel
import proofs.«151581_j48060684042914_2_alg».proof.Proof.Gen.Kernel.Skeleton
import proofs.«151581_j48060684042914_2_alg».proof.Proof.Gen.Kernel.Launch
import proofs.«151581_j48060684042914_2_alg».proof.Proof.Gen.Kernel.Points
import proofs.«151581_j48060684042914_2_alg».proof.Proof.Gen.Kernel.Frame
import proofs.«151581_j48060684042914_2_alg».proof.Proof.Gen.KernelIdeal
import proofs.«151581_j48060684042914_2_alg».proof.Proof.Gen.KernelIdeal.Skeleton
import proofs.«151581_j48060684042914_2_alg».proof.Proof.Gen.KernelIdeal.Launch
import proofs.«151581_j48060684042914_2_alg».proof.Proof.Gen.KernelIdeal.Points
import proofs.«151581_j48060684042914_2_alg».proof.Proof.Gen.KernelIdeal.Frame
import proofs.«151581_j48060684042914_2_alg».proof.Proof.Gen.ReferenceIdeal
import proofs.«151581_j48060684042914_2_alg».proof.Proof.Gen.Pre_finite_inputs
import proofs.«151581_j48060684042914_2_alg».proof.Proof.Gen.ReferenceIdeal.Run
import proofs.«151581_j48060684042914_2_alg».proof.Proof.Gen.ReferenceIdeal.Read
import proofs.«151581_j48060684042914_2_alg».proof.Proof.KRun
import proofs.«151581_j48060684042914_2_alg».proof.Proof.Bridge
import Idealize.ShloMosaic.Adequacy
import Idealize.ShloMosaic.Init

noncomputable section

namespace Cert.Proof

open Idealize.ShloMosaic Idealize.SL.Sem Cert.Kernel

/-- The printed kernel runs to the end without a fault and leaves its arguments as launched. -/
theorem frame_k : Cert.frame_Kernel := fun m ρ _ => Cert.Kernel.Gen.frame m ρ

/-- So does the kernel read at the ideal instance. -/
theorem frame_ki : Cert.frame_KernelIdeal := fun m ρ _ => Cert.KernelIdeal.Gen.frame m ρ

/-- So does the reference: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both programs end with the same result: the kernel's final result buffer
    on one side, the reference's concatenation of the twelve products on the other, equal at every entry. -/
theorem algebraic : Cert.algebraic_KernelIdeal_ReferenceIdeal := by
  intro m ρ m' ρ' _ hagree
  refine ⟨_, Cert.Hand.KRun.run_result (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11, a12, a13, a14, a15, a16, a17⟩ := hagree c
  rw [a0, a1, a2, a3, a4, a5, a6, a7, a8, a9, a10, a11, a12, a13, a14, a15, a16, a17]
  rw [Cert.ReferenceIdeal.Read.val_main_v24_eq]
  funext i
  exact Cert.Hand.Bridge.pointwise m ρ c i

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
